-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S100000x128 : Shape := ⟨2, ![100000, 128]⟩
abbrev S4096x26 : Shape := ⟨2, ![4096, 26]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S4096x26 : S_.BroadcastsInDim S4096x26 (![] : Fin 0 → Fin S4096x26.rank)
  reducesTo_S4096x26_S_d0_1 : S4096x26.ReducesTo [0, 1] S_

variable [Facts]

def fn {F : FTy → Type} [FloatOps F] (main_arg0 : FVec F S100000x128 .f32) (main_arg1 : IVec S4096x26 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_c_0 : IVec S_ 32 := constantI S_ 32 0#32
  let main_v4 : IVec S4096x26 32 := broadcastInDim S4096x26 ![] bcast_S_S4096x26 main_c_0
  let main_v5 : IVec S4096x26 1 := cmpi .sge main_arg1 main_v4
  let main_c_1 : IVec S_ 32 := constantI S_ 32 99999#32
  let main_v6 : IVec S4096x26 32 := broadcastInDim S4096x26 ![] bcast_S_S4096x26 main_c_1
  let main_v7 : IVec S4096x26 1 := cmpi .sle main_arg1 main_v6
  let main_v8 : IVec S4096x26 1 := andi main_v5 main_v7
  let main_c_2 : IVec S_ 1 := constantI S_ 1 1#1
  let main_v9 : IVec S_ 1 := (fun x v => Host.reduce IntOp.andi x v reducesTo_S4096x26_S_d0_1 h_S_) main_v8 main_c_2
  let main_v10 : IVec S_ 1 := andi main_v3 main_v9
  main_v10
-- ==== Kernel.lean ====
abbrev S100000x128 : Shape := ⟨2, ![100000, 128]⟩
abbrev S4096x26 : Shape := ⟨2, ![4096, 26]⟩
abbrev S26x4096 : Shape := ⟨2, ![26, 4096]⟩
abbrev S106496x128 : Shape := ⟨2, ![106496, 128]⟩
abbrev S26x128 : Shape := ⟨2, ![26, 128]⟩
abbrev S128x128 : Shape := ⟨2, ![128, 128]⟩
abbrev S_ : Shape := ⟨0, ![]⟩
abbrev S1x128 : Shape := ⟨2, ![1, 128]⟩
abbrev S128 : Shape := ⟨1, ![128]⟩
abbrev S26x4096x128 : Shape := ⟨3, ![26, 4096, 128]⟩
abbrev S4096x26x128 : Shape := ⟨3, ![4096, 26, 128]⟩

abbrev nBuf : Table → Nat
  | .hbm => 6
  | .local .scVector .vmem => 5
  | _ => 0

abbrev bufTy : (tb : Table) → Fin (nBuf tb) → BufTy
  | .hbm, ⟨0, _⟩ => ⟨S100000x128, .f32⟩
  | .hbm, ⟨1, _⟩ => ⟨S4096x26, .i32⟩
  | .hbm, ⟨2, _⟩ => ⟨S26x4096, .i32⟩
  | .hbm, ⟨3, _⟩ => ⟨S106496x128, .f32⟩
  | .hbm, ⟨4, _⟩ => ⟨S26x4096x128, .f32⟩
  | .hbm, ⟨5, _⟩ => ⟨S4096x26x128, .f32⟩
  | .local .scVector .vmem, ⟨0, _⟩ => ⟨S26x128, .i32⟩
  | .local .scVector .vmem, ⟨1, _⟩ => ⟨S128x128, .f32⟩
  | .local .scVector .vmem, ⟨2, _⟩ => ⟨S128x128, .f32⟩
  | .local .scVector .vmem, ⟨3, _⟩ => ⟨S128x128, .f32⟩
  | .local .scVector .vmem, ⟨4, _⟩ => ⟨S128x128, .f32⟩
  | _, _ => ⟨S100000x128, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 9 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | _ => false

abbrev sig : RefSig :=
  ofTables nBuf rfl bufTy 4 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v0_scv : Ref sig .scVector := ⟨.hbm, 2, rfl⟩
abbrev main_arg0_scv : Ref sig .scVector := ⟨.hbm, 0, rfl⟩
abbrev main_v1_scv : Ref sig .scVector := ⟨.hbm, 3, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let c0_i32_37_r0 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  ![0, v2.toNat]
@[reducible] def k0_t1_loop : Scf.Loop 32 :=
  let c0_i32_14 : BitVec 32 := 0#32
  let c6_i32 : BitVec 32 := 6#32
  let v15 : BitVec 32 := Scalar.addi c0_i32_14 c6_i32
  let c1_i32_15 : BitVec 32 := 1#32
  ⟨c0_i32_14, v15, c1_i32_15⟩
def k0_off2 (i : grid0.Coords) (k0_t1 : Fin k0_t1_loop.trips) (c0_i32_41 : BitVec 32) : Fin 2 → Nat :=
  let c0_i32_14 : BitVec 32 := 0#32
  let c1_i32_15 : BitVec 32 := 1#32
  let arg18 : BitVec 32 := Scf.iv c0_i32_14 c1_i32_15 k0_t1
  let c4_i32 : BitVec 32 := 4#32
  let v36 : BitVec 32 := Scalar.muli arg18 c4_i32
  let v40 : BitVec 32 := Scalar.addi v36 c0_i32_41
  let c4096_i32 : BitVec 32 := 4096#32
  let v41 : BitVec 32 := Scalar.muli v40 c4096_i32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let v42 : BitVec 32 := Scalar.addi v41 v2
  let c0_i32_42 : BitVec 32 := 0#32
  ![v42.toNat, 0]
def k0_cond1 (k0_t1 : Fin k0_t1_loop.trips) : BitVec 1 :=
  let c0_i32_14 : BitVec 32 := 0#32
  let c1_i32_15 : BitVec 32 := 1#32
  let arg18 : BitVec 32 := Scf.iv c0_i32_14 c1_i32_15 k0_t1
  let c4_i32 : BitVec 32 := 4#32
  let v36 : BitVec 32 := Scalar.muli arg18 c4_i32
  let c0_i32_68 : BitVec 32 := 0#32
  let v69 : BitVec 32 := Scalar.addi v36 c0_i32_68
  let c4_i32_69 : BitVec 32 := 4#32
  let v70 : BitVec 32 := Scalar.addi v69 c4_i32_69
  let c26_i32 : BitVec 32 := 26#32
  let v71 : BitVec 1 := Scalar.cmpi .slt v70 c26_i32
  let v72 : BitVec 32 := Scalar.extui v71
  let c0_i32_70 : BitVec 32 := 0#32
  let v73 : BitVec 1 := Scalar.cmpi .ne v72 c0_i32_70
  v73

def k0_off3 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_83 : BitVec 32 := 0#32
  ![v2.toNat, 0]
def k0_off4 (k0_t1 : Fin k0_t1_loop.trips) : Fin 2 → Nat :=
  let c0_i32_14 : BitVec 32 := 0#32
  let c1_i32_15 : BitVec 32 := 1#32
  let arg18 : BitVec 32 := Scf.iv c0_i32_14 c1_i32_15 k0_t1
  let c4_i32 : BitVec 32 := 4#32
  let v36 : BitVec 32 := Scalar.muli arg18 c4_i32
  let c0_i32_68 : BitVec 32 := 0#32
  let v69 : BitVec 32 := Scalar.addi v36 c0_i32_68
  let c4_i32_69 : BitVec 32 := 4#32
  let v70 : BitVec 32 := Scalar.addi v69 c4_i32_69
  let c0_i32_85 : BitVec 32 := 0#32
  ![v70.toNat, 0]
def k0_cond2 (k0_t1 : Fin k0_t1_loop.trips) : BitVec 1 :=
  let c0_i32_14 : BitVec 32 := 0#32
  let c1_i32_15 : BitVec 32 := 1#32
  let arg18 : BitVec 32 := Scf.iv c0_i32_14 c1_i32_15 k0_t1
  let c4_i32 : BitVec 32 := 4#32
  let v36 : BitVec 32 := Scalar.muli arg18 c4_i32
  let c1_i32_71 : BitVec 32 := 1#32
  let v74 : BitVec 32 := Scalar.addi v36 c1_i32_71
  let c4_i32_72 : BitVec 32 := 4#32
  let v75 : BitVec 32 := Scalar.addi v74 c4_i32_72
  let c26_i32_73 : BitVec 32 := 26#32
  let v76 : BitVec 1 := Scalar.cmpi .slt v75 c26_i32_73
  let v77 : BitVec 32 := Scalar.extui v76
  let c0_i32_74 : BitVec 32 := 0#32
  let v78 : BitVec 1 := Scalar.cmpi .ne v77 c0_i32_74
  v78

def k0_off5 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_83 : BitVec 32 := 0#32
  ![v2.toNat, 0]
def k0_off6 (k0_t1 : Fin k0_t1_loop.trips) : Fin 2 → Nat :=
  let c0_i32_14 : BitVec 32 := 0#32
  let c1_i32_15 : BitVec 32 := 1#32
  let arg18 : BitVec 32 := Scf.iv c0_i32_14 c1_i32_15 k0_t1
  let c4_i32 : BitVec 32 := 4#32
  let v36 : BitVec 32 := Scalar.muli arg18 c4_i32
  let c1_i32_71 : BitVec 32 := 1#32
  let v74 : BitVec 32 := Scalar.addi v36 c1_i32_71
  let c4_i32_72 : BitVec 32 := 4#32
  let v75 : BitVec 32 := Scalar.addi v74 c4_i32_72
  let c0_i32_85 : BitVec 32 := 0#32
  ![v75.toNat, 0]
def k0_cond3 (k0_t1 : Fin k0_t1_loop.trips) : BitVec 1 :=
  let c0_i32_14 : BitVec 32 := 0#32
  let c1_i32_15 : BitVec 32 := 1#32
  let arg18 : BitVec 32 := Scf.iv c0_i32_14 c1_i32_15 k0_t1
  let c4_i32 : BitVec 32 := 4#32
  let v36 : BitVec 32 := Scalar.muli arg18 c4_i32
  let c2_i32_75 : BitVec 32 := 2#32
  let v79 : BitVec 32 := Scalar.addi v36 c2_i32_75
  let c4_i32_76 : BitVec 32 := 4#32
  let v80 : BitVec 32 := Scalar.addi v79 c4_i32_76
  let c26_i32_77 : BitVec 32 := 26#32
  let v81 : BitVec 1 := Scalar.cmpi .slt v80 c26_i32_77
  let v82 : BitVec 32 := Scalar.extui v81
  let c0_i32_78 : BitVec 32 := 0#32
  let v83 : BitVec 1 := Scalar.cmpi .ne v82 c0_i32_78
  v83

def k0_off7 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_83 : BitVec 32 := 0#32
  ![v2.toNat, 0]
def k0_off8 (k0_t1 : Fin k0_t1_loop.trips) : Fin 2 → Nat :=
  let c0_i32_14 : BitVec 32 := 0#32
  let c1_i32_15 : BitVec 32 := 1#32
  let arg18 : BitVec 32 := Scf.iv c0_i32_14 c1_i32_15 k0_t1
  let c4_i32 : BitVec 32 := 4#32
  let v36 : BitVec 32 := Scalar.muli arg18 c4_i32
  let c2_i32_75 : BitVec 32 := 2#32
  let v79 : BitVec 32 := Scalar.addi v36 c2_i32_75
  let c4_i32_76 : BitVec 32 := 4#32
  let v80 : BitVec 32 := Scalar.addi v79 c4_i32_76
  let c0_i32_85 : BitVec 32 := 0#32
  ![v80.toNat, 0]
def k0_cond4 (k0_t1 : Fin k0_t1_loop.trips) : BitVec 1 :=
  let c0_i32_14 : BitVec 32 := 0#32
  let c1_i32_15 : BitVec 32 := 1#32
  let arg18 : BitVec 32 := Scf.iv c0_i32_14 c1_i32_15 k0_t1
  let c4_i32 : BitVec 32 := 4#32
  let v36 : BitVec 32 := Scalar.muli arg18 c4_i32
  let c3_i32_79 : BitVec 32 := 3#32
  let v84 : BitVec 32 := Scalar.addi v36 c3_i32_79
  let c4_i32_80 : BitVec 32 := 4#32
  let v85 : BitVec 32 := Scalar.addi v84 c4_i32_80
  let c26_i32_81 : BitVec 32 := 26#32
  let v86 : BitVec 1 := Scalar.cmpi .slt v85 c26_i32_81
  let v87 : BitVec 32 := Scalar.extui v86
  let c0_i32_82 : BitVec 32 := 0#32
  let v88 : BitVec 1 := Scalar.cmpi .ne v87 c0_i32_82
  v88

def k0_off9 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_83 : BitVec 32 := 0#32
  ![v2.toNat, 0]
def k0_off10 (k0_t1 : Fin k0_t1_loop.trips) : Fin 2 → Nat :=
  let c0_i32_14 : BitVec 32 := 0#32
  let c1_i32_15 : BitVec 32 := 1#32
  let arg18 : BitVec 32 := Scf.iv c0_i32_14 c1_i32_15 k0_t1
  let c4_i32 : BitVec 32 := 4#32
  let v36 : BitVec 32 := Scalar.muli arg18 c4_i32
  let c3_i32_79 : BitVec 32 := 3#32
  let v84 : BitVec 32 := Scalar.addi v36 c3_i32_79
  let c4_i32_80 : BitVec 32 := 4#32
  let v85 : BitVec 32 := Scalar.addi v84 c4_i32_80
  let c0_i32_85 : BitVec 32 := 0#32
  ![v85.toNat, 0]
def k0_off11 (i : grid0.Coords) (c98304_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let v19 : BitVec 32 := Scalar.addi c98304_i32 v2
  let c0_i32_21 : BitVec 32 := 0#32
  ![v19.toNat, 0]
def k0_off12 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_29 : BitVec 32 := 0#32
  ![v2.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  transposes_S4096x26_S26x4096_1_0 : S4096x26.Transposes [1, 0] S26x4096
  inb_S26x128_S1x128_0_0 : ∀ a, (![0, 0] : Fin 2 → Nat) a + S1x128.size a ≤ S26x128.size a
  squeezes_S1x128_S128 : S1x128.Squeezes S128
  inb_S100000x128_S100000x128_0_0 : ∀ a, (![0, 0] : Fin 2 → Nat) a + S100000x128.size a ≤ S100000x128.size a
  gathers_S100000x128_S128x128 : S100000x128.Gathers 0 S128x128
  inb_S26x128_S1x128_1_0 : ∀ a, (![1, 0] : Fin 2 → Nat) a + S1x128.size a ≤ S26x128.size a
  inb_S26x128_S1x128_2_0 : ∀ a, (![2, 0] : Fin 2 → Nat) a + S1x128.size a ≤ S26x128.size a
  inb_S26x128_S1x128_3_0 : ∀ a, (![3, 0] : Fin 2 → Nat) a + S1x128.size a ≤ S26x128.size a
  shapeCasts_S106496x128_S26x4096x128 : S106496x128.ShapeCasts S26x4096x128
  transposes_S26x4096x128_S4096x26x128_1_0_2 : S26x4096x128.Transposes [1, 0, 2] S4096x26x128
  hcc0_scratch5 : 0 + S_.numel ≤ 9
  hcc0_scratch6 : 1 + S_.numel ≤ 9
  hcc0_scratch7 : 2 + S_.numel ≤ 9
  hcc0_scratch8 : 3 + S_.numel ≤ 9
  hcc0_scratch9 : 4 + S_.numel ≤ 9
  hcc0_scratch10 : 5 + S_.numel ≤ 9
  hcc0_scratch11 : 6 + S_.numel ≤ 9
  hcc0_scratch12 : 7 + S_.numel ≤ 9
  hcc0_scoped0 : 8 + S_.numel ≤ 9
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S26x128.size a ≤ S26x4096.size a
  k0_t1_ok : k0_t1_loop.OK
  k0_off2_inb : ∀ (i : grid0.Coords) (k0_t1 : Fin k0_t1_loop.trips), ∀ (r : Fin 4), ∀ a, (k0_off2 i k0_t1 (BitVec.ofNat 32 r.val)) a + S128x128.size a ≤ S106496x128.size a
  k0_off3_inb : ∀ (i : grid0.Coords) (k0_t1 : Fin k0_t1_loop.trips), ∀ (k0_h1 : k0_cond1 k0_t1 = 1#1), ∀ a, (k0_off3 i) a + S128x128.size a ≤ S106496x128.size a
  k0_off4_inb : ∀ k0_t1 : Fin k0_t1_loop.trips, ∀ (k0_h1 : k0_cond1 k0_t1 = 1#1), ∀ a, (k0_off4 k0_t1) a + S1x128.size a ≤ S26x128.size a
  k0_off5_inb : ∀ (i : grid0.Coords) (k0_t1 : Fin k0_t1_loop.trips), ∀ (k0_h2 : k0_cond2 k0_t1 = 1#1), ∀ a, (k0_off5 i) a + S128x128.size a ≤ S106496x128.size a
  k0_off6_inb : ∀ k0_t1 : Fin k0_t1_loop.trips, ∀ (k0_h2 : k0_cond2 k0_t1 = 1#1), ∀ a, (k0_off6 k0_t1) a + S1x128.size a ≤ S26x128.size a
  k0_off7_inb : ∀ (i : grid0.Coords) (k0_t1 : Fin k0_t1_loop.trips), ∀ (k0_h3 : k0_cond3 k0_t1 = 1#1), ∀ a, (k0_off7 i) a + S128x128.size a ≤ S106496x128.size a
  k0_off8_inb : ∀ k0_t1 : Fin k0_t1_loop.trips, ∀ (k0_h3 : k0_cond3 k0_t1 = 1#1), ∀ a, (k0_off8 k0_t1) a + S1x128.size a ≤ S26x128.size a
  k0_off9_inb : ∀ (i : grid0.Coords) (k0_t1 : Fin k0_t1_loop.trips), ∀ (k0_h4 : k0_cond4 k0_t1 = 1#1), ∀ a, (k0_off9 i) a + S128x128.size a ≤ S106496x128.size a
  k0_off10_inb : ∀ k0_t1 : Fin k0_t1_loop.trips, ∀ (k0_h4 : k0_cond4 k0_t1 = 1#1), ∀ a, (k0_off10 k0_t1) a + S1x128.size a ≤ S26x128.size a
  k0_off11_inb : ∀ i : grid0.Coords, ∀ (r : Fin 2), ∀ a, (k0_off11 i (BitVec.ofNat 32 (98304 + 4096 * r.val))) a + S128x128.size a ≤ S106496x128.size a
  k0_off12_inb : ∀ i : grid0.Coords, ∀ a, (k0_off12 i) a + S128x128.size a ≤ S106496x128.size a

variable [Facts₀]

abbrev cc0_scratch5 : DmaSems sig S_ := SemArray.consecutive 0 S_ hcc0_scratch5
abbrev cc0_scratch6 : DmaSems sig S_ := SemArray.consecutive 1 S_ hcc0_scratch6
abbrev cc0_scratch7 : DmaSems sig S_ := SemArray.consecutive 2 S_ hcc0_scratch7
abbrev cc0_scratch8 : DmaSems sig S_ := SemArray.consecutive 3 S_ hcc0_scratch8
abbrev cc0_scratch9 : DmaSems sig S_ := SemArray.consecutive 4 S_ hcc0_scratch9
abbrev cc0_scratch10 : DmaSems sig S_ := SemArray.consecutive 5 S_ hcc0_scratch10
abbrev cc0_scratch11 : DmaSems sig S_ := SemArray.consecutive 6 S_ hcc0_scratch11
abbrev cc0_scratch12 : DmaSems sig S_ := SemArray.consecutive 7 S_ hcc0_scratch12
abbrev cc0_scoped0 : DmaSems sig S_ := SemArray.consecutive 8 S_ hcc0_scoped0

class Facts : Prop extends Facts₀ where

variable [Facts]
-- ==== ReferenceIdeal.lean ====
abbrev S100000x128 : Shape := ⟨2, ![100000, 128]⟩
abbrev S4096x26 : Shape := ⟨2, ![4096, 26]⟩
abbrev S106496 : Shape := ⟨1, ![106496]⟩
abbrev S_ : Shape := ⟨0, ![]⟩
abbrev S106496x1 : Shape := ⟨2, ![106496, 1]⟩
abbrev S1 : Shape := ⟨1, ![1]⟩
abbrev S1x1 : Shape := ⟨2, ![1, 1]⟩
abbrev S106496x128 : Shape := ⟨2, ![106496, 128]⟩
abbrev S4096x26x128 : Shape := ⟨3, ![4096, 26, 128]⟩

abbrev nBuf : Space → Nat
  | .hbm => 27
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S4096x26, .i32⟩
  | .hbm, ⟨2, _⟩ => ⟨S106496, .i32⟩
  | .hbm, ⟨3, _⟩ => ⟨S_, .i32⟩
  | .hbm, ⟨4, _⟩ => ⟨S106496, .i32⟩
  | .hbm, ⟨5, _⟩ => ⟨S106496, .i1⟩
  | .hbm, ⟨6, _⟩ => ⟨S_, .i32⟩
  | .hbm, ⟨7, _⟩ => ⟨S106496, .i32⟩
  | .hbm, ⟨8, _⟩ => ⟨S106496, .i32⟩
  | .hbm, ⟨9, _⟩ => ⟨S106496, .i32⟩
  | .hbm, ⟨10, _⟩ => ⟨S106496x1, .i32⟩
  | .hbm, ⟨11, _⟩ => ⟨S1, .i32⟩
  | .hbm, ⟨12, _⟩ => ⟨S_, .i32⟩
  | .hbm, ⟨13, _⟩ => ⟨S106496x1, .i32⟩
  | .hbm, ⟨14, _⟩ => ⟨S106496x1, .i1⟩
  | .hbm, ⟨15, _⟩ => ⟨S1x1, .i32⟩
  | .hbm, ⟨16, _⟩ => ⟨S106496x1, .i32⟩
  | .hbm, ⟨17, _⟩ => ⟨S106496x1, .i1⟩
  | .hbm, ⟨18, _⟩ => ⟨S106496x1, .i1⟩
  | .hbm, ⟨19, _⟩ => ⟨S_, .i1⟩
  | .hbm, ⟨20, _⟩ => ⟨S106496, .i1⟩
  | .hbm, ⟨21, _⟩ => ⟨S106496x128, .f32⟩
  | .hbm, ⟨22, _⟩ => ⟨S106496x128, .i1⟩
  | .hbm, ⟨23, _⟩ => ⟨S_, .f32⟩
  | .hbm, ⟨24, _⟩ => ⟨S106496x128, .f32⟩
  | .hbm, ⟨25, _⟩ => ⟨S106496x128, .f32⟩
  | .hbm, ⟨26, _⟩ => ⟨S4096x26x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_cst : Ref sig .tc := ⟨.hbm, 23, rfl⟩
abbrev main_call0_v15 : Ref sig .tc := ⟨.hbm, 24, rfl⟩
abbrev main_v1 : Ref sig .tc := ⟨.hbm, 25, rfl⟩
abbrev main_v2 : Ref sig .tc := ⟨.hbm, 26, rfl⟩

abbrev nD : Nat := 1
abbrev τ : Topo := Topo.v7x

variable {F : FTy → Type} [FloatOps F]

class Facts₀ : Prop where
  shapeCasts_S4096x26_S106496 : S4096x26.ShapeCasts S106496
  bcast_S_S106496 : S_.BroadcastsInDim S106496 (![] : Fin 0 → Fin S106496.rank)
  bcast_S106496_S106496x1_0 : S106496.BroadcastsInDim S106496x1 (![0] : Fin 1 → Fin S106496x1.rank)
  bcast_S_S106496x1 : S_.BroadcastsInDim S106496x1 (![] : Fin 0 → Fin S106496x1.rank)
  bcast_S1_S1x1_1 : S1.BroadcastsInDim S1x1 (![1] : Fin 1 → Fin S1x1.rank)
  bcast_S1x1_S106496x1_0_1 : S1x1.BroadcastsInDim S106496x1 (![0, 1] : Fin 2 → Fin S106496x1.rank)
  reducesTo_S106496x1_S106496_d1 : S106496x1.ReducesTo [1] S106496
  h_S_ : 0 < S_.numel
  bcast_S106496_S106496x128_0 : S106496.BroadcastsInDim S106496x128 (![0] : Fin 1 → Fin S106496x128.rank)
  bcast_S_S106496x128 : S_.BroadcastsInDim S106496x128 (![] : Fin 0 → Fin S106496x128.rank)
  shapeCasts_S106496x128_S4096x26x128 : S106496x128.ShapeCasts S4096x26x128
  gather_S100000x128_S106496x1_S106496x128_1_0_n_n_0_1_1128_wf : GatherDims.WF S100000x128 S106496x1 S106496x128 [1] [0] [] [0] [] 1 ![1, 128]

variable [Facts₀]

def gather_S100000x128_S106496x1_S106496x128_1_0_n_n_0_1_1128 : GatherDims S100000x128 S106496x1 S106496x128 where
  offsetDims := [1]
  collapsedSliceDims := [0]
  operandBatchingDims := []
  startIndicesBatchingDims := []
  startIndexMap := [0]
  indexVectorDim := 1
  sliceSizes := ![1, 128]
  wf := gather_S100000x128_S106496x1_S106496x128_1_0_n_n_0_1_1128_wf

class Facts : Prop extends Facts₀ where

variable [Facts]
-- ==== Proof.Spec.lean ====
/-
  The embedding look-up as ONE function of the two argument arrays, stated over no program.

  A table of 100000 rows of 128 numbers and an array of 4096 × 26 index words give an array of 4096 × 26 × 128 numbers:
  entry (b, f, ·) is the table's row named by the index word at (b, f). The row a word names is its value as a natural
  number; for a word in range (0 ≤ w ≤ 99999, signed) that value is below 100000, and `rowOf` reduces it modulo
  100000 only so as to be a total function.
-/
import Idealize.ShloMosaic.Lib.ValueIdx

namespace Cert.Spec

open Idealize.ShloMosaic Idealize.ShloMosaic.ValueIdx

/-- The table row an index word names. -/
def rowOf (w : BitVec 32) : Fin 100000 := ⟨w.toNat % 100000, Nat.mod_lt _ (by decide)⟩

theorem rowOf_val_of_lt {w : BitVec 32} (h : w.toNat < 100000) : (rowOf w).val = w.toNat := Nat.mod_eq_of_lt h

/-- A word between 0 and 99999 as a signed number is below 100000 as a natural number. -/
theorem toNat_lt_of_range {w : BitVec 32} (h0 : 0 ≤ w.toInt) (h1 : w.toInt ≤ 99999) : w.toNat < 100000 := by
  rw [BitVec.toInt_eq_toNat_cond] at h0 h1
  split at h0 <;> omega

/-- The look-up: entry (b, f, l) of the result is entry l of the table's row named by the index word at (b, f). -/
def lookup {α : Type} (tab : (⟨2, ![100000, 128]⟩ : Shape).Idx → α) (idx : (⟨2, ![4096, 26]⟩ : Shape).Idx → BitVec 32) :
    (⟨3, ![4096, 26, 128]⟩ : Shape).Idx → α :=
  fun j => tab (ix2 (rowOf (idx (ix2 (n0 := 4096) (n1 := 26) (j 0) (j 1)))) (show Fin 128 from j 2))

end Cert.Spec
-- ==== Proof.KernelCommon.lean ====
/-
  The look-up kernel on the two SparseCores: names shared by the tile's run and the launch.

  The kernel reads the index array transposed, [26, 4096]: row f holds feature f of all 4096 batch entries. The 32
  vector subcores split the 4096 columns into 32 blocks of 128: the subcore at (core c, subcore s) takes block
  w = 2 s + c. For each of the 26 rows (a chunk) it gathers the 128 table rows its block's index words name and copies
  them to rows 4096 f + 128 w … + 127 of the flat result [106496, 128]. So the flat result is ONE function of the table
  and the transposed indices: row r holds the table's row named by the index word at (r / 4096, r % 4096).
-/
import proofs.«206476_g69466801045872_cont_9to1_m_773_29_alg».proof.Defs
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import Idealize.ShloMosaic.Lib.ValueIdx
import proofs.«206476_g69466801045872_cont_9to1_m_773_29_alg».proof.Proof.Gen.Kernel
import proofs.«206476_g69466801045872_cont_9to1_m_773_29_alg».proof.Proof.Gen.Kernel.Skeleton
import proofs.«206476_g69466801045872_cont_9to1_m_773_29_alg».proof.Proof.Spec

noncomputable section

namespace Cert.Proof.KernelRun

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays -/

variable (m : (ℓ : Loc nD τ sig) → Buf (Elt F) ℓ) (ρ : Dev nD → PrngReg)

/-- The table, the index array as given, the index array transposed, the flat result, its two re-laid forms. -/
abbrev tLoc (d : Dev nD) : Loc nD τ sig := (SparseCore.T d).loc main_arg0
abbrev aLoc (d : Dev nD) : Loc nD τ sig := (SparseCore.T d).loc main_arg1
abbrev iLoc (d : Dev nD) : Loc nD τ sig := (SparseCore.T d).loc main_v0
abbrev oLoc (d : Dev nD) : Loc nD τ sig := (SparseCore.T d).loc main_v1
abbrev rLoc (d : Dev nD) : Loc nD τ sig := (SparseCore.T d).loc main_v2
abbrev zLoc (d : Dev nD) : Loc nD τ sig := (SparseCore.T d).loc main_v3

/-! ## The blocks -/

theorem icol_inb (w : Fin 32) : ∀ a, (![0, 128 * w.val] : Fin 2 → Nat) a + S26x128.size a ≤ S26x4096.size a := by
  intro a; have := w.isLt
  match a with
  | ⟨0, _⟩ => show 0 + 26 ≤ 26; omega
  | ⟨1, _⟩ => show 128 * w.val + 128 ≤ 4096; omega

/-- Column block `w` of the transposed index array: all 26 rows, columns 128 w … 128 w + 127. -/
abbrev iRect (w : Fin 32) : Rect S26x4096 := Rect.unit (s := S26x4096) ![0, 128 * w.val] S26x128.size (icol_inb w)
abbrev iSet (w : Fin 32) : Finset S26x4096.Idx := (iRect w).set

theorem orow_inb (w : Fin 32) (k : Fin 26) : ∀ a, (![4096 * k.val + 128 * w.val, 0] : Fin 2 → Nat) a + S128x128.size a ≤ S106496x128.size a := by
  intro a; have := w.isLt; have := k.isLt
  match a with
  | ⟨0, _⟩ => show 4096 * k.val + 128 * w.val + 128 ≤ 106496; omega
  | ⟨1, _⟩ => show 0 + 128 ≤ 128; omega

/-- Chunk `k` of block `w` in the flat result: rows 4096 k + 128 w … + 127, all 128 columns. -/
abbrev oRect (w : Fin 32) (k : Fin 26) : Rect S106496x128 := Rect.unit (s := S106496x128) ![4096 * k.val + 128 * w.val, 0] S128x128.size (orow_inb w k)
abbrev oSet (w : Fin 32) (k : Fin 26) : Finset S106496x128.Idx := (oRect w k).set

/-! ## What the flat result holds -/

/-- The flat result as a function of the table and the transposed indices: row `r` is the table's row named by the
    index word at (r / 4096, r % 4096). -/
def G (tab : S100000x128.Idx → Elt F .f32) (v0 : S26x4096.Idx → Elt F .i32) : S106496x128.Idx → Elt F .f32 :=
  fun x => tab (ix2 (Cert.Spec.rowOf (v0 (ix2 (n0 := 26) (n1 := 4096) ⟨(x 0).val / 4096, by
      have : (x 0).val < 106496 := (x 0).isLt
      omega⟩ ⟨(x 0).val % 4096, Nat.mod_lt _ (by decide)⟩))) (show Fin 128 from x 1))

variable [FloatOps F]

/-- The transposed index array, as @main's first operation leaves it. -/
def V0 (d : Dev nD) : S26x4096.Idx → Elt F .i32 :=
  transpose S26x4096 [1, 0] (m (aLoc d) : S4096x26.Idx → Elt F .i32) transposes_S4096x26_S26x4096_1_0

/-- What the proof asks of the launch memory: every index word names a row of the table. -/
def PreOK : Prop := ∀ (d : Dev nD) (j : S26x4096.Idx), (V0 m d j).toNat < 100000

/-! ## Shares of the table: the full share halved five times, one leaf per subcore -/

/-- Leaf `i` of the depth-`n` halving of share `q`. -/
def leaf : (n : ℕ) → PosShare TreeShare → Fin (2 ^ n) → PosShare TreeShare
  | 0, q, _ => q
  | n + 1, q, i => if h : i.val < 2 ^ n then leaf n q.left ⟨i.val, h⟩ else leaf n q.right ⟨i.val - 2 ^ n, by omega⟩

/-- Block `w`'s share of the table. -/
abbrev tq (w : Fin 32) : PosShare TreeShare := leaf 5 fullShare w

/-! ## What the handshakes carry -/

/-- What the subcore of block `w` is handed and hands back: its column block of the transposed indices, a share of
    the table, and its 26 chunks of the flat result, at the contents `fo`. -/
abbrev tileRes (d : Dev nD) (w : Fin 32) (fo : Buf (Elt F) (oLoc d)) : sProp 𝕄 :=
  iprop((iLoc d ↦[iSet w]{fullShare} V0 m d) ∗ (tLoc d ↦{tq w} m (tLoc d))
    ∗ bigSep Finset.univ fun k : Fin 26 => oLoc d ↦[oSet w k]{fullShare} fo)

/-- The block of the subcore `(c, i)`: `2 i + c`. -/
def wK (c : Fin ((K (F := F)).nCore 0)) (i : Fin ((K (F := F)).nSub 0)) : Fin 32 :=
  ⟨2 * i.val + c.val, by have := c.isLt; have := i.isLt; have e1 := nCore_zero (F := F); have e2 := nSub_zero (F := F); omega⟩

/-- The flat result after the call. -/
abbrev GG (d : Dev nD) : Buf (Elt F) (oLoc d) := G (m (tLoc d)) (V0 m d)

/-- The one call: each SparseCore takes its sixteen subcores' parts and hands them on; they come back with the chunks
    at the look-up. -/
def P : (K (F := F)).Pay (nD := nD) (Val := Elt F) (Name := ℕ) (U := UU) where
  st := fun q d c => match q with | 0 => bigSep Finset.univ fun i : Fin ((K (F := F)).nSub 0) => tileRes m d (wK c i) (m (oLoc d))
  dn := fun q d c => match q with | 0 => bigSep Finset.univ fun i : Fin ((K (F := F)).nSub 0) => tileRes m d (wK c i) (GG m d)
  go := fun q d c i => match q with | 0 => tileRes m d (wK c i) (m (oLoc d))
  td := fun q d c i => match q with | 0 => tileRes m d (wK c i) (GG m d)
  x := fun _ _ => iprop(emp)

instance P_storable : (P (F := F) m).IsStorable where
  st q d c := match q with
    | 0 => (inferInstance : BI.Storable (upEmb : UEmb _ 𝕄) (bigSep Finset.univ fun i : Fin ((K (F := F)).nSub 0) => tileRes m d (wK c i) (m (oLoc d))))
  dn q d c := match q with
    | 0 => (inferInstance : BI.Storable (upEmb : UEmb _ 𝕄) (bigSep Finset.univ fun i : Fin ((K (F := F)).nSub 0) => tileRes m d (wK c i) (GG m d)))
  go q d c i := match q with
    | 0 => (inferInstance : BI.Storable (upEmb : UEmb _ 𝕄) (tileRes m d (wK c i) (m (oLoc d))))
  td q d c i := match q with
    | 0 => (inferInstance : BI.Storable (upEmb : UEmb _ 𝕄) (tileRes m d (wK c i) (GG m d)))

end Cert.Proof.KernelRun

end
-- ==== Proof.KernelLaunch.lean ====
/-
  The look-up kernel's launch: @main on the TensorCore around the one call on the two SparseCores.

  @main transposes the index array, starts the call, and re-lays the flat result: [106496, 128] cut into 26 slabs of
  4096 rows, then the first two axes exchanged. For the call the three arrays the kernel names are dealt among the 32
  vector subcores: the transposed index array by its 32 column blocks, the flat result by its 32 × 26 row blocks, the
  table (every subcore reads it) by halving its share five times. They come back with the flat result at the look-up,
  so what @main returns is the look-up of the given index array in the table, entry by entry.
-/
import proofs.«206476_g69466801045872_cont_9to1_m_773_29_alg».proof.Proof.KernelCommon
import Idealize.ShloMosaic.Lib.Pipeline.Value

noncomputable section

namespace Cert.Proof.KernelRun

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx
open Idealize.ShloMosaic.StableHlo (held held_split held_sdiff_result wp_hlo_within)

variable {F : FTy → Type}

local notation "𝕄" => MT nD τ sig (HIx 1) (Elt F) ℕ UU ℕ

variable (m : (ℓ : Loc nD τ sig) → Buf (Elt F) ℓ) (ρ : Dev nD → PrngReg)

/-! ## The blocks partition the arrays -/

omit m ρ in
theorem mem_iSet (w : Fin 32) (x : S26x4096.Idx) : x ∈ iSet w ↔ 128 * w.val ≤ (x 1).val ∧ (x 1).val < 128 * w.val + 128 := by
  rw [Rect.mem_set_unit]
  constructor
  · intro h; exact h 1
  · intro h a
    match a with
    | ⟨0, _⟩ => exact ⟨Nat.zero_le _, by have : (x 0).val < 26 := (x 0).isLt; show (x 0).val < 0 + 26; omega⟩
    | ⟨1, _⟩ => exact h

omit m ρ in
theorem mem_oSet (w : Fin 32) (k : Fin 26) (x : S106496x128.Idx) :
    x ∈ oSet w k ↔ 4096 * k.val + 128 * w.val ≤ (x 0).val ∧ (x 0).val < 4096 * k.val + 128 * w.val + 128 := by
  rw [Rect.mem_set_unit]
  constructor
  · intro h; exact h 0
  · intro h a
    match a with
    | ⟨0, _⟩ => exact h
    | ⟨1, _⟩ => exact ⟨Nat.zero_le _, by have : (x 1).val < 128 := (x 1).isLt; show (x 1).val < 0 + 128; omega⟩

omit m ρ in
theorem iSet_disjoint : ∀ w ∈ (Finset.univ : Finset (Fin 32)), ∀ w' ∈ (Finset.univ : Finset (Fin 32)), w ≠ w' → Disjoint (iSet w) (iSet w') := by
  intro w _ w' _ hne
  rw [Finset.disjoint_left]
  intro x hx hx'
  rw [mem_iSet] at hx hx'
  exact hne (Fin.ext (by omega))

omit m ρ in
theorem iSet_cover : (Finset.univ : Finset (Fin 32)).biUnion iSet = Finset.univ := by
  ext x
  simp only [Finset.mem_biUnion, Finset.mem_univ, true_and, iff_true]
  have hx : (x 1).val < 4096 := (x 1).isLt
  exact ⟨⟨(x 1).val / 128, by omega⟩, (mem_iSet _ x).2 ⟨by show 128 * ((x 1).val / 128) ≤ (x 1).val; omega, by show (x 1).val < 128 * ((x 1).val / 128) + 128; omega⟩⟩

omit m ρ in
theorem oSet_disjoint : ∀ p ∈ (Finset.univ : Finset (Fin 32 × Fin 26)), ∀ p' ∈ (Finset.univ : Finset (Fin 32 × Fin 26)), p ≠ p' →
    Disjoint (oSet p.1 p.2) (oSet p'.1 p'.2) := by
  intro p _ p' _ hne
  rw [Finset.disjoint_left]
  intro x hx hx'
  rw [mem_oSet] at hx hx'
  have h1 := p.1.isLt; have h2 := p.2.isLt; have h3 := p'.1.isLt; have h4 := p'.2.isLt
  exact hne (Prod.ext (Fin.ext (by omega)) (Fin.ext (by omega)))

omit m ρ in
theorem oSet_cover : (Finset.univ : Finset (Fin 32 × Fin 26)).biUnion (fun p => oSet p.1 p.2) = Finset.univ := by
  ext x
  simp only [Finset.mem_biUnion, Finset.mem_univ, true_and, iff_true]
  have hx : (x 0).val < 106496 := (x 0).isLt
  exact ⟨(⟨(x 0).val % 4096 / 128, by omega⟩, ⟨(x 0).val / 4096, by omega⟩), (mem_oSet _ _ x).2 ⟨by show 4096 * ((x 0).val / 4096) + 128 * ((x 0).val % 4096 / 128) ≤ (x 0).val; omega, by show (x 0).val < 4096 * ((x 0).val / 4096) + 128 * ((x 0).val % 4096 / 128) + 128; omega⟩⟩

omit m ρ in
theorem iPts_blocks (d : Dev nD) (f : Buf (Elt F) (iLoc d)) :
    (iLoc d ↦{fullShare} f : sProp 𝕄) = bigSep Finset.univ fun w : Fin 32 => iLoc d ↦[iSet w]{fullShare} f := by
  rw [← pointsTo_biUnion Finset.univ (ℓ := iLoc d) iSet iSet_disjoint, iSet_cover]; try rfl

omit m ρ in
theorem oPts_blocks (d : Dev nD) (f : Buf (Elt F) (oLoc d)) :
    (oLoc d ↦{fullShare} f : sProp 𝕄) = bigSep Finset.univ fun w : Fin 32 => bigSep Finset.univ fun k : Fin 26 => oLoc d ↦[oSet w k]{fullShare} f := by
  rw [← bigSep_univ_prod (fun p : Fin 32 × Fin 26 => (oLoc d ↦[oSet p.1 p.2]{fullShare} f : sProp 𝕄)),
    ← pointsTo_biUnion Finset.univ (ℓ := oLoc d) (fun p : Fin 32 × Fin 26 => oSet p.1 p.2) oSet_disjoint, oSet_cover]; try rfl

/-! ## The table's full share is its thirty-two leaves -/

/-- The two halves of the leaves of depth `n + 1`. -/
def sumEquiv (n : ℕ) : Fin (2 ^ n) ⊕ Fin (2 ^ n) ≃ Fin (2 ^ (n + 1)) := finSumFinEquiv.trans (finCongr (by omega))

omit m ρ in
theorem sumEquiv_inl (n : ℕ) (i : Fin (2 ^ n)) : (sumEquiv n (Sum.inl i)).val = i.val := by simp [sumEquiv]
omit m ρ in
theorem sumEquiv_inr (n : ℕ) (i : Fin (2 ^ n)) : (sumEquiv n (Sum.inr i)).val = 2 ^ n + i.val := by simp [sumEquiv]; omega

omit m ρ in
theorem leaf_inl (n : ℕ) (q : PosShare TreeShare) (i : Fin (2 ^ n)) : leaf (n + 1) q (sumEquiv n (Sum.inl i)) = leaf n q.left i := by
  have h : (sumEquiv n (Sum.inl i)).val < 2 ^ n := by rw [sumEquiv_inl]; exact i.isLt
  have e : (⟨(sumEquiv n (Sum.inl i)).val, h⟩ : Fin (2 ^ n)) = i := Fin.ext (sumEquiv_inl n i)
  rw [leaf, dif_pos h, e]
omit m ρ in
theorem leaf_inr (n : ℕ) (q : PosShare TreeShare) (i : Fin (2 ^ n)) : leaf (n + 1) q (sumEquiv n (Sum.inr i)) = leaf n q.right i := by
  have h : ¬(sumEquiv n (Sum.inr i)).val < 2 ^ n := by rw [sumEquiv_inr]; omega
  have e : (⟨(sumEquiv n (Sum.inr i)).val - 2 ^ n, by have := (sumEquiv n (Sum.inr i)).isLt; omega⟩ : Fin (2 ^ n)) = i :=
    Fin.ext (by simp only [sumEquiv_inr]; omega)
  rw [leaf, dif_neg h, e]

omit m ρ in
/-- A points-to at a share is its leaves' at once. -/
theorem pointsTo_leaves {ℓ : Loc nD τ sig} (I : Finset (Idx ℓ)) (f : Buf (Elt F) ℓ) :
    ∀ (n : ℕ) (q : PosShare TreeShare), (ℓ ↦[I]{q} f : sProp 𝕄) = bigSep Finset.univ fun i : Fin (2 ^ n) => ℓ ↦[I]{leaf n q i} f
  | 0, q => (bigSep_univ_of_subsingleton (0 : Fin 1) (Φ := fun i : Fin (2 ^ 0) => (ℓ ↦[I]{leaf 0 q i} f : sProp 𝕄))).symm
  | n + 1, q => by
    rw [BI.Entails.antisymm (pointsTo_share (PosShare.mem_left_op_right q)).1 (pointsTo_share (PosShare.mem_left_op_right q)).2,
      pointsTo_leaves I f n q.left, pointsTo_leaves I f n q.right,
      bigSep_univ_equiv (sumEquiv n) (fun i : Fin (2 ^ (n + 1)) => (ℓ ↦[I]{leaf (n + 1) q i} f : sProp 𝕄)), bigSep_univ_sum]
    congr 1 <;> refine bigSep_congr fun i _ => ?_
    · rw [leaf_inl]
    · rw [leaf_inr]

omit m ρ in
theorem tPts_shares (d : Dev nD) (f : Buf (Elt F) (tLoc d)) :
    (tLoc d ↦{fullShare} f : sProp 𝕄) = bigSep Finset.univ fun w : Fin 32 => tLoc d ↦{tq w} f :=
  pointsTo_leaves Finset.univ f 5 fullShare

/-! ## The subcores and the blocks -/

/-- The subcore `(c, i)` takes block `2 i + c`: a bijection of the 2 × 16 subcores with the 32 blocks. -/
def wKEquiv : Fin ((K (F := F)).nCore 0) × Fin ((K (F := F)).nSub 0) ≃ Fin 32 where
  toFun p := wK p.1 p.2
  invFun w := (⟨w.val % 2, Nat.mod_lt _ (by decide)⟩, ⟨w.val / 2, by have := w.isLt; show w.val / 2 < 16; omega⟩)
  left_inv p := by
    have h1 : p.1.val < 2 := p.1.isLt
    have h2 : p.2.val < 16 := p.2.isLt
    refine Prod.ext (Fin.ext ?_) (Fin.ext ?_)
    · show (2 * p.2.val + p.1.val) % 2 = p.1.val; omega
    · show (2 * p.2.val + p.1.val) / 2 = p.2.val; omega
  right_inv w := by
    refine Fin.ext ?_
    show 2 * (w.val / 2) + w.val % 2 = w.val; omega

omit m ρ in
theorem bigSep_blocks (Φ : Fin 32 → sProp 𝕄) :
    bigSep Finset.univ Φ = bigSep Finset.univ fun c : Fin ((K (F := F)).nCore 0) => bigSep Finset.univ fun i : Fin ((K (F := F)).nSub 0) => Φ (wK c i) := by
  rw [bigSep_univ_equiv (wKEquiv (F := F)) Φ, bigSep_univ_prod]; rfl

variable [FloatOps F]

theorem split_tiles_eq (d : Dev nD) (fo : Buf (Elt F) (oLoc d)) :
    (iprop((iLoc d ↦{fullShare} V0 m d) ∗ (tLoc d ↦{fullShare} m (tLoc d)) ∗ (oLoc d ↦{fullShare} fo)) : sProp 𝕄)
      = bigSep Finset.univ fun c : Fin ((K (F := F)).nCore 0) => bigSep Finset.univ fun i : Fin ((K (F := F)).nSub 0) => tileRes m d (wK c i) fo := by
  rw [← bigSep_blocks (F := F) (fun w => tileRes m d w fo), bigSep_sep', bigSep_sep', ← iPts_blocks, ← tPts_shares, ← oPts_blocks]

/-- The three arrays whole are the thirty-two subcores' parts. -/
theorem split_tiles (d : Dev nD) (fo : Buf (Elt F) (oLoc d)) :
    (iprop((iLoc d ↦{fullShare} V0 m d) ∗ (tLoc d ↦{fullShare} m (tLoc d)) ∗ (oLoc d ↦{fullShare} fo)) : sProp 𝕄)
      ⊣⊢ bigSep Finset.univ fun c : Fin ((K (F := F)).nCore 0) => bigSep Finset.univ fun i : Fin ((K (F := F)).nSub 0) => tileRes m d (wK c i) fo := by
  rw [split_tiles_eq]

/-! ## A SparseCore's parts among its subcores -/

theorem vecSplit : (K (F := F)).VecSplit' (P m) 0 := by
  intro d c
  show (bigSep Finset.univ fun i : Fin ((K (F := F)).nSub 0) => tileRes m d (wK c i) (m (oLoc d))) ⊢ |={Set.univ}=> iprop(
      (bigSep Finset.univ fun i : Fin ((K (F := F)).nSub 0) => tileRes m d (wK c i) (m (oLoc d)))
      ∗ ((bigSep Finset.univ fun i : Fin ((K (F := F)).nSub 0) => tileRes m d (wK c i) (GG m d))
          -∗ bigSep Finset.univ fun i : Fin ((K (F := F)).nSub 0) => tileRes m d (wK c i) (GG m d)))
  iintro H; imodintro
  isplitl [H]; · iexact H
  iintro H; iexact H

/-! ## The launch element of the ghost state -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## What @main returns -/

/-- The flat result re-laid as @main's last two operations do: cut into 26 slabs of 4096 rows, then the first two axes
    exchanged. -/
def OUT (d : Dev nD) : Buf (Elt F) (zLoc d) :=
  transpose S4096x26x128 [1, 0, 2]
    (shapeCast S26x4096x128 (GG m d : S106496x128.Idx → Elt F .f32) shapeCasts_S106496x128_S26x4096x128 : S26x4096x128.Idx → Elt F .f32)
    transposes_S26x4096x128_S4096x26x128_1_0_2

/-! ## What @main leaves the claim -/

abbrev FIN (d : Dev nD) : sProp 𝕄 := iprop((tLoc d ↦{fullShare} m (tLoc d)) ∗ (aLoc d ↦{fullShare} m (aLoc d)) ∗ (zLoc d ↦{fullShare} OUT m d))

/-! ## @main on the TensorCore -/

abbrev tD : DevRef τ sig := Proc.devRef .tc (main_arg0 : Ref sig .tc)
abbrev aD : DevRef τ sig := Proc.devRef .tc (main_arg1 : Ref sig .tc)
abbrev iD : DevRef τ sig := Proc.devRef .tc (main_v0 : Ref sig .tc)
abbrev oD : DevRef τ sig := Proc.devRef .tc (main_v1 : Ref sig .tc)
abbrev rD : DevRef τ sig := Proc.devRef .tc (main_v2 : Ref sig .tc)
abbrev zD : DevRef τ sig := Proc.devRef .tc (main_v3 : Ref sig .tc)

/-- The transpose of the index array, the flat result cut into slabs, the slabs' first two axes exchanged. -/
abbrev opT0 : HloOp τ sig (Elt F) :=
  StableHlo.unary main_arg1 main_v0 ((transpose S26x4096 [1, 0] · transposes_S4096x26_S26x4096_1_0) : (⟨S4096x26, .i32⟩ : BufTy).Contents (Elt F) → (⟨S26x4096, .i32⟩ : BufTy).Contents (Elt F))
abbrev opRs : HloOp τ sig (Elt F) := StableHlo.reshape main_v1 main_v2 rfl shapeCasts_S106496x128_S26x4096x128
abbrev opT1 : HloOp τ sig (Elt F) :=
  StableHlo.unary main_v2 main_v3 ((transpose S4096x26x128 [1, 0, 2] · transposes_S26x4096x128_S4096x26x128_1_0_2) : (⟨S26x4096x128, .f32⟩ : BufTy).Contents (Elt F) → (⟨S4096x26x128, .f32⟩ : BufTy).Contents (Elt F))

/-- The TensorCore's arrays, all unscoped. -/
abbrev S6 : Finset (DevRef τ sig) := {tD, aD, iD, oD, rD, zD}

omit [FloatOps F] in
theorem held_S6 (d : Dev nD) (W : Valuation τ sig (Elt F)) :
    (held (T d) S6 W : sProp 𝕄)
      = iprop((tLoc d ↦{fullShare} W tD) ∗ (aLoc d ↦{fullShare} W aD) ∗ (iLoc d ↦{fullShare} W iD)
          ∗ (oLoc d ↦{fullShare} W oD) ∗ (rLoc d ↦{fullShare} W rD) ∗ (zLoc d ↦{fullShare} W zD)) := by
  unfold held S6
  rw [SparseCore.bigSep_insert' (by decide), SparseCore.bigSep_insert' (by decide), SparseCore.bigSep_insert' (by decide),
    SparseCore.bigSep_insert' (by decide), SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄)
      = iprop((tLoc d ↦{fullShare} W main_arg0) ∗ (aLoc d ↦{fullShare} W main_arg1) ∗ (iLoc d ↦{fullShare} W main_v0)
          ∗ (oLoc d ↦{fullShare} W main_v1) ∗ (rLoc d ↦{fullShare} W main_v2) ∗ (zLoc d ↦{fullShare} W main_v3)) := by
  unfold unscopedBufs
  rw [show (Finset.univ.filter fun b : Ref sig .tc => ¬ b.isScoped) = {main_arg0, main_arg1, main_v0, main_v1, main_v2, main_v3} by decide,
    SparseCore.bigSep_insert' (by decide), SparseCore.bigSep_insert' (by decide), SparseCore.bigSep_insert' (by decide),
    SparseCore.bigSep_insert' (by decide), SparseCore.bigSep_insert' (by decide), bigSep_singleton]

/-- The launch valuation; after the first transpose; after the call (the flat result at the look-up); after the last two operations. -/
def W0 (d : Dev nD) : Valuation τ sig (Elt F) := fun b => m (d, b)
def W1 (d : Dev nD) : Valuation τ sig (Elt F) := (opT0 (F := F)).result (W0 m d)
def W2 (d : Dev nD) : Valuation τ sig (Elt F) := Function.update (W1 m d) oD (GG m d)
def W4 (d : Dev nD) : Valuation τ sig (Elt F) := (opT1 (F := F)).result ((opRs (F := F)).result (W2 m d))

theorem unscoped_held (d : Dev nD) : (unscopedBufs d (fun b => m ((SparseCore.T d).loc b)) : sProp 𝕄) = held (T d) S6 (W0 m d) := by
  rw [unscopedBufs_eq, held_S6]; rfl

theorem W1_t (d : Dev nD) : W1 m d tD = m (tLoc d) := by
  unfold W1; rw [(opT0 (F := F)).result_of_not_mem _ (show tD ∉ ({iD} : Finset (DevRef τ sig)) by decide)]; rfl
theorem W1_a (d : Dev nD) : W1 m d aD = m (aLoc d) := by
  unfold W1; rw [(opT0 (F := F)).result_of_not_mem _ (show aD ∉ ({iD} : Finset (DevRef τ sig)) by decide)]; rfl
theorem W1_i (d : Dev nD) : W1 m d iD = V0 m d := by
  unfold W1 V0; exact StableHlo.unary_result _ _ _ _ _ _
theorem W1_o (d : Dev nD) : W1 m d oD = m (oLoc d) := by
  unfold W1; rw [(opT0 (F := F)).result_of_not_mem _ (show oD ∉ ({iD} : Finset (DevRef τ sig)) by decide)]; rfl

theorem held_W1 (d : Dev nD) :
    (held (T d) S6 ((opT0 (F := F)).result (W0 m d)) : sProp 𝕄)
      = iprop((tLoc d ↦{fullShare} m (tLoc d)) ∗ (aLoc d ↦{fullShare} m (aLoc d)) ∗ (iLoc d ↦{fullShare} V0 m d)
          ∗ (oLoc d ↦{fullShare} m (oLoc d)) ∗ (rLoc d ↦{fullShare} W1 m d rD) ∗ (zLoc d ↦{fullShare} W1 m d zD)) := by
  show held (SparseCore.T d) S6 (W1 m d) = _
  rw [held_S6, W1_t, W1_a, W1_i, W1_o]

theorem W2_t (d : Dev nD) : W2 m d tD = m (tLoc d) := (Function.update_of_ne (show tD ≠ oD by decide) _ _).trans (W1_t m d)
theorem W2_a (d : Dev nD) : W2 m d aD = m (aLoc d) := (Function.update_of_ne (show aD ≠ oD by decide) _ _).trans (W1_a m d)
theorem W2_i (d : Dev nD) : W2 m d iD = V0 m d := (Function.update_of_ne (show iD ≠ oD by decide) _ _).trans (W1_i m d)
theorem W2_o (d : Dev nD) : W2 m d oD = GG m d := Function.update_self _ _ _
theorem W2_r (d : Dev nD) : W2 m d rD = W1 m d rD := Function.update_of_ne (show rD ≠ oD by decide) _ _
theorem W2_z (d : Dev nD) : W2 m d zD = W1 m d zD := Function.update_of_ne (show zD ≠ oD by decide) _ _

theorem W4_t (d : Dev nD) : W4 m d tD = m (tLoc d) := by
  unfold W4
  rw [(opT1 (F := F)).result_of_not_mem _ (show tD ∉ ({zD} : Finset (DevRef τ sig)) by decide),
    (opRs (F := F)).result_of_not_mem _ (show tD ∉ ({rD} : Finset (DevRef τ sig)) by decide), W2_t]
theorem W4_a (d : Dev nD) : W4 m d aD = m (aLoc d) := by
  unfold W4
  rw [(opT1 (F := F)).result_of_not_mem _ (show aD ∉ ({zD} : Finset (DevRef τ sig)) by decide),
    (opRs (F := F)).result_of_not_mem _ (show aD ∉ ({rD} : Finset (DevRef τ sig)) by decide), W2_a]
theorem W4_z (d : Dev nD) : W4 m d zD = OUT m d := by
  unfold W4 OUT
  rw [StableHlo.unary_result, StableHlo.reshape_result, W2_o]; rfl

theorem held_W4 (d : Dev nD) :
    (held (T d) S6 ((opT1 (F := F)).result ((opRs (F := F)).result (W2 m d))) : sProp 𝕄)
      = iprop((tLoc d ↦{fullShare} m (tLoc d)) ∗ (aLoc d ↦{fullShare} m (aLoc d)) ∗ (iLoc d ↦{fullShare} W4 m d iD)
          ∗ (oLoc d ↦{fullShare} W4 m d oD) ∗ (rLoc d ↦{fullShare} W4 m d rD) ∗ (zLoc d ↦{fullShare} OUT m d)) := by
  show held (SparseCore.T d) S6 (W4 m d) = _
  rw [held_S6, W4_t, W4_a, W4_z]

theorem hT0 : (opT0 (F := F)).bufs ⊆ S6 := show ({aD, iD} : Finset (DevRef τ sig)) ⊆ S6 by decide
theorem hRs : (opRs (F := F)).bufs ⊆ S6 := show ({oD, rD} : Finset (DevRef τ sig)) ⊆ S6 by decide
theorem hT1 : (opT1 (F := F)).bufs ⊆ S6 := show ({rD, zD} : Finset (DevRef τ sig)) ⊆ S6 by decide

/-- What the call takes for the two SparseCores, and what it hands back. -/
theorem st0_eq (d : Dev nD) : (bigSep Finset.univ fun c : Fin ((K (F := F)).nCore 0) => (P m).st 0 d c)
    = bigSep Finset.univ fun c : Fin ((K (F := F)).nCore 0) => bigSep Finset.univ fun i : Fin ((K (F := F)).nSub 0) => tileRes m d (wK c i) (m (oLoc d)) := rfl
theorem dn0_eq (d : Dev nD) : (bigSep Finset.univ fun c : Fin ((K (F := F)).nCore 0) => (P m).dn 0 d c)
    = bigSep Finset.univ fun c : Fin ((K (F := F)).nCore 0) => bigSep Finset.univ fun i : Fin ((K (F := F)).nSub 0) => tileRes m d (wK c i) (GG m d) := rfl

/-- @main on device `d`'s TensorCore: the index array transposed, the call (the three arrays dealt to the thirty-two
    subcores and gathered back, the flat result at the look-up), the flat result re-laid; the table, the given index array and
    the result kept. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, wp_bind, wp_pure]
  iintro ⟨#Hctx, Hst, ⟨Hb, Hheld, -, -⟩, -⟩
  -- the index array transposed
  iapply (wp_hlo_within 𝒱 (SparseCore.T d) none Set.univ (op := opT0) (S := S6) hT0 (V := W0 m d)) $$ [Hb Hheld]
  · isplitl [Hb] <;> iassumption
  iintro ⟨Hb, Hheld⟩
  rw [wp_ret]; imodintro
  ihave Hh := (Entails.of_eq (held_W1 (F := F) m d)) $$ Hheld
  icases Hh with ⟨Ht, Ha, Hi, Ho, Hr, Hz⟩
  -- the call
  iapply ((K (F := F)).wp_run (D (F := F)) 𝒱 (EH := EH) (P := P m) κ d 0) $$ [Hst Ht Hi Ho Hb Ha Hr Hz]
  isplitr; · iexact Hctx
  isplitl [Hst]; · iexact Hst
  isplitl [Ht Hi Ho]
  · rw [st0_eq]
    iapply (split_tiles m d (m (oLoc d))).1
    isplitl [Hi]; · iexact Hi
    isplitl [Ht]; · iexact Ht
    iexact Ho
  iintro ⟨Hst, Hdn⟩
  ihave Hdn' := (Entails.of_eq (dn0_eq m d)) $$ Hdn
  ihave Hdn'' := (split_tiles m d (GG m d)).2 $$ Hdn'
  icases Hdn'' with ⟨Hi, Ht, Ho⟩
  -- the flat result cut into slabs
  iapply (wp_hlo_within 𝒱 (SparseCore.T d) none Set.univ (op := opRs) (S := S6) hRs (V := W2 m d)) $$ [Hb Ht Ha Hi Ho Hr Hz]
  · isplitl [Hb]; · iexact Hb
    rw [held_S6, W2_t, W2_a, W2_i, W2_o, W2_r, W2_z]
    isplitl [Ht]; · iexact Ht
    isplitl [Ha]; · iexact Ha
    isplitl [Hi]; · iexact Hi
    isplitl [Ho]; · iexact Ho
    isplitl [Hr]; · iexact Hr
    iexact Hz
  iintro ⟨Hb, Hheld⟩
  rw [wp_ret]; imodintro
  -- the slabs' first two axes exchanged
  iapply (wp_hlo_within 𝒱 (SparseCore.T d) none Set.univ (op := opT1) (S := S6) hT1 (V := (opRs (F := F)).result (W2 m d))) $$ [Hb Hheld]
  · isplitl [Hb] <;> iassumption
  iintro ⟨Hb, Hheld⟩
  ihave Hh := (Entails.of_eq (held_W4 (F := F) m d)) $$ Hheld
  icases Hh with ⟨Ht, Ha, -, -, -, Hz⟩
  rw [wp_ret]; imodintro; imodintro
  isplitl [Hst]; · iexact Hst
  isplitl [Ht]; · iexact Ht
  isplitl [Ha]; · iexact Ha
  iexact Hz

/-! ## The final memory reads the claim -/

def fq (d : Dev nD) (s' : Phys nD τ sig (Elt F)) : Prop :=
  s'.mem.mem (zLoc d) = OUT m d ∧ s'.mem.mem (tLoc d) = m (tLoc d) ∧ s'.mem.mem (aLoc d) = m (aLoc d)

set_option maxRecDepth 16384 in
theorem hfin (d : Dev nD) (s' : Phys nD τ sig (Elt F)) : iprop(FIN m d ∗ SI s') ⊢ (⌜fq m d s'⌝ : sProp 𝕄) := by
  iintro ⟨⟨Ht, Ha, Hz⟩, HSI⟩
  ihave H := (persistent_entails_right (SI_pointsTo_agree (st := s') (ℓ := tLoc d) (I := Finset.univ) (q := fullShare) (f := m (tLoc d)))) $$ [HSI Ht]
  · isplitl [HSI] <;> iassumption
  icases H with ⟨%h1, HSI, -⟩
  ihave H := (persistent_entails_right (SI_pointsTo_agree (st := s') (ℓ := aLoc d) (I := Finset.univ) (q := fullShare) (f := m (aLoc d)))) $$ [HSI Ha]
  · isplitl [HSI] <;> iassumption
  icases H with ⟨%h2, HSI, -⟩
  ihave H := (SI_pointsTo_agree (st := s') (ℓ := zLoc d) (I := Finset.univ) (q := fullShare) (f := OUT m d)) $$ [HSI Hz]
  · isplitl [HSI] <;> iassumption
  icases H with %h3
  ipureintro
  exact ⟨funext fun i => h3 i (Finset.mem_univ i), funext fun i => h1 i (Finset.mem_univ i), funext fun i => h2 i (Finset.mem_univ i)⟩

/-! ## The program's run -/

def QC : PUnit × MemSt nD τ sig (Elt F) → Prop := fun r =>
  ∀ c : Dev nD, r.2.mem (zLoc c) = OUT m c ∧ r.2.mem (tLoc c) = m (tLoc c) ∧ r.2.mem (aLoc c) = m (aLoc c)

/-- Every weakly fair execution of the device's threads ends with the result at `OUT` and the two arguments unchanged,
    given each vector subcore's run of the kernel's body. -/
theorem run_main [∀ e, Nonempty (Elt F e)] (htile : (K (F := F)).TileObl (D (F := F)) 𝒱 (P m) v₀ 0) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => htile)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h => h)

/-! ## The result, index by index -/

/-- The transposed index array at (f, b) is the given one at (b, f). -/
theorem V0_apply (d : Dev nD) (f : Fin 26) (b : Fin 4096) :
    V0 m d (ix2 f b) = (m (aLoc d) : S4096x26.Idx → Elt F .i32) (ix2 b f) := by
  unfold V0
  exact transpose_apply [1, 0] _ transposes_S4096x26_S26x4096_1_0 (ix2 f b) (ix2 b f) (by
    intro a
    match a with
    | ⟨0, _⟩ => rfl
    | ⟨1, _⟩ => rfl)

/-- Entry (b, f, l) of what @main returns is entry l of row 4096 f + b of the flat result. -/
theorem OUT_apply (d : Dev nD) (b : Fin 4096) (f : Fin 26) (l : Fin 128) :
    (OUT m d : S4096x26x128.Idx → Elt F .f32) (ix3 b f l)
      = GG m d (ix2 (n0 := 106496) (n1 := 128) ⟨4096 * f.val + b.val, by have := f.isLt; have := b.isLt; omega⟩ l) := by
  unfold OUT
  rw [transpose_apply [1, 0, 2] _ transposes_S26x4096x128_S4096x26x128_1_0_2 (ix3 b f l) (ix3 f b l) (by
    intro a
    match a with
    | ⟨0, _⟩ => rfl
    | ⟨1, _⟩ => rfl
    | ⟨2, _⟩ => rfl)]
  refine shapeCast_apply _ shapeCasts_S106496x128_S26x4096x128 (ix3 f b l) _ ?_
  rw [Shape.rowMajor_val_two, Shape.rowMajor_val_three]
  show (4096 * f.val + b.val) * 128 + l.val = (f.val * 4096 + b.val) * 128 + l.val
  omega

/-- What @main returns is the look-up of the given index array in the table. -/
theorem OUT_eq (d : Dev nD) : OUT m d = Cert.Spec.lookup (m (tLoc d)) (m (aLoc d)) := by
  funext j
  obtain ⟨b, f, l, rfl⟩ : ∃ b f l, j = ix3 b f l := ⟨j 0, j 1, j 2, eq_ix3 j⟩
  have hf := f.isLt; have hb := b.isLt
  rw [OUT_apply]
  show m (tLoc d) (ix2 (Cert.Spec.rowOf (V0 m d (ix2 (n0 := 26) (n1 := 4096) ⟨(4096 * f.val + b.val) / 4096, _⟩ ⟨(4096 * f.val + b.val) % 4096, _⟩))) l)
    = m (tLoc d) (ix2 (Cert.Spec.rowOf ((m (aLoc d) : S4096x26.Idx → Elt F .i32) (ix2 b f))) l)
  rw [show (⟨(4096 * f.val + b.val) / 4096, by omega⟩ : Fin 26) = f from Fin.ext (by show (4096 * f.val + b.val) / 4096 = f.val; omega),
    show (⟨(4096 * f.val + b.val) % 4096, Nat.mod_lt _ (by decide)⟩ : Fin 4096) = b from Fin.ext (by show (4096 * f.val + b.val) % 4096 = b.val; omega),
    V0_apply]

/-- Index words in range name rows of the table. -/
theorem preOK_of_range (h : ∀ (d : Dev nD) i, 0 ≤ (m (aLoc d) i : BitVec 32).toInt ∧ (m (aLoc d) i : BitVec 32).toInt ≤ 99999) : PreOK m := by
  intro d j
  obtain ⟨f, b, rfl⟩ : ∃ f b, j = ix2 f b := ⟨j 0, j 1, eq_ix2 j⟩
  rw [V0_apply]
  exact Cert.Spec.toNat_lt_of_range (h d _).1 (h d _).2

end Cert.Proof.KernelRun

end
-- ==== Proof.KernelBody1.lean ====
/-
  The look-up kernel on one vector subcore: what the loop keeps from trip to trip, and what the copies carry.

  A subcore takes column block w of the transposed index array into its index scratch (26 rows of 128 words), then
  for each row c (a chunk) gathers the 128 table rows the words name into one of four row buffers (buffer c mod 4) and
  copies that buffer out to rows 4096 c + 128 w … + 127 of the flat result. Four gathers are kept in flight: a trip of
  the loop waits for the gathers of chunks 4k … 4k+3, starts their copy-outs, and as each copy-out ends starts the
  gather of chunk 4k+4 … 4k+7 into the freed buffer (the last trip starts only two). Each gather holds, until its wait,
  its row of the index scratch, a read token of the table and its row buffer; each copy-out holds its chunk of the flat
  result and its row buffer. Here: the rows and chunks as families over the 26 chunk numbers, the value a gather
  leaves in a row buffer and a copy-out leaves in a chunk (both the look-up's), and the invariant before trip k.
-/
import proofs.«206476_g69466801045872_cont_9to1_m_773_29_alg».proof.Proof.KernelCommon

noncomputable section

namespace Cert.Proof.KernelRun

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

variable (m : (ℓ : Loc nD τ sig) → Buf (Elt F) ℓ) (ρ : Dev nD → PrngReg)

local notation "iV" => (Memref.whole Cert.Kernel.main_v0_scv : Memref Cert.Kernel.sig Kind.scVector Space.hbm Cert.Kernel.S26x4096 EltTy.i32)
local notation "xV" => (Memref.whole Cert.Kernel.main_arg0_scv : Memref Cert.Kernel.sig Kind.scVector Space.hbm Cert.Kernel.S100000x128 EltTy.f32)
local notation "oV" => (Memref.whole Cert.Kernel.main_v1_scv : Memref Cert.Kernel.sig Kind.scVector Space.hbm Cert.Kernel.S106496x128 EltTy.f32)
local notation "sV" => (Memref.whole Cert.Kernel.cc0_scratch0 : Memref Cert.Kernel.sig Kind.scVector Space.vmem Cert.Kernel.S26x128 EltTy.i32)
local notation "b0V" => (Memref.whole Cert.Kernel.cc0_scratch1 : Memref Cert.Kernel.sig Kind.scVector Space.vmem Cert.Kernel.S128x128 EltTy.f32)
local notation "b1V" => (Memref.whole Cert.Kernel.cc0_scratch2 : Memref Cert.Kernel.sig Kind.scVector Space.vmem Cert.Kernel.S128x128 EltTy.f32)
local notation "b2V" => (Memref.whole Cert.Kernel.cc0_scratch3 : Memref Cert.Kernel.sig Kind.scVector Space.vmem Cert.Kernel.S128x128 EltTy.f32)
local notation "b3V" => (Memref.whole Cert.Kernel.cc0_scratch4 : Memref Cert.Kernel.sig Kind.scVector Space.vmem Cert.Kernel.S128x128 EltTy.f32)

variable [FloatOps F]

section Tile
variable (d : Dev nD) (L : grid0.Coords)

abbrev cV (L : grid0.Coords) : Fin τ.nSC := (L 0).castLE hcore0
abbrev jV (L : grid0.Coords) : Fin τ.nSub := (L 1).castLE hsub0
/-- The vector subcore at grid coordinates `L` of device `d`. -/
abbrev VT (d : Dev nD) (L : grid0.Coords) : Thread nD τ := V d (cV L) (jV L)

/-- The subcore's block number, `2 s + c`. -/
def wL (L : grid0.Coords) : Fin 32 := ⟨2 * (L 1).val + (L 0).val, by
  have h0 : (L 0).val < 2 := (L 0).isLt
  have h1 : (L 1).val < 16 := (L 1).isLt
  omega⟩

/-- The subcore's column block of the transposed indices, and the table whole, as the body addresses them. -/
abbrev iColK (L : grid0.Coords) : Memref sig .scVector .hbm S26x128 .i32 :=
  (iV).slice (Rect.unit (s := S26x4096) (k0_off1 L) S26x128.size (k0_off1_inb L)) (fun _ => rfl)
abbrev xSl : Memref sig .scVector .hbm S100000x128 .f32 :=
  (xV).slice (Rect.unit (s := S100000x128) ![0, 0] S100000x128.size inb_S100000x128_S100000x128_0_0) (fun _ => rfl)

/-- Row `row` of the index scratch as a list of 128 words. -/
abbrev rowM (row : Fin 2 → Nat) (hk : ∀ a, row a + S1x128.size a ≤ S26x128.size a) : Memref sig .scVector .vmem S128 .i32 :=
  ((sV).slice (Rect.unit (s := S26x128) row S1x128.size hk) (fun _ => rfl)).squeeze S128 squeezes_S1x128_S128

/-- The words of row `row` of the index scratch, as a set of its indices. -/
abbrev rowSet (row : Fin 2 → Nat) (hk : ∀ a, row a + S1x128.size a ≤ S26x128.size a) : Finset S26x128.Idx := (rowM row hk).view.set
abbrev sAll : Finset S26x128.Idx := (sV).view.set

omit [FloatOps F] in
theorem rowInb4 (k : Nat) (hk : k ≤ 5) (i : Nat) (hi : i < 4) : ∀ a, (![4 * k + i, 0] : Fin 2 → Nat) a + S1x128.size a ≤ S26x128.size a := by
  intro a
  match a with
  | ⟨0, _⟩ => show 4 * k + i + 1 ≤ 26; omega
  | ⟨1, _⟩ => show 0 + 128 ≤ 128; omega

omit [FloatOps F] in
theorem rowInb (c : Nat) (hc : c < 26) : ∀ a, (![c, 0] : Fin 2 → Nat) a + S1x128.size a ≤ S26x128.size a := by
  intro a
  match a with
  | ⟨0, _⟩ => show c + 1 ≤ 26; omega
  | ⟨1, _⟩ => show 0 + 128 ≤ 128; omega

/-- A 128-row block of the flat result at row offset `off`, as the body addresses it. -/
abbrev oBlk (off : Fin 2 → Nat) (h : ∀ a, off a + S128x128.size a ≤ S106496x128.size a) : Memref sig .scVector .hbm S128x128 .f32 :=
  (oV).slice (Rect.unit (s := S106496x128) off S128x128.size h) (fun _ => rfl)

/-- What the index fetch lands in the index scratch: the subcore's column block of the transposed indices. -/
abbrev PAY : S26x128.Idx → Elt F .i32 := ReadAs.same.apply ((iColK L).view.read (Elt F) (V0 m d))

omit [FloatOps F] in
theorem PAY_apply (x : S26x128.Idx) : PAY m d L x = V0 m d ((iColK L).view.emb x) :=
  (View.read_apply _ _).trans (cast_eq _ _)

/-- The index scratch after the fetch. -/
abbrev SCONT : Buf (Elt F) ((sV).view.loc (VT d L)) :=
  (sV).view.writes (Elt F) (sV).view.junk [⟨Rect.whole cc0_scratch0.ty.shape, PAY m d L⟩]

omit [FloatOps F] in
/-- Every word of a row of the index scratch, after the fetch, is a word of the transposed index array: it names a table row. -/
theorem inb_of_pre (hpre : PreOK m) (g0 : Buf (Elt F) ((sV).view.loc (VT d L)))
    (pay : S26x128.Idx → Elt F .i32) (hpay : pay = PAY m d L) (row : Fin 2 → Nat)
    (hk : ∀ a, row a + S1x128.size a ≤ S26x128.size a) (hq : (Rect.unit (s := S26x128) row S1x128.size hk).shape.Squeezes S128) :
    ∀ x, (View.read (Elt F) (((sV).slice (Rect.unit (s := S26x128) row S1x128.size hk) (fun _ => rfl)).squeeze S128 hq).view
      ((sV).view.writes (Elt F) g0 [⟨Rect.whole cc0_scratch0.ty.shape, pay⟩]) x).toNat < 100000 := by
  subst hpay; intro x
  have e : View.read (Elt F) (((sV).slice (Rect.unit (s := S26x128) row S1x128.size hk) (fun _ => rfl)).squeeze S128 hq).view
        ((sV).view.writes (Elt F) g0 [⟨Rect.whole cc0_scratch0.ty.shape, PAY m d L⟩]) x
      = View.read (Elt F) (sV).view ((sV).view.writes (Elt F) g0 [⟨Rect.whole cc0_scratch0.ty.shape, PAY m d L⟩])
          ((Rect.unit (s := S26x128) row S1x128.size hk).emb ((Shape.reshapeEquiv hq.numel_eq) x)) := by
    rw [View.read_apply, View.read_apply]; rfl
  rw [e, View.read_writes_whole, PAY_apply]
  exact hpre d _

/-- What a gather of chunk `c` leaves in a row buffer: row `r` is the table's row named by the index word at
    (c, 128 w + r) of the transposed index array. -/
def GBuf (c : Nat) : S128x128.Idx → Elt F .f32 :=
  fun y => m (tLoc d) (ix2 (Cert.Spec.rowOf (V0 m d (ix2 (n0 := 26) (n1 := 4096) ⟨c % 26, Nat.mod_lt _ (by decide)⟩
      ⟨128 * (wL L).val + (y 0).val, by
        have h1 := (wL L).isLt
        have h2 : (y 0).val < 128 := (y 0).isLt
        omega⟩))) (show Fin 128 from y 1))

/-- Chunk number `4 k + i`. -/
def ck (k : Nat) (hk : k ≤ 5) (i : Nat) (hi : i < 4) : Fin 26 := ⟨4 * k + i, by omega⟩

/-- The last six chunk numbers. -/
abbrev c20 : Fin 26 := ⟨20, by decide⟩
abbrev c21 : Fin 26 := ⟨21, by decide⟩
abbrev c22 : Fin 26 := ⟨22, by decide⟩
abbrev c23 : Fin 26 := ⟨23, by decide⟩
abbrev c24 : Fin 26 := ⟨24, by decide⟩
abbrev c25 : Fin 26 := ⟨25, by decide⟩
abbrev c00 : Fin 26 := ⟨0, by decide⟩
abbrev c01 : Fin 26 := ⟨1, by decide⟩
abbrev c02 : Fin 26 := ⟨2, by decide⟩
abbrev c03 : Fin 26 := ⟨3, by decide⟩

/-! ## The rows of the index scratch -/

omit [FloatOps F] in
theorem rowSet_eq (row : Fin 2 → Nat) (hk : ∀ a, row a + S1x128.size a ≤ S26x128.size a) :
    rowSet row hk = (Rect.unit (s := S26x128) row S1x128.size hk).set := by
  show (((View.whole (cc0_scratch0 : Ref sig .scVector)).slice (Rect.unit (s := S26x128) row S1x128.size hk)).reshape S128 squeezes_S1x128_S128.numel_eq).set = _
  rw [View.set_reshape, View.set_slice]; exact Finset.map_refl

omit [FloatOps F] in
theorem mem_rowSet (c : Nat) (hc : c < 26) (x : S26x128.Idx) : x ∈ rowSet ![c, 0] (rowInb c hc) ↔ (x 0).val = c := by
  rw [rowSet_eq, Rect.mem_set_unit]
  constructor
  · intro h; have := h 0; simp only [Matrix.cons_val_zero] at this
    have h2 : (S1x128.size 0) = 1 := rfl
    omega
  · intro h a
    match a with
    | ⟨0, _⟩ => show c ≤ (x 0).val ∧ (x 0).val < c + 1; omega
    | ⟨1, _⟩ => show 0 ≤ (x 1).val ∧ (x 1).val < 0 + 128; have := (x 1).isLt; exact ⟨Nat.zero_le _, by simpa using this⟩

omit [FloatOps F] in
theorem rows_disjoint : ∀ c ∈ (Finset.univ : Finset (Fin 26)), ∀ c' ∈ (Finset.univ : Finset (Fin 26)), c ≠ c' →
    Disjoint (rowSet ![c.val, 0] (rowInb c.val c.isLt)) (rowSet ![c'.val, 0] (rowInb c'.val c'.isLt)) := by
  intro c _ c' _ hne
  refine Finset.disjoint_left.mpr fun x h1 h2 => hne (Fin.ext ?_)
  have e1 := (mem_rowSet _ c.isLt x).mp h1
  have e2 := (mem_rowSet _ c'.isLt x).mp h2
  omega

omit [FloatOps F] in
theorem rows_cover : (Finset.univ : Finset (Fin 26)).biUnion (fun c => rowSet ![c.val, 0] (rowInb c.val c.isLt)) = Finset.univ := by
  refine Finset.eq_univ_iff_forall.mpr fun x => ?_
  have hx : (x 0).val < 26 := (x 0).isLt
  exact Finset.mem_biUnion.mpr ⟨⟨(x 0).val, hx⟩, Finset.mem_univ _, (mem_rowSet _ hx x).mpr rfl⟩

/-- Row `c` of the index scratch, held after the fetch. -/
abbrev rowPts (c : Fin 26) : sProp 𝕄 :=
  (sV).view.loc (VT d L) ↦[rowSet ![c.val, 0] (rowInb c.val c.isLt)]{fullShare} SCONT m d L

omit [FloatOps F] in
/-- The index scratch whole is its 26 rows. -/
theorem sPts_rows (f : Buf (Elt F) ((sV).view.loc (VT d L))) :
    ((sV).view.loc (VT d L) ↦[(sV).view.set]{fullShare} f : sProp 𝕄)
      = bigSep Finset.univ fun c : Fin 26 => (sV).view.loc (VT d L) ↦[rowSet ![c.val, 0] (rowInb c.val c.isLt)]{fullShare} f := by
  rw [← pointsTo_biUnion Finset.univ (ℓ := (sV).view.loc (VT d L)) (fun c : Fin 26 => rowSet ![c.val, 0] (rowInb c.val c.isLt)) rows_disjoint, rows_cover]
  have hss : (sV).view.set = Finset.univ := View.set_whole _
  rw [hss]

omit [FloatOps F] in
theorem rowM_congr (row row' : Fin 2 → Nat) (hk) (hk') (e : row = row') : rowM row hk = rowM row' hk' := by subst e; rfl

/-! ## The chunks of the flat result -/

omit [FloatOps F] in
theorem set_oBlk (off : Fin 2 → Nat) (h) (c : Fin 26) (hoff : off = ![4096 * c.val + 128 * (wL L).val, 0]) :
    (oBlk off h).view.set = oSet (wL L) c := by
  subst hoff
  show ((View.whole (main_v1_scv : Ref sig .scVector)).slice (Rect.unit (s := S106496x128) _ S128x128.size h)).set = _
  rw [View.set_slice]; exact Finset.map_refl

omit [FloatOps F] in
theorem pts_oBlk (off : Fin 2 → Nat) (h) (c : Fin 26) (hoff : off = ![4096 * c.val + 128 * (wL L).val, 0]) (f : Buf (Elt F) (oLoc d)) :
    ((oBlk off h).view.loc (VT d L) ↦[(oBlk off h).view.set]{fullShare} f : sProp 𝕄) = oLoc d ↦[oSet (wL L) c]{fullShare} f := by
  rw [set_oBlk L off h c hoff]

omit [FloatOps F] in
theorem off2_eq (k : Fin k0_t1_loop.trips) (r : Fin 4) (hk : k.val ≤ 5) :
    k0_off2 L k (BitVec.ofNat 32 r.val) = ![4096 * (ck k.val hk r.val r.isLt).val + 128 * (wL L).val, 0] := by
  rw [k0_off2_eq]
  have e : 16384 * k.val + 4096 * r.val + 256 * (L 1).val + 128 * (L 0).val = 4096 * (ck k.val hk r.val r.isLt).val + 128 * (wL L).val := by
    show _ = 4096 * (4 * k.val + r.val) + 128 * (2 * (L 1).val + (L 0).val); omega
  rw [e]

omit [FloatOps F] in
theorem off11_eq (r : Fin 2) :
    k0_off11 L (BitVec.ofNat 32 (98304 + 4096 * r.val)) = ![4096 * (24 + r.val) + 128 * (wL L).val, 0] := by
  rw [k0_off11_eq]
  have e : 4096 * r.val + 256 * (L 1).val + 128 * (L 0).val + 98304 = 4096 * (24 + r.val) + 128 * (wL L).val := by
    show _ = 4096 * (24 + r.val) + 128 * (2 * (L 1).val + (L 0).val); omega
  rw [e]

/-! ## The table's read tokens -/

omit [FloatOps F] in
theorem xSl_set : ((xSl).view.set : Finset S100000x128.Idx) = Finset.univ := by
  show ((View.whole (main_arg0_scv : Ref sig .scVector)).slice (Rect.unit (s := S100000x128) ![0, 0] S100000x128.size inb_S100000x128_S100000x128_0_0)).set = _
  rw [View.set_slice]
  refine Finset.eq_univ_iff_forall.mpr fun x => ?_
  refine Finset.mem_map.mpr ⟨x, Rect.mem_set_unit.mpr fun a => ?_, rfl⟩
  match a with
  | ⟨0, _⟩ => exact ⟨Nat.zero_le _, by have h : (x 0).val < 100000 := (x 0).isLt; show (x 0).val < 0 + 100000; omega⟩
  | ⟨1, _⟩ => exact ⟨Nat.zero_le _, by have h : (x 1).val < 128 := (x 1).isLt; show (x 1).val < 0 + 128; omega⟩

omit [FloatOps F] in
/-- A read token of the table held by the elements of the body's whole slice of it is the token held whole. -/
theorem xtok_univ (qq : PosShare TreeShare) (f : Buf (Elt F) ((xV).view.loc (VT d L))) :
    ((xV).view.loc (VT d L) ↦[(xSl).view.set]{qq} f : sProp 𝕄) = ((xV).view.loc (VT d L) ↦{qq} f) := by
  rw [xSl_set]

/-! ## What the copies carry -/

omit [FloatOps F] in
/-- The fetched index block at (c, j) is the transposed index array at (c, 128 w + j). -/
theorem PAY_ix (c : Fin 26) (j : Fin 128) :
    PAY m d L (ix2 c j) = V0 m d (ix2 (n0 := 26) (n1 := 4096) c ⟨128 * (wL L).val + j.val, by have h1 := (wL L).isLt; have := j.isLt; omega⟩) := by
  rw [PAY_apply]
  congr 1
  funext a
  match a with
  | ⟨0, _⟩ =>
    apply Fin.ext
    show k0_off1 L 0 + 1 * c.val = c.val
    rw [k0_off1_eq]; simp
  | ⟨1, _⟩ =>
    apply Fin.ext
    show k0_off1 L 1 + 1 * j.val = 128 * (wL L).val + j.val
    rw [k0_off1_eq]
    show 256 * (L 1).val + 128 * (L 0).val + 1 * j.val = 128 * (2 * (L 1).val + (L 0).val) + j.val
    omega

omit [FloatOps F] in
theorem squeeze_lane : ∀ y : S128.Idx, ((Shape.reshapeEquiv (s := S1x128) (s' := S128) squeezes_S1x128_S128.numel_eq) y 1).val = (y 0).val := by
  decide +kernel

omit [FloatOps F] in
theorem squeeze_row : ∀ y : S128.Idx, ((Shape.reshapeEquiv (s := S1x128) (s' := S128) squeezes_S1x128_S128.numel_eq) y 0).val = 0 := by
  decide +kernel

/-- Word `j` of row `c` of the index scratch after the fetch. -/
theorem row_read (c : Nat) (hc : c < 26) (j : S128.Idx) :
    (rowM ![c, 0] (rowInb c hc)).view.read (Elt F) (SCONT m d L) j = PAY m d L (ix2 (n0 := 26) (n1 := 128) ⟨c, hc⟩ (show Fin 128 from j 0)) := by
  have e : (rowM ![c, 0] (rowInb c hc)).view.read (Elt F) (SCONT m d L) j
      = View.read (Elt F) (sV).view (SCONT m d L)
          ((Rect.unit (s := S26x128) ![c, 0] S1x128.size (rowInb c hc)).emb ((Shape.reshapeEquiv squeezes_S1x128_S128.numel_eq) j)) := by
    rw [View.read_apply, View.read_apply]; rfl
  rw [e, View.read_writes_whole]
  congr 1
  funext a
  match a with
  | ⟨0, _⟩ =>
    apply Fin.ext
    have h := squeeze_row j
    change c + 1 * ((Shape.reshapeEquiv (s := S1x128) (s' := S128) squeezes_S1x128_S128.numel_eq) j 0).val = c
    omega
  | ⟨1, _⟩ =>
    apply Fin.ext
    have h := squeeze_lane j
    change 0 + 1 * ((Shape.reshapeEquiv (s := S1x128) (s' := S128) squeezes_S1x128_S128.numel_eq) j 1).val = (j 0).val
    omega

omit [FloatOps F] in
theorem rowMajor_S128 : ∀ k : Fin 128, ((S128.rowMajor.symm (k.cast (by decide : 128 = S128.numel))) 0).val = k.val := by
  decide +kernel

omit [FloatOps F] in
/-- The table read through the body's whole slice of it is the table. -/
theorem xSl_read (z : S100000x128.Idx) : (xSl).view.read (Elt F) (m (tLoc d)) z = m (tLoc d) z := by
  rw [View.read_apply]
  refine (cast_eq _ _).trans (congrArg (m (tLoc d)) ?_)
  funext a
  match a with
  | ⟨0, _⟩ => apply Fin.ext; show 0 + 1 * (z 0).val = (z 0).val; omega
  | ⟨1, _⟩ => apply Fin.ext; show 0 + 1 * (z 1).val = (z 1).val; omega

/-- The gather's payload at (r, l): entry l of the table's row named by word r of row `c` of the index scratch. -/
theorem gather_at (c : Nat) (hc : c < 26) (hk : ∀ a, (![c, 0] : Fin 2 → Nat) a + S1x128.size a ≤ S26x128.size a)
    (hn : S128.numel = S128x128.size gathers_S100000x128_S128x128.axis')
    (hin : ∀ x, ((rowM ![c, 0] hk).view.read (Elt F) (SCONT m d L) x).toNat < S100000x128.size gathers_S100000x128_S128x128.axis)
    (y : S128x128.Idx) :
    SparseCore.gatherPayload gathers_S100000x128_S128x128 ((xSl).view.read (Elt F) (m (tLoc d)))
        (SparseCore.rows ((rowM ![c, 0] hk).view.read (Elt F) (SCONT m d L)) hn hin) y = GBuf m d L c y := by
  unfold SparseCore.gatherPayload GBuf
  rw [xSl_read]
  congr 1
  funext a
  match a with
  | ⟨0, _⟩ =>
    apply Fin.ext
    have h0 := congrArg Fin.val (Shape.Gathers.idx_axis gathers_S100000x128_S128x128
      (SparseCore.rows ((rowM ![c, 0] hk).view.read (Elt F) (SCONT m d L)) hn hin) y)
    refine h0.trans ?_
    show ((rowM ![c, 0] hk).view.read (Elt F) (SCONT m d L) (S128.rowMajor.symm (Fin.cast hn.symm (y 0)))).toNat = _
    have hlt := hin (S128.rowMajor.symm (Fin.cast hn.symm (y 0)))
    rw [row_read m d L c hc, PAY_ix] at hlt ⊢
    have hc26 : c % 26 = c := Nat.mod_eq_of_lt hc
    have hj : ((S128.rowMajor.symm (Fin.cast hn.symm (y 0))) 0).val = (y 0).val := rowMajor_S128 (y 0)
    have hix : ∀ (p1) (p2) (p3), (ix2 (n0 := 26) (n1 := 4096) ⟨c, hc⟩ ⟨128 * (wL L).val + ((S128.rowMajor.symm (Fin.cast hn.symm (y 0))) 0).val, p1⟩ : S26x4096.Idx)
        = ix2 (n0 := 26) (n1 := 4096) ⟨c % 26, p2⟩ ⟨128 * (wL L).val + (y 0).val, p3⟩ := by
      intro p1 p2 p3
      funext b
      match b with
      | ⟨0, _⟩ => exact Fin.ext hc26.symm
      | ⟨1, _⟩ => exact Fin.ext (by show 128 * (wL L).val + _ = 128 * (wL L).val + (y 0).val; rw [hj])
    rw [hix _ (Nat.mod_lt _ (by decide)) (by have h1 := (wL L).isLt; have h2 : (y 0).val < 128 := (y 0).isLt; omega)] at hlt ⊢
    exact (Cert.Spec.rowOf_val_of_lt hlt).symm
  | ⟨1, _⟩ =>
    apply Fin.ext
    exact Shape.Gathers.idx_of_ne gathers_S100000x128_S128x128 _ y 1 (by decide)

/-- What the gather of row `c` of the index scratch writes into row buffer 0. -/
theorem gbuf_eq0 (t : Buf (Elt F) ((b0V).view.loc (VT d L))) (row : Fin 2 → Nat) (hk : ∀ a, row a + S1x128.size a ≤ S26x128.size a)
    (c : Nat) (hc : c < 26) (hrow : row = ![c, 0]) (hn : S128.numel = S128x128.size gathers_S100000x128_S128x128.axis')
    (hin : ∀ x, ((rowM row hk).view.read (Elt F) (SCONT m d L) x).toNat < S100000x128.size gathers_S100000x128_S128x128.axis) :
    (b0V).view.writes (Elt F) t [⟨Rect.whole cc0_scratch1.ty.shape,
      SparseCore.gatherPayload gathers_S100000x128_S128x128 ((xSl).view.read (Elt F) (m (tLoc d)))
        (SparseCore.rows ((rowM row hk).view.read (Elt F) (SCONT m d L)) hn hin)⟩] = GBuf m d L c := by
  subst hrow
  have e1 := View.read_writes_whole (b0V).view t
    (SparseCore.gatherPayload gathers_S100000x128_S128x128 ((xSl).view.read (Elt F) (m (tLoc d)))
        (SparseCore.rows ((rowM ![c, 0] hk).view.read (Elt F) (SCONT m d L)) hn hin))
  rw [show (b0V).view.read (Elt F) = fun f => f from rfl] at e1
  refine e1.trans ?_
  funext y
  exact gather_at m d L c hc hk hn hin y

/-- What the gather of row `c` of the index scratch writes into row buffer 1. -/
theorem gbuf_eq1 (t : Buf (Elt F) ((b1V).view.loc (VT d L))) (row : Fin 2 → Nat) (hk : ∀ a, row a + S1x128.size a ≤ S26x128.size a)
    (c : Nat) (hc : c < 26) (hrow : row = ![c, 0]) (hn : S128.numel = S128x128.size gathers_S100000x128_S128x128.axis')
    (hin : ∀ x, ((rowM row hk).view.read (Elt F) (SCONT m d L) x).toNat < S100000x128.size gathers_S100000x128_S128x128.axis) :
    (b1V).view.writes (Elt F) t [⟨Rect.whole cc0_scratch2.ty.shape,
      SparseCore.gatherPayload gathers_S100000x128_S128x128 ((xSl).view.read (Elt F) (m (tLoc d)))
        (SparseCore.rows ((rowM row hk).view.read (Elt F) (SCONT m d L)) hn hin)⟩] = GBuf m d L c := by
  subst hrow
  have e1 := View.read_writes_whole (b1V).view t
    (SparseCore.gatherPayload gathers_S100000x128_S128x128 ((xSl).view.read (Elt F) (m (tLoc d)))
        (SparseCore.rows ((rowM ![c, 0] hk).view.read (Elt F) (SCONT m d L)) hn hin))
  rw [show (b1V).view.read (Elt F) = fun f => f from rfl] at e1
  refine e1.trans ?_
  funext y
  exact gather_at m d L c hc hk hn hin y

/-- What the gather of row `c` of the index scratch writes into row buffer 2. -/
theorem gbuf_eq2 (t : Buf (Elt F) ((b2V).view.loc (VT d L))) (row : Fin 2 → Nat) (hk : ∀ a, row a + S1x128.size a ≤ S26x128.size a)
    (c : Nat) (hc : c < 26) (hrow : row = ![c, 0]) (hn : S128.numel = S128x128.size gathers_S100000x128_S128x128.axis')
    (hin : ∀ x, ((rowM row hk).view.read (Elt F) (SCONT m d L) x).toNat < S100000x128.size gathers_S100000x128_S128x128.axis) :
    (b2V).view.writes (Elt F) t [⟨Rect.whole cc0_scratch3.ty.shape,
      SparseCore.gatherPayload gathers_S100000x128_S128x128 ((xSl).view.read (Elt F) (m (tLoc d)))
        (SparseCore.rows ((rowM row hk).view.read (Elt F) (SCONT m d L)) hn hin)⟩] = GBuf m d L c := by
  subst hrow
  have e1 := View.read_writes_whole (b2V).view t
    (SparseCore.gatherPayload gathers_S100000x128_S128x128 ((xSl).view.read (Elt F) (m (tLoc d)))
        (SparseCore.rows ((rowM ![c, 0] hk).view.read (Elt F) (SCONT m d L)) hn hin))
  rw [show (b2V).view.read (Elt F) = fun f => f from rfl] at e1
  refine e1.trans ?_
  funext y
  exact gather_at m d L c hc hk hn hin y

/-- What the gather of row `c` of the index scratch writes into row buffer 3. -/
theorem gbuf_eq3 (t : Buf (Elt F) ((b3V).view.loc (VT d L))) (row : Fin 2 → Nat) (hk : ∀ a, row a + S1x128.size a ≤ S26x128.size a)
    (c : Nat) (hc : c < 26) (hrow : row = ![c, 0]) (hn : S128.numel = S128x128.size gathers_S100000x128_S128x128.axis')
    (hin : ∀ x, ((rowM row hk).view.read (Elt F) (SCONT m d L) x).toNat < S100000x128.size gathers_S100000x128_S128x128.axis) :
    (b3V).view.writes (Elt F) t [⟨Rect.whole cc0_scratch4.ty.shape,
      SparseCore.gatherPayload gathers_S100000x128_S128x128 ((xSl).view.read (Elt F) (m (tLoc d)))
        (SparseCore.rows ((rowM row hk).view.read (Elt F) (SCONT m d L)) hn hin)⟩] = GBuf m d L c := by
  subst hrow
  have e1 := View.read_writes_whole (b3V).view t
    (SparseCore.gatherPayload gathers_S100000x128_S128x128 ((xSl).view.read (Elt F) (m (tLoc d)))
        (SparseCore.rows ((rowM ![c, 0] hk).view.read (Elt F) (SCONT m d L)) hn hin))
  rw [show (b3V).view.read (Elt F) = fun f => f from rfl] at e1
  refine e1.trans ?_
  funext y
  exact gather_at m d L c hc hk hn hin y

/-! ## Families over the 26 chunks -/

/-- The chunks outside `[lo, hi)`, and those inside. -/
def Rk (lo hi : Nat) : Finset (Fin 26) := Finset.univ.filter fun c => ¬ (lo ≤ c.val ∧ c.val < hi)
def Ik (lo hi : Nat) : Finset (Fin 26) := Finset.univ.filter fun c => lo ≤ c.val ∧ c.val < hi

omit [FloatOps F] in
theorem Rk_self (n : Nat) : Rk n n = Finset.univ := by
  unfold Rk; ext c; simp only [Finset.mem_filter, Finset.mem_univ, true_and, iff_true]; omega

omit [FloatOps F] in
/-- The chunks outside `[lo, mid)` are those of `[mid, hi)` and those outside `[lo, hi)`. -/
theorem bigSep_Rk_hi (Φ : Fin 26 → sProp 𝕄) (lo mid hi : Nat) (h1 : lo ≤ mid) (h2 : mid ≤ hi) :
    bigSep (Rk lo mid) Φ = iprop(bigSep (Ik mid hi) Φ ∗ bigSep (Rk lo hi) Φ) := by
  have hsub : Ik mid hi ⊆ Rk lo mid := by
    intro c hc; simp only [Ik, Rk, Finset.mem_filter, Finset.mem_univ, true_and] at hc ⊢; omega
  have hd : Rk lo mid \ Ik mid hi = Rk lo hi := by
    ext c; simp only [Ik, Rk, Finset.mem_sdiff, Finset.mem_filter, Finset.mem_univ, true_and]; omega
  rw [bigSep_sdiff_split hsub, hd]; rfl

omit [FloatOps F] in
/-- The chunks outside `[mid, hi)` are those of `[lo, mid)` and those outside `[lo, hi)`. -/
theorem bigSep_Rk_lo (Φ : Fin 26 → sProp 𝕄) (lo mid hi : Nat) (h1 : lo ≤ mid) (h2 : mid ≤ hi) :
    bigSep (Rk mid hi) Φ = iprop(bigSep (Ik lo mid) Φ ∗ bigSep (Rk lo hi) Φ) := by
  have hsub : Ik lo mid ⊆ Rk mid hi := by
    intro c hc; simp only [Ik, Rk, Finset.mem_filter, Finset.mem_univ, true_and] at hc ⊢; omega
  have hd : Rk mid hi \ Ik lo mid = Rk lo hi := by
    ext c; simp only [Ik, Rk, Finset.mem_sdiff, Finset.mem_filter, Finset.mem_univ, true_and]; omega
  rw [bigSep_sdiff_split hsub, hd]; rfl

omit [FloatOps F] in
theorem bigSep_Ik4 (Φ : Fin 26 → sProp 𝕄) (n : Nat) (a b c e : Fin 26) (ha : a.val = n) (hb : b.val = n + 1) (hc : c.val = n + 2) (he : e.val = n + 3) :
    bigSep (Ik n (n + 4)) Φ = iprop(Φ a ∗ Φ b ∗ Φ c ∗ Φ e) := by
  have hs : Ik n (n + 4) = insert a (insert b (insert c {e})) := by
    ext x; simp only [Ik, Finset.mem_filter, Finset.mem_univ, true_and, Finset.mem_insert, Finset.mem_singleton, Fin.ext_iff]; omega
  rw [hs, bigSep_insert (by simp only [Finset.mem_insert, Finset.mem_singleton, Fin.ext_iff]; omega),
    bigSep_insert (by simp only [Finset.mem_insert, Finset.mem_singleton, Fin.ext_iff]; omega),
    bigSep_insert (by simp only [Finset.mem_singleton, Fin.ext_iff]; omega), bigSep_singleton]; rfl

omit [FloatOps F] in
theorem bigSep_Ik2 (Φ : Fin 26 → sProp 𝕄) (n : Nat) (a b : Fin 26) (ha : a.val = n) (hb : b.val = n + 1) :
    bigSep (Ik n (n + 2)) Φ = iprop(Φ a ∗ Φ b) := by
  have hs : Ik n (n + 2) = insert a {b} := by
    ext x; simp only [Ik, Finset.mem_filter, Finset.mem_univ, true_and, Finset.mem_insert, Finset.mem_singleton, Fin.ext_iff]; omega
  rw [hs, bigSep_insert (by simp only [Finset.mem_singleton, Fin.ext_iff]; omega), bigSep_singleton]; rfl

/-! ## The loop's invariant -/

/-- Chunk `c` of the subcore's block in the flat result. -/
abbrev Pc (fo : Buf (Elt F) (oLoc d)) (c : Fin 26) : sProp 𝕄 := oLoc d ↦[oSet (wL L) c]{fullShare} fo

/-- The chunks of the flat result: those below `n` at the look-up, the others as they were. -/
abbrev OutPhi (fo : Buf (Elt F) (oLoc d)) (n : Nat) (c : Fin 26) : sProp 𝕄 := Pc d L (if c.val < n then GG m d else fo) c

omit [FloatOps F] in
theorem OutPhi_congr (fo : Buf (Elt F) (oLoc d)) (n n' lo hi : Nat) (h : ∀ c : Nat, ¬ (lo ≤ c ∧ c < hi) → (c < n ↔ c < n')) :
    bigSep (Rk lo hi) (OutPhi m d L fo n) = bigSep (Rk lo hi) (OutPhi m d L fo n') := by
  refine bigSep_congr fun c hc => ?_
  simp only [Rk, Finset.mem_filter, Finset.mem_univ, true_and] at hc
  have := h c.val hc
  unfold OutPhi
  by_cases hn : c.val < n
  · rw [if_pos hn, if_pos (this.mp hn)]
  · rw [if_neg hn, if_neg (fun h' => hn (this.mpr h'))]

/-- The gather of chunk `c` in flight into row buffer `i`, holding row `c` of the index scratch and read token `i` of the table. -/
abbrev GFl0 (q : PosShare TreeShare) (c : Nat) (hc : c < 26) : sProp 𝕄 :=
  Transfers.Flight countersEmb (VT d L) (SemLoc.dma cc0_scratch5.sem) (default : HIx 1) 524288
      iprop((((b0V).view.loc (VT d L) ↦[(b0V).view.set]{fullShare} GBuf m d L (c))
          ∗ ((sV).view.loc (VT d L) ↦[rowSet ![c, 0] (rowInb c hc)]{fullShare} SCONT m d L))
        ∗ ((xV).view.loc (VT d L) ↦[(xSl).view.set]{Transfers.shareTokN q 0} m (tLoc d)))
abbrev GFl1 (q : PosShare TreeShare) (c : Nat) (hc : c < 26) : sProp 𝕄 :=
  Transfers.Flight countersEmb (VT d L) (SemLoc.dma cc0_scratch6.sem) (default : HIx 1) 524288
      iprop((((b1V).view.loc (VT d L) ↦[(b1V).view.set]{fullShare} GBuf m d L (c))
          ∗ ((sV).view.loc (VT d L) ↦[rowSet ![c, 0] (rowInb c hc)]{fullShare} SCONT m d L))
        ∗ ((xV).view.loc (VT d L) ↦[(xSl).view.set]{Transfers.shareTokN q 1} m (tLoc d)))
abbrev GFl2 (q : PosShare TreeShare) (c : Nat) (hc : c < 26) : sProp 𝕄 :=
  Transfers.Flight countersEmb (VT d L) (SemLoc.dma cc0_scratch7.sem) (default : HIx 1) 524288
      iprop((((b2V).view.loc (VT d L) ↦[(b2V).view.set]{fullShare} GBuf m d L (c))
          ∗ ((sV).view.loc (VT d L) ↦[rowSet ![c, 0] (rowInb c hc)]{fullShare} SCONT m d L))
        ∗ ((xV).view.loc (VT d L) ↦[(xSl).view.set]{Transfers.shareTokN q 2} m (tLoc d)))
abbrev GFl3 (q : PosShare TreeShare) (c : Nat) (hc : c < 26) : sProp 𝕄 :=
  Transfers.Flight countersEmb (VT d L) (SemLoc.dma cc0_scratch8.sem) (default : HIx 1) 524288
      iprop((((b3V).view.loc (VT d L) ↦[(b3V).view.set]{fullShare} GBuf m d L (c))
          ∗ ((sV).view.loc (VT d L) ↦[rowSet ![c, 0] (rowInb c hc)]{fullShare} SCONT m d L))
        ∗ ((xV).view.loc (VT d L) ↦[(xSl).view.set]{Transfers.shareTokN q 3} m (tLoc d)))

/-- Before trip `k` of the loop (k ≤ 5): the four gathers of chunks 4k … 4k+3 are in flight; the rows of the index scratch
    outside those four are held; the four write-out cells are free; the chunks below 4k are written. -/
abbrev invA (q : PosShare TreeShare) (fo : Buf (Elt F) (oLoc d)) (O : CellTallies nD τ sig (HIx 1)) (W : Waits sig (HIx 1)) (k : Nat) (hk : k ≤ 5) : sProp 𝕄 :=
  iprop(Transfers.MayWaits (VT d L) (default : HIx 1) O
    ∗ GFl0 m d L q (4 * k + 0) (by omega) ∗ GFl1 m d L q (4 * k + 1) (by omega) ∗ GFl2 m d L q (4 * k + 2) (by omega) ∗ GFl3 m d L q (4 * k + 3) (by omega)
    ∗ bigSep (Rk (4 * k) (4 * k + 4)) (rowPts m d L)
    ∗ semVal (VT d L, SemLoc.dma cc0_scratch9.sem) 0 ∗ semVal (VT d L, SemLoc.dma cc0_scratch10.sem) 0
    ∗ semVal (VT d L, SemLoc.dma cc0_scratch11.sem) 0 ∗ semVal (VT d L, SemLoc.dma cc0_scratch12.sem) 0
    ∗ bigSep Finset.univ (OutPhi m d L fo (4 * k))
    ∗ ∃ W', ⌜∀ p ∈ W', p ∈ W ∨ p.2 = none⌝ ∗ owes (VT d L) O W')

theorem rowPts_body (row : Fin 2 → Nat) (hk : ∀ a, row a + S1x128.size a ≤ S26x128.size a) (c : Fin 26) (e : row = ![c.val, 0]) :
    rowPts m d L c = ((rowM row hk).view.loc (VT d L) ↦[(rowM row hk).view.set]{fullShare} SCONT m d L : sProp 𝕄) := by
  subst e; rfl

omit [FloatOps F] in
theorem OutPhi_before (fo : Buf (Elt F) (oLoc d)) (n : Nat) (c : Fin 26) (h : ¬ c.val < n) : OutPhi m d L fo n c = Pc d L fo c := by
  unfold OutPhi; rw [if_neg h]
omit [FloatOps F] in
theorem OutPhi_done (fo : Buf (Elt F) (oLoc d)) (n : Nat) (c : Fin 26) (h : c.val < n) : OutPhi m d L fo n c = Pc d L (GG m d) c := by
  unfold OutPhi; rw [if_pos h]

omit [FloatOps F] in
theorem off2_eq' (k : Fin k0_t1_loop.trips) (hk : k.val ≤ 5) (w : BitVec 32) (r : Nat) (hr : r < 4) (hw : w = BitVec.ofNat 32 r) :
    k0_off2 L k w = ![4096 * (ck k.val hk r hr).val + 128 * (wL L).val, 0] := by
  subst hw; exact off2_eq L k ⟨r, hr⟩ hk

omit [FloatOps F] in
theorem off4_eq (k : Fin k0_t1_loop.trips) (hk : k.val + 1 ≤ 5) : k0_off4 k = ![(ck (k.val + 1) hk 0 (by decide)).val, 0] := by
  rw [k0_off4_eq]; show ![4 * k.val + 4, 0] = ![4 * (k.val + 1) + 0, 0]; rw [show 4 * k.val + 4 = 4 * (k.val + 1) + 0 by omega]
omit [FloatOps F] in
theorem off6_eq (k : Fin k0_t1_loop.trips) (hk : k.val + 1 ≤ 5) : k0_off6 k = ![(ck (k.val + 1) hk 1 (by decide)).val, 0] := by
  rw [k0_off6_eq]; show ![4 * k.val + 5, 0] = ![4 * (k.val + 1) + 1, 0]; rw [show 4 * k.val + 5 = 4 * (k.val + 1) + 1 by omega]
omit [FloatOps F] in
theorem off8_eq (k : Fin k0_t1_loop.trips) (hk : k.val + 1 ≤ 5) : k0_off8 k = ![(ck (k.val + 1) hk 2 (by decide)).val, 0] := by
  rw [k0_off8_eq]; show ![4 * k.val + 6, 0] = ![4 * (k.val + 1) + 2, 0]; rw [show 4 * k.val + 6 = 4 * (k.val + 1) + 2 by omega]
omit [FloatOps F] in
theorem off10_eq (k : Fin k0_t1_loop.trips) (hk : k.val + 1 ≤ 5) : k0_off10 k = ![(ck (k.val + 1) hk 3 (by decide)).val, 0] := by
  rw [k0_off10_eq]; show ![4 * k.val + 7, 0] = ![4 * (k.val + 1) + 3, 0]; rw [show 4 * k.val + 7 = 4 * (k.val + 1) + 3 by omega]

/-! ## The run's spellings and the invariant's -/

/-- The gather the run issues into row buffer 0 is the invariant's. -/
theorem gfl_canon0 (q : PosShare TreeShare) (t : Buf (Elt F) ((b0V).view.loc (VT d L))) (row : Fin 2 → Nat)
    (hk : ∀ a, row a + S1x128.size a ≤ S26x128.size a) (c : Nat) (hc : c < 26) (hrow : row = ![c, 0])
    (hn : S128.numel = S128x128.size gathers_S100000x128_S128x128.axis')
    (hin : ∀ x, ((rowM row hk).view.read (Elt F) (SCONT m d L) x).toNat < S100000x128.size gathers_S100000x128_S128x128.axis) :
    (iprop((((b0V).view.loc (VT d L) ↦[(b0V).view.set]{fullShare}
            (b0V).view.writes (Elt F) t [⟨Rect.whole cc0_scratch1.ty.shape,
              SparseCore.gatherPayload gathers_S100000x128_S128x128 ((xSl).view.read (Elt F) (m (tLoc d)))
                (SparseCore.rows ((rowM row hk).view.read (Elt F) (SCONT m d L)) hn hin)⟩])
          ∗ ((rowM row hk).view.loc (VT d L) ↦[(rowM row hk).view.set]{fullShare} SCONT m d L))
        ∗ ((xV).view.loc (VT d L) ↦[(xSl).view.set]{Transfers.shareTokN q 0} m (tLoc d))) : sProp 𝕄)
      ⊢ iprop((((b0V).view.loc (VT d L) ↦[(b0V).view.set]{fullShare} GBuf m d L c)
          ∗ ((sV).view.loc (VT d L) ↦[rowSet ![c, 0] (rowInb c hc)]{fullShare} SCONT m d L))
        ∗ ((xV).view.loc (VT d L) ↦[(xSl).view.set]{Transfers.shareTokN q 0} m (tLoc d))) := by
  subst hrow
  rw [gbuf_eq0 m d L t ![c, 0] hk c hc rfl hn hin]

/-- The gather the run issues into row buffer 1 is the invariant's. -/
theorem gfl_canon1 (q : PosShare TreeShare) (t : Buf (Elt F) ((b1V).view.loc (VT d L))) (row : Fin 2 → Nat)
    (hk : ∀ a, row a + S1x128.size a ≤ S26x128.size a) (c : Nat) (hc : c < 26) (hrow : row = ![c, 0])
    (hn : S128.numel = S128x128.size gathers_S100000x128_S128x128.axis')
    (hin : ∀ x, ((rowM row hk).view.read (Elt F) (SCONT m d L) x).toNat < S100000x128.size gathers_S100000x128_S128x128.axis) :
    (iprop((((b1V).view.loc (VT d L) ↦[(b1V).view.set]{fullShare}
            (b1V).view.writes (Elt F) t [⟨Rect.whole cc0_scratch2.ty.shape,
              SparseCore.gatherPayload gathers_S100000x128_S128x128 ((xSl).view.read (Elt F) (m (tLoc d)))
                (SparseCore.rows ((rowM row hk).view.read (Elt F) (SCONT m d L)) hn hin)⟩])
          ∗ ((rowM row hk).view.loc (VT d L) ↦[(rowM row hk).view.set]{fullShare} SCONT m d L))
        ∗ ((xV).view.loc (VT d L) ↦[(xSl).view.set]{Transfers.shareTokN q 1} m (tLoc d))) : sProp 𝕄)
      ⊢ iprop((((b1V).view.loc (VT d L) ↦[(b1V).view.set]{fullShare} GBuf m d L c)
          ∗ ((sV).view.loc (VT d L) ↦[rowSet ![c, 0] (rowInb c hc)]{fullShare} SCONT m d L))
        ∗ ((xV).view.loc (VT d L) ↦[(xSl).view.set]{Transfers.shareTokN q 1} m (tLoc d))) := by
  subst hrow
  rw [gbuf_eq1 m d L t ![c, 0] hk c hc rfl hn hin]

/-- The gather the run issues into row buffer 2 is the invariant's. -/
theorem gfl_canon2 (q : PosShare TreeShare) (t : Buf (Elt F) ((b2V).view.loc (VT d L))) (row : Fin 2 → Nat)
    (hk : ∀ a, row a + S1x128.size a ≤ S26x128.size a) (c : Nat) (hc : c < 26) (hrow : row = ![c, 0])
    (hn : S128.numel = S128x128.size gathers_S100000x128_S128x128.axis')
    (hin : ∀ x, ((rowM row hk).view.read (Elt F) (SCONT m d L) x).toNat < S100000x128.size gathers_S100000x128_S128x128.axis) :
    (iprop((((b2V).view.loc (VT d L) ↦[(b2V).view.set]{fullShare}
            (b2V).view.writes (Elt F) t [⟨Rect.whole cc0_scratch3.ty.shape,
              SparseCore.gatherPayload gathers_S100000x128_S128x128 ((xSl).view.read (Elt F) (m (tLoc d)))
                (SparseCore.rows ((rowM row hk).view.read (Elt F) (SCONT m d L)) hn hin)⟩])
          ∗ ((rowM row hk).view.loc (VT d L) ↦[(rowM row hk).view.set]{fullShare} SCONT m d L))
        ∗ ((xV).view.loc (VT d L) ↦[(xSl).view.set]{Transfers.shareTokN q 2} m (tLoc d))) : sProp 𝕄)
      ⊢ iprop((((b2V).view.loc (VT d L) ↦[(b2V).view.set]{fullShare} GBuf m d L c)
          ∗ ((sV).view.loc (VT d L) ↦[rowSet ![c, 0] (rowInb c hc)]{fullShare} SCONT m d L))
        ∗ ((xV).view.loc (VT d L) ↦[(xSl).view.set]{Transfers.shareTokN q 2} m (tLoc d))) := by
  subst hrow
  rw [gbuf_eq2 m d L t ![c, 0] hk c hc rfl hn hin]

/-- The gather the run issues into row buffer 3 is the invariant's. -/
theorem gfl_canon3 (q : PosShare TreeShare) (t : Buf (Elt F) ((b3V).view.loc (VT d L))) (row : Fin 2 → Nat)
    (hk : ∀ a, row a + S1x128.size a ≤ S26x128.size a) (c : Nat) (hc : c < 26) (hrow : row = ![c, 0])
    (hn : S128.numel = S128x128.size gathers_S100000x128_S128x128.axis')
    (hin : ∀ x, ((rowM row hk).view.read (Elt F) (SCONT m d L) x).toNat < S100000x128.size gathers_S100000x128_S128x128.axis) :
    (iprop((((b3V).view.loc (VT d L) ↦[(b3V).view.set]{fullShare}
            (b3V).view.writes (Elt F) t [⟨Rect.whole cc0_scratch4.ty.shape,
              SparseCore.gatherPayload gathers_S100000x128_S128x128 ((xSl).view.read (Elt F) (m (tLoc d)))
                (SparseCore.rows ((rowM row hk).view.read (Elt F) (SCONT m d L)) hn hin)⟩])
          ∗ ((rowM row hk).view.loc (VT d L) ↦[(rowM row hk).view.set]{fullShare} SCONT m d L))
        ∗ ((xV).view.loc (VT d L) ↦[(xSl).view.set]{Transfers.shareTokN q 3} m (tLoc d))) : sProp 𝕄)
      ⊢ iprop((((b3V).view.loc (VT d L) ↦[(b3V).view.set]{fullShare} GBuf m d L c)
          ∗ ((sV).view.loc (VT d L) ↦[rowSet ![c, 0] (rowInb c hc)]{fullShare} SCONT m d L))
        ∗ ((xV).view.loc (VT d L) ↦[(xSl).view.set]{Transfers.shareTokN q 3} m (tLoc d))) := by
  subst hrow
  rw [gbuf_eq3 m d L t ![c, 0] hk c hc rfl hn hin]

omit [FloatOps F] in
/-- The flat result's function on chunk `c` of block `w`: at the chunk's (r, l) it is the row buffer's (r, l). -/
theorem GG_chunk (c : Fin 26) (y : S128x128.Idx) (x : S106496x128.Idx)
    (h0 : (x 0).val = 4096 * c.val + 128 * (wL L).val + (y 0).val) (h1 : (x 1).val = (y 1).val) :
    GG m d x = GBuf m d L c.val y := by
  have hw := (wL L).isLt
  have hy : (y 0).val < 128 := (y 0).isLt
  have hc := c.isLt
  have hix : ∀ (p1) (p2) (p3) (p4), (ix2 (n0 := 26) (n1 := 4096) ⟨(x 0).val / 4096, p1⟩ ⟨(x 0).val % 4096, p2⟩ : S26x4096.Idx)
      = ix2 (n0 := 26) (n1 := 4096) ⟨c.val % 26, p3⟩ ⟨128 * (wL L).val + (y 0).val, p4⟩ := by
    intro p1 p2 p3 p4
    funext b
    match b with
    | ⟨0, _⟩ => apply Fin.ext; show (x 0).val / 4096 = c.val % 26; rw [h0]; omega
    | ⟨1, _⟩ => apply Fin.ext; show (x 0).val % 4096 = 128 * (wL L).val + (y 0).val; rw [h0]; omega
  unfold GG G GBuf
  rw [hix]
  congr 1
  funext a
  match a with
  | ⟨0, _⟩ => rfl
  | ⟨1, _⟩ => apply Fin.ext; exact h1

omit [FloatOps F] in
/-- Chunk `c` after the copy-out of row buffer 0, holding the gather of chunk `c`: the look-up there. -/
theorem opc_canon0 (off : Fin 2 → Nat) (h) (c : Fin 26) (hoff : off = ![4096 * c.val + 128 * (wL L).val, 0]) (fo : Buf (Elt F) (oLoc d))
    (n : Nat) (hn : n = c.val) :
    ((oBlk off h).view.loc (VT d L) ↦[(oBlk off h).view.set]{fullShare}
        (oBlk off h).view.writes (Elt F) fo [⟨Rect.whole S128x128, ReadAs.same.apply ((b0V).view.read (Elt F) (GBuf m d L n))⟩] : sProp 𝕄)
      = Pc d L (GG m d) c := by
  subst hn
  rw [pts_oBlk d L off h c hoff]
  refine pointsTo_congr fun x hx => ?_
  rw [← set_oBlk L off h c hoff] at hx
  obtain ⟨y, -, rfl⟩ := Finset.mem_map.mp hx
  have e1 := congrFun (View.read_writes_whole (oBlk off h).view fo (ReadAs.same.apply ((b0V).view.read (Elt F) (GBuf m d L c.val)))) y
  rw [View.read_apply] at e1
  have e2 := (cast_eq _ _).symm.trans e1
  refine e2.trans ?_
  show GBuf m d L c.val y = _
  subst hoff
  refine (GG_chunk m d L c y _ ?_ ?_).symm
  · show 4096 * c.val + 128 * (wL L).val + 1 * (y 0).val = _; omega
  · show 0 + 1 * (y 1).val = _; omega

omit [FloatOps F] in
/-- Chunk `c` after the copy-out of row buffer 1, holding the gather of chunk `c`: the look-up there. -/
theorem opc_canon1 (off : Fin 2 → Nat) (h) (c : Fin 26) (hoff : off = ![4096 * c.val + 128 * (wL L).val, 0]) (fo : Buf (Elt F) (oLoc d))
    (n : Nat) (hn : n = c.val) :
    ((oBlk off h).view.loc (VT d L) ↦[(oBlk off h).view.set]{fullShare}
        (oBlk off h).view.writes (Elt F) fo [⟨Rect.whole S128x128, ReadAs.same.apply ((b1V).view.read (Elt F) (GBuf m d L n))⟩] : sProp 𝕄)
      = Pc d L (GG m d) c := by
  subst hn
  rw [pts_oBlk d L off h c hoff]
  refine pointsTo_congr fun x hx => ?_
  rw [← set_oBlk L off h c hoff] at hx
  obtain ⟨y, -, rfl⟩ := Finset.mem_map.mp hx
  have e1 := congrFun (View.read_writes_whole (oBlk off h).view fo (ReadAs.same.apply ((b1V).view.read (Elt F) (GBuf m d L c.val)))) y
  rw [View.read_apply] at e1
  have e2 := (cast_eq _ _).symm.trans e1
  refine e2.trans ?_
  show GBuf m d L c.val y = _
  subst hoff
  refine (GG_chunk m d L c y _ ?_ ?_).symm
  · show 4096 * c.val + 128 * (wL L).val + 1 * (y 0).val = _; omega
  · show 0 + 1 * (y 1).val = _; omega

omit [FloatOps F] in
/-- Chunk `c` after the copy-out of row buffer 2, holding the gather of chunk `c`: the look-up there. -/
theorem opc_canon2 (off : Fin 2 → Nat) (h) (c : Fin 26) (hoff : off = ![4096 * c.val + 128 * (wL L).val, 0]) (fo : Buf (Elt F) (oLoc d))
    (n : Nat) (hn : n = c.val) :
    ((oBlk off h).view.loc (VT d L) ↦[(oBlk off h).view.set]{fullShare}
        (oBlk off h).view.writes (Elt F) fo [⟨Rect.whole S128x128, ReadAs.same.apply ((b2V).view.read (Elt F) (GBuf m d L n))⟩] : sProp 𝕄)
      = Pc d L (GG m d) c := by
  subst hn
  rw [pts_oBlk d L off h c hoff]
  refine pointsTo_congr fun x hx => ?_
  rw [← set_oBlk L off h c hoff] at hx
  obtain ⟨y, -, rfl⟩ := Finset.mem_map.mp hx
  have e1 := congrFun (View.read_writes_whole (oBlk off h).view fo (ReadAs.same.apply ((b2V).view.read (Elt F) (GBuf m d L c.val)))) y
  rw [View.read_apply] at e1
  have e2 := (cast_eq _ _).symm.trans e1
  refine e2.trans ?_
  show GBuf m d L c.val y = _
  subst hoff
  refine (GG_chunk m d L c y _ ?_ ?_).symm
  · show 4096 * c.val + 128 * (wL L).val + 1 * (y 0).val = _; omega
  · show 0 + 1 * (y 1).val = _; omega

omit [FloatOps F] in
/-- Chunk `c` after the copy-out of row buffer 3, holding the gather of chunk `c`: the look-up there. -/
theorem opc_canon3 (off : Fin 2 → Nat) (h) (c : Fin 26) (hoff : off = ![4096 * c.val + 128 * (wL L).val, 0]) (fo : Buf (Elt F) (oLoc d))
    (n : Nat) (hn : n = c.val) :
    ((oBlk off h).view.loc (VT d L) ↦[(oBlk off h).view.set]{fullShare}
        (oBlk off h).view.writes (Elt F) fo [⟨Rect.whole S128x128, ReadAs.same.apply ((b3V).view.read (Elt F) (GBuf m d L n))⟩] : sProp 𝕄)
      = Pc d L (GG m d) c := by
  subst hn
  rw [pts_oBlk d L off h c hoff]
  refine pointsTo_congr fun x hx => ?_
  rw [← set_oBlk L off h c hoff] at hx
  obtain ⟨y, -, rfl⟩ := Finset.mem_map.mp hx
  have e1 := congrFun (View.read_writes_whole (oBlk off h).view fo (ReadAs.same.apply ((b3V).view.read (Elt F) (GBuf m d L c.val)))) y
  rw [View.read_apply] at e1
  have e2 := (cast_eq _ _).symm.trans e1
  refine e2.trans ?_
  show GBuf m d L c.val y = _
  subst hoff
  refine (GG_chunk m d L c y _ ?_ ?_).symm
  · show 4096 * c.val + 128 * (wL L).val + 1 * (y 0).val = _; omega
  · show 0 + 1 * (y 1).val = _; omega

/-! ## The families from trip to trip -/

theorem rowfam_take (k : Nat) (hk : k + 1 ≤ 5) :
    bigSep (Rk (4 * k) (4 * k + 4)) (rowPts m d L)
      ⊢ iprop((rowPts m d L (ck (k + 1) hk 0 (by decide)) ∗ rowPts m d L (ck (k + 1) hk 1 (by decide)) ∗ rowPts m d L (ck (k + 1) hk 2 (by decide))
          ∗ rowPts m d L (ck (k + 1) hk 3 (by decide))) ∗ bigSep (Rk (4 * k) (4 * k + 4 + 4)) (rowPts m d L)) := by
  rw [bigSep_Rk_hi (rowPts m d L) (4 * k) (4 * k + 4) (4 * k + 4 + 4) (by omega) (by omega),
    bigSep_Ik4 (rowPts m d L) (4 * k + 4) (ck (k + 1) hk 0 (by decide)) (ck (k + 1) hk 1 (by decide)) (ck (k + 1) hk 2 (by decide)) (ck (k + 1) hk 3 (by decide))
      (by show 4 * (k + 1) + 0 = _; omega) (by show 4 * (k + 1) + 1 = _; omega) (by show 4 * (k + 1) + 2 = _; omega) (by show 4 * (k + 1) + 3 = _; omega)]

theorem rowfam_step (k : Nat) (hk : k + 1 ≤ 5) :
    iprop((rowPts m d L (ck k (by omega) 0 (by decide)) ∗ rowPts m d L (ck k (by omega) 1 (by decide)) ∗ rowPts m d L (ck k (by omega) 2 (by decide))
          ∗ rowPts m d L (ck k (by omega) 3 (by decide))) ∗ bigSep (Rk (4 * k) (4 * k + 4 + 4)) (rowPts m d L))
      ⊢ bigSep (Rk (4 * (k + 1)) (4 * (k + 1) + 4)) (rowPts m d L) := by
  have e : Rk (4 * (k + 1)) (4 * (k + 1) + 4) = Rk (4 * k + 4) (4 * k + 4 + 4) := by rw [show 4 * (k + 1) = 4 * k + 4 by omega]
  rw [e, bigSep_Rk_lo (rowPts m d L) (4 * k) (4 * k + 4) (4 * k + 4 + 4) (by omega) (by omega),
    bigSep_Ik4 (rowPts m d L) (4 * k) (ck k (by omega) 0 (by decide)) (ck k (by omega) 1 (by decide)) (ck k (by omega) 2 (by decide)) (ck k (by omega) 3 (by decide))
      (Nat.add_zero _) rfl rfl rfl]

omit [FloatOps F] in
theorem outfam_take (fo : Buf (Elt F) (oLoc d)) (k : Nat) (hk : k ≤ 5) :
    bigSep Finset.univ (OutPhi m d L fo (4 * k))
      ⊢ iprop((Pc d L fo (ck k hk 0 (by decide)) ∗ Pc d L fo (ck k hk 1 (by decide)) ∗ Pc d L fo (ck k hk 2 (by decide)) ∗ Pc d L fo (ck k hk 3 (by decide)))
          ∗ bigSep (Rk (4 * k) (4 * k + 4)) (OutPhi m d L fo (4 * k))) := by
  have e : bigSep Finset.univ (OutPhi m d L fo (4 * k)) = bigSep (Rk (4 * k) (4 * k)) (OutPhi m d L fo (4 * k)) := by rw [Rk_self]
  rw [e, bigSep_Rk_hi (OutPhi m d L fo (4 * k)) (4 * k) (4 * k) (4 * k + 4) (le_refl _) (by omega),
    bigSep_Ik4 (OutPhi m d L fo (4 * k)) (4 * k) (ck k hk 0 (by decide)) (ck k hk 1 (by decide)) (ck k hk 2 (by decide)) (ck k hk 3 (by decide))
      (Nat.add_zero _) rfl rfl rfl,
    OutPhi_before m d L fo (4 * k) (ck k hk 0 (by decide)) (by show ¬ (4 * k + 0 < 4 * k); omega),
    OutPhi_before m d L fo (4 * k) (ck k hk 1 (by decide)) (by show ¬ (4 * k + 1 < 4 * k); omega),
    OutPhi_before m d L fo (4 * k) (ck k hk 2 (by decide)) (by show ¬ (4 * k + 2 < 4 * k); omega),
    OutPhi_before m d L fo (4 * k) (ck k hk 3 (by decide)) (by show ¬ (4 * k + 3 < 4 * k); omega)]

omit [FloatOps F] in
theorem outfam_step (fo : Buf (Elt F) (oLoc d)) (k : Nat) (hk : k ≤ 5) :
    iprop((Pc d L (GG m d) (ck k hk 0 (by decide)) ∗ Pc d L (GG m d) (ck k hk 1 (by decide)) ∗ Pc d L (GG m d) (ck k hk 2 (by decide))
          ∗ Pc d L (GG m d) (ck k hk 3 (by decide))) ∗ bigSep (Rk (4 * k) (4 * k + 4)) (OutPhi m d L fo (4 * k)))
      ⊢ bigSep Finset.univ (OutPhi m d L fo (4 * (k + 1))) := by
  have e : bigSep Finset.univ (OutPhi m d L fo (4 * (k + 1))) = bigSep (Rk (4 * k) (4 * k)) (OutPhi m d L fo (4 * (k + 1))) := by rw [Rk_self]
  rw [e, bigSep_Rk_hi (OutPhi m d L fo (4 * (k + 1))) (4 * k) (4 * k) (4 * k + 4) (le_refl _) (by omega),
    bigSep_Ik4 (OutPhi m d L fo (4 * (k + 1))) (4 * k) (ck k hk 0 (by decide)) (ck k hk 1 (by decide)) (ck k hk 2 (by decide)) (ck k hk 3 (by decide))
      (Nat.add_zero _) rfl rfl rfl,
    OutPhi_done m d L fo (4 * (k + 1)) (ck k hk 0 (by decide)) (by show 4 * k + 0 < 4 * (k + 1); omega),
    OutPhi_done m d L fo (4 * (k + 1)) (ck k hk 1 (by decide)) (by show 4 * k + 1 < 4 * (k + 1); omega),
    OutPhi_done m d L fo (4 * (k + 1)) (ck k hk 2 (by decide)) (by show 4 * k + 2 < 4 * (k + 1); omega),
    OutPhi_done m d L fo (4 * (k + 1)) (ck k hk 3 (by decide)) (by show 4 * k + 3 < 4 * (k + 1); omega),
    OutPhi_congr m d L fo (4 * k) (4 * (k + 1)) (4 * k) (4 * k + 4) (by intro c hc; omega)]

/-! ### The last trip and after -/

theorem rowfam_take_last :
    bigSep (Rk 20 24) (rowPts m d L) ⊢ iprop((rowPts m d L c24 ∗ rowPts m d L c25) ∗ bigSep (Rk 20 26) (rowPts m d L)) := by
  rw [bigSep_Rk_hi (rowPts m d L) 20 24 26 (by decide) (by decide), bigSep_Ik2 (rowPts m d L) 24 c24 c25 rfl rfl]

theorem rowfam_last :
    iprop((rowPts m d L c20 ∗ rowPts m d L c21 ∗ rowPts m d L c22 ∗ rowPts m d L c23) ∗ bigSep (Rk 20 26) (rowPts m d L))
      ⊢ bigSep (Rk 24 26) (rowPts m d L) := by
  rw [bigSep_Rk_lo (rowPts m d L) 20 24 26 (by decide) (by decide), bigSep_Ik4 (rowPts m d L) 20 c20 c21 c22 c23 rfl rfl rfl rfl]

theorem rows_final :
    iprop((rowPts m d L c24 ∗ rowPts m d L c25) ∗ bigSep (Rk 24 26) (rowPts m d L)) ⊢ bigSep Finset.univ (rowPts m d L) := by
  have e : bigSep Finset.univ (rowPts m d L) = bigSep (Rk 24 24) (rowPts m d L) := by rw [Rk_self]
  rw [e, bigSep_Rk_hi (rowPts m d L) 24 24 26 (by decide) (by decide), bigSep_Ik2 (rowPts m d L) 24 c24 c25 rfl rfl]

theorem rows_first :
    bigSep Finset.univ (rowPts m d L)
      ⊢ iprop((rowPts m d L c00 ∗ rowPts m d L c01 ∗ rowPts m d L c02 ∗ rowPts m d L c03) ∗ bigSep (Rk 0 4) (rowPts m d L)) := by
  have e : bigSep Finset.univ (rowPts m d L) = bigSep (Rk 0 0) (rowPts m d L) := by rw [Rk_self]
  rw [e, bigSep_Rk_hi (rowPts m d L) 0 0 4 (by decide) (by decide), bigSep_Ik4 (rowPts m d L) 0 c00 c01 c02 c03 rfl rfl rfl rfl]

omit [FloatOps F] in
theorem outfam_last (fo : Buf (Elt F) (oLoc d)) :
    iprop((Pc d L (GG m d) c20 ∗ Pc d L (GG m d) c21) ∗ bigSep (Rk 20 24) (OutPhi m d L fo 20))
      ⊢ bigSep (Rk 22 24) (OutPhi m d L fo 22) := by
  rw [bigSep_Rk_lo (OutPhi m d L fo 22) 20 22 24 (by decide) (by decide), bigSep_Ik2 (OutPhi m d L fo 22) 20 c20 c21 rfl rfl,
    OutPhi_done m d L fo 22 c20 (by decide), OutPhi_done m d L fo 22 c21 (by decide),
    OutPhi_congr m d L fo 20 22 20 24 (by intro c hc; omega)]

omit [FloatOps F] in
theorem out_take_last (fo : Buf (Elt F) (oLoc d)) :
    bigSep (Rk 22 24) (OutPhi m d L fo 22)
      ⊢ iprop((Pc d L fo c24 ∗ Pc d L fo c25) ∗ bigSep (Rk 22 26) (OutPhi m d L fo 22)) := by
  rw [bigSep_Rk_hi (OutPhi m d L fo 22) 22 24 26 (by decide) (by decide), bigSep_Ik2 (OutPhi m d L fo 22) 24 c24 c25 rfl rfl,
    OutPhi_before m d L fo 22 c24 (by decide), OutPhi_before m d L fo 22 c25 (by decide)]

omit [FloatOps F] in
theorem out_final (fo : Buf (Elt F) (oLoc d)) :
    iprop((Pc d L (GG m d) c22 ∗ Pc d L (GG m d) c23 ∗ Pc d L (GG m d) c24 ∗ Pc d L (GG m d) c25)
        ∗ bigSep (Rk 22 26) (OutPhi m d L fo 22))
      ⊢ bigSep Finset.univ fun c : Fin 26 => Pc d L (GG m d) c := by
  have e : (bigSep Finset.univ fun c : Fin 26 => Pc d L (GG m d) c) = bigSep (Rk 22 22) (fun c : Fin 26 => Pc d L (GG m d) c) := by rw [Rk_self]
  have e2 : bigSep (Rk 22 26) (OutPhi m d L fo 22) = bigSep (Rk 22 26) (fun c : Fin 26 => Pc d L (GG m d) c) := by
    refine bigSep_congr fun c hc => ?_
    simp only [Rk, Finset.mem_filter, Finset.mem_univ, true_and] at hc
    have hc' := c.isLt
    exact OutPhi_done m d L fo 22 c (by omega)
  rw [e, bigSep_Rk_hi (fun c : Fin 26 => Pc d L (GG m d) c) 22 22 26 (by decide) (by decide),
    bigSep_Ik4 (fun c : Fin 26 => Pc d L (GG m d) c) 22 c22 c23 c24 c25 rfl rfl rfl rfl, e2]

/-! ## After the last trip -/

omit [FloatOps F] in
theorem trips_five : 5 < k0_t1_loop.trips := by decide
/-- The last trip's number. -/
def k5 : Fin k0_t1_loop.trips := ⟨5, trips_five⟩

/-- The copy-out of row buffer 2 (3) into chunk 22 (23) in flight, as the last trip starts it: it delivers the chunk at the
    look-up and the buffer back. -/
abbrev WFl2 : sProp 𝕄 :=
  Transfers.Flight countersEmb (VT d L) (SemLoc.dma cc0_scratch11.sem) (default : HIx 1) 524288
    iprop(((oBlk (k0_off2 L k5 2#32) (k0_off2_inb L k5 2)).view.loc (VT d L) ↦[(oBlk (k0_off2 L k5 2#32) (k0_off2_inb L k5 2)).view.set]{fullShare} GG m d)
      ∗ ((b2V).view.loc (VT d L) ↦[(b2V).view.set]{fullShare} GBuf m d L 22))
abbrev WFl3 : sProp 𝕄 :=
  Transfers.Flight countersEmb (VT d L) (SemLoc.dma cc0_scratch12.sem) (default : HIx 1) 524288
    iprop(((oBlk (k0_off2 L k5 3#32) (k0_off2_inb L k5 3)).view.loc (VT d L) ↦[(oBlk (k0_off2 L k5 3#32) (k0_off2_inb L k5 3)).view.set]{fullShare} GG m d)
      ∗ ((b3V).view.loc (VT d L) ↦[(b3V).view.set]{fullShare} GBuf m d L 23))

omit [FloatOps F] in
theorem wfl_canon2 (off : Fin 2 → Nat) (h) (c : Fin 26) (hoff : off = ![4096 * c.val + 128 * (wL L).val, 0]) (fo : Buf (Elt F) (oLoc d))
    (n : Nat) (hn : n = c.val) :
    (iprop(((oBlk off h).view.loc (VT d L) ↦[(oBlk off h).view.set]{fullShare}
          (oBlk off h).view.writes (Elt F) fo [⟨Rect.whole S128x128, ReadAs.same.apply ((b2V).view.read (Elt F) (GBuf m d L n))⟩])
        ∗ ((b2V).view.loc (VT d L) ↦[(b2V).view.set]{fullShare} GBuf m d L n)) : sProp 𝕄)
      ⊢ iprop(((oBlk off h).view.loc (VT d L) ↦[(oBlk off h).view.set]{fullShare} GG m d)
        ∗ ((b2V).view.loc (VT d L) ↦[(b2V).view.set]{fullShare} GBuf m d L n)) := by
  rw [(opc_canon2 m d L off h c hoff fo n hn).trans (pts_oBlk d L off h c hoff (GG m d)).symm]

omit [FloatOps F] in
theorem wfl_canon3 (off : Fin 2 → Nat) (h) (c : Fin 26) (hoff : off = ![4096 * c.val + 128 * (wL L).val, 0]) (fo : Buf (Elt F) (oLoc d))
    (n : Nat) (hn : n = c.val) :
    (iprop(((oBlk off h).view.loc (VT d L) ↦[(oBlk off h).view.set]{fullShare}
          (oBlk off h).view.writes (Elt F) fo [⟨Rect.whole S128x128, ReadAs.same.apply ((b3V).view.read (Elt F) (GBuf m d L n))⟩])
        ∗ ((b3V).view.loc (VT d L) ↦[(b3V).view.set]{fullShare} GBuf m d L n)) : sProp 𝕄)
      ⊢ iprop(((oBlk off h).view.loc (VT d L) ↦[(oBlk off h).view.set]{fullShare} GG m d)
        ∗ ((b3V).view.loc (VT d L) ↦[(b3V).view.set]{fullShare} GBuf m d L n)) := by
  rw [(opc_canon3 m d L off h c hoff fo n hn).trans (pts_oBlk d L off h c hoff (GG m d)).symm]

/-- After the last trip: the gathers of chunks 24 and 25 are in flight in row buffers 0 and 1; the copy-outs of chunks 22
    and 23 are in flight from row buffers 2 and 3; the chunks below 22 are written. -/
abbrev invB (q : PosShare TreeShare) (fo : Buf (Elt F) (oLoc d)) (O : CellTallies nD τ sig (HIx 1)) (W : Waits sig (HIx 1)) : sProp 𝕄 :=
  iprop(Transfers.MayWaits (VT d L) (default : HIx 1) O
    ∗ GFl0 m d L q 24 (by decide) ∗ GFl1 m d L q 25 (by decide) ∗ WFl2 m d L ∗ WFl3 m d L
    ∗ ((xV).view.loc (VT d L) ↦{Transfers.shareTokN q 2} m (tLoc d)) ∗ ((xV).view.loc (VT d L) ↦{Transfers.shareTokN q 3} m (tLoc d))
    ∗ bigSep (Rk 24 26) (rowPts m d L)
    ∗ semVal (VT d L, SemLoc.dma cc0_scratch7.sem) 0 ∗ semVal (VT d L, SemLoc.dma cc0_scratch8.sem) 0
    ∗ semVal (VT d L, SemLoc.dma cc0_scratch9.sem) 0 ∗ semVal (VT d L, SemLoc.dma cc0_scratch10.sem) 0
    ∗ bigSep (Rk 22 24) (OutPhi m d L fo 22)
    ∗ ∃ W', ⌜∀ p ∈ W', p ∈ W ∨ p.2 = none⌝ ∗ owes (VT d L) O W')

/-- The loop's invariant before trip `k`. -/
def loopInv (q : PosShare TreeShare) (fo : Buf (Elt F) (oLoc d)) (O : CellTallies nD τ sig (HIx 1)) (W : Waits sig (HIx 1)) (k : Nat) (_ : PUnit) : sProp 𝕄 :=
  if h : k ≤ 5 then invA m d L q fo O W k h else invB m d L q fo O W

theorem k_lt (k : Fin k0_t1_loop.trips) : k.val < 6 := lt_of_lt_of_le k.isLt k0_t1_abs.2.1

end Tile

end Cert.Proof.KernelRun

end
-- ==== Proof.KernelBody2.lean ====
/-
  The look-up kernel on one vector subcore: one trip of the loop.

  A trip waits for its four gathers, starts the four copy-outs, and as each copy-out ends starts the next gather into
  the freed row buffer. From the invariant before trip k to the invariant before trip k + 1: the four finished gathers
  hand back their rows of the index scratch and their read tokens, the four copy-outs leave the look-up in chunks
  4k … 4k+3, and the four new gathers take rows 4k+4 … 4k+7. The last trip starts only two gathers and leaves two
  copy-outs in flight.
-/
import proofs.«206476_g69466801045872_cont_9to1_m_773_29_alg».proof.Proof.KernelBody1

noncomputable section

namespace Cert.Proof.KernelRun

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

variable (m : (ℓ : Loc nD τ sig) → Buf (Elt F) ℓ) (ρ : Dev nD → PrngReg)

local notation "iV" => (Memref.whole Cert.Kernel.main_v0_scv : Memref Cert.Kernel.sig Kind.scVector Space.hbm Cert.Kernel.S26x4096 EltTy.i32)
local notation "xV" => (Memref.whole Cert.Kernel.main_arg0_scv : Memref Cert.Kernel.sig Kind.scVector Space.hbm Cert.Kernel.S100000x128 EltTy.f32)
local notation "oV" => (Memref.whole Cert.Kernel.main_v1_scv : Memref Cert.Kernel.sig Kind.scVector Space.hbm Cert.Kernel.S106496x128 EltTy.f32)
local notation "sV" => (Memref.whole Cert.Kernel.cc0_scratch0 : Memref Cert.Kernel.sig Kind.scVector Space.vmem Cert.Kernel.S26x128 EltTy.i32)
local notation "b0V" => (Memref.whole Cert.Kernel.cc0_scratch1 : Memref Cert.Kernel.sig Kind.scVector Space.vmem Cert.Kernel.S128x128 EltTy.f32)
local notation "b1V" => (Memref.whole Cert.Kernel.cc0_scratch2 : Memref Cert.Kernel.sig Kind.scVector Space.vmem Cert.Kernel.S128x128 EltTy.f32)
local notation "b2V" => (Memref.whole Cert.Kernel.cc0_scratch3 : Memref Cert.Kernel.sig Kind.scVector Space.vmem Cert.Kernel.S128x128 EltTy.f32)
local notation "b3V" => (Memref.whole Cert.Kernel.cc0_scratch4 : Memref Cert.Kernel.sig Kind.scVector Space.vmem Cert.Kernel.S128x128 EltTy.f32)

variable [FloatOps F]

section Tile
variable (d : Dev nD) (L : grid0.Coords)

set_option maxHeartbeats 4000000 in
theorem trip (hpre : PreOK m) (q : PosShare TreeShare) (fo : Buf (Elt F) (oLoc d)) (O : CellTallies nD τ sig (HIx 1)) (W : Waits sig (HIx 1))
    (k : Fin k0_t1_loop.trips) (hk5 : k.val < 5) (v2 : BitVec 32) :
    invA m d L q fo O W k.val (by omega)
      ⊢ wp frame (wpE (defs₀ (F := F)) 𝒱₀ (VT d L) none) Set.univ
          (k0_t1_body L iV (Memref.isWhole_whole _) xV (Memref.isWhole_whole _) oV (Memref.isWhole_whole _)
            sV (Memref.isWhole_whole _) b0V (Memref.isWhole_whole _) b1V (Memref.isWhole_whole _) b2V (Memref.isWhole_whole _) b3V (Memref.isWhole_whole _)
            cc0_scratch5 cc0_scratch6 cc0_scratch7 cc0_scratch8 cc0_scratch9 cc0_scratch10 cc0_scratch11 cc0_scratch12 cc0_scoped0 v2 k ())
          fun _ => invA m d L q fo O W (k.val + 1) (by omega) := by
  have hk := k_lt k
  have hk' : k.val ≤ 5 := by omega
  have hk1 : k.val + 1 ≤ 5 := by omega
  have i0 : (0 : Nat) < 4 := by decide
  have i1 : (1 : Nat) < 4 := by decide
  have i2 : (2 : Nat) < 4 := by decide
  have i3 : (3 : Nat) < 4 := by decide
  have h1 : k0_cond1 k = 1#1 := by revert k; decide
  have h2 : k0_cond2 k = 1#1 := by revert k; decide
  have h3 : k0_cond3 k = 1#1 := by revert k; decide
  have h4 : k0_cond4 k = 1#1 := by revert k; decide
  iintro ⟨Hmw, Hg0, Hg1, Hg2, Hg3, HR, Hc9, Hc10, Hc11, Hc12, HF, %W', %hW', HO⟩
  have hidx := fun g row hk hq => inb_of_pre m d L hpre g (PAY m d L) rfl row hk hq
  -- the rows the next four gathers read, in the body's spelling
  ihave HR' := (rowfam_take m d L k.val hk1) $$ HR
  icases HR' with ⟨⟨Hn0, Hn1, Hn2, Hn3⟩, HRr⟩
  ihave Hn0' := (Entails.of_eq (rowPts_body m d L (k0_off4 k) (k0_off4_inb k h1) _ (off4_eq k hk1))) $$ Hn0
  ihave Hn1' := (Entails.of_eq (rowPts_body m d L (k0_off6 k) (k0_off6_inb k h2) _ (off6_eq k hk1))) $$ Hn1
  ihave Hn2' := (Entails.of_eq (rowPts_body m d L (k0_off8 k) (k0_off8_inb k h3) _ (off8_eq k hk1))) $$ Hn2
  ihave Hn3' := (Entails.of_eq (rowPts_body m d L (k0_off10 k) (k0_off10_inb k h4) _ (off10_eq k hk1))) $$ Hn3
  -- the four chunks this trip writes, in the body's spelling
  ihave HF' := (outfam_take m d L fo k.val hk') $$ HF
  icases HF' with ⟨⟨Ho0, Ho1, Ho2, Ho3⟩, HFr⟩
  ihave Ho0' := (Entails.of_eq (pts_oBlk d L (k0_off2 L k 0#32) (k0_off2_inb L k 0) (ck k.val hk' 0 i0) (off2_eq' L k hk' _ 0 i0 rfl) fo).symm) $$ Ho0
  ihave Ho1' := (Entails.of_eq (pts_oBlk d L (k0_off2 L k 1#32) (k0_off2_inb L k 1) (ck k.val hk' 1 i1) (off2_eq' L k hk' _ 1 i1 rfl) fo).symm) $$ Ho1
  ihave Ho2' := (Entails.of_eq (pts_oBlk d L (k0_off2 L k 2#32) (k0_off2_inb L k 2) (ck k.val hk' 2 i2) (off2_eq' L k hk' _ 2 i2 rfl) fo).symm) $$ Ho2
  ihave Ho3' := (Entails.of_eq (pts_oBlk d L (k0_off2 L k 3#32) (k0_off2_inb L k 3) (ck k.val hk' 3 i3) (off2_eq' L k hk' _ 3 i3 rfl) fo).symm) $$ Ho3
  unfold GFl0 GFl1 GFl2 GFl3 rowSet xSl
  sl_unfold [k0_t1_body]
  sl_exec
  icases Hg0_dst with ⟨Hb0, Hr0⟩
  ihave Hx0 := (Entails.of_eq (xtok_univ d L _ (m (tLoc d)))) $$ Hg0_src
  sl_exec
  icases Hg1_dst with ⟨Hb1, Hr1⟩
  ihave Hx1 := (Entails.of_eq (xtok_univ d L _ (m (tLoc d)))) $$ Hg1_src
  sl_exec
  icases Hg2_dst with ⟨Hb2, Hr2⟩
  ihave Hx2 := (Entails.of_eq (xtok_univ d L _ (m (tLoc d)))) $$ Hg2_src
  sl_exec
  icases Hg3_dst with ⟨Hb3, Hr3⟩
  ihave Hx3 := (Entails.of_eq (xtok_univ d L _ (m (tLoc d)))) $$ Hg3_src
  sl_exec
  sl_step
  unfold invA
  -- the run's flights and chunks in the invariant's spelling
  have e0 := gfl_canon0 m d L q (GBuf m d L (4 * k.val + 0)) (k0_off4 k) (k0_off4_inb k h1) (4 * (k.val + 1) + 0) (by omega) (off4_eq k hk1) (by decide)
    (hidx _ (k0_off4 k) (k0_off4_inb k h1) squeezes_S1x128_S128)
  have e1 := gfl_canon1 m d L q (GBuf m d L (4 * k.val + 1)) (k0_off6 k) (k0_off6_inb k h2) (4 * (k.val + 1) + 1) (by omega) (off6_eq k hk1) (by decide)
    (hidx _ (k0_off6 k) (k0_off6_inb k h2) squeezes_S1x128_S128)
  have e2 := gfl_canon2 m d L q (GBuf m d L (4 * k.val + 2)) (k0_off8 k) (k0_off8_inb k h3) (4 * (k.val + 1) + 2) (by omega) (off8_eq k hk1) (by decide)
    (hidx _ (k0_off8 k) (k0_off8_inb k h3) squeezes_S1x128_S128)
  have e3 := gfl_canon3 m d L q (GBuf m d L (4 * k.val + 3)) (k0_off10 k) (k0_off10_inb k h4) (4 * (k.val + 1) + 3) (by omega) (off10_eq k hk1) (by decide)
    (hidx _ (k0_off10 k) (k0_off10_inb k h4) squeezes_S1x128_S128)
  isplitl [Hmw]; · iexact Hmw
  isplitl [Hg0]; · iapply (Transfers.Flight_mono countersEmb (VT d L) e0); iexact Hg0
  isplitl [Hg1]; · iapply (Transfers.Flight_mono countersEmb (VT d L) e1); iexact Hg1
  isplitl [Hg2]; · iapply (Transfers.Flight_mono countersEmb (VT d L) e2); iexact Hg2
  isplitl [Hg3]; · iapply (Transfers.Flight_mono countersEmb (VT d L) e3); iexact Hg3
  isplitl [Hr0 Hr1 Hr2 Hr3 HRr]
  · iapply (rowfam_step m d L k.val hk1)
    isplitl [Hr0 Hr1 Hr2 Hr3]
    · isplitl [Hr0]; · iexact Hr0
      isplitl [Hr1]; · iexact Hr1
      isplitl [Hr2]; · iexact Hr2
      iexact Hr3
    · iexact HRr
  isplitl [Hc9]; · iexact Hc9
  isplitl [Hc10]; · iexact Hc10
  isplitl [Hc11]; · iexact Hc11
  isplitl [Hc12]; · iexact Hc12
  isplitl [Ho0' Ho1' Ho2' Ho3' HFr]
  · iapply (outfam_step m d L fo k.val hk')
    isplitl [Ho0' Ho1' Ho2' Ho3']
    · isplitl [Ho0']
      · iapply (Entails.of_eq (opc_canon0 m d L (k0_off2 L k 0#32) (k0_off2_inb L k 0) (ck k.val hk' 0 i0) (off2_eq' L k hk' _ 0 i0 rfl) fo (4 * k.val + 0) rfl)); iexact Ho0'
      isplitl [Ho1']
      · iapply (Entails.of_eq (opc_canon1 m d L (k0_off2 L k 1#32) (k0_off2_inb L k 1) (ck k.val hk' 1 i1) (off2_eq' L k hk' _ 1 i1 rfl) fo (4 * k.val + 1) rfl)); iexact Ho1'
      isplitl [Ho2']
      · iapply (Entails.of_eq (opc_canon2 m d L (k0_off2 L k 2#32) (k0_off2_inb L k 2) (ck k.val hk' 2 i2) (off2_eq' L k hk' _ 2 i2 rfl) fo (4 * k.val + 2) rfl)); iexact Ho2'
      iapply (Entails.of_eq (opc_canon3 m d L (k0_off2 L k 3#32) (k0_off2_inb L k 3) (ck k.val hk' 3 i3) (off2_eq' L k hk' _ 3 i3 rfl) fo (4 * k.val + 3) rfl)); iexact Ho3'
    · iexact HFr
  iexists _; isplitr
  swap; · iexact HO
  ipureintro; intro p hp
  rcases Finset.mem_insert.mp hp with hp | hp; · exact .inr (by rw [hp]; rfl)
  rcases Finset.mem_insert.mp hp with hp | hp; · exact .inr (by rw [hp]; rfl)
  rcases Finset.mem_insert.mp hp with hp | hp; · exact .inr (by rw [hp]; rfl)
  rcases Finset.mem_insert.mp hp with hp | hp; · exact .inr (by rw [hp]; rfl)
  rcases Finset.mem_insert.mp hp with hp | hp; · exact .inr (by rw [hp]; rfl)
  rcases Finset.mem_insert.mp hp with hp | hp; · exact .inr (by rw [hp]; rfl)
  rcases Finset.mem_insert.mp hp with hp | hp; · exact .inr (by rw [hp]; rfl)
  rcases Finset.mem_insert.mp hp with hp | hp; · exact .inr (by rw [hp]; rfl)
  exact hW' p hp

set_option maxHeartbeats 4000000 in
theorem trip5 (hpre : PreOK m) (q : PosShare TreeShare) (fo : Buf (Elt F) (oLoc d)) (O : CellTallies nD τ sig (HIx 1)) (W : Waits sig (HIx 1))
     (v2 : BitVec 32) :
    invA m d L q fo O W 5 (by decide)
      ⊢ wp frame (wpE (defs₀ (F := F)) 𝒱₀ (VT d L) none) Set.univ
          (k0_t1_body L iV (Memref.isWhole_whole _) xV (Memref.isWhole_whole _) oV (Memref.isWhole_whole _)
            sV (Memref.isWhole_whole _) b0V (Memref.isWhole_whole _) b1V (Memref.isWhole_whole _) b2V (Memref.isWhole_whole _) b3V (Memref.isWhole_whole _)
            cc0_scratch5 cc0_scratch6 cc0_scratch7 cc0_scratch8 cc0_scratch9 cc0_scratch10 cc0_scratch11 cc0_scratch12 cc0_scoped0 v2 k5 ())
          fun _ => invB m d L q fo O W := by
  have i0 : (0 : Nat) < 4 := by decide
  have i1 : (1 : Nat) < 4 := by decide
  have i2 : (2 : Nat) < 4 := by decide
  have i3 : (3 : Nat) < 4 := by decide
  have hk' : (5 : Nat) ≤ 5 := le_refl _
  have h1 : k0_cond1 k5 = 1#1 := by decide
  have h2 : k0_cond2 k5 = 1#1 := by decide
  have h3 : ¬ k0_cond3 k5 = 1#1 := by decide
  have h4 : ¬ k0_cond4 k5 = 1#1 := by decide
  iintro ⟨Hmw, Hg0, Hg1, Hg2, Hg3, HR, Hc9, Hc10, Hc11, Hc12, HF, %W', %hW', HO⟩
  have hidx := fun g row hk hq => inb_of_pre m d L hpre g (PAY m d L) rfl row hk hq
  ihave HR' := (rowfam_take_last m d L) $$ HR
  icases HR' with ⟨⟨Hn0, Hn1⟩, HRr⟩
  ihave Hn0' := (Entails.of_eq (rowPts_body m d L (k0_off4 k5) (k0_off4_inb k5 h1) c24 (k0_off4_eq k5))) $$ Hn0
  ihave Hn1' := (Entails.of_eq (rowPts_body m d L (k0_off6 k5) (k0_off6_inb k5 h2) c25 (k0_off6_eq k5))) $$ Hn1
  ihave HF' := (outfam_take m d L fo 5 hk') $$ HF
  icases HF' with ⟨⟨Ho0, Ho1, Ho2, Ho3⟩, HFr⟩
  ihave Ho0' := (Entails.of_eq (pts_oBlk d L (k0_off2 L k5 0#32) (k0_off2_inb L k5 0) (ck 5 hk' 0 i0) (off2_eq' L k5 hk' _ 0 i0 rfl) fo).symm) $$ Ho0
  ihave Ho1' := (Entails.of_eq (pts_oBlk d L (k0_off2 L k5 1#32) (k0_off2_inb L k5 1) (ck 5 hk' 1 i1) (off2_eq' L k5 hk' _ 1 i1 rfl) fo).symm) $$ Ho1
  ihave Ho2' := (Entails.of_eq (pts_oBlk d L (k0_off2 L k5 2#32) (k0_off2_inb L k5 2) (ck 5 hk' 2 i2) (off2_eq' L k5 hk' _ 2 i2 rfl) fo).symm) $$ Ho2
  ihave Ho3' := (Entails.of_eq (pts_oBlk d L (k0_off2 L k5 3#32) (k0_off2_inb L k5 3) (ck 5 hk' 3 i3) (off2_eq' L k5 hk' _ 3 i3 rfl) fo).symm) $$ Ho3
  unfold GFl0 GFl1 GFl2 GFl3 rowSet xSl
  sl_unfold [k0_t1_body]
  sl_exec
  icases Hg0_dst with ⟨Hb0, Hr0⟩
  ihave Hx0 := (Entails.of_eq (xtok_univ d L _ (m (tLoc d)))) $$ Hg0_src
  sl_exec
  icases Hg1_dst with ⟨Hb1, Hr1⟩
  ihave Hx1 := (Entails.of_eq (xtok_univ d L _ (m (tLoc d)))) $$ Hg1_src
  sl_exec
  icases Hg2_dst with ⟨Hb2, Hr2⟩
  ihave Hx2 := (Entails.of_eq (xtok_univ d L _ (m (tLoc d)))) $$ Hg2_src
  sl_exec
  icases Hg3_dst with ⟨Hb3, Hr3⟩
  ihave Hx3 := (Entails.of_eq (xtok_univ d L _ (m (tLoc d)))) $$ Hg3_src
  sl_exec
  sl_step
  unfold invB
  have e0 := gfl_canon0 m d L q (GBuf m d L (4 * 5 + 0)) (k0_off4 k5) (k0_off4_inb k5 h1) 24 (by decide) (k0_off4_eq k5) (by decide)
    (hidx _ (k0_off4 k5) (k0_off4_inb k5 h1) squeezes_S1x128_S128)
  have e1 := gfl_canon1 m d L q (GBuf m d L (4 * 5 + 1)) (k0_off6 k5) (k0_off6_inb k5 h2) 25 (by decide) (k0_off6_eq k5) (by decide)
    (hidx _ (k0_off6 k5) (k0_off6_inb k5 h2) squeezes_S1x128_S128)
  isplitl [Hmw]; · iexact Hmw
  isplitl [Hg0]; · iapply (Transfers.Flight_mono countersEmb (VT d L) e0); iexact Hg0
  isplitl [Hg1]; · iapply (Transfers.Flight_mono countersEmb (VT d L) e1); iexact Hg1
  isplitl [Hc11]
  · iapply (Transfers.Flight_mono countersEmb (VT d L) (wfl_canon2 m d L (k0_off2 L k5 2#32) (k0_off2_inb L k5 2) c22 (off2_eq' L k5 hk' _ 2 i2 rfl) fo (4 * 5 + 2) rfl)); iexact Hc11
  isplitl [Hc12]
  · iapply (Transfers.Flight_mono countersEmb (VT d L) (wfl_canon3 m d L (k0_off2 L k5 3#32) (k0_off2_inb L k5 3) c23 (off2_eq' L k5 hk' _ 3 i3 rfl) fo (4 * 5 + 3) rfl)); iexact Hc12
  isplitl [Hx2]; · iexact Hx2
  isplitl [Hx3]; · iexact Hx3
  isplitl [Hr0 Hr1 Hr2 Hr3 HRr]
  · iapply (rowfam_last m d L)
    isplitl [Hr0 Hr1 Hr2 Hr3]
    · isplitl [Hr0]; · iexact Hr0
      isplitl [Hr1]; · iexact Hr1
      isplitl [Hr2]; · iexact Hr2
      iexact Hr3
    · iexact HRr
  isplitl [Hg2]; · iexact Hg2
  isplitl [Hg3]; · iexact Hg3
  isplitl [Hc9]; · iexact Hc9
  isplitl [Hc10]; · iexact Hc10
  isplitl [Ho0' Ho1' HFr]
  · iapply (outfam_last m d L fo)
    isplitl [Ho0' Ho1']
    · isplitl [Ho0']
      · iapply (Entails.of_eq (opc_canon0 m d L (k0_off2 L k5 0#32) (k0_off2_inb L k5 0) c20 (off2_eq' L k5 hk' _ 0 i0 rfl) fo (4 * 5 + 0) rfl)); iexact Ho0'
      iapply (Entails.of_eq (opc_canon1 m d L (k0_off2 L k5 1#32) (k0_off2_inb L k5 1) c21 (off2_eq' L k5 hk' _ 1 i1 rfl) fo (4 * 5 + 1) rfl)); iexact Ho1'
    · iexact HFr
  iexists _; isplitr
  swap; · iexact HO
  ipureintro; intro p hp
  rcases Finset.mem_insert.mp hp with hp | hp; · exact .inr (by rw [hp]; rfl)
  rcases Finset.mem_insert.mp hp with hp | hp; · exact .inr (by rw [hp]; rfl)
  rcases Finset.mem_insert.mp hp with hp | hp; · exact .inr (by rw [hp]; rfl)
  rcases Finset.mem_insert.mp hp with hp | hp; · exact .inr (by rw [hp]; rfl)
  rcases Finset.mem_insert.mp hp with hp | hp; · exact .inr (by rw [hp]; rfl)
  rcases Finset.mem_insert.mp hp with hp | hp; · exact .inr (by rw [hp]; rfl)
  exact hW' p hp

end Tile

end Cert.Proof.KernelRun

end
-- ==== Proof.KernelBody3.lean ====
/-
  The look-up kernel on one vector subcore: the whole task.

  The index fetch and its wait; the index scratch row by row; the first four gathers; the loop by its invariant; after
  it the last two chunks' waits and copy-outs and the four closing waits. Then the task as the launch states it: the
  subcore's column block of the transposed indices, its share of the table (cut into four read tokens, one per row
  buffer) and its 26 chunks of the flat result go in, and come back with the chunks at the look-up.
-/
import proofs.«206476_g69466801045872_cont_9to1_m_773_29_alg».proof.Proof.KernelBody2

noncomputable section

namespace Cert.Proof.KernelRun

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

variable (m : (ℓ : Loc nD τ sig) → Buf (Elt F) ℓ) (ρ : Dev nD → PrngReg)

local notation "iV" => (Memref.whole Cert.Kernel.main_v0_scv : Memref Cert.Kernel.sig Kind.scVector Space.hbm Cert.Kernel.S26x4096 EltTy.i32)
local notation "xV" => (Memref.whole Cert.Kernel.main_arg0_scv : Memref Cert.Kernel.sig Kind.scVector Space.hbm Cert.Kernel.S100000x128 EltTy.f32)
local notation "oV" => (Memref.whole Cert.Kernel.main_v1_scv : Memref Cert.Kernel.sig Kind.scVector Space.hbm Cert.Kernel.S106496x128 EltTy.f32)
local notation "sV" => (Memref.whole Cert.Kernel.cc0_scratch0 : Memref Cert.Kernel.sig Kind.scVector Space.vmem Cert.Kernel.S26x128 EltTy.i32)
local notation "b0V" => (Memref.whole Cert.Kernel.cc0_scratch1 : Memref Cert.Kernel.sig Kind.scVector Space.vmem Cert.Kernel.S128x128 EltTy.f32)
local notation "b1V" => (Memref.whole Cert.Kernel.cc0_scratch2 : Memref Cert.Kernel.sig Kind.scVector Space.vmem Cert.Kernel.S128x128 EltTy.f32)
local notation "b2V" => (Memref.whole Cert.Kernel.cc0_scratch3 : Memref Cert.Kernel.sig Kind.scVector Space.vmem Cert.Kernel.S128x128 EltTy.f32)
local notation "b3V" => (Memref.whole Cert.Kernel.cc0_scratch4 : Memref Cert.Kernel.sig Kind.scVector Space.vmem Cert.Kernel.S128x128 EltTy.f32)

variable [FloatOps F]

section Tile
variable (d : Dev nD) (L : grid0.Coords)

/-- The subcore's nine DMA cells at zero. -/
abbrev cells0 (d : Dev nD) (L : grid0.Coords) : sProp 𝕄 :=
  iprop(semVal (VT d L, SemLoc.dma cc0_scratch5.sem) 0 ∗ semVal (VT d L, SemLoc.dma cc0_scratch6.sem) 0
    ∗ semVal (VT d L, SemLoc.dma cc0_scratch7.sem) 0 ∗ semVal (VT d L, SemLoc.dma cc0_scratch8.sem) 0
    ∗ semVal (VT d L, SemLoc.dma cc0_scratch9.sem) 0 ∗ semVal (VT d L, SemLoc.dma cc0_scratch10.sem) 0
    ∗ semVal (VT d L, SemLoc.dma cc0_scratch11.sem) 0 ∗ semVal (VT d L, SemLoc.dma cc0_scratch12.sem) 0
    ∗ semVal (VT d L, SemLoc.dma cc0_scoped0.sem) 0)

omit [FloatOps F] in
theorem outfam_zero (fo : Buf (Elt F) (oLoc d)) :
    (bigSep Finset.univ fun c : Fin 26 => Pc d L fo c) = bigSep Finset.univ (OutPhi m d L fo (4 * 0)) :=
  bigSep_congr fun c _ => (OutPhi_before m d L fo (4 * 0) c (by omega)).symm

theorem loopInv_last (q : PosShare TreeShare) (fo : Buf (Elt F) (oLoc d)) (O : CellTallies nD τ sig (HIx 1)) (W : Waits sig (HIx 1)) (acc : PUnit) :
    loopInv m d L q fo O W (Scf.trips k0_t1_loop.lb k0_t1_loop.ub k0_t1_loop.st) acc = invB m d L q fo O W := by
  unfold loopInv
  exact dif_neg (show ¬ (Scf.trips k0_t1_loop.lb k0_t1_loop.ub k0_t1_loop.st ≤ 5) by decide)

set_option maxHeartbeats 8000000 in
/-- The subcore's whole run, from its pieces in the body's spelling: the index fetch, the first four gathers, the loop by
    its invariant, the last two chunks and the four closing waits. -/
theorem tile_run (hpre : PreOK m) (O : CellTallies nD τ sig (HIx 1)) (W : Waits sig (HIx 1)) (q : PosShare TreeShare)
    (fo : Buf (Elt F) (oLoc d)) (g0 : Buf (Elt F) ((sV).view.loc (VT d L)))
    (t0 : Buf (Elt F) ((b0V).view.loc (VT d L))) (t1 : Buf (Elt F) ((b1V).view.loc (VT d L)))
    (t2 : Buf (Elt F) ((b2V).view.loc (VT d L))) (t3 : Buf (Elt F) ((b3V).view.loc (VT d L))) :
    (iprop(Transfers.MayWaits (VT d L) (default : HIx 1) O
        ∗ ((iColK L).view.loc (VT d L) ↦[(iColK L).view.set]{fullShare} V0 m d)
        ∗ ((xV).view.loc (VT d L) ↦{Transfers.shareTokN q 0} m (tLoc d))
        ∗ ((xV).view.loc (VT d L) ↦{Transfers.shareTokN q 1} m (tLoc d))
        ∗ ((xV).view.loc (VT d L) ↦{Transfers.shareTokN q 2} m (tLoc d))
        ∗ ((xV).view.loc (VT d L) ↦{Transfers.shareTokN q 3} m (tLoc d))
        ∗ (bigSep Finset.univ fun c : Fin 26 => Pc d L fo c)
        ∗ ((sV).view.loc (VT d L) ↦[(sV).view.set]{fullShare} g0)
        ∗ ((b0V).view.loc (VT d L) ↦[(b0V).view.set]{fullShare} t0)
        ∗ ((b1V).view.loc (VT d L) ↦[(b1V).view.set]{fullShare} t1)
        ∗ ((b2V).view.loc (VT d L) ↦[(b2V).view.set]{fullShare} t2)
        ∗ ((b3V).view.loc (VT d L) ↦[(b3V).view.set]{fullShare} t3)
        ∗ cells0 d L
        ∗ owes (VT d L) O W) : sProp 𝕄)
      ⊢ wp frame (wpE (defs₀ (F := F)) 𝒱₀ (VT d L) none) Set.univ
          (cc0_k L iV (Memref.isWhole_whole _) xV (Memref.isWhole_whole _) oV (Memref.isWhole_whole _)
            sV (Memref.isWhole_whole _) b0V (Memref.isWhole_whole _) b1V (Memref.isWhole_whole _) b2V (Memref.isWhole_whole _) b3V (Memref.isWhole_whole _)
            cc0_scratch5 cc0_scratch6 cc0_scratch7 cc0_scratch8 cc0_scratch9 cc0_scratch10 cc0_scratch11 cc0_scratch12 cc0_scoped0)
          fun _ => iprop(((iColK L).view.loc (VT d L) ↦[(iColK L).view.set]{fullShare} V0 m d)
            ∗ ((xV).view.loc (VT d L) ↦{Transfers.shareTokN q 0} m (tLoc d))
            ∗ ((xV).view.loc (VT d L) ↦{Transfers.shareTokN q 1} m (tLoc d))
            ∗ ((xV).view.loc (VT d L) ↦{Transfers.shareTokN q 2} m (tLoc d))
            ∗ ((xV).view.loc (VT d L) ↦{Transfers.shareTokN q 3} m (tLoc d))
            ∗ (bigSep Finset.univ fun c : Fin 26 => Pc d L (GG m d) c)
            ∗ (∃ g, (sV).view.loc (VT d L) ↦[(sV).view.set]{fullShare} g)
            ∗ (∃ t, (b0V).view.loc (VT d L) ↦[(b0V).view.set]{fullShare} t)
            ∗ (∃ t, (b1V).view.loc (VT d L) ↦[(b1V).view.set]{fullShare} t)
            ∗ (∃ t, (b2V).view.loc (VT d L) ↦[(b2V).view.set]{fullShare} t)
            ∗ (∃ t, (b3V).view.loc (VT d L) ↦[(b3V).view.set]{fullShare} t)
            ∗ cells0 d L
            ∗ ∃ W', ⌜∀ p ∈ W', p ∈ W ∨ p.2 = none⌝ ∗ owes (VT d L) O W') := by
  have i2 : (2 : Nat) < 4 := by decide
  have i3 : (3 : Nat) < 4 := by decide
  iintro ⟨Hmw, HI, HX0, HX1, HX2, HX3, HF, HS, HB0, HB1, HB2, HB3, ⟨Hc5, Hc6, Hc7, Hc8, Hc9, Hc10, Hc11, Hc12, Hc13⟩, HO⟩
  sl_unfold [cc0_k]
  sl_exec
  sl_unfold_run_names
  -- the index scratch after the fetch, row by row; the first four rows in the body's spelling
  have hidx := fun g row hk hq => inb_of_pre m d L hpre g (PAY m d L) rfl row hk hq
  ihave HRows := (Entails.of_eq (sPts_rows d L (SCONT m d L))) $$ HS
  ihave HR' := (rows_first m d L) $$ HRows
  icases HR' with ⟨⟨Hn0, Hn1, Hn2, Hn3⟩, HRr⟩
  ihave Hn0' := (Entails.of_eq (rowPts_body m d L ![0, 0] inb_S26x128_S1x128_0_0 c00 rfl)) $$ Hn0
  ihave Hn1' := (Entails.of_eq (rowPts_body m d L ![1, 0] inb_S26x128_S1x128_1_0 c01 rfl)) $$ Hn1
  ihave Hn2' := (Entails.of_eq (rowPts_body m d L ![2, 0] inb_S26x128_S1x128_2_0 c02 rfl)) $$ Hn2
  ihave Hn3' := (Entails.of_eq (rowPts_body m d L ![3, 0] inb_S26x128_S1x128_3_0 c03 rfl)) $$ Hn3
  sl_exec
  sl_for (loopInv m d L q fo O W) $$ [Hmw Hc5 Hc6 Hc7 Hc8 HRr Hc9 Hc10 Hc11 Hc12 HF HO]
  case region =>
    intro k acc
    unfold loopInv
    by_cases hk5 : k.val < 5
    · rw [dif_pos (show k.val ≤ 5 by omega)]
      simp only [dif_pos (show k.val + 1 ≤ 5 by omega)]
      exact trip m d L hpre q fo O W k hk5 _
    · have hk : k = k5 := Fin.ext (by have := k_lt k; show k.val = 5; omega)
      subst hk
      rw [dif_pos (show k5.val ≤ 5 by decide)]
      simp only [dif_neg (show ¬ (k5.val + 1 ≤ 5) by decide)]
      exact trip5 m d L hpre q fo O W _
  · unfold loopInv
    rw [dif_pos (show (0 : Nat) ≤ 5 by decide)]
    unfold invA
    isplitl [Hmw]; · iexact Hmw
    isplitl [Hc5]
    · iapply (Transfers.Flight_mono countersEmb (VT d L) (gfl_canon0 m d L q t0 ![0, 0] inb_S26x128_S1x128_0_0 (4 * 0 + 0) (by decide) rfl (by decide)
        (hidx _ ![0, 0] inb_S26x128_S1x128_0_0 squeezes_S1x128_S128))); iexact Hc5
    isplitl [Hc6]
    · iapply (Transfers.Flight_mono countersEmb (VT d L) (gfl_canon1 m d L q t1 ![1, 0] inb_S26x128_S1x128_1_0 (4 * 0 + 1) (by decide) rfl (by decide)
        (hidx _ ![1, 0] inb_S26x128_S1x128_1_0 squeezes_S1x128_S128))); iexact Hc6
    isplitl [Hc7]
    · iapply (Transfers.Flight_mono countersEmb (VT d L) (gfl_canon2 m d L q t2 ![2, 0] inb_S26x128_S1x128_2_0 (4 * 0 + 2) (by decide) rfl (by decide)
        (hidx _ ![2, 0] inb_S26x128_S1x128_2_0 squeezes_S1x128_S128))); iexact Hc7
    isplitl [Hc8]
    · iapply (Transfers.Flight_mono countersEmb (VT d L) (gfl_canon3 m d L q t3 ![3, 0] inb_S26x128_S1x128_3_0 (4 * 0 + 3) (by decide) rfl (by decide)
        (hidx _ ![3, 0] inb_S26x128_S1x128_3_0 squeezes_S1x128_S128))); iexact Hc8
    isplitl [HRr]; · iexact HRr
    isplitl [Hc9]; · iexact Hc9
    isplitl [Hc10]; · iexact Hc10
    isplitl [Hc11]; · iexact Hc11
    isplitl [Hc12]; · iexact Hc12
    isplitl [HF]; · iapply (Entails.of_eq (outfam_zero m d L fo)); iexact HF
    iexists _; isplitr
    swap; · iexact HO
    ipureintro; intro p hp
    rcases Finset.mem_insert.mp hp with hp | hp; · exact .inr (by rw [hp]; rfl)
    exact .inl hp
  iintro %acc HI
  ihave HI' := (Entails.of_eq (loopInv_last m d L q fo O W acc)) $$ HI
  icases HI' with ⟨Hmw, Hg0, Hg1, Hw2, Hw3, Hx2, Hx3, HR, Hc7, Hc8, Hc9, Hc10, HF, %W', %hW', HO⟩
  -- the last two chunks, in the body's spelling
  ihave HF' := (out_take_last m d L fo) $$ HF
  icases HF' with ⟨⟨Ho24, Ho25⟩, HFr⟩
  ihave Ho24' := (Entails.of_eq (pts_oBlk d L (k0_off11 L 98304#32) (k0_off11_inb L 0) c24 (off11_eq L 0) fo).symm) $$ Ho24
  ihave Ho25' := (Entails.of_eq (pts_oBlk d L (k0_off11 L 102400#32) (k0_off11_inb L 1) c25 (off11_eq L 1) fo).symm) $$ Ho25
  unfold GFl0 GFl1 WFl2 WFl3 rowSet xSl
  sl_exec
  sl_step
  isplitl [HI]; · iexact HI
  isplitl [HX0]; · iexact HX0
  isplitl [HX1]; · iexact HX1
  isplitl [Hx2]; · iexact Hx2
  isplitl [Hx3]; · iexact Hx3
  isplitl [Hw2_dst Hw3_dst Ho24' Ho25' HFr]
  · iapply (out_final m d L fo)
    isplitl [Hw2_dst Hw3_dst Ho24' Ho25']
    · isplitl [Hw2_dst]
      · iapply (Entails.of_eq (pts_oBlk d L (k0_off2 L k5 2#32) (k0_off2_inb L k5 2) c22 (off2_eq' L k5 (le_refl 5) _ 2 i2 rfl) (GG m d))); iexact Hw2_dst
      isplitl [Hw3_dst]
      · iapply (Entails.of_eq (pts_oBlk d L (k0_off2 L k5 3#32) (k0_off2_inb L k5 3) c23 (off2_eq' L k5 (le_refl 5) _ 3 i3 rfl) (GG m d))); iexact Hw3_dst
      isplitl [Ho24']
      · iapply (Entails.of_eq (opc_canon0 m d L (k0_off11 L 98304#32) (k0_off11_inb L 0) c24 (off11_eq L 0) fo 24 rfl)); iexact Ho24'
      iapply (Entails.of_eq (opc_canon1 m d L (k0_off11 L 102400#32) (k0_off11_inb L 1) c25 (off11_eq L 1) fo 25 rfl)); iexact Ho25'
    · iexact HFr
  isplitl [Hg0_dst_and Hg1_dst_and HR]
  · iexists _
    iapply (Entails.of_eq (sPts_rows d L (SCONT m d L)).symm)
    iapply (rows_final m d L)
    isplitl [Hg0_dst_and Hg1_dst_and]
    · isplitl [Hg0_dst_and]; · iexact Hg0_dst_and
      iexact Hg1_dst_and
    · iexact HR
  isplitl [Hg0_dst]; · iexists _; iexact Hg0_dst
  isplitl [Hg1_dst]; · iexists _; iexact Hg1_dst
  isplitl [Hw2_src]; · iexists _; iexact Hw2_src
  isplitl [Hw3_src]; · iexists _; iexact Hw3_src
  isplitl [Hg0 Hg1 Hc7 Hc8 Hc9 Hc10 Hw2 Hw3 Hc13]
  · isplitl [Hg0]; · iexact Hg0
    isplitl [Hg1]; · iexact Hg1
    isplitl [Hc7]; · iexact Hc7
    isplitl [Hc8]; · iexact Hc8
    isplitl [Hc9]; · iexact Hc9
    isplitl [Hc10]; · iexact Hc10
    isplitl [Hw2]; · iexact Hw2
    isplitl [Hw3]; · iexact Hw3
    iexact Hc13
  iexists _; isplitr
  swap; · iexact HO
  ipureintro; intro p hp
  rcases Finset.mem_insert.mp hp with hp | hp; · exact .inr (by rw [hp]; rfl)
  rcases Finset.mem_insert.mp hp with hp | hp; · exact .inr (by rw [hp]; rfl)
  rcases Finset.mem_insert.mp hp with hp | hp; · exact .inr (by rw [hp]; rfl)
  rcases Finset.mem_insert.mp hp with hp | hp; · exact .inr (by rw [hp]; rfl)
  rcases Finset.mem_insert.mp hp with hp | hp; · exact .inr (by rw [hp]; rfl)
  rcases Finset.mem_insert.mp hp with hp | hp; · exact .inr (by rw [hp]; rfl)
  exact hW' p hp

/-! ## From what the launch deals the subcore to the body's spelling, and back -/

omit [FloatOps F] in
theorem set_iColK : (iColK L).view.set = iSet (wL L) := by
  show ((View.whole (main_v0_scv : Ref sig .scVector)).slice (Rect.unit (s := S26x4096) (k0_off1 L) S26x128.size (k0_off1_inb L))).set = (iRect (wL L)).set
  rw [View.set_slice]
  have key : ∀ (o o' : Fin 2 → Nat) (hh : o = o') (h1) (h2),
      Rect.unit (s := S26x4096) o S26x128.size h1 = Rect.unit (s := S26x4096) o' S26x128.size h2 := by
    intro o o' hh h1 h2; subst hh; rfl
  have h : k0_off1 L = ![0, 128 * (wL L).val] := by
    rw [k0_off1_eq]
    show ![0, 256 * (L 1).val + 128 * (L 0).val] = ![0, 128 * (2 * (L 1).val + (L 0).val)]
    rw [show 256 * (L 1).val + 128 * (L 0).val = 128 * (2 * (L 1).val + (L 0).val) by omega]
  rw [key _ _ h (k0_off1_inb L) (icol_inb (wL L))]
  exact Finset.map_refl

omit [FloatOps F] in
theorem pts_iColK (f : Buf (Elt F) (iLoc d)) :
    ((iColK L).view.loc (VT d L) ↦[(iColK L).view.set]{fullShare} f : sProp 𝕄) = iLoc d ↦[iSet (wL L)]{fullShare} f := by
  rw [set_iColK]

omit [FloatOps F] in
/-- A scratch buffer of the subcore, whole: the body's spelling and the launch's. -/
theorem pts_whole (b : Ref sig .scVector) (f : Buf (Elt F) ((VT d L).loc b)) :
    ((Memref.whole b).view.loc (VT d L) ↦[(Memref.whole b).view.set]{fullShare} f : sProp 𝕄) = ((VT d L).loc b ↦{fullShare} f) := by
  rw [show (Memref.whole b).view.set = Finset.univ from View.set_whole _]

/-- A DMA cell of the subcore. -/
abbrev cl (s : DmaSem sig) : GSem nD τ sig := (VT d L, SemLoc.dma s)

omit [FloatOps F] in
theorem cl_ne (a b : DmaSem sig) (h : a ≠ b) : cl d L a ≠ cl d L b := by
  intro e; apply h
  have e2 := congrArg Prod.snd e
  injection e2

omit [FloatOps F] in
theorem cl_mem (s : DmaSem sig) (hs : (SemLoc.dma s : SemLoc sig).isScoped .scVector = true) : cl d L s ∈ ownCells (VT d L) :=
  (mem_ownCells (g := cl d L s)).mpr ⟨rfl, hs⟩

omit [FloatOps F] in
/-- The subcore's own cells at zero: its nine DMA cells, and the rest. -/
theorem ownSems0_V :
    (ownSems0 (VT d L) : sProp 𝕄)
      = iprop(semVal (cl d L cc0_scratch5.sem) 0 ∗ semVal (cl d L cc0_scratch6.sem) 0 ∗ semVal (cl d L cc0_scratch7.sem) 0 ∗ semVal (cl d L cc0_scratch8.sem) 0 ∗ semVal (cl d L cc0_scratch9.sem) 0 ∗ semVal (cl d L cc0_scratch10.sem) 0 ∗ semVal (cl d L cc0_scratch11.sem) 0 ∗ semVal (cl d L cc0_scratch12.sem) 0 ∗ semVal (cl d L cc0_scoped0.sem) 0
          ∗ bigSep ((((((((((ownCells (VT d L)).erase (cl d L cc0_scratch5.sem)).erase (cl d L cc0_scratch6.sem)).erase (cl d L cc0_scratch7.sem)).erase (cl d L cc0_scratch8.sem)).erase (cl d L cc0_scratch9.sem)).erase (cl d L cc0_scratch10.sem)).erase (cl d L cc0_scratch11.sem)).erase (cl d L cc0_scratch12.sem)).erase (cl d L cc0_scoped0.sem)) fun g => semVal g 0) := by
  unfold SparseCore.Cfg.ownSems0
  rw [SparseCore.bigSep_erase' (cl_mem d L cc0_scratch5.sem (by show (SemLoc.dma cc0_scratch5.sem : SemLoc sig).isScoped .scVector = true; decide)),
    SparseCore.bigSep_erase' (Finset.mem_erase.mpr ⟨cl_ne d L _ _ (by decide), cl_mem d L cc0_scratch6.sem (by show (SemLoc.dma cc0_scratch6.sem : SemLoc sig).isScoped .scVector = true; decide)⟩),
    SparseCore.bigSep_erase' (Finset.mem_erase.mpr ⟨cl_ne d L _ _ (by decide), Finset.mem_erase.mpr ⟨cl_ne d L _ _ (by decide), cl_mem d L cc0_scratch7.sem (by show (SemLoc.dma cc0_scratch7.sem : SemLoc sig).isScoped .scVector = true; decide)⟩⟩),
    SparseCore.bigSep_erase' (Finset.mem_erase.mpr ⟨cl_ne d L _ _ (by decide), Finset.mem_erase.mpr ⟨cl_ne d L _ _ (by decide), Finset.mem_erase.mpr ⟨cl_ne d L _ _ (by decide), cl_mem d L cc0_scratch8.sem (by show (SemLoc.dma cc0_scratch8.sem : SemLoc sig).isScoped .scVector = true; decide)⟩⟩⟩),
    SparseCore.bigSep_erase' (Finset.mem_erase.mpr ⟨cl_ne d L _ _ (by decide), Finset.mem_erase.mpr ⟨cl_ne d L _ _ (by decide), Finset.mem_erase.mpr ⟨cl_ne d L _ _ (by decide), Finset.mem_erase.mpr ⟨cl_ne d L _ _ (by decide), cl_mem d L cc0_scratch9.sem (by show (SemLoc.dma cc0_scratch9.sem : SemLoc sig).isScoped .scVector = true; decide)⟩⟩⟩⟩),
    SparseCore.bigSep_erase' (Finset.mem_erase.mpr ⟨cl_ne d L _ _ (by decide), Finset.mem_erase.mpr ⟨cl_ne d L _ _ (by decide), Finset.mem_erase.mpr ⟨cl_ne d L _ _ (by decide), Finset.mem_erase.mpr ⟨cl_ne d L _ _ (by decide), Finset.mem_erase.mpr ⟨cl_ne d L _ _ (by decide), cl_mem d L cc0_scratch10.sem (by show (SemLoc.dma cc0_scratch10.sem : SemLoc sig).isScoped .scVector = true; decide)⟩⟩⟩⟩⟩),
    SparseCore.bigSep_erase' (Finset.mem_erase.mpr ⟨cl_ne d L _ _ (by decide), Finset.mem_erase.mpr ⟨cl_ne d L _ _ (by decide), Finset.mem_erase.mpr ⟨cl_ne d L _ _ (by decide), Finset.mem_erase.mpr ⟨cl_ne d L _ _ (by decide), Finset.mem_erase.mpr ⟨cl_ne d L _ _ (by decide), Finset.mem_erase.mpr ⟨cl_ne d L _ _ (by decide), cl_mem d L cc0_scratch11.sem (by show (SemLoc.dma cc0_scratch11.sem : SemLoc sig).isScoped .scVector = true; decide)⟩⟩⟩⟩⟩⟩),
    SparseCore.bigSep_erase' (Finset.mem_erase.mpr ⟨cl_ne d L _ _ (by decide), Finset.mem_erase.mpr ⟨cl_ne d L _ _ (by decide), Finset.mem_erase.mpr ⟨cl_ne d L _ _ (by decide), Finset.mem_erase.mpr ⟨cl_ne d L _ _ (by decide), Finset.mem_erase.mpr ⟨cl_ne d L _ _ (by decide), Finset.mem_erase.mpr ⟨cl_ne d L _ _ (by decide), Finset.mem_erase.mpr ⟨cl_ne d L _ _ (by decide), cl_mem d L cc0_scratch12.sem (by show (SemLoc.dma cc0_scratch12.sem : SemLoc sig).isScoped .scVector = true; decide)⟩⟩⟩⟩⟩⟩⟩),
    SparseCore.bigSep_erase' (Finset.mem_erase.mpr ⟨cl_ne d L _ _ (by decide), Finset.mem_erase.mpr ⟨cl_ne d L _ _ (by decide), Finset.mem_erase.mpr ⟨cl_ne d L _ _ (by decide), Finset.mem_erase.mpr ⟨cl_ne d L _ _ (by decide), Finset.mem_erase.mpr ⟨cl_ne d L _ _ (by decide), Finset.mem_erase.mpr ⟨cl_ne d L _ _ (by decide), Finset.mem_erase.mpr ⟨cl_ne d L _ _ (by decide), Finset.mem_erase.mpr ⟨cl_ne d L _ _ (by decide), cl_mem d L cc0_scoped0.sem (by show (SemLoc.dma cc0_scoped0.sem : SemLoc sig).isScoped .scVector = true; decide)⟩⟩⟩⟩⟩⟩⟩⟩)]

omit [FloatOps F] in
/-- The subcore's own buffers: the index scratch, the four row buffers, and the rest. -/
theorem ownBufs_V :
    (ownBufs (VT d L) : sProp 𝕄)
      = iprop((∃ f, (VT d L).loc cc0_scratch0 ↦{fullShare} f) ∗ (∃ f, (VT d L).loc cc0_scratch1 ↦{fullShare} f) ∗ (∃ f, (VT d L).loc cc0_scratch2 ↦{fullShare} f) ∗ (∃ f, (VT d L).loc cc0_scratch3 ↦{fullShare} f) ∗ (∃ f, (VT d L).loc cc0_scratch4 ↦{fullShare} f)
          ∗ bigSep ((((((ownRefs (τ := τ) (.scVector (cV L) (jV L))).erase ((Proc.scVector (cV L) (jV L)).devRef cc0_scratch0)).erase ((Proc.scVector (cV L) (jV L)).devRef cc0_scratch1)).erase ((Proc.scVector (cV L) (jV L)).devRef cc0_scratch2)).erase ((Proc.scVector (cV L) (jV L)).devRef cc0_scratch3)).erase ((Proc.scVector (cV L) (jV L)).devRef cc0_scratch4))
              fun b => iprop(∃ f, ((d, b) : Loc nD τ sig) ↦{fullShare} f)) := by
  unfold SparseCore.Cfg.ownBufs
  rw [SparseCore.bigSep_erase' (SparseCore.Cfg.mem_ownRefs_of_owner (p := Proc.scVector (cV L) (jV L)) (b := ((Proc.scVector (cV L) (jV L)).devRef cc0_scratch0)) rfl),
    SparseCore.bigSep_erase' (Finset.mem_erase.mpr ⟨fun e => absurd (Proc.devRef_injective _ e) (show (cc0_scratch1 : Ref sig .scVector) ≠ cc0_scratch0 by decide), SparseCore.Cfg.mem_ownRefs_of_owner (p := Proc.scVector (cV L) (jV L)) (b := ((Proc.scVector (cV L) (jV L)).devRef cc0_scratch1)) rfl⟩),
    SparseCore.bigSep_erase' (Finset.mem_erase.mpr ⟨fun e => absurd (Proc.devRef_injective _ e) (show (cc0_scratch2 : Ref sig .scVector) ≠ cc0_scratch1 by decide), Finset.mem_erase.mpr ⟨fun e => absurd (Proc.devRef_injective _ e) (show (cc0_scratch2 : Ref sig .scVector) ≠ cc0_scratch0 by decide), SparseCore.Cfg.mem_ownRefs_of_owner (p := Proc.scVector (cV L) (jV L)) (b := ((Proc.scVector (cV L) (jV L)).devRef cc0_scratch2)) rfl⟩⟩),
    SparseCore.bigSep_erase' (Finset.mem_erase.mpr ⟨fun e => absurd (Proc.devRef_injective _ e) (show (cc0_scratch3 : Ref sig .scVector) ≠ cc0_scratch2 by decide), Finset.mem_erase.mpr ⟨fun e => absurd (Proc.devRef_injective _ e) (show (cc0_scratch3 : Ref sig .scVector) ≠ cc0_scratch1 by decide), Finset.mem_erase.mpr ⟨fun e => absurd (Proc.devRef_injective _ e) (show (cc0_scratch3 : Ref sig .scVector) ≠ cc0_scratch0 by decide), SparseCore.Cfg.mem_ownRefs_of_owner (p := Proc.scVector (cV L) (jV L)) (b := ((Proc.scVector (cV L) (jV L)).devRef cc0_scratch3)) rfl⟩⟩⟩),
    SparseCore.bigSep_erase' (Finset.mem_erase.mpr ⟨fun e => absurd (Proc.devRef_injective _ e) (show (cc0_scratch4 : Ref sig .scVector) ≠ cc0_scratch3 by decide), Finset.mem_erase.mpr ⟨fun e => absurd (Proc.devRef_injective _ e) (show (cc0_scratch4 : Ref sig .scVector) ≠ cc0_scratch2 by decide), Finset.mem_erase.mpr ⟨fun e => absurd (Proc.devRef_injective _ e) (show (cc0_scratch4 : Ref sig .scVector) ≠ cc0_scratch1 by decide), Finset.mem_erase.mpr ⟨fun e => absurd (Proc.devRef_injective _ e) (show (cc0_scratch4 : Ref sig .scVector) ≠ cc0_scratch0 by decide), SparseCore.Cfg.mem_ownRefs_of_owner (p := Proc.scVector (cV L) (jV L)) (b := ((Proc.scVector (cV L) (jV L)).devRef cc0_scratch4)) rfl⟩⟩⟩⟩)]

omit [FloatOps F] in
/-- The subcore's share of the table as what stays with it and four read tokens. -/
theorem tToks (qq : PosShare TreeShare) (f : Buf (Elt F) (tLoc d)) :
    (tLoc d ↦{qq} f : sProp 𝕄) ⊣⊢ iprop((tLoc d ↦{Transfers.shareDrop qq 4} f) ∗ (tLoc d ↦{Transfers.shareTokN qq 0} f)
      ∗ (tLoc d ↦{Transfers.shareTokN qq 1} f) ∗ (tLoc d ↦{Transfers.shareTokN qq 2} f) ∗ (tLoc d ↦{Transfers.shareTokN qq 3} f)) := by
  have h : (tLoc d ↦{qq} f : sProp 𝕄) ⊣⊢ iprop((tLoc d ↦{Transfers.shareDrop qq 4} f) ∗ bigSep (Finset.range 4) fun i => tLoc d ↦{Transfers.shareTokN qq i} f) :=
    Transfers.pointsTo_toks_range (ℓ := tLoc d) (S := Finset.univ) (f := f) qq 4
  rw [show Finset.range 4 = {0, 1, 2, 3} by decide, SparseCore.bigSep_insert' (by decide), SparseCore.bigSep_insert' (by decide),
    SparseCore.bigSep_insert' (by decide), bigSep_singleton] at h
  exact h

/-- The subcore's task, from what the launch deals it to what it hands back. -/
theorem tile_body (hF : (K (F := F)).Facts) (hpre : PreOK m) (O : CellTallies nD τ sig (HIx 1)) (W : Waits sig (HIx 1)) (hO : ∀ g, O g none = 0) :
    iprop(levAts (K (F := F)).L (K (F := F)).lev ∗ emp ∗ tileRes m d (wL L) (m (oLoc d))
        ∗ scopedBufs (VT d L) ∗ scopedSems0 (VT d L) ∗ owes (VT d L) O W)
      ⊢ wp frame (wpE (defs₀ (F := F)) 𝒱₀ (VT d L) none) Set.univ
          (cc0_k L iV (Memref.isWhole_whole _) xV (Memref.isWhole_whole _) oV (Memref.isWhole_whole _)
            sV (Memref.isWhole_whole _) b0V (Memref.isWhole_whole _) b1V (Memref.isWhole_whole _) b2V (Memref.isWhole_whole _) b3V (Memref.isWhole_whole _)
            cc0_scratch5 cc0_scratch6 cc0_scratch7 cc0_scratch8 cc0_scratch9 cc0_scratch10 cc0_scratch11 cc0_scratch12 cc0_scoped0)
          fun _ => iprop(tileRes m d (wL L) (GG m d) ∗ scopedBufs (VT d L) ∗ scopedSems0 (VT d L)
            ∗ ∃ W', ⌜∀ p ∈ W', p ∈ W ∨ p.2 = none ∨ p.2 = some (0 : Fin 1)⌝ ∗ owes (VT d L) O W') := by
  rw [(K (F := F)).scopedBufs_V hF d (cV L) (jV L), SparseCore.Cfg.scopedSems0_V (Val := Elt F) d (cV L) (jV L), ownSems0_V, ownBufs_V]
  iintro ⟨#Hlv, -, ⟨HI, HT, HF⟩, ⟨⟨%g0, HS⟩, ⟨%t0, HB0⟩, ⟨%t1, HB1⟩, ⟨%t2, HB2⟩, ⟨%t3, HB3⟩, Hbufs⟩, ⟨Hc5, Hc6, Hc7, Hc8, Hc9, Hc10, Hc11, Hc12, Hc13, Hsems⟩, HO⟩
  ihave Hmw := (show levAts (K (F := F)).L (K (F := F)).lev ⊢ Transfers.MayWaits (VT d L) (default : HIx 1) O from
    (K (F := F)).mayWaits_none (thr := VT d L) hO) $$ Hlv
  ihave HI' := (Entails.of_eq (pts_iColK (F := F) d L _).symm) $$ HI
  ihave HS' := (Entails.of_eq (pts_whole (F := F) d L cc0_scratch0 _).symm) $$ HS
  ihave HB0' := (Entails.of_eq (pts_whole (F := F) d L cc0_scratch1 _).symm) $$ HB0
  ihave HB1' := (Entails.of_eq (pts_whole (F := F) d L cc0_scratch2 _).symm) $$ HB1
  ihave HB2' := (Entails.of_eq (pts_whole (F := F) d L cc0_scratch3 _).symm) $$ HB2
  ihave HB3' := (Entails.of_eq (pts_whole (F := F) d L cc0_scratch4 _).symm) $$ HB3
  ihave HT' := (tToks d (tq (wL L)) (m (tLoc d))).1 $$ HT
  icases HT' with ⟨HTr, HX0, HX1, HX2, HX3⟩
  iapply (wp_wand_r Idealize.ShloMosaic.frame (wpE (defs₀ (F := F)) 𝒱₀ (VT d L) none) Set.univ)
  isplitl [Hmw HI' HX0 HX1 HX2 HX3 HF HS' HB0' HB1' HB2' HB3' Hc5 Hc6 Hc7 Hc8 Hc9 Hc10 Hc11 Hc12 Hc13 HO]
  · iapply (tile_run m d L hpre O W (tq (wL L)) (m (oLoc d)) g0 t0 t1 t2 t3)
    isplitl [Hmw]; · iexact Hmw
    isplitl [HI']; · iexact HI'
    isplitl [HX0]; · iexact HX0
    isplitl [HX1]; · iexact HX1
    isplitl [HX2]; · iexact HX2
    isplitl [HX3]; · iexact HX3
    isplitl [HF]; · iexact HF
    isplitl [HS']; · iexact HS'
    isplitl [HB0']; · iexact HB0'
    isplitl [HB1']; · iexact HB1'
    isplitl [HB2']; · iexact HB2'
    isplitl [HB3']; · iexact HB3'
    isplitl [Hc5 Hc6 Hc7 Hc8 Hc9 Hc10 Hc11 Hc12 Hc13]
    · isplitl [Hc5]; · iexact Hc5
      isplitl [Hc6]; · iexact Hc6
      isplitl [Hc7]; · iexact Hc7
      isplitl [Hc8]; · iexact Hc8
      isplitl [Hc9]; · iexact Hc9
      isplitl [Hc10]; · iexact Hc10
      isplitl [Hc11]; · iexact Hc11
      isplitl [Hc12]; · iexact Hc12
      iexact Hc13
    iexact HO
  iintro %_ ⟨HI', HX0, HX1, HX2, HX3, HF, ⟨%g, HS'⟩, ⟨%u0, HB0'⟩, ⟨%u1, HB1'⟩, ⟨%u2, HB2'⟩, ⟨%u3, HB3'⟩, ⟨Hc5, Hc6, Hc7, Hc8, Hc9, Hc10, Hc11, Hc12, Hc13⟩, ⟨%W', %hW', HO⟩⟩
  ihave HT := (tToks d (tq (wL L)) (m (tLoc d))).2 $$ [HTr HX0 HX1 HX2 HX3]
  · isplitl [HTr]; · iexact HTr
    isplitl [HX0]; · iexact HX0
    isplitl [HX1]; · iexact HX1
    isplitl [HX2]; · iexact HX2
    iexact HX3
  isplitl [HI' HT HF]
  · isplitl [HI']; · iapply (Entails.of_eq (pts_iColK (F := F) d L _)); iexact HI'
    isplitl [HT]; · iexact HT
    iexact HF
  isplitl [HS' HB0' HB1' HB2' HB3' Hbufs]
  · isplitl [HS']; · iexists _; iapply (Entails.of_eq (pts_whole (F := F) d L cc0_scratch0 _)); iexact HS'
    isplitl [HB0']; · iexists _; iapply (Entails.of_eq (pts_whole (F := F) d L cc0_scratch1 _)); iexact HB0'
    isplitl [HB1']; · iexists _; iapply (Entails.of_eq (pts_whole (F := F) d L cc0_scratch2 _)); iexact HB1'
    isplitl [HB2']; · iexists _; iapply (Entails.of_eq (pts_whole (F := F) d L cc0_scratch3 _)); iexact HB2'
    isplitl [HB3']; · iexists _; iapply (Entails.of_eq (pts_whole (F := F) d L cc0_scratch4 _)); iexact HB3'
    iexact Hbufs
  isplitl [Hc5 Hc6 Hc7 Hc8 Hc9 Hc10 Hc11 Hc12 Hc13 Hsems]
  · isplitl [Hc5]; · iexact Hc5
    isplitl [Hc6]; · iexact Hc6
    isplitl [Hc7]; · iexact Hc7
    isplitl [Hc8]; · iexact Hc8
    isplitl [Hc9]; · iexact Hc9
    isplitl [Hc10]; · iexact Hc10
    isplitl [Hc11]; · iexact Hc11
    isplitl [Hc12]; · iexact Hc12
    isplitl [Hc13]; · iexact Hc13
    iexact Hsems
  iexists W'; isplitr
  · ipureintro; intro p hp
    rcases hW' p hp with h | h
    · exact .inl h
    · exact .inr (.inl h)
  · iexact HO

/-! ## The obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_k (coordsV c s)
          iV (Memref.isWhole_whole _) xV (Memref.isWhole_whole _) oV (Memref.isWhole_whole _)
          sV (Memref.isWhole_whole _) b0V (Memref.isWhole_whole _) b1V (Memref.isWhole_whole _) b2V (Memref.isWhole_whole _) b3V (Memref.isWhole_whole _)
          cc0_scratch5 cc0_scratch6 cc0_scratch7 cc0_scratch8 cc0_scratch9 cc0_scratch10 cc0_scratch11 cc0_scratch12 cc0_scoped0) ⟨⟩ c s := rfl

theorem tileObl (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body m d (coordsV ⟨_, hci.1⟩ ⟨_, hci.2⟩) hF hpre O W hO

end Tile

end Cert.Proof.KernelRun

end
-- ==== Proof.KernelIdealCommon.lean ====
/-
  The look-up kernel on the two SparseCores: names shared by the tile's run and the launch.

  The kernel reads the index array transposed, [26, 4096]: row f holds feature f of all 4096 batch entries. The 32
  vector subcores split the 4096 columns into 32 blocks of 128: the subcore at (core c, subcore s) takes block
  w = 2 s + c. For each of the 26 rows (a chunk) it gathers the 128 table rows its block's index words name and copies
  them to rows 4096 f + 128 w … + 127 of the flat result [106496, 128]. So the flat result is ONE function of the table
  and the transposed indices: row r holds the table's row named by the index word at (r / 4096, r % 4096).
-/
import proofs.«206476_g69466801045872_cont_9to1_m_773_29_alg».proof.Defs
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import Idealize.ShloMosaic.Lib.ValueIdx
import proofs.«206476_g69466801045872_cont_9to1_m_773_29_alg».proof.Proof.Gen.KernelIdeal
import proofs.«206476_g69466801045872_cont_9to1_m_773_29_alg».proof.Proof.Gen.KernelIdeal.Skeleton
import proofs.«206476_g69466801045872_cont_9to1_m_773_29_alg».proof.Proof.Spec

noncomputable section

namespace Cert.Proof.KernelIdealRun

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays -/

variable (m : (ℓ : Loc nD τ sig) → Buf (Elt F) ℓ) (ρ : Dev nD → PrngReg)

/-- The table, the index array as given, the index array transposed, the flat result, its two re-laid forms. -/
abbrev tLoc (d : Dev nD) : Loc nD τ sig := (SparseCore.T d).loc main_arg0
abbrev aLoc (d : Dev nD) : Loc nD τ sig := (SparseCore.T d).loc main_arg1
abbrev iLoc (d : Dev nD) : Loc nD τ sig := (SparseCore.T d).loc main_v0
abbrev oLoc (d : Dev nD) : Loc nD τ sig := (SparseCore.T d).loc main_v1
abbrev rLoc (d : Dev nD) : Loc nD τ sig := (SparseCore.T d).loc main_v2
abbrev zLoc (d : Dev nD) : Loc nD τ sig := (SparseCore.T d).loc main_v3

/-! ## The blocks -/

theorem icol_inb (w : Fin 32) : ∀ a, (![0, 128 * w.val] : Fin 2 → Nat) a + S26x128.size a ≤ S26x4096.size a := by
  intro a; have := w.isLt
  match a with
  | ⟨0, _⟩ => show 0 + 26 ≤ 26; omega
  | ⟨1, _⟩ => show 128 * w.val + 128 ≤ 4096; omega

/-- Column block `w` of the transposed index array: all 26 rows, columns 128 w … 128 w + 127. -/
abbrev iRect (w : Fin 32) : Rect S26x4096 := Rect.unit (s := S26x4096) ![0, 128 * w.val] S26x128.size (icol_inb w)
abbrev iSet (w : Fin 32) : Finset S26x4096.Idx := (iRect w).set

theorem orow_inb (w : Fin 32) (k : Fin 26) : ∀ a, (![4096 * k.val + 128 * w.val, 0] : Fin 2 → Nat) a + S128x128.size a ≤ S106496x128.size a := by
  intro a; have := w.isLt; have := k.isLt
  match a with
  | ⟨0, _⟩ => show 4096 * k.val + 128 * w.val + 128 ≤ 106496; omega
  | ⟨1, _⟩ => show 0 + 128 ≤ 128; omega

/-- Chunk `k` of block `w` in the flat result: rows 4096 k + 128 w … + 127, all 128 columns. -/
abbrev oRect (w : Fin 32) (k : Fin 26) : Rect S106496x128 := Rect.unit (s := S106496x128) ![4096 * k.val + 128 * w.val, 0] S128x128.size (orow_inb w k)
abbrev oSet (w : Fin 32) (k : Fin 26) : Finset S106496x128.Idx := (oRect w k).set

/-! ## What the flat result holds -/

/-- The flat result as a function of the table and the transposed indices: row `r` is the table's row named by the
    index word at (r / 4096, r % 4096). -/
def G (tab : S100000x128.Idx → Elt F .f32) (v0 : S26x4096.Idx → Elt F .i32) : S106496x128.Idx → Elt F .f32 :=
  fun x => tab (ix2 (Cert.Spec.rowOf (v0 (ix2 (n0 := 26) (n1 := 4096) ⟨(x 0).val / 4096, by
      have : (x 0).val < 106496 := (x 0).isLt
      omega⟩ ⟨(x 0).val % 4096, Nat.mod_lt _ (by decide)⟩))) (show Fin 128 from x 1))

variable [FloatOps F]

/-- The transposed index array, as @main's first operation leaves it. -/
def V0 (d : Dev nD) : S26x4096.Idx → Elt F .i32 :=
  transpose S26x4096 [1, 0] (m (aLoc d) : S4096x26.Idx → Elt F .i32) transposes_S4096x26_S26x4096_1_0

/-- What the proof asks of the launch memory: every index word names a row of the table. -/
def PreOK : Prop := ∀ (d : Dev nD) (j : S26x4096.Idx), (V0 m d j).toNat < 100000

/-! ## Shares of the table: the full share halved five times, one leaf per subcore -/

/-- Leaf `i` of the depth-`n` halving of share `q`. -/
def leaf : (n : ℕ) → PosShare TreeShare → Fin (2 ^ n) → PosShare TreeShare
  | 0, q, _ => q
  | n + 1, q, i => if h : i.val < 2 ^ n then leaf n q.left ⟨i.val, h⟩ else leaf n q.right ⟨i.val - 2 ^ n, by omega⟩

/-- Block `w`'s share of the table. -/
abbrev tq (w : Fin 32) : PosShare TreeShare := leaf 5 fullShare w

/-! ## What the handshakes carry -/

/-- What the subcore of block `w` is handed and hands back: its column block of the transposed indices, a share of
    the table, and its 26 chunks of the flat result, at the contents `fo`. -/
abbrev tileRes (d : Dev nD) (w : Fin 32) (fo : Buf (Elt F) (oLoc d)) : sProp 𝕄 :=
  iprop((iLoc d ↦[iSet w]{fullShare} V0 m d) ∗ (tLoc d ↦{tq w} m (tLoc d))
    ∗ bigSep Finset.univ fun k : Fin 26 => oLoc d ↦[oSet w k]{fullShare} fo)

/-- The block of the subcore `(c, i)`: `2 i + c`. -/
def wK (c : Fin ((K (F := F)).nCore 0)) (i : Fin ((K (F := F)).nSub 0)) : Fin 32 :=
  ⟨2 * i.val + c.val, by have := c.isLt; have := i.isLt; have e1 := nCore_zero (F := F); have e2 := nSub_zero (F := F); omega⟩

/-- The flat result after the call. -/
abbrev GG (d : Dev nD) : Buf (Elt F) (oLoc d) := G (m (tLoc d)) (V0 m d)

/-- The one call: each SparseCore takes its sixteen subcores' parts and hands them on; they come back with the chunks
    at the look-up. -/
def P : (K (F := F)).Pay (nD := nD) (Val := Elt F) (Name := ℕ) (U := UU) where
  st := fun q d c => match q with | 0 => bigSep Finset.univ fun i : Fin ((K (F := F)).nSub 0) => tileRes m d (wK c i) (m (oLoc d))
  dn := fun q d c => match q with | 0 => bigSep Finset.univ fun i : Fin ((K (F := F)).nSub 0) => tileRes m d (wK c i) (GG m d)
  go := fun q d c i => match q with | 0 => tileRes m d (wK c i) (m (oLoc d))
  td := fun q d c i => match q with | 0 => tileRes m d (wK c i) (GG m d)
  x := fun _ _ => iprop(emp)

instance P_storable : (P (F := F) m).IsStorable where
  st q d c := match q with
    | 0 => (inferInstance : BI.Storable (upEmb : UEmb _ 𝕄) (bigSep Finset.univ fun i : Fin ((K (F := F)).nSub 0) => tileRes m d (wK c i) (m (oLoc d))))
  dn q d c := match q with
    | 0 => (inferInstance : BI.Storable (upEmb : UEmb _ 𝕄) (bigSep Finset.univ fun i : Fin ((K (F := F)).nSub 0) => tileRes m d (wK c i) (GG m d)))
  go q d c i := match q with
    | 0 => (inferInstance : BI.Storable (upEmb : UEmb _ 𝕄) (tileRes m d (wK c i) (m (oLoc d))))
  td q d c i := match q with
    | 0 => (inferInstance : BI.Storable (upEmb : UEmb _ 𝕄) (tileRes m d (wK c i) (GG m d)))

end Cert.Proof.KernelIdealRun

end
-- ==== Proof.KernelIdealLaunch.lean ====
/-
  The look-up kernel's launch: @main on the TensorCore around the one call on the two SparseCores.

  @main transposes the index array, starts the call, and re-lays the flat result: [106496, 128] cut into 26 slabs of
  4096 rows, then the first two axes exchanged. For the call the three arrays the kernel names are dealt among the 32
  vector subcores: the transposed index array by its 32 column blocks, the flat result by its 32 × 26 row blocks, the
  table (every subcore reads it) by halving its share five times. They come back with the flat result at the look-up,
  so what @main returns is the look-up of the given index array in the table, entry by entry.
-/
import proofs.«206476_g69466801045872_cont_9to1_m_773_29_alg».proof.Proof.KernelIdealCommon
import Idealize.ShloMosaic.Lib.Pipeline.Value

noncomputable section

namespace Cert.Proof.KernelIdealRun

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx
open Idealize.ShloMosaic.StableHlo (held held_split held_sdiff_result wp_hlo_within)

variable {F : FTy → Type}

local notation "𝕄" => MT nD τ sig (HIx 1) (Elt F) ℕ UU ℕ

variable (m : (ℓ : Loc nD τ sig) → Buf (Elt F) ℓ) (ρ : Dev nD → PrngReg)

/-! ## The blocks partition the arrays -/

omit m ρ in
theorem mem_iSet (w : Fin 32) (x : S26x4096.Idx) : x ∈ iSet w ↔ 128 * w.val ≤ (x 1).val ∧ (x 1).val < 128 * w.val + 128 := by
  rw [Rect.mem_set_unit]
  constructor
  · intro h; exact h 1
  · intro h a
    match a with
    | ⟨0, _⟩ => exact ⟨Nat.zero_le _, by have : (x 0).val < 26 := (x 0).isLt; show (x 0).val < 0 + 26; omega⟩
    | ⟨1, _⟩ => exact h

omit m ρ in
theorem mem_oSet (w : Fin 32) (k : Fin 26) (x : S106496x128.Idx) :
    x ∈ oSet w k ↔ 4096 * k.val + 128 * w.val ≤ (x 0).val ∧ (x 0).val < 4096 * k.val + 128 * w.val + 128 := by
  rw [Rect.mem_set_unit]
  constructor
  · intro h; exact h 0
  · intro h a
    match a with
    | ⟨0, _⟩ => exact h
    | ⟨1, _⟩ => exact ⟨Nat.zero_le _, by have : (x 1).val < 128 := (x 1).isLt; show (x 1).val < 0 + 128; omega⟩

omit m ρ in
theorem iSet_disjoint : ∀ w ∈ (Finset.univ : Finset (Fin 32)), ∀ w' ∈ (Finset.univ : Finset (Fin 32)), w ≠ w' → Disjoint (iSet w) (iSet w') := by
  intro w _ w' _ hne
  rw [Finset.disjoint_left]
  intro x hx hx'
  rw [mem_iSet] at hx hx'
  exact hne (Fin.ext (by omega))

omit m ρ in
theorem iSet_cover : (Finset.univ : Finset (Fin 32)).biUnion iSet = Finset.univ := by
  ext x
  simp only [Finset.mem_biUnion, Finset.mem_univ, true_and, iff_true]
  have hx : (x 1).val < 4096 := (x 1).isLt
  exact ⟨⟨(x 1).val / 128, by omega⟩, (mem_iSet _ x).2 ⟨by show 128 * ((x 1).val / 128) ≤ (x 1).val; omega, by show (x 1).val < 128 * ((x 1).val / 128) + 128; omega⟩⟩

omit m ρ in
theorem oSet_disjoint : ∀ p ∈ (Finset.univ : Finset (Fin 32 × Fin 26)), ∀ p' ∈ (Finset.univ : Finset (Fin 32 × Fin 26)), p ≠ p' →
    Disjoint (oSet p.1 p.2) (oSet p'.1 p'.2) := by
  intro p _ p' _ hne
  rw [Finset.disjoint_left]
  intro x hx hx'
  rw [mem_oSet] at hx hx'
  have h1 := p.1.isLt; have h2 := p.2.isLt; have h3 := p'.1.isLt; have h4 := p'.2.isLt
  exact hne (Prod.ext (Fin.ext (by omega)) (Fin.ext (by omega)))

omit m ρ in
theorem oSet_cover : (Finset.univ : Finset (Fin 32 × Fin 26)).biUnion (fun p => oSet p.1 p.2) = Finset.univ := by
  ext x
  simp only [Finset.mem_biUnion, Finset.mem_univ, true_and, iff_true]
  have hx : (x 0).val < 106496 := (x 0).isLt
  exact ⟨(⟨(x 0).val % 4096 / 128, by omega⟩, ⟨(x 0).val / 4096, by omega⟩), (mem_oSet _ _ x).2 ⟨by show 4096 * ((x 0).val / 4096) + 128 * ((x 0).val % 4096 / 128) ≤ (x 0).val; omega, by show (x 0).val < 4096 * ((x 0).val / 4096) + 128 * ((x 0).val % 4096 / 128) + 128; omega⟩⟩

omit m ρ in
theorem iPts_blocks (d : Dev nD) (f : Buf (Elt F) (iLoc d)) :
    (iLoc d ↦{fullShare} f : sProp 𝕄) = bigSep Finset.univ fun w : Fin 32 => iLoc d ↦[iSet w]{fullShare} f := by
  rw [← pointsTo_biUnion Finset.univ (ℓ := iLoc d) iSet iSet_disjoint, iSet_cover]; try rfl

omit m ρ in
theorem oPts_blocks (d : Dev nD) (f : Buf (Elt F) (oLoc d)) :
    (oLoc d ↦{fullShare} f : sProp 𝕄) = bigSep Finset.univ fun w : Fin 32 => bigSep Finset.univ fun k : Fin 26 => oLoc d ↦[oSet w k]{fullShare} f := by
  rw [← bigSep_univ_prod (fun p : Fin 32 × Fin 26 => (oLoc d ↦[oSet p.1 p.2]{fullShare} f : sProp 𝕄)),
    ← pointsTo_biUnion Finset.univ (ℓ := oLoc d) (fun p : Fin 32 × Fin 26 => oSet p.1 p.2) oSet_disjoint, oSet_cover]; try rfl

/-! ## The table's full share is its thirty-two leaves -/

/-- The two halves of the leaves of depth `n + 1`. -/
def sumEquiv (n : ℕ) : Fin (2 ^ n) ⊕ Fin (2 ^ n) ≃ Fin (2 ^ (n + 1)) := finSumFinEquiv.trans (finCongr (by omega))

omit m ρ in
theorem sumEquiv_inl (n : ℕ) (i : Fin (2 ^ n)) : (sumEquiv n (Sum.inl i)).val = i.val := by simp [sumEquiv]
omit m ρ in
theorem sumEquiv_inr (n : ℕ) (i : Fin (2 ^ n)) : (sumEquiv n (Sum.inr i)).val = 2 ^ n + i.val := by simp [sumEquiv]; omega

omit m ρ in
theorem leaf_inl (n : ℕ) (q : PosShare TreeShare) (i : Fin (2 ^ n)) : leaf (n + 1) q (sumEquiv n (Sum.inl i)) = leaf n q.left i := by
  have h : (sumEquiv n (Sum.inl i)).val < 2 ^ n := by rw [sumEquiv_inl]; exact i.isLt
  have e : (⟨(sumEquiv n (Sum.inl i)).val, h⟩ : Fin (2 ^ n)) = i := Fin.ext (sumEquiv_inl n i)
  rw [leaf, dif_pos h, e]
omit m ρ in
theorem leaf_inr (n : ℕ) (q : PosShare TreeShare) (i : Fin (2 ^ n)) : leaf (n + 1) q (sumEquiv n (Sum.inr i)) = leaf n q.right i := by
  have h : ¬(sumEquiv n (Sum.inr i)).val < 2 ^ n := by rw [sumEquiv_inr]; omega
  have e : (⟨(sumEquiv n (Sum.inr i)).val - 2 ^ n, by have := (sumEquiv n (Sum.inr i)).isLt; omega⟩ : Fin (2 ^ n)) = i :=
    Fin.ext (by simp only [sumEquiv_inr]; omega)
  rw [leaf, dif_neg h, e]

omit m ρ in
/-- A points-to at a share is its leaves' at once. -/
theorem pointsTo_leaves {ℓ : Loc nD τ sig} (I : Finset (Idx ℓ)) (f : Buf (Elt F) ℓ) :
    ∀ (n : ℕ) (q : PosShare TreeShare), (ℓ ↦[I]{q} f : sProp 𝕄) = bigSep Finset.univ fun i : Fin (2 ^ n) => ℓ ↦[I]{leaf n q i} f
  | 0, q => (bigSep_univ_of_subsingleton (0 : Fin 1) (Φ := fun i : Fin (2 ^ 0) => (ℓ ↦[I]{leaf 0 q i} f : sProp 𝕄))).symm
  | n + 1, q => by
    rw [BI.Entails.antisymm (pointsTo_share (PosShare.mem_left_op_right q)).1 (pointsTo_share (PosShare.mem_left_op_right q)).2,
      pointsTo_leaves I f n q.left, pointsTo_leaves I f n q.right,
      bigSep_univ_equiv (sumEquiv n) (fun i : Fin (2 ^ (n + 1)) => (ℓ ↦[I]{leaf (n + 1) q i} f : sProp 𝕄)), bigSep_univ_sum]
    congr 1 <;> refine bigSep_congr fun i _ => ?_
    · rw [leaf_inl]
    · rw [leaf_inr]

omit m ρ in
theorem tPts_shares (d : Dev nD) (f : Buf (Elt F) (tLoc d)) :
    (tLoc d ↦{fullShare} f : sProp 𝕄) = bigSep Finset.univ fun w : Fin 32 => tLoc d ↦{tq w} f :=
  pointsTo_leaves Finset.univ f 5 fullShare

/-! ## The subcores and the blocks -/

/-- The subcore `(c, i)` takes block `2 i + c`: a bijection of the 2 × 16 subcores with the 32 blocks. -/
def wKEquiv : Fin ((K (F := F)).nCore 0) × Fin ((K (F := F)).nSub 0) ≃ Fin 32 where
  toFun p := wK p.1 p.2
  invFun w := (⟨w.val % 2, Nat.mod_lt _ (by decide)⟩, ⟨w.val / 2, by have := w.isLt; show w.val / 2 < 16; omega⟩)
  left_inv p := by
    have h1 : p.1.val < 2 := p.1.isLt
    have h2 : p.2.val < 16 := p.2.isLt
    refine Prod.ext (Fin.ext ?_) (Fin.ext ?_)
    · show (2 * p.2.val + p.1.val) % 2 = p.1.val; omega
    · show (2 * p.2.val + p.1.val) / 2 = p.2.val; omega
  right_inv w := by
    refine Fin.ext ?_
    show 2 * (w.val / 2) + w.val % 2 = w.val; omega

omit m ρ in
theorem bigSep_blocks (Φ : Fin 32 → sProp 𝕄) :
    bigSep Finset.univ Φ = bigSep Finset.univ fun c : Fin ((K (F := F)).nCore 0) => bigSep Finset.univ fun i : Fin ((K (F := F)).nSub 0) => Φ (wK c i) := by
  rw [bigSep_univ_equiv (wKEquiv (F := F)) Φ, bigSep_univ_prod]; rfl

variable [FloatOps F]

theorem split_tiles_eq (d : Dev nD) (fo : Buf (Elt F) (oLoc d)) :
    (iprop((iLoc d ↦{fullShare} V0 m d) ∗ (tLoc d ↦{fullShare} m (tLoc d)) ∗ (oLoc d ↦{fullShare} fo)) : sProp 𝕄)
      = bigSep Finset.univ fun c : Fin ((K (F := F)).nCore 0) => bigSep Finset.univ fun i : Fin ((K (F := F)).nSub 0) => tileRes m d (wK c i) fo := by
  rw [← bigSep_blocks (F := F) (fun w => tileRes m d w fo), bigSep_sep', bigSep_sep', ← iPts_blocks, ← tPts_shares, ← oPts_blocks]

/-- The three arrays whole are the thirty-two subcores' parts. -/
theorem split_tiles (d : Dev nD) (fo : Buf (Elt F) (oLoc d)) :
    (iprop((iLoc d ↦{fullShare} V0 m d) ∗ (tLoc d ↦{fullShare} m (tLoc d)) ∗ (oLoc d ↦{fullShare} fo)) : sProp 𝕄)
      ⊣⊢ bigSep Finset.univ fun c : Fin ((K (F := F)).nCore 0) => bigSep Finset.univ fun i : Fin ((K (F := F)).nSub 0) => tileRes m d (wK c i) fo := by
  rw [split_tiles_eq]

/-! ## A SparseCore's parts among its subcores -/

theorem vecSplit : (K (F := F)).VecSplit' (P m) 0 := by
  intro d c
  show (bigSep Finset.univ fun i : Fin ((K (F := F)).nSub 0) => tileRes m d (wK c i) (m (oLoc d))) ⊢ |={Set.univ}=> iprop(
      (bigSep Finset.univ fun i : Fin ((K (F := F)).nSub 0) => tileRes m d (wK c i) (m (oLoc d)))
      ∗ ((bigSep Finset.univ fun i : Fin ((K (F := F)).nSub 0) => tileRes m d (wK c i) (GG m d))
          -∗ bigSep Finset.univ fun i : Fin ((K (F := F)).nSub 0) => tileRes m d (wK c i) (GG m d)))
  iintro H; imodintro
  isplitl [H]; · iexact H
  iintro H; iexact H

/-! ## The launch element of the ghost state -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## What @main returns -/

/-- The flat result re-laid as @main's last two operations do: cut into 26 slabs of 4096 rows, then the first two axes
    exchanged. -/
def OUT (d : Dev nD) : Buf (Elt F) (zLoc d) :=
  transpose S4096x26x128 [1, 0, 2]
    (shapeCast S26x4096x128 (GG m d : S106496x128.Idx → Elt F .f32) shapeCasts_S106496x128_S26x4096x128 : S26x4096x128.Idx → Elt F .f32)
    transposes_S26x4096x128_S4096x26x128_1_0_2

/-! ## What @main leaves the claim -/

abbrev FIN (d : Dev nD) : sProp 𝕄 := iprop((tLoc d ↦{fullShare} m (tLoc d)) ∗ (aLoc d ↦{fullShare} m (aLoc d)) ∗ (zLoc d ↦{fullShare} OUT m d))

/-! ## @main on the TensorCore -/

abbrev tD : DevRef τ sig := Proc.devRef .tc (main_arg0 : Ref sig .tc)
abbrev aD : DevRef τ sig := Proc.devRef .tc (main_arg1 : Ref sig .tc)
abbrev iD : DevRef τ sig := Proc.devRef .tc (main_v0 : Ref sig .tc)
abbrev oD : DevRef τ sig := Proc.devRef .tc (main_v1 : Ref sig .tc)
abbrev rD : DevRef τ sig := Proc.devRef .tc (main_v2 : Ref sig .tc)
abbrev zD : DevRef τ sig := Proc.devRef .tc (main_v3 : Ref sig .tc)

/-- The transpose of the index array, the flat result cut into slabs, the slabs' first two axes exchanged. -/
abbrev opT0 : HloOp τ sig (Elt F) :=
  StableHlo.unary main_arg1 main_v0 ((transpose S26x4096 [1, 0] · transposes_S4096x26_S26x4096_1_0) : (⟨S4096x26, .i32⟩ : BufTy).Contents (Elt F) → (⟨S26x4096, .i32⟩ : BufTy).Contents (Elt F))
abbrev opRs : HloOp τ sig (Elt F) := StableHlo.reshape main_v1 main_v2 rfl shapeCasts_S106496x128_S26x4096x128
abbrev opT1 : HloOp τ sig (Elt F) :=
  StableHlo.unary main_v2 main_v3 ((transpose S4096x26x128 [1, 0, 2] · transposes_S26x4096x128_S4096x26x128_1_0_2) : (⟨S26x4096x128, .f32⟩ : BufTy).Contents (Elt F) → (⟨S4096x26x128, .f32⟩ : BufTy).Contents (Elt F))

/-- The TensorCore's arrays, all unscoped. -/
abbrev S6 : Finset (DevRef τ sig) := {tD, aD, iD, oD, rD, zD}

omit [FloatOps F] in
theorem held_S6 (d : Dev nD) (W : Valuation τ sig (Elt F)) :
    (held (T d) S6 W : sProp 𝕄)
      = iprop((tLoc d ↦{fullShare} W tD) ∗ (aLoc d ↦{fullShare} W aD) ∗ (iLoc d ↦{fullShare} W iD)
          ∗ (oLoc d ↦{fullShare} W oD) ∗ (rLoc d ↦{fullShare} W rD) ∗ (zLoc d ↦{fullShare} W zD)) := by
  unfold held S6
  rw [SparseCore.bigSep_insert' (by decide), SparseCore.bigSep_insert' (by decide), SparseCore.bigSep_insert' (by decide),
    SparseCore.bigSep_insert' (by decide), SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄)
      = iprop((tLoc d ↦{fullShare} W main_arg0) ∗ (aLoc d ↦{fullShare} W main_arg1) ∗ (iLoc d ↦{fullShare} W main_v0)
          ∗ (oLoc d ↦{fullShare} W main_v1) ∗ (rLoc d ↦{fullShare} W main_v2) ∗ (zLoc d ↦{fullShare} W main_v3)) := by
  unfold unscopedBufs
  rw [show (Finset.univ.filter fun b : Ref sig .tc => ¬ b.isScoped) = {main_arg0, main_arg1, main_v0, main_v1, main_v2, main_v3} by decide,
    SparseCore.bigSep_insert' (by decide), SparseCore.bigSep_insert' (by decide), SparseCore.bigSep_insert' (by decide),
    SparseCore.bigSep_insert' (by decide), SparseCore.bigSep_insert' (by decide), bigSep_singleton]

/-- The launch valuation; after the first transpose; after the call (the flat result at the look-up); after the last two operations. -/
def W0 (d : Dev nD) : Valuation τ sig (Elt F) := fun b => m (d, b)
def W1 (d : Dev nD) : Valuation τ sig (Elt F) := (opT0 (F := F)).result (W0 m d)
def W2 (d : Dev nD) : Valuation τ sig (Elt F) := Function.update (W1 m d) oD (GG m d)
def W4 (d : Dev nD) : Valuation τ sig (Elt F) := (opT1 (F := F)).result ((opRs (F := F)).result (W2 m d))

theorem unscoped_held (d : Dev nD) : (unscopedBufs d (fun b => m ((SparseCore.T d).loc b)) : sProp 𝕄) = held (T d) S6 (W0 m d) := by
  rw [unscopedBufs_eq, held_S6]; rfl

theorem W1_t (d : Dev nD) : W1 m d tD = m (tLoc d) := by
  unfold W1; rw [(opT0 (F := F)).result_of_not_mem _ (show tD ∉ ({iD} : Finset (DevRef τ sig)) by decide)]; rfl
theorem W1_a (d : Dev nD) : W1 m d aD = m (aLoc d) := by
  unfold W1; rw [(opT0 (F := F)).result_of_not_mem _ (show aD ∉ ({iD} : Finset (DevRef τ sig)) by decide)]; rfl
theorem W1_i (d : Dev nD) : W1 m d iD = V0 m d := by
  unfold W1 V0; exact StableHlo.unary_result _ _ _ _ _ _
theorem W1_o (d : Dev nD) : W1 m d oD = m (oLoc d) := by
  unfold W1; rw [(opT0 (F := F)).result_of_not_mem _ (show oD ∉ ({iD} : Finset (DevRef τ sig)) by decide)]; rfl

theorem held_W1 (d : Dev nD) :
    (held (T d) S6 ((opT0 (F := F)).result (W0 m d)) : sProp 𝕄)
      = iprop((tLoc d ↦{fullShare} m (tLoc d)) ∗ (aLoc d ↦{fullShare} m (aLoc d)) ∗ (iLoc d ↦{fullShare} V0 m d)
          ∗ (oLoc d ↦{fullShare} m (oLoc d)) ∗ (rLoc d ↦{fullShare} W1 m d rD) ∗ (zLoc d ↦{fullShare} W1 m d zD)) := by
  show held (SparseCore.T d) S6 (W1 m d) = _
  rw [held_S6, W1_t, W1_a, W1_i, W1_o]

theorem W2_t (d : Dev nD) : W2 m d tD = m (tLoc d) := (Function.update_of_ne (show tD ≠ oD by decide) _ _).trans (W1_t m d)
theorem W2_a (d : Dev nD) : W2 m d aD = m (aLoc d) := (Function.update_of_ne (show aD ≠ oD by decide) _ _).trans (W1_a m d)
theorem W2_i (d : Dev nD) : W2 m d iD = V0 m d := (Function.update_of_ne (show iD ≠ oD by decide) _ _).trans (W1_i m d)
theorem W2_o (d : Dev nD) : W2 m d oD = GG m d := Function.update_self _ _ _
theorem W2_r (d : Dev nD) : W2 m d rD = W1 m d rD := Function.update_of_ne (show rD ≠ oD by decide) _ _
theorem W2_z (d : Dev nD) : W2 m d zD = W1 m d zD := Function.update_of_ne (show zD ≠ oD by decide) _ _

theorem W4_t (d : Dev nD) : W4 m d tD = m (tLoc d) := by
  unfold W4
  rw [(opT1 (F := F)).result_of_not_mem _ (show tD ∉ ({zD} : Finset (DevRef τ sig)) by decide),
    (opRs (F := F)).result_of_not_mem _ (show tD ∉ ({rD} : Finset (DevRef τ sig)) by decide), W2_t]
theorem W4_a (d : Dev nD) : W4 m d aD = m (aLoc d) := by
  unfold W4
  rw [(opT1 (F := F)).result_of_not_mem _ (show aD ∉ ({zD} : Finset (DevRef τ sig)) by decide),
    (opRs (F := F)).result_of_not_mem _ (show aD ∉ ({rD} : Finset (DevRef τ sig)) by decide), W2_a]
theorem W4_z (d : Dev nD) : W4 m d zD = OUT m d := by
  unfold W4 OUT
  rw [StableHlo.unary_result, StableHlo.reshape_result, W2_o]; rfl

theorem held_W4 (d : Dev nD) :
    (held (T d) S6 ((opT1 (F := F)).result ((opRs (F := F)).result (W2 m d))) : sProp 𝕄)
      = iprop((tLoc d ↦{fullShare} m (tLoc d)) ∗ (aLoc d ↦{fullShare} m (aLoc d)) ∗ (iLoc d ↦{fullShare} W4 m d iD)
          ∗ (oLoc d ↦{fullShare} W4 m d oD) ∗ (rLoc d ↦{fullShare} W4 m d rD) ∗ (zLoc d ↦{fullShare} OUT m d)) := by
  show held (SparseCore.T d) S6 (W4 m d) = _
  rw [held_S6, W4_t, W4_a, W4_z]

theorem hT0 : (opT0 (F := F)).bufs ⊆ S6 := show ({aD, iD} : Finset (DevRef τ sig)) ⊆ S6 by decide
theorem hRs : (opRs (F := F)).bufs ⊆ S6 := show ({oD, rD} : Finset (DevRef τ sig)) ⊆ S6 by decide
theorem hT1 : (opT1 (F := F)).bufs ⊆ S6 := show ({rD, zD} : Finset (DevRef τ sig)) ⊆ S6 by decide

/-- What the call takes for the two SparseCores, and what it hands back. -/
theorem st0_eq (d : Dev nD) : (bigSep Finset.univ fun c : Fin ((K (F := F)).nCore 0) => (P m).st 0 d c)
    = bigSep Finset.univ fun c : Fin ((K (F := F)).nCore 0) => bigSep Finset.univ fun i : Fin ((K (F := F)).nSub 0) => tileRes m d (wK c i) (m (oLoc d)) := rfl
theorem dn0_eq (d : Dev nD) : (bigSep Finset.univ fun c : Fin ((K (F := F)).nCore 0) => (P m).dn 0 d c)
    = bigSep Finset.univ fun c : Fin ((K (F := F)).nCore 0) => bigSep Finset.univ fun i : Fin ((K (F := F)).nSub 0) => tileRes m d (wK c i) (GG m d) := rfl

/-- @main on device `d`'s TensorCore: the index array transposed, the call (the three arrays dealt to the thirty-two
    subcores and gathered back, the flat result at the look-up), the flat result re-laid; the table, the given index array and
    the result kept. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, wp_bind, wp_pure]
  iintro ⟨#Hctx, Hst, ⟨Hb, Hheld, -, -⟩, -⟩
  -- the index array transposed
  iapply (wp_hlo_within 𝒱 (SparseCore.T d) none Set.univ (op := opT0) (S := S6) hT0 (V := W0 m d)) $$ [Hb Hheld]
  · isplitl [Hb] <;> iassumption
  iintro ⟨Hb, Hheld⟩
  rw [wp_ret]; imodintro
  ihave Hh := (Entails.of_eq (held_W1 (F := F) m d)) $$ Hheld
  icases Hh with ⟨Ht, Ha, Hi, Ho, Hr, Hz⟩
  -- the call
  iapply ((K (F := F)).wp_run (D (F := F)) 𝒱 (EH := EH) (P := P m) κ d 0) $$ [Hst Ht Hi Ho Hb Ha Hr Hz]
  isplitr; · iexact Hctx
  isplitl [Hst]; · iexact Hst
  isplitl [Ht Hi Ho]
  · rw [st0_eq]
    iapply (split_tiles m d (m (oLoc d))).1
    isplitl [Hi]; · iexact Hi
    isplitl [Ht]; · iexact Ht
    iexact Ho
  iintro ⟨Hst, Hdn⟩
  ihave Hdn' := (Entails.of_eq (dn0_eq m d)) $$ Hdn
  ihave Hdn'' := (split_tiles m d (GG m d)).2 $$ Hdn'
  icases Hdn'' with ⟨Hi, Ht, Ho⟩
  -- the flat result cut into slabs
  iapply (wp_hlo_within 𝒱 (SparseCore.T d) none Set.univ (op := opRs) (S := S6) hRs (V := W2 m d)) $$ [Hb Ht Ha Hi Ho Hr Hz]
  · isplitl [Hb]; · iexact Hb
    rw [held_S6, W2_t, W2_a, W2_i, W2_o, W2_r, W2_z]
    isplitl [Ht]; · iexact Ht
    isplitl [Ha]; · iexact Ha
    isplitl [Hi]; · iexact Hi
    isplitl [Ho]; · iexact Ho
    isplitl [Hr]; · iexact Hr
    iexact Hz
  iintro ⟨Hb, Hheld⟩
  rw [wp_ret]; imodintro
  -- the slabs' first two axes exchanged
  iapply (wp_hlo_within 𝒱 (SparseCore.T d) none Set.univ (op := opT1) (S := S6) hT1 (V := (opRs (F := F)).result (W2 m d))) $$ [Hb Hheld]
  · isplitl [Hb] <;> iassumption
  iintro ⟨Hb, Hheld⟩
  ihave Hh := (Entails.of_eq (held_W4 (F := F) m d)) $$ Hheld
  icases Hh with ⟨Ht, Ha, -, -, -, Hz⟩
  rw [wp_ret]; imodintro; imodintro
  isplitl [Hst]; · iexact Hst
  isplitl [Ht]; · iexact Ht
  isplitl [Ha]; · iexact Ha
  iexact Hz

/-! ## The final memory reads the claim -/

def fq (d : Dev nD) (s' : Phys nD τ sig (Elt F)) : Prop :=
  s'.mem.mem (zLoc d) = OUT m d ∧ s'.mem.mem (tLoc d) = m (tLoc d) ∧ s'.mem.mem (aLoc d) = m (aLoc d)

set_option maxRecDepth 16384 in
theorem hfin (d : Dev nD) (s' : Phys nD τ sig (Elt F)) : iprop(FIN m d ∗ SI s') ⊢ (⌜fq m d s'⌝ : sProp 𝕄) := by
  iintro ⟨⟨Ht, Ha, Hz⟩, HSI⟩
  ihave H := (persistent_entails_right (SI_pointsTo_agree (st := s') (ℓ := tLoc d) (I := Finset.univ) (q := fullShare) (f := m (tLoc d)))) $$ [HSI Ht]
  · isplitl [HSI] <;> iassumption
  icases H with ⟨%h1, HSI, -⟩
  ihave H := (persistent_entails_right (SI_pointsTo_agree (st := s') (ℓ := aLoc d) (I := Finset.univ) (q := fullShare) (f := m (aLoc d)))) $$ [HSI Ha]
  · isplitl [HSI] <;> iassumption
  icases H with ⟨%h2, HSI, -⟩
  ihave H := (SI_pointsTo_agree (st := s') (ℓ := zLoc d) (I := Finset.univ) (q := fullShare) (f := OUT m d)) $$ [HSI Hz]
  · isplitl [HSI] <;> iassumption
  icases H with %h3
  ipureintro
  exact ⟨funext fun i => h3 i (Finset.mem_univ i), funext fun i => h1 i (Finset.mem_univ i), funext fun i => h2 i (Finset.mem_univ i)⟩

/-! ## The program's run -/

def QC : PUnit × MemSt nD τ sig (Elt F) → Prop := fun r =>
  ∀ c : Dev nD, r.2.mem (zLoc c) = OUT m c ∧ r.2.mem (tLoc c) = m (tLoc c) ∧ r.2.mem (aLoc c) = m (aLoc c)

/-- Every weakly fair execution of the device's threads ends with the result at `OUT` and the two arguments unchanged,
    given each vector subcore's run of the kernel's body. -/
theorem run_main [∀ e, Nonempty (Elt F e)] (htile : (K (F := F)).TileObl (D (F := F)) 𝒱 (P m) v₀ 0) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => htile)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h => h)

/-! ## The result, index by index -/

/-- The transposed index array at (f, b) is the given one at (b, f). -/
theorem V0_apply (d : Dev nD) (f : Fin 26) (b : Fin 4096) :
    V0 m d (ix2 f b) = (m (aLoc d) : S4096x26.Idx → Elt F .i32) (ix2 b f) := by
  unfold V0
  exact transpose_apply [1, 0] _ transposes_S4096x26_S26x4096_1_0 (ix2 f b) (ix2 b f) (by
    intro a
    match a with
    | ⟨0, _⟩ => rfl
    | ⟨1, _⟩ => rfl)

/-- Entry (b, f, l) of what @main returns is entry l of row 4096 f + b of the flat result. -/
theorem OUT_apply (d : Dev nD) (b : Fin 4096) (f : Fin 26) (l : Fin 128) :
    (OUT m d : S4096x26x128.Idx → Elt F .f32) (ix3 b f l)
      = GG m d (ix2 (n0 := 106496) (n1 := 128) ⟨4096 * f.val + b.val, by have := f.isLt; have := b.isLt; omega⟩ l) := by
  unfold OUT
  rw [transpose_apply [1, 0, 2] _ transposes_S26x4096x128_S4096x26x128_1_0_2 (ix3 b f l) (ix3 f b l) (by
    intro a
    match a with
    | ⟨0, _⟩ => rfl
    | ⟨1, _⟩ => rfl
    | ⟨2, _⟩ => rfl)]
  refine shapeCast_apply _ shapeCasts_S106496x128_S26x4096x128 (ix3 f b l) _ ?_
  rw [Shape.rowMajor_val_two, Shape.rowMajor_val_three]
  show (4096 * f.val + b.val) * 128 + l.val = (f.val * 4096 + b.val) * 128 + l.val
  omega

/-- What @main returns is the look-up of the given index array in the table. -/
theorem OUT_eq (d : Dev nD) : OUT m d = Cert.Spec.lookup (m (tLoc d)) (m (aLoc d)) := by
  funext j
  obtain ⟨b, f, l, rfl⟩ : ∃ b f l, j = ix3 b f l := ⟨j 0, j 1, j 2, eq_ix3 j⟩
  have hf := f.isLt; have hb := b.isLt
  rw [OUT_apply]
  show m (tLoc d) (ix2 (Cert.Spec.rowOf (V0 m d (ix2 (n0 := 26) (n1 := 4096) ⟨(4096 * f.val + b.val) / 4096, _⟩ ⟨(4096 * f.val + b.val) % 4096, _⟩))) l)
    = m (tLoc d) (ix2 (Cert.Spec.rowOf ((m (aLoc d) : S4096x26.Idx → Elt F .i32) (ix2 b f))) l)
  rw [show (⟨(4096 * f.val + b.val) / 4096, by omega⟩ : Fin 26) = f from Fin.ext (by show (4096 * f.val + b.val) / 4096 = f.val; omega),
    show (⟨(4096 * f.val + b.val) % 4096, Nat.mod_lt _ (by decide)⟩ : Fin 4096) = b from Fin.ext (by show (4096 * f.val + b.val) % 4096 = b.val; omega),
    V0_apply]

/-- Index words in range name rows of the table. -/
theorem preOK_of_range (h : ∀ (d : Dev nD) i, 0 ≤ (m (aLoc d) i : BitVec 32).toInt ∧ (m (aLoc d) i : BitVec 32).toInt ≤ 99999) : PreOK m := by
  intro d j
  obtain ⟨f, b, rfl⟩ : ∃ f b, j = ix2 f b := ⟨j 0, j 1, eq_ix2 j⟩
  rw [V0_apply]
  exact Cert.Spec.toNat_lt_of_range (h d _).1 (h d _).2

end Cert.Proof.KernelIdealRun

end
-- ==== Proof.KernelIdealBody1.lean ====
/-
  The look-up kernel on one vector subcore: what the loop keeps from trip to trip, and what the copies carry.

  A subcore takes column block w of the transposed index array into its index scratch (26 rows of 128 words), then
  for each row c (a chunk) gathers the 128 table rows the words name into one of four row buffers (buffer c mod 4) and
  copies that buffer out to rows 4096 c + 128 w … + 127 of the flat result. Four gathers are kept in flight: a trip of
  the loop waits for the gathers of chunks 4k … 4k+3, starts their copy-outs, and as each copy-out ends starts the
  gather of chunk 4k+4 … 4k+7 into the freed buffer (the last trip starts only two). Each gather holds, until its wait,
  its row of the index scratch, a read token of the table and its row buffer; each copy-out holds its chunk of the flat
  result and its row buffer. Here: the rows and chunks as families over the 26 chunk numbers, the value a gather
  leaves in a row buffer and a copy-out leaves in a chunk (both the look-up's), and the invariant before trip k.
-/
import proofs.«206476_g69466801045872_cont_9to1_m_773_29_alg».proof.Proof.KernelIdealCommon

noncomputable section

namespace Cert.Proof.KernelIdealRun

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

variable (m : (ℓ : Loc nD τ sig) → Buf (Elt F) ℓ) (ρ : Dev nD → PrngReg)

local notation "iV" => (Memref.whole Cert.KernelIdeal.main_v0_scv : Memref Cert.KernelIdeal.sig Kind.scVector Space.hbm Cert.KernelIdeal.S26x4096 EltTy.i32)
local notation "xV" => (Memref.whole Cert.KernelIdeal.main_arg0_scv : Memref Cert.KernelIdeal.sig Kind.scVector Space.hbm Cert.KernelIdeal.S100000x128 EltTy.f32)
local notation "oV" => (Memref.whole Cert.KernelIdeal.main_v1_scv : Memref Cert.KernelIdeal.sig Kind.scVector Space.hbm Cert.KernelIdeal.S106496x128 EltTy.f32)
local notation "sV" => (Memref.whole Cert.KernelIdeal.cc0_scratch0 : Memref Cert.KernelIdeal.sig Kind.scVector Space.vmem Cert.KernelIdeal.S26x128 EltTy.i32)
local notation "b0V" => (Memref.whole Cert.KernelIdeal.cc0_scratch1 : Memref Cert.KernelIdeal.sig Kind.scVector Space.vmem Cert.KernelIdeal.S128x128 EltTy.f32)
local notation "b1V" => (Memref.whole Cert.KernelIdeal.cc0_scratch2 : Memref Cert.KernelIdeal.sig Kind.scVector Space.vmem Cert.KernelIdeal.S128x128 EltTy.f32)
local notation "b2V" => (Memref.whole Cert.KernelIdeal.cc0_scratch3 : Memref Cert.KernelIdeal.sig Kind.scVector Space.vmem Cert.KernelIdeal.S128x128 EltTy.f32)
local notation "b3V" => (Memref.whole Cert.KernelIdeal.cc0_scratch4 : Memref Cert.KernelIdeal.sig Kind.scVector Space.vmem Cert.KernelIdeal.S128x128 EltTy.f32)

variable [FloatOps F]

section Tile
variable (d : Dev nD) (L : grid0.Coords)

abbrev cV (L : grid0.Coords) : Fin τ.nSC := (L 0).castLE hcore0
abbrev jV (L : grid0.Coords) : Fin τ.nSub := (L 1).castLE hsub0
/-- The vector subcore at grid coordinates `L` of device `d`. -/
abbrev VT (d : Dev nD) (L : grid0.Coords) : Thread nD τ := V d (cV L) (jV L)

/-- The subcore's block number, `2 s + c`. -/
def wL (L : grid0.Coords) : Fin 32 := ⟨2 * (L 1).val + (L 0).val, by
  have h0 : (L 0).val < 2 := (L 0).isLt
  have h1 : (L 1).val < 16 := (L 1).isLt
  omega⟩

/-- The subcore's column block of the transposed indices, and the table whole, as the body addresses them. -/
abbrev iColK (L : grid0.Coords) : Memref sig .scVector .hbm S26x128 .i32 :=
  (iV).slice (Rect.unit (s := S26x4096) (k0_off1 L) S26x128.size (k0_off1_inb L)) (fun _ => rfl)
abbrev xSl : Memref sig .scVector .hbm S100000x128 .f32 :=
  (xV).slice (Rect.unit (s := S100000x128) ![0, 0] S100000x128.size inb_S100000x128_S100000x128_0_0) (fun _ => rfl)

/-- Row `row` of the index scratch as a list of 128 words. -/
abbrev rowM (row : Fin 2 → Nat) (hk : ∀ a, row a + S1x128.size a ≤ S26x128.size a) : Memref sig .scVector .vmem S128 .i32 :=
  ((sV).slice (Rect.unit (s := S26x128) row S1x128.size hk) (fun _ => rfl)).squeeze S128 squeezes_S1x128_S128

/-- The words of row `row` of the index scratch, as a set of its indices. -/
abbrev rowSet (row : Fin 2 → Nat) (hk : ∀ a, row a + S1x128.size a ≤ S26x128.size a) : Finset S26x128.Idx := (rowM row hk).view.set
abbrev sAll : Finset S26x128.Idx := (sV).view.set

omit [FloatOps F] in
theorem rowInb4 (k : Nat) (hk : k ≤ 5) (i : Nat) (hi : i < 4) : ∀ a, (![4 * k + i, 0] : Fin 2 → Nat) a + S1x128.size a ≤ S26x128.size a := by
  intro a
  match a with
  | ⟨0, _⟩ => show 4 * k + i + 1 ≤ 26; omega
  | ⟨1, _⟩ => show 0 + 128 ≤ 128; omega

omit [FloatOps F] in
theorem rowInb (c : Nat) (hc : c < 26) : ∀ a, (![c, 0] : Fin 2 → Nat) a + S1x128.size a ≤ S26x128.size a := by
  intro a
  match a with
  | ⟨0, _⟩ => show c + 1 ≤ 26; omega
  | ⟨1, _⟩ => show 0 + 128 ≤ 128; omega

/-- A 128-row block of the flat result at row offset `off`, as the body addresses it. -/
abbrev oBlk (off : Fin 2 → Nat) (h : ∀ a, off a + S128x128.size a ≤ S106496x128.size a) : Memref sig .scVector .hbm S128x128 .f32 :=
  (oV).slice (Rect.unit (s := S106496x128) off S128x128.size h) (fun _ => rfl)

/-- What the index fetch lands in the index scratch: the subcore's column block of the transposed indices. -/
abbrev PAY : S26x128.Idx → Elt F .i32 := ReadAs.same.apply ((iColK L).view.read (Elt F) (V0 m d))

omit [FloatOps F] in
theorem PAY_apply (x : S26x128.Idx) : PAY m d L x = V0 m d ((iColK L).view.emb x) :=
  (View.read_apply _ _).trans (cast_eq _ _)

/-- The index scratch after the fetch. -/
abbrev SCONT : Buf (Elt F) ((sV).view.loc (VT d L)) :=
  (sV).view.writes (Elt F) (sV).view.junk [⟨Rect.whole cc0_scratch0.ty.shape, PAY m d L⟩]

omit [FloatOps F] in
/-- Every word of a row of the index scratch, after the fetch, is a word of the transposed index array: it names a table row. -/
theorem inb_of_pre (hpre : PreOK m) (g0 : Buf (Elt F) ((sV).view.loc (VT d L)))
    (pay : S26x128.Idx → Elt F .i32) (hpay : pay = PAY m d L) (row : Fin 2 → Nat)
    (hk : ∀ a, row a + S1x128.size a ≤ S26x128.size a) (hq : (Rect.unit (s := S26x128) row S1x128.size hk).shape.Squeezes S128) :
    ∀ x, (View.read (Elt F) (((sV).slice (Rect.unit (s := S26x128) row S1x128.size hk) (fun _ => rfl)).squeeze S128 hq).view
      ((sV).view.writes (Elt F) g0 [⟨Rect.whole cc0_scratch0.ty.shape, pay⟩]) x).toNat < 100000 := by
  subst hpay; intro x
  have e : View.read (Elt F) (((sV).slice (Rect.unit (s := S26x128) row S1x128.size hk) (fun _ => rfl)).squeeze S128 hq).view
        ((sV).view.writes (Elt F) g0 [⟨Rect.whole cc0_scratch0.ty.shape, PAY m d L⟩]) x
      = View.read (Elt F) (sV).view ((sV).view.writes (Elt F) g0 [⟨Rect.whole cc0_scratch0.ty.shape, PAY m d L⟩])
          ((Rect.unit (s := S26x128) row S1x128.size hk).emb ((Shape.reshapeEquiv hq.numel_eq) x)) := by
    rw [View.read_apply, View.read_apply]; rfl
  rw [e, View.read_writes_whole, PAY_apply]
  exact hpre d _

/-- What a gather of chunk `c` leaves in a row buffer: row `r` is the table's row named by the index word at
    (c, 128 w + r) of the transposed index array. -/
def GBuf (c : Nat) : S128x128.Idx → Elt F .f32 :=
  fun y => m (tLoc d) (ix2 (Cert.Spec.rowOf (V0 m d (ix2 (n0 := 26) (n1 := 4096) ⟨c % 26, Nat.mod_lt _ (by decide)⟩
      ⟨128 * (wL L).val + (y 0).val, by
        have h1 := (wL L).isLt
        have h2 : (y 0).val < 128 := (y 0).isLt
        omega⟩))) (show Fin 128 from y 1))

/-- Chunk number `4 k + i`. -/
def ck (k : Nat) (hk : k ≤ 5) (i : Nat) (hi : i < 4) : Fin 26 := ⟨4 * k + i, by omega⟩

/-- The last six chunk numbers. -/
abbrev c20 : Fin 26 := ⟨20, by decide⟩
abbrev c21 : Fin 26 := ⟨21, by decide⟩
abbrev c22 : Fin 26 := ⟨22, by decide⟩
abbrev c23 : Fin 26 := ⟨23, by decide⟩
abbrev c24 : Fin 26 := ⟨24, by decide⟩
abbrev c25 : Fin 26 := ⟨25, by decide⟩
abbrev c00 : Fin 26 := ⟨0, by decide⟩
abbrev c01 : Fin 26 := ⟨1, by decide⟩
abbrev c02 : Fin 26 := ⟨2, by decide⟩
abbrev c03 : Fin 26 := ⟨3, by decide⟩

/-! ## The rows of the index scratch -/

omit [FloatOps F] in
theorem rowSet_eq (row : Fin 2 → Nat) (hk : ∀ a, row a + S1x128.size a ≤ S26x128.size a) :
    rowSet row hk = (Rect.unit (s := S26x128) row S1x128.size hk).set := by
  show (((View.whole (cc0_scratch0 : Ref sig .scVector)).slice (Rect.unit (s := S26x128) row S1x128.size hk)).reshape S128 squeezes_S1x128_S128.numel_eq).set = _
  rw [View.set_reshape, View.set_slice]; exact Finset.map_refl

omit [FloatOps F] in
theorem mem_rowSet (c : Nat) (hc : c < 26) (x : S26x128.Idx) : x ∈ rowSet ![c, 0] (rowInb c hc) ↔ (x 0).val = c := by
  rw [rowSet_eq, Rect.mem_set_unit]
  constructor
  · intro h; have := h 0; simp only [Matrix.cons_val_zero] at this
    have h2 : (S1x128.size 0) = 1 := rfl
    omega
  · intro h a
    match a with
    | ⟨0, _⟩ => show c ≤ (x 0).val ∧ (x 0).val < c + 1; omega
    | ⟨1, _⟩ => show 0 ≤ (x 1).val ∧ (x 1).val < 0 + 128; have := (x 1).isLt; exact ⟨Nat.zero_le _, by simpa using this⟩

omit [FloatOps F] in
theorem rows_disjoint : ∀ c ∈ (Finset.univ : Finset (Fin 26)), ∀ c' ∈ (Finset.univ : Finset (Fin 26)), c ≠ c' →
    Disjoint (rowSet ![c.val, 0] (rowInb c.val c.isLt)) (rowSet ![c'.val, 0] (rowInb c'.val c'.isLt)) := by
  intro c _ c' _ hne
  refine Finset.disjoint_left.mpr fun x h1 h2 => hne (Fin.ext ?_)
  have e1 := (mem_rowSet _ c.isLt x).mp h1
  have e2 := (mem_rowSet _ c'.isLt x).mp h2
  omega

omit [FloatOps F] in
theorem rows_cover : (Finset.univ : Finset (Fin 26)).biUnion (fun c => rowSet ![c.val, 0] (rowInb c.val c.isLt)) = Finset.univ := by
  refine Finset.eq_univ_iff_forall.mpr fun x => ?_
  have hx : (x 0).val < 26 := (x 0).isLt
  exact Finset.mem_biUnion.mpr ⟨⟨(x 0).val, hx⟩, Finset.mem_univ _, (mem_rowSet _ hx x).mpr rfl⟩

/-- Row `c` of the index scratch, held after the fetch. -/
abbrev rowPts (c : Fin 26) : sProp 𝕄 :=
  (sV).view.loc (VT d L) ↦[rowSet ![c.val, 0] (rowInb c.val c.isLt)]{fullShare} SCONT m d L

omit [FloatOps F] in
/-- The index scratch whole is its 26 rows. -/
theorem sPts_rows (f : Buf (Elt F) ((sV).view.loc (VT d L))) :
    ((sV).view.loc (VT d L) ↦[(sV).view.set]{fullShare} f : sProp 𝕄)
      = bigSep Finset.univ fun c : Fin 26 => (sV).view.loc (VT d L) ↦[rowSet ![c.val, 0] (rowInb c.val c.isLt)]{fullShare} f := by
  rw [← pointsTo_biUnion Finset.univ (ℓ := (sV).view.loc (VT d L)) (fun c : Fin 26 => rowSet ![c.val, 0] (rowInb c.val c.isLt)) rows_disjoint, rows_cover]
  have hss : (sV).view.set = Finset.univ := View.set_whole _
  rw [hss]

omit [FloatOps F] in
theorem rowM_congr (row row' : Fin 2 → Nat) (hk) (hk') (e : row = row') : rowM row hk = rowM row' hk' := by subst e; rfl

/-! ## The chunks of the flat result -/

omit [FloatOps F] in
theorem set_oBlk (off : Fin 2 → Nat) (h) (c : Fin 26) (hoff : off = ![4096 * c.val + 128 * (wL L).val, 0]) :
    (oBlk off h).view.set = oSet (wL L) c := by
  subst hoff
  show ((View.whole (main_v1_scv : Ref sig .scVector)).slice (Rect.unit (s := S106496x128) _ S128x128.size h)).set = _
  rw [View.set_slice]; exact Finset.map_refl

omit [FloatOps F] in
theorem pts_oBlk (off : Fin 2 → Nat) (h) (c : Fin 26) (hoff : off = ![4096 * c.val + 128 * (wL L).val, 0]) (f : Buf (Elt F) (oLoc d)) :
    ((oBlk off h).view.loc (VT d L) ↦[(oBlk off h).view.set]{fullShare} f : sProp 𝕄) = oLoc d ↦[oSet (wL L) c]{fullShare} f := by
  rw [set_oBlk L off h c hoff]

omit [FloatOps F] in
theorem off2_eq (k : Fin k0_t1_loop.trips) (r : Fin 4) (hk : k.val ≤ 5) :
    k0_off2 L k (BitVec.ofNat 32 r.val) = ![4096 * (ck k.val hk r.val r.isLt).val + 128 * (wL L).val, 0] := by
  rw [k0_off2_eq]
  have e : 16384 * k.val + 4096 * r.val + 256 * (L 1).val + 128 * (L 0).val = 4096 * (ck k.val hk r.val r.isLt).val + 128 * (wL L).val := by
    show _ = 4096 * (4 * k.val + r.val) + 128 * (2 * (L 1).val + (L 0).val); omega
  rw [e]

omit [FloatOps F] in
theorem off11_eq (r : Fin 2) :
    k0_off11 L (BitVec.ofNat 32 (98304 + 4096 * r.val)) = ![4096 * (24 + r.val) + 128 * (wL L).val, 0] := by
  rw [k0_off11_eq]
  have e : 4096 * r.val + 256 * (L 1).val + 128 * (L 0).val + 98304 = 4096 * (24 + r.val) + 128 * (wL L).val := by
    show _ = 4096 * (24 + r.val) + 128 * (2 * (L 1).val + (L 0).val); omega
  rw [e]

/-! ## The table's read tokens -/

omit [FloatOps F] in
theorem xSl_set : ((xSl).view.set : Finset S100000x128.Idx) = Finset.univ := by
  show ((View.whole (main_arg0_scv : Ref sig .scVector)).slice (Rect.unit (s := S100000x128) ![0, 0] S100000x128.size inb_S100000x128_S100000x128_0_0)).set = _
  rw [View.set_slice]
  refine Finset.eq_univ_iff_forall.mpr fun x => ?_
  refine Finset.mem_map.mpr ⟨x, Rect.mem_set_unit.mpr fun a => ?_, rfl⟩
  match a with
  | ⟨0, _⟩ => exact ⟨Nat.zero_le _, by have h : (x 0).val < 100000 := (x 0).isLt; show (x 0).val < 0 + 100000; omega⟩
  | ⟨1, _⟩ => exact ⟨Nat.zero_le _, by have h : (x 1).val < 128 := (x 1).isLt; show (x 1).val < 0 + 128; omega⟩

omit [FloatOps F] in
/-- A read token of the table held by the elements of the body's whole slice of it is the token held whole. -/
theorem xtok_univ (qq : PosShare TreeShare) (f : Buf (Elt F) ((xV).view.loc (VT d L))) :
    ((xV).view.loc (VT d L) ↦[(xSl).view.set]{qq} f : sProp 𝕄) = ((xV).view.loc (VT d L) ↦{qq} f) := by
  rw [xSl_set]

/-! ## What the copies carry -/

omit [FloatOps F] in
/-- The fetched index block at (c, j) is the transposed index array at (c, 128 w + j). -/
theorem PAY_ix (c : Fin 26) (j : Fin 128) :
    PAY m d L (ix2 c j) = V0 m d (ix2 (n0 := 26) (n1 := 4096) c ⟨128 * (wL L).val + j.val, by have h1 := (wL L).isLt; have := j.isLt; omega⟩) := by
  rw [PAY_apply]
  congr 1
  funext a
  match a with
  | ⟨0, _⟩ =>
    apply Fin.ext
    show k0_off1 L 0 + 1 * c.val = c.val
    rw [k0_off1_eq]; simp
  | ⟨1, _⟩ =>
    apply Fin.ext
    show k0_off1 L 1 + 1 * j.val = 128 * (wL L).val + j.val
    rw [k0_off1_eq]
    show 256 * (L 1).val + 128 * (L 0).val + 1 * j.val = 128 * (2 * (L 1).val + (L 0).val) + j.val
    omega

omit [FloatOps F] in
theorem squeeze_lane : ∀ y : S128.Idx, ((Shape.reshapeEquiv (s := S1x128) (s' := S128) squeezes_S1x128_S128.numel_eq) y 1).val = (y 0).val := by
  decide +kernel

omit [FloatOps F] in
theorem squeeze_row : ∀ y : S128.Idx, ((Shape.reshapeEquiv (s := S1x128) (s' := S128) squeezes_S1x128_S128.numel_eq) y 0).val = 0 := by
  decide +kernel

/-- Word `j` of row `c` of the index scratch after the fetch. -/
theorem row_read (c : Nat) (hc : c < 26) (j : S128.Idx) :
    (rowM ![c, 0] (rowInb c hc)).view.read (Elt F) (SCONT m d L) j = PAY m d L (ix2 (n0 := 26) (n1 := 128) ⟨c, hc⟩ (show Fin 128 from j 0)) := by
  have e : (rowM ![c, 0] (rowInb c hc)).view.read (Elt F) (SCONT m d L) j
      = View.read (Elt F) (sV).view (SCONT m d L)
          ((Rect.unit (s := S26x128) ![c, 0] S1x128.size (rowInb c hc)).emb ((Shape.reshapeEquiv squeezes_S1x128_S128.numel_eq) j)) := by
    rw [View.read_apply, View.read_apply]; rfl
  rw [e, View.read_writes_whole]
  congr 1
  funext a
  match a with
  | ⟨0, _⟩ =>
    apply Fin.ext
    have h := squeeze_row j
    change c + 1 * ((Shape.reshapeEquiv (s := S1x128) (s' := S128) squeezes_S1x128_S128.numel_eq) j 0).val = c
    omega
  | ⟨1, _⟩ =>
    apply Fin.ext
    have h := squeeze_lane j
    change 0 + 1 * ((Shape.reshapeEquiv (s := S1x128) (s' := S128) squeezes_S1x128_S128.numel_eq) j 1).val = (j 0).val
    omega

omit [FloatOps F] in
theorem rowMajor_S128 : ∀ k : Fin 128, ((S128.rowMajor.symm (k.cast (by decide : 128 = S128.numel))) 0).val = k.val := by
  decide +kernel

omit [FloatOps F] in
/-- The table read through the body's whole slice of it is the table. -/
theorem xSl_read (z : S100000x128.Idx) : (xSl).view.read (Elt F) (m (tLoc d)) z = m (tLoc d) z := by
  rw [View.read_apply]
  refine (cast_eq _ _).trans (congrArg (m (tLoc d)) ?_)
  funext a
  match a with
  | ⟨0, _⟩ => apply Fin.ext; show 0 + 1 * (z 0).val = (z 0).val; omega
  | ⟨1, _⟩ => apply Fin.ext; show 0 + 1 * (z 1).val = (z 1).val; omega

/-- The gather's payload at (r, l): entry l of the table's row named by word r of row `c` of the index scratch. -/
theorem gather_at (c : Nat) (hc : c < 26) (hk : ∀ a, (![c, 0] : Fin 2 → Nat) a + S1x128.size a ≤ S26x128.size a)
    (hn : S128.numel = S128x128.size gathers_S100000x128_S128x128.axis')
    (hin : ∀ x, ((rowM ![c, 0] hk).view.read (Elt F) (SCONT m d L) x).toNat < S100000x128.size gathers_S100000x128_S128x128.axis)
    (y : S128x128.Idx) :
    SparseCore.gatherPayload gathers_S100000x128_S128x128 ((xSl).view.read (Elt F) (m (tLoc d)))
        (SparseCore.rows ((rowM ![c, 0] hk).view.read (Elt F) (SCONT m d L)) hn hin) y = GBuf m d L c y := by
  unfold SparseCore.gatherPayload GBuf
  rw [xSl_read]
  congr 1
  funext a
  match a with
  | ⟨0, _⟩ =>
    apply Fin.ext
    have h0 := congrArg Fin.val (Shape.Gathers.idx_axis gathers_S100000x128_S128x128
      (SparseCore.rows ((rowM ![c, 0] hk).view.read (Elt F) (SCONT m d L)) hn hin) y)
    refine h0.trans ?_
    show ((rowM ![c, 0] hk).view.read (Elt F) (SCONT m d L) (S128.rowMajor.symm (Fin.cast hn.symm (y 0)))).toNat = _
    have hlt := hin (S128.rowMajor.symm (Fin.cast hn.symm (y 0)))
    rw [row_read m d L c hc, PAY_ix] at hlt ⊢
    have hc26 : c % 26 = c := Nat.mod_eq_of_lt hc
    have hj : ((S128.rowMajor.symm (Fin.cast hn.symm (y 0))) 0).val = (y 0).val := rowMajor_S128 (y 0)
    have hix : ∀ (p1) (p2) (p3), (ix2 (n0 := 26) (n1 := 4096) ⟨c, hc⟩ ⟨128 * (wL L).val + ((S128.rowMajor.symm (Fin.cast hn.symm (y 0))) 0).val, p1⟩ : S26x4096.Idx)
        = ix2 (n0 := 26) (n1 := 4096) ⟨c % 26, p2⟩ ⟨128 * (wL L).val + (y 0).val, p3⟩ := by
      intro p1 p2 p3
      funext b
      match b with
      | ⟨0, _⟩ => exact Fin.ext hc26.symm
      | ⟨1, _⟩ => exact Fin.ext (by show 128 * (wL L).val + _ = 128 * (wL L).val + (y 0).val; rw [hj])
    rw [hix _ (Nat.mod_lt _ (by decide)) (by have h1 := (wL L).isLt; have h2 : (y 0).val < 128 := (y 0).isLt; omega)] at hlt ⊢
    exact (Cert.Spec.rowOf_val_of_lt hlt).symm
  | ⟨1, _⟩ =>
    apply Fin.ext
    exact Shape.Gathers.idx_of_ne gathers_S100000x128_S128x128 _ y 1 (by decide)

/-- What the gather of row `c` of the index scratch writes into row buffer 0. -/
theorem gbuf_eq0 (t : Buf (Elt F) ((b0V).view.loc (VT d L))) (row : Fin 2 → Nat) (hk : ∀ a, row a + S1x128.size a ≤ S26x128.size a)
    (c : Nat) (hc : c < 26) (hrow : row = ![c, 0]) (hn : S128.numel = S128x128.size gathers_S100000x128_S128x128.axis')
    (hin : ∀ x, ((rowM row hk).view.read (Elt F) (SCONT m d L) x).toNat < S100000x128.size gathers_S100000x128_S128x128.axis) :
    (b0V).view.writes (Elt F) t [⟨Rect.whole cc0_scratch1.ty.shape,
      SparseCore.gatherPayload gathers_S100000x128_S128x128 ((xSl).view.read (Elt F) (m (tLoc d)))
        (SparseCore.rows ((rowM row hk).view.read (Elt F) (SCONT m d L)) hn hin)⟩] = GBuf m d L c := by
  subst hrow
  have e1 := View.read_writes_whole (b0V).view t
    (SparseCore.gatherPayload gathers_S100000x128_S128x128 ((xSl).view.read (Elt F) (m (tLoc d)))
        (SparseCore.rows ((rowM ![c, 0] hk).view.read (Elt F) (SCONT m d L)) hn hin))
  rw [show (b0V).view.read (Elt F) = fun f => f from rfl] at e1
  refine e1.trans ?_
  funext y
  exact gather_at m d L c hc hk hn hin y

/-- What the gather of row `c` of the index scratch writes into row buffer 1. -/
theorem gbuf_eq1 (t : Buf (Elt F) ((b1V).view.loc (VT d L))) (row : Fin 2 → Nat) (hk : ∀ a, row a + S1x128.size a ≤ S26x128.size a)
    (c : Nat) (hc : c < 26) (hrow : row = ![c, 0]) (hn : S128.numel = S128x128.size gathers_S100000x128_S128x128.axis')
    (hin : ∀ x, ((rowM row hk).view.read (Elt F) (SCONT m d L) x).toNat < S100000x128.size gathers_S100000x128_S128x128.axis) :
    (b1V).view.writes (Elt F) t [⟨Rect.whole cc0_scratch2.ty.shape,
      SparseCore.gatherPayload gathers_S100000x128_S128x128 ((xSl).view.read (Elt F) (m (tLoc d)))
        (SparseCore.rows ((rowM row hk).view.read (Elt F) (SCONT m d L)) hn hin)⟩] = GBuf m d L c := by
  subst hrow
  have e1 := View.read_writes_whole (b1V).view t
    (SparseCore.gatherPayload gathers_S100000x128_S128x128 ((xSl).view.read (Elt F) (m (tLoc d)))
        (SparseCore.rows ((rowM ![c, 0] hk).view.read (Elt F) (SCONT m d L)) hn hin))
  rw [show (b1V).view.read (Elt F) = fun f => f from rfl] at e1
  refine e1.trans ?_
  funext y
  exact gather_at m d L c hc hk hn hin y

/-- What the gather of row `c` of the index scratch writes into row buffer 2. -/
theorem gbuf_eq2 (t : Buf (Elt F) ((b2V).view.loc (VT d L))) (row : Fin 2 → Nat) (hk : ∀ a, row a + S1x128.size a ≤ S26x128.size a)
    (c : Nat) (hc : c < 26) (hrow : row = ![c, 0]) (hn : S128.numel = S128x128.size gathers_S100000x128_S128x128.axis')
    (hin : ∀ x, ((rowM row hk).view.read (Elt F) (SCONT m d L) x).toNat < S100000x128.size gathers_S100000x128_S128x128.axis) :
    (b2V).view.writes (Elt F) t [⟨Rect.whole cc0_scratch3.ty.shape,
      SparseCore.gatherPayload gathers_S100000x128_S128x128 ((xSl).view.read (Elt F) (m (tLoc d)))
        (SparseCore.rows ((rowM row hk).view.read (Elt F) (SCONT m d L)) hn hin)⟩] = GBuf m d L c := by
  subst hrow
  have e1 := View.read_writes_whole (b2V).view t
    (SparseCore.gatherPayload gathers_S100000x128_S128x128 ((xSl).view.read (Elt F) (m (tLoc d)))
        (SparseCore.rows ((rowM ![c, 0] hk).view.read (Elt F) (SCONT m d L)) hn hin))
  rw [show (b2V).view.read (Elt F) = fun f => f from rfl] at e1
  refine e1.trans ?_
  funext y
  exact gather_at m d L c hc hk hn hin y

/-- What the gather of row `c` of the index scratch writes into row buffer 3. -/
theorem gbuf_eq3 (t : Buf (Elt F) ((b3V).view.loc (VT d L))) (row : Fin 2 → Nat) (hk : ∀ a, row a + S1x128.size a ≤ S26x128.size a)
    (c : Nat) (hc : c < 26) (hrow : row = ![c, 0]) (hn : S128.numel = S128x128.size gathers_S100000x128_S128x128.axis')
    (hin : ∀ x, ((rowM row hk).view.read (Elt F) (SCONT m d L) x).toNat < S100000x128.size gathers_S100000x128_S128x128.axis) :
    (b3V).view.writes (Elt F) t [⟨Rect.whole cc0_scratch4.ty.shape,
      SparseCore.gatherPayload gathers_S100000x128_S128x128 ((xSl).view.read (Elt F) (m (tLoc d)))
        (SparseCore.rows ((rowM row hk).view.read (Elt F) (SCONT m d L)) hn hin)⟩] = GBuf m d L c := by
  subst hrow
  have e1 := View.read_writes_whole (b3V).view t
    (SparseCore.gatherPayload gathers_S100000x128_S128x128 ((xSl).view.read (Elt F) (m (tLoc d)))
        (SparseCore.rows ((rowM ![c, 0] hk).view.read (Elt F) (SCONT m d L)) hn hin))
  rw [show (b3V).view.read (Elt F) = fun f => f from rfl] at e1
  refine e1.trans ?_
  funext y
  exact gather_at m d L c hc hk hn hin y

/-! ## Families over the 26 chunks -/

/-- The chunks outside `[lo, hi)`, and those inside. -/
def Rk (lo hi : Nat) : Finset (Fin 26) := Finset.univ.filter fun c => ¬ (lo ≤ c.val ∧ c.val < hi)
def Ik (lo hi : Nat) : Finset (Fin 26) := Finset.univ.filter fun c => lo ≤ c.val ∧ c.val < hi

omit [FloatOps F] in
theorem Rk_self (n : Nat) : Rk n n = Finset.univ := by
  unfold Rk; ext c; simp only [Finset.mem_filter, Finset.mem_univ, true_and, iff_true]; omega

omit [FloatOps F] in
/-- The chunks outside `[lo, mid)` are those of `[mid, hi)` and those outside `[lo, hi)`. -/
theorem bigSep_Rk_hi (Φ : Fin 26 → sProp 𝕄) (lo mid hi : Nat) (h1 : lo ≤ mid) (h2 : mid ≤ hi) :
    bigSep (Rk lo mid) Φ = iprop(bigSep (Ik mid hi) Φ ∗ bigSep (Rk lo hi) Φ) := by
  have hsub : Ik mid hi ⊆ Rk lo mid := by
    intro c hc; simp only [Ik, Rk, Finset.mem_filter, Finset.mem_univ, true_and] at hc ⊢; omega
  have hd : Rk lo mid \ Ik mid hi = Rk lo hi := by
    ext c; simp only [Ik, Rk, Finset.mem_sdiff, Finset.mem_filter, Finset.mem_univ, true_and]; omega
  rw [bigSep_sdiff_split hsub, hd]; rfl

omit [FloatOps F] in
/-- The chunks outside `[mid, hi)` are those of `[lo, mid)` and those outside `[lo, hi)`. -/
theorem bigSep_Rk_lo (Φ : Fin 26 → sProp 𝕄) (lo mid hi : Nat) (h1 : lo ≤ mid) (h2 : mid ≤ hi) :
    bigSep (Rk mid hi) Φ = iprop(bigSep (Ik lo mid) Φ ∗ bigSep (Rk lo hi) Φ) := by
  have hsub : Ik lo mid ⊆ Rk mid hi := by
    intro c hc; simp only [Ik, Rk, Finset.mem_filter, Finset.mem_univ, true_and] at hc ⊢; omega
  have hd : Rk mid hi \ Ik lo mid = Rk lo hi := by
    ext c; simp only [Ik, Rk, Finset.mem_sdiff, Finset.mem_filter, Finset.mem_univ, true_and]; omega
  rw [bigSep_sdiff_split hsub, hd]; rfl

omit [FloatOps F] in
theorem bigSep_Ik4 (Φ : Fin 26 → sProp 𝕄) (n : Nat) (a b c e : Fin 26) (ha : a.val = n) (hb : b.val = n + 1) (hc : c.val = n + 2) (he : e.val = n + 3) :
    bigSep (Ik n (n + 4)) Φ = iprop(Φ a ∗ Φ b ∗ Φ c ∗ Φ e) := by
  have hs : Ik n (n + 4) = insert a (insert b (insert c {e})) := by
    ext x; simp only [Ik, Finset.mem_filter, Finset.mem_univ, true_and, Finset.mem_insert, Finset.mem_singleton, Fin.ext_iff]; omega
  rw [hs, bigSep_insert (by simp only [Finset.mem_insert, Finset.mem_singleton, Fin.ext_iff]; omega),
    bigSep_insert (by simp only [Finset.mem_insert, Finset.mem_singleton, Fin.ext_iff]; omega),
    bigSep_insert (by simp only [Finset.mem_singleton, Fin.ext_iff]; omega), bigSep_singleton]; rfl

omit [FloatOps F] in
theorem bigSep_Ik2 (Φ : Fin 26 → sProp 𝕄) (n : Nat) (a b : Fin 26) (ha : a.val = n) (hb : b.val = n + 1) :
    bigSep (Ik n (n + 2)) Φ = iprop(Φ a ∗ Φ b) := by
  have hs : Ik n (n + 2) = insert a {b} := by
    ext x; simp only [Ik, Finset.mem_filter, Finset.mem_univ, true_and, Finset.mem_insert, Finset.mem_singleton, Fin.ext_iff]; omega
  rw [hs, bigSep_insert (by simp only [Finset.mem_singleton, Fin.ext_iff]; omega), bigSep_singleton]; rfl

/-! ## The loop's invariant -/

/-- Chunk `c` of the subcore's block in the flat result. -/
abbrev Pc (fo : Buf (Elt F) (oLoc d)) (c : Fin 26) : sProp 𝕄 := oLoc d ↦[oSet (wL L) c]{fullShare} fo

/-- The chunks of the flat result: those below `n` at the look-up, the others as they were. -/
abbrev OutPhi (fo : Buf (Elt F) (oLoc d)) (n : Nat) (c : Fin 26) : sProp 𝕄 := Pc d L (if c.val < n then GG m d else fo) c

omit [FloatOps F] in
theorem OutPhi_congr (fo : Buf (Elt F) (oLoc d)) (n n' lo hi : Nat) (h : ∀ c : Nat, ¬ (lo ≤ c ∧ c < hi) → (c < n ↔ c < n')) :
    bigSep (Rk lo hi) (OutPhi m d L fo n) = bigSep (Rk lo hi) (OutPhi m d L fo n') := by
  refine bigSep_congr fun c hc => ?_
  simp only [Rk, Finset.mem_filter, Finset.mem_univ, true_and] at hc
  have := h c.val hc
  unfold OutPhi
  by_cases hn : c.val < n
  · rw [if_pos hn, if_pos (this.mp hn)]
  · rw [if_neg hn, if_neg (fun h' => hn (this.mpr h'))]

/-- The gather of chunk `c` in flight into row buffer `i`, holding row `c` of the index scratch and read token `i` of the table. -/
abbrev GFl0 (q : PosShare TreeShare) (c : Nat) (hc : c < 26) : sProp 𝕄 :=
  Transfers.Flight countersEmb (VT d L) (SemLoc.dma cc0_scratch5.sem) (default : HIx 1) 524288
      iprop((((b0V).view.loc (VT d L) ↦[(b0V).view.set]{fullShare} GBuf m d L (c))
          ∗ ((sV).view.loc (VT d L) ↦[rowSet ![c, 0] (rowInb c hc)]{fullShare} SCONT m d L))
        ∗ ((xV).view.loc (VT d L) ↦[(xSl).view.set]{Transfers.shareTokN q 0} m (tLoc d)))
abbrev GFl1 (q : PosShare TreeShare) (c : Nat) (hc : c < 26) : sProp 𝕄 :=
  Transfers.Flight countersEmb (VT d L) (SemLoc.dma cc0_scratch6.sem) (default : HIx 1) 524288
      iprop((((b1V).view.loc (VT d L) ↦[(b1V).view.set]{fullShare} GBuf m d L (c))
          ∗ ((sV).view.loc (VT d L) ↦[rowSet ![c, 0] (rowInb c hc)]{fullShare} SCONT m d L))
        ∗ ((xV).view.loc (VT d L) ↦[(xSl).view.set]{Transfers.shareTokN q 1} m (tLoc d)))
abbrev GFl2 (q : PosShare TreeShare) (c : Nat) (hc : c < 26) : sProp 𝕄 :=
  Transfers.Flight countersEmb (VT d L) (SemLoc.dma cc0_scratch7.sem) (default : HIx 1) 524288
      iprop((((b2V).view.loc (VT d L) ↦[(b2V).view.set]{fullShare} GBuf m d L (c))
          ∗ ((sV).view.loc (VT d L) ↦[rowSet ![c, 0] (rowInb c hc)]{fullShare} SCONT m d L))
        ∗ ((xV).view.loc (VT d L) ↦[(xSl).view.set]{Transfers.shareTokN q 2} m (tLoc d)))
abbrev GFl3 (q : PosShare TreeShare) (c : Nat) (hc : c < 26) : sProp 𝕄 :=
  Transfers.Flight countersEmb (VT d L) (SemLoc.dma cc0_scratch8.sem) (default : HIx 1) 524288
      iprop((((b3V).view.loc (VT d L) ↦[(b3V).view.set]{fullShare} GBuf m d L (c))
          ∗ ((sV).view.loc (VT d L) ↦[rowSet ![c, 0] (rowInb c hc)]{fullShare} SCONT m d L))
        ∗ ((xV).view.loc (VT d L) ↦[(xSl).view.set]{Transfers.shareTokN q 3} m (tLoc d)))

/-- Before trip `k` of the loop (k ≤ 5): the four gathers of chunks 4k … 4k+3 are in flight; the rows of the index scratch
    outside those four are held; the four write-out cells are free; the chunks below 4k are written. -/
abbrev invA (q : PosShare TreeShare) (fo : Buf (Elt F) (oLoc d)) (O : CellTallies nD τ sig (HIx 1)) (W : Waits sig (HIx 1)) (k : Nat) (hk : k ≤ 5) : sProp 𝕄 :=
  iprop(Transfers.MayWaits (VT d L) (default : HIx 1) O
    ∗ GFl0 m d L q (4 * k + 0) (by omega) ∗ GFl1 m d L q (4 * k + 1) (by omega) ∗ GFl2 m d L q (4 * k + 2) (by omega) ∗ GFl3 m d L q (4 * k + 3) (by omega)
    ∗ bigSep (Rk (4 * k) (4 * k + 4)) (rowPts m d L)
    ∗ semVal (VT d L, SemLoc.dma cc0_scratch9.sem) 0 ∗ semVal (VT d L, SemLoc.dma cc0_scratch10.sem) 0
    ∗ semVal (VT d L, SemLoc.dma cc0_scratch11.sem) 0 ∗ semVal (VT d L, SemLoc.dma cc0_scratch12.sem) 0
    ∗ bigSep Finset.univ (OutPhi m d L fo (4 * k))
    ∗ ∃ W', ⌜∀ p ∈ W', p ∈ W ∨ p.2 = none⌝ ∗ owes (VT d L) O W')

theorem rowPts_body (row : Fin 2 → Nat) (hk : ∀ a, row a + S1x128.size a ≤ S26x128.size a) (c : Fin 26) (e : row = ![c.val, 0]) :
    rowPts m d L c = ((rowM row hk).view.loc (VT d L) ↦[(rowM row hk).view.set]{fullShare} SCONT m d L : sProp 𝕄) := by
  subst e; rfl

omit [FloatOps F] in
theorem OutPhi_before (fo : Buf (Elt F) (oLoc d)) (n : Nat) (c : Fin 26) (h : ¬ c.val < n) : OutPhi m d L fo n c = Pc d L fo c := by
  unfold OutPhi; rw [if_neg h]
omit [FloatOps F] in
theorem OutPhi_done (fo : Buf (Elt F) (oLoc d)) (n : Nat) (c : Fin 26) (h : c.val < n) : OutPhi m d L fo n c = Pc d L (GG m d) c := by
  unfold OutPhi; rw [if_pos h]

omit [FloatOps F] in
theorem off2_eq' (k : Fin k0_t1_loop.trips) (hk : k.val ≤ 5) (w : BitVec 32) (r : Nat) (hr : r < 4) (hw : w = BitVec.ofNat 32 r) :
    k0_off2 L k w = ![4096 * (ck k.val hk r hr).val + 128 * (wL L).val, 0] := by
  subst hw; exact off2_eq L k ⟨r, hr⟩ hk

omit [FloatOps F] in
theorem off4_eq (k : Fin k0_t1_loop.trips) (hk : k.val + 1 ≤ 5) : k0_off4 k = ![(ck (k.val + 1) hk 0 (by decide)).val, 0] := by
  rw [k0_off4_eq]; show ![4 * k.val + 4, 0] = ![4 * (k.val + 1) + 0, 0]; rw [show 4 * k.val + 4 = 4 * (k.val + 1) + 0 by omega]
omit [FloatOps F] in
theorem off6_eq (k : Fin k0_t1_loop.trips) (hk : k.val + 1 ≤ 5) : k0_off6 k = ![(ck (k.val + 1) hk 1 (by decide)).val, 0] := by
  rw [k0_off6_eq]; show ![4 * k.val + 5, 0] = ![4 * (k.val + 1) + 1, 0]; rw [show 4 * k.val + 5 = 4 * (k.val + 1) + 1 by omega]
omit [FloatOps F] in
theorem off8_eq (k : Fin k0_t1_loop.trips) (hk : k.val + 1 ≤ 5) : k0_off8 k = ![(ck (k.val + 1) hk 2 (by decide)).val, 0] := by
  rw [k0_off8_eq]; show ![4 * k.val + 6, 0] = ![4 * (k.val + 1) + 2, 0]; rw [show 4 * k.val + 6 = 4 * (k.val + 1) + 2 by omega]
omit [FloatOps F] in
theorem off10_eq (k : Fin k0_t1_loop.trips) (hk : k.val + 1 ≤ 5) : k0_off10 k = ![(ck (k.val + 1) hk 3 (by decide)).val, 0] := by
  rw [k0_off10_eq]; show ![4 * k.val + 7, 0] = ![4 * (k.val + 1) + 3, 0]; rw [show 4 * k.val + 7 = 4 * (k.val + 1) + 3 by omega]

/-! ## The run's spellings and the invariant's -/

/-- The gather the run issues into row buffer 0 is the invariant's. -/
theorem gfl_canon0 (q : PosShare TreeShare) (t : Buf (Elt F) ((b0V).view.loc (VT d L))) (row : Fin 2 → Nat)
    (hk : ∀ a, row a + S1x128.size a ≤ S26x128.size a) (c : Nat) (hc : c < 26) (hrow : row = ![c, 0])
    (hn : S128.numel = S128x128.size gathers_S100000x128_S128x128.axis')
    (hin : ∀ x, ((rowM row hk).view.read (Elt F) (SCONT m d L) x).toNat < S100000x128.size gathers_S100000x128_S128x128.axis) :
    (iprop((((b0V).view.loc (VT d L) ↦[(b0V).view.set]{fullShare}
            (b0V).view.writes (Elt F) t [⟨Rect.whole cc0_scratch1.ty.shape,
              SparseCore.gatherPayload gathers_S100000x128_S128x128 ((xSl).view.read (Elt F) (m (tLoc d)))
                (SparseCore.rows ((rowM row hk).view.read (Elt F) (SCONT m d L)) hn hin)⟩])
          ∗ ((rowM row hk).view.loc (VT d L) ↦[(rowM row hk).view.set]{fullShare} SCONT m d L))
        ∗ ((xV).view.loc (VT d L) ↦[(xSl).view.set]{Transfers.shareTokN q 0} m (tLoc d))) : sProp 𝕄)
      ⊢ iprop((((b0V).view.loc (VT d L) ↦[(b0V).view.set]{fullShare} GBuf m d L c)
          ∗ ((sV).view.loc (VT d L) ↦[rowSet ![c, 0] (rowInb c hc)]{fullShare} SCONT m d L))
        ∗ ((xV).view.loc (VT d L) ↦[(xSl).view.set]{Transfers.shareTokN q 0} m (tLoc d))) := by
  subst hrow
  rw [gbuf_eq0 m d L t ![c, 0] hk c hc rfl hn hin]

/-- The gather the run issues into row buffer 1 is the invariant's. -/
theorem gfl_canon1 (q : PosShare TreeShare) (t : Buf (Elt F) ((b1V).view.loc (VT d L))) (row : Fin 2 → Nat)
    (hk : ∀ a, row a + S1x128.size a ≤ S26x128.size a) (c : Nat) (hc : c < 26) (hrow : row = ![c, 0])
    (hn : S128.numel = S128x128.size gathers_S100000x128_S128x128.axis')
    (hin : ∀ x, ((rowM row hk).view.read (Elt F) (SCONT m d L) x).toNat < S100000x128.size gathers_S100000x128_S128x128.axis) :
    (iprop((((b1V).view.loc (VT d L) ↦[(b1V).view.set]{fullShare}
            (b1V).view.writes (Elt F) t [⟨Rect.whole cc0_scratch2.ty.shape,
              SparseCore.gatherPayload gathers_S100000x128_S128x128 ((xSl).view.read (Elt F) (m (tLoc d)))
                (SparseCore.rows ((rowM row hk).view.read (Elt F) (SCONT m d L)) hn hin)⟩])
          ∗ ((rowM row hk).view.loc (VT d L) ↦[(rowM row hk).view.set]{fullShare} SCONT m d L))
        ∗ ((xV).view.loc (VT d L) ↦[(xSl).view.set]{Transfers.shareTokN q 1} m (tLoc d))) : sProp 𝕄)
      ⊢ iprop((((b1V).view.loc (VT d L) ↦[(b1V).view.set]{fullShare} GBuf m d L c)
          ∗ ((sV).view.loc (VT d L) ↦[rowSet ![c, 0] (rowInb c hc)]{fullShare} SCONT m d L))
        ∗ ((xV).view.loc (VT d L) ↦[(xSl).view.set]{Transfers.shareTokN q 1} m (tLoc d))) := by
  subst hrow
  rw [gbuf_eq1 m d L t ![c, 0] hk c hc rfl hn hin]

/-- The gather the run issues into row buffer 2 is the invariant's. -/
theorem gfl_canon2 (q : PosShare TreeShare) (t : Buf (Elt F) ((b2V).view.loc (VT d L))) (row : Fin 2 → Nat)
    (hk : ∀ a, row a + S1x128.size a ≤ S26x128.size a) (c : Nat) (hc : c < 26) (hrow : row = ![c, 0])
    (hn : S128.numel = S128x128.size gathers_S100000x128_S128x128.axis')
    (hin : ∀ x, ((rowM row hk).view.read (Elt F) (SCONT m d L) x).toNat < S100000x128.size gathers_S100000x128_S128x128.axis) :
    (iprop((((b2V).view.loc (VT d L) ↦[(b2V).view.set]{fullShare}
            (b2V).view.writes (Elt F) t [⟨Rect.whole cc0_scratch3.ty.shape,
              SparseCore.gatherPayload gathers_S100000x128_S128x128 ((xSl).view.read (Elt F) (m (tLoc d)))
                (SparseCore.rows ((rowM row hk).view.read (Elt F) (SCONT m d L)) hn hin)⟩])
          ∗ ((rowM row hk).view.loc (VT d L) ↦[(rowM row hk).view.set]{fullShare} SCONT m d L))
        ∗ ((xV).view.loc (VT d L) ↦[(xSl).view.set]{Transfers.shareTokN q 2} m (tLoc d))) : sProp 𝕄)
      ⊢ iprop((((b2V).view.loc (VT d L) ↦[(b2V).view.set]{fullShare} GBuf m d L c)
          ∗ ((sV).view.loc (VT d L) ↦[rowSet ![c, 0] (rowInb c hc)]{fullShare} SCONT m d L))
        ∗ ((xV).view.loc (VT d L) ↦[(xSl).view.set]{Transfers.shareTokN q 2} m (tLoc d))) := by
  subst hrow
  rw [gbuf_eq2 m d L t ![c, 0] hk c hc rfl hn hin]

/-- The gather the run issues into row buffer 3 is the invariant's. -/
theorem gfl_canon3 (q : PosShare TreeShare) (t : Buf (Elt F) ((b3V).view.loc (VT d L))) (row : Fin 2 → Nat)
    (hk : ∀ a, row a + S1x128.size a ≤ S26x128.size a) (c : Nat) (hc : c < 26) (hrow : row = ![c, 0])
    (hn : S128.numel = S128x128.size gathers_S100000x128_S128x128.axis')
    (hin : ∀ x, ((rowM row hk).view.read (Elt F) (SCONT m d L) x).toNat < S100000x128.size gathers_S100000x128_S128x128.axis) :
    (iprop((((b3V).view.loc (VT d L) ↦[(b3V).view.set]{fullShare}
            (b3V).view.writes (Elt F) t [⟨Rect.whole cc0_scratch4.ty.shape,
              SparseCore.gatherPayload gathers_S100000x128_S128x128 ((xSl).view.read (Elt F) (m (tLoc d)))
                (SparseCore.rows ((rowM row hk).view.read (Elt F) (SCONT m d L)) hn hin)⟩])
          ∗ ((rowM row hk).view.loc (VT d L) ↦[(rowM row hk).view.set]{fullShare} SCONT m d L))
        ∗ ((xV).view.loc (VT d L) ↦[(xSl).view.set]{Transfers.shareTokN q 3} m (tLoc d))) : sProp 𝕄)
      ⊢ iprop((((b3V).view.loc (VT d L) ↦[(b3V).view.set]{fullShare} GBuf m d L c)
          ∗ ((sV).view.loc (VT d L) ↦[rowSet ![c, 0] (rowInb c hc)]{fullShare} SCONT m d L))
        ∗ ((xV).view.loc (VT d L) ↦[(xSl).view.set]{Transfers.shareTokN q 3} m (tLoc d))) := by
  subst hrow
  rw [gbuf_eq3 m d L t ![c, 0] hk c hc rfl hn hin]

omit [FloatOps F] in
/-- The flat result's function on chunk `c` of block `w`: at the chunk's (r, l) it is the row buffer's (r, l). -/
theorem GG_chunk (c : Fin 26) (y : S128x128.Idx) (x : S106496x128.Idx)
    (h0 : (x 0).val = 4096 * c.val + 128 * (wL L).val + (y 0).val) (h1 : (x 1).val = (y 1).val) :
    GG m d x = GBuf m d L c.val y := by
  have hw := (wL L).isLt
  have hy : (y 0).val < 128 := (y 0).isLt
  have hc := c.isLt
  have hix : ∀ (p1) (p2) (p3) (p4), (ix2 (n0 := 26) (n1 := 4096) ⟨(x 0).val / 4096, p1⟩ ⟨(x 0).val % 4096, p2⟩ : S26x4096.Idx)
      = ix2 (n0 := 26) (n1 := 4096) ⟨c.val % 26, p3⟩ ⟨128 * (wL L).val + (y 0).val, p4⟩ := by
    intro p1 p2 p3 p4
    funext b
    match b with
    | ⟨0, _⟩ => apply Fin.ext; show (x 0).val / 4096 = c.val % 26; rw [h0]; omega
    | ⟨1, _⟩ => apply Fin.ext; show (x 0).val % 4096 = 128 * (wL L).val + (y 0).val; rw [h0]; omega
  unfold GG G GBuf
  rw [hix]
  congr 1
  funext a
  match a with
  | ⟨0, _⟩ => rfl
  | ⟨1, _⟩ => apply Fin.ext; exact h1

omit [FloatOps F] in
/-- Chunk `c` after the copy-out of row buffer 0, holding the gather of chunk `c`: the look-up there. -/
theorem opc_canon0 (off : Fin 2 → Nat) (h) (c : Fin 26) (hoff : off = ![4096 * c.val + 128 * (wL L).val, 0]) (fo : Buf (Elt F) (oLoc d))
    (n : Nat) (hn : n = c.val) :
    ((oBlk off h).view.loc (VT d L) ↦[(oBlk off h).view.set]{fullShare}
        (oBlk off h).view.writes (Elt F) fo [⟨Rect.whole S128x128, ReadAs.same.apply ((b0V).view.read (Elt F) (GBuf m d L n))⟩] : sProp 𝕄)
      = Pc d L (GG m d) c := by
  subst hn
  rw [pts_oBlk d L off h c hoff]
  refine pointsTo_congr fun x hx => ?_
  rw [← set_oBlk L off h c hoff] at hx
  obtain ⟨y, -, rfl⟩ := Finset.mem_map.mp hx
  have e1 := congrFun (View.read_writes_whole (oBlk off h).view fo (ReadAs.same.apply ((b0V).view.read (Elt F) (GBuf m d L c.val)))) y
  rw [View.read_apply] at e1
  have e2 := (cast_eq _ _).symm.trans e1
  refine e2.trans ?_
  show GBuf m d L c.val y = _
  subst hoff
  refine (GG_chunk m d L c y _ ?_ ?_).symm
  · show 4096 * c.val + 128 * (wL L).val + 1 * (y 0).val = _; omega
  · show 0 + 1 * (y 1).val = _; omega

omit [FloatOps F] in
/-- Chunk `c` after the copy-out of row buffer 1, holding the gather of chunk `c`: the look-up there. -/
theorem opc_canon1 (off : Fin 2 → Nat) (h) (c : Fin 26) (hoff : off = ![4096 * c.val + 128 * (wL L).val, 0]) (fo : Buf (Elt F) (oLoc d))
    (n : Nat) (hn : n = c.val) :
    ((oBlk off h).view.loc (VT d L) ↦[(oBlk off h).view.set]{fullShare}
        (oBlk off h).view.writes (Elt F) fo [⟨Rect.whole S128x128, ReadAs.same.apply ((b1V).view.read (Elt F) (GBuf m d L n))⟩] : sProp 𝕄)
      = Pc d L (GG m d) c := by
  subst hn
  rw [pts_oBlk d L off h c hoff]
  refine pointsTo_congr fun x hx => ?_
  rw [← set_oBlk L off h c hoff] at hx
  obtain ⟨y, -, rfl⟩ := Finset.mem_map.mp hx
  have e1 := congrFun (View.read_writes_whole (oBlk off h).view fo (ReadAs.same.apply ((b1V).view.read (Elt F) (GBuf m d L c.val)))) y
  rw [View.read_apply] at e1
  have e2 := (cast_eq _ _).symm.trans e1
  refine e2.trans ?_
  show GBuf m d L c.val y = _
  subst hoff
  refine (GG_chunk m d L c y _ ?_ ?_).symm
  · show 4096 * c.val + 128 * (wL L).val + 1 * (y 0).val = _; omega
  · show 0 + 1 * (y 1).val = _; omega

omit [FloatOps F] in
/-- Chunk `c` after the copy-out of row buffer 2, holding the gather of chunk `c`: the look-up there. -/
theorem opc_canon2 (off : Fin 2 → Nat) (h) (c : Fin 26) (hoff : off = ![4096 * c.val + 128 * (wL L).val, 0]) (fo : Buf (Elt F) (oLoc d))
    (n : Nat) (hn : n = c.val) :
    ((oBlk off h).view.loc (VT d L) ↦[(oBlk off h).view.set]{fullShare}
        (oBlk off h).view.writes (Elt F) fo [⟨Rect.whole S128x128, ReadAs.same.apply ((b2V).view.read (Elt F) (GBuf m d L n))⟩] : sProp 𝕄)
      = Pc d L (GG m d) c := by
  subst hn
  rw [pts_oBlk d L off h c hoff]
  refine pointsTo_congr fun x hx => ?_
  rw [← set_oBlk L off h c hoff] at hx
  obtain ⟨y, -, rfl⟩ := Finset.mem_map.mp hx
  have e1 := congrFun (View.read_writes_whole (oBlk off h).view fo (ReadAs.same.apply ((b2V).view.read (Elt F) (GBuf m d L c.val)))) y
  rw [View.read_apply] at e1
  have e2 := (cast_eq _ _).symm.trans e1
  refine e2.trans ?_
  show GBuf m d L c.val y = _
  subst hoff
  refine (GG_chunk m d L c y _ ?_ ?_).symm
  · show 4096 * c.val + 128 * (wL L).val + 1 * (y 0).val = _; omega
  · show 0 + 1 * (y 1).val = _; omega

omit [FloatOps F] in
/-- Chunk `c` after the copy-out of row buffer 3, holding the gather of chunk `c`: the look-up there. -/
theorem opc_canon3 (off : Fin 2 → Nat) (h) (c : Fin 26) (hoff : off = ![4096 * c.val + 128 * (wL L).val, 0]) (fo : Buf (Elt F) (oLoc d))
    (n : Nat) (hn : n = c.val) :
    ((oBlk off h).view.loc (VT d L) ↦[(oBlk off h).view.set]{fullShare}
        (oBlk off h).view.writes (Elt F) fo [⟨Rect.whole S128x128, ReadAs.same.apply ((b3V).view.read (Elt F) (GBuf m d L n))⟩] : sProp 𝕄)
      = Pc d L (GG m d) c := by
  subst hn
  rw [pts_oBlk d L off h c hoff]
  refine pointsTo_congr fun x hx => ?_
  rw [← set_oBlk L off h c hoff] at hx
  obtain ⟨y, -, rfl⟩ := Finset.mem_map.mp hx
  have e1 := congrFun (View.read_writes_whole (oBlk off h).view fo (ReadAs.same.apply ((b3V).view.read (Elt F) (GBuf m d L c.val)))) y
  rw [View.read_apply] at e1
  have e2 := (cast_eq _ _).symm.trans e1
  refine e2.trans ?_
  show GBuf m d L c.val y = _
  subst hoff
  refine (GG_chunk m d L c y _ ?_ ?_).symm
  · show 4096 * c.val + 128 * (wL L).val + 1 * (y 0).val = _; omega
  · show 0 + 1 * (y 1).val = _; omega

/-! ## The families from trip to trip -/

theorem rowfam_take (k : Nat) (hk : k + 1 ≤ 5) :
    bigSep (Rk (4 * k) (4 * k + 4)) (rowPts m d L)
      ⊢ iprop((rowPts m d L (ck (k + 1) hk 0 (by decide)) ∗ rowPts m d L (ck (k + 1) hk 1 (by decide)) ∗ rowPts m d L (ck (k + 1) hk 2 (by decide))
          ∗ rowPts m d L (ck (k + 1) hk 3 (by decide))) ∗ bigSep (Rk (4 * k) (4 * k + 4 + 4)) (rowPts m d L)) := by
  rw [bigSep_Rk_hi (rowPts m d L) (4 * k) (4 * k + 4) (4 * k + 4 + 4) (by omega) (by omega),
    bigSep_Ik4 (rowPts m d L) (4 * k + 4) (ck (k + 1) hk 0 (by decide)) (ck (k + 1) hk 1 (by decide)) (ck (k + 1) hk 2 (by decide)) (ck (k + 1) hk 3 (by decide))
      (by show 4 * (k + 1) + 0 = _; omega) (by show 4 * (k + 1) + 1 = _; omega) (by show 4 * (k + 1) + 2 = _; omega) (by show 4 * (k + 1) + 3 = _; omega)]

theorem rowfam_step (k : Nat) (hk : k + 1 ≤ 5) :
    iprop((rowPts m d L (ck k (by omega) 0 (by decide)) ∗ rowPts m d L (ck k (by omega) 1 (by decide)) ∗ rowPts m d L (ck k (by omega) 2 (by decide))
          ∗ rowPts m d L (ck k (by omega) 3 (by decide))) ∗ bigSep (Rk (4 * k) (4 * k + 4 + 4)) (rowPts m d L))
      ⊢ bigSep (Rk (4 * (k + 1)) (4 * (k + 1) + 4)) (rowPts m d L) := by
  have e : Rk (4 * (k + 1)) (4 * (k + 1) + 4) = Rk (4 * k + 4) (4 * k + 4 + 4) := by rw [show 4 * (k + 1) = 4 * k + 4 by omega]
  rw [e, bigSep_Rk_lo (rowPts m d L) (4 * k) (4 * k + 4) (4 * k + 4 + 4) (by omega) (by omega),
    bigSep_Ik4 (rowPts m d L) (4 * k) (ck k (by omega) 0 (by decide)) (ck k (by omega) 1 (by decide)) (ck k (by omega) 2 (by decide)) (ck k (by omega) 3 (by decide))
      (Nat.add_zero _) rfl rfl rfl]

omit [FloatOps F] in
theorem outfam_take (fo : Buf (Elt F) (oLoc d)) (k : Nat) (hk : k ≤ 5) :
    bigSep Finset.univ (OutPhi m d L fo (4 * k))
      ⊢ iprop((Pc d L fo (ck k hk 0 (by decide)) ∗ Pc d L fo (ck k hk 1 (by decide)) ∗ Pc d L fo (ck k hk 2 (by decide)) ∗ Pc d L fo (ck k hk 3 (by decide)))
          ∗ bigSep (Rk (4 * k) (4 * k + 4)) (OutPhi m d L fo (4 * k))) := by
  have e : bigSep Finset.univ (OutPhi m d L fo (4 * k)) = bigSep (Rk (4 * k) (4 * k)) (OutPhi m d L fo (4 * k)) := by rw [Rk_self]
  rw [e, bigSep_Rk_hi (OutPhi m d L fo (4 * k)) (4 * k) (4 * k) (4 * k + 4) (le_refl _) (by omega),
    bigSep_Ik4 (OutPhi m d L fo (4 * k)) (4 * k) (ck k hk 0 (by decide)) (ck k hk 1 (by decide)) (ck k hk 2 (by decide)) (ck k hk 3 (by decide))
      (Nat.add_zero _) rfl rfl rfl,
    OutPhi_before m d L fo (4 * k) (ck k hk 0 (by decide)) (by show ¬ (4 * k + 0 < 4 * k); omega),
    OutPhi_before m d L fo (4 * k) (ck k hk 1 (by decide)) (by show ¬ (4 * k + 1 < 4 * k); omega),
    OutPhi_before m d L fo (4 * k) (ck k hk 2 (by decide)) (by show ¬ (4 * k + 2 < 4 * k); omega),
    OutPhi_before m d L fo (4 * k) (ck k hk 3 (by decide)) (by show ¬ (4 * k + 3 < 4 * k); omega)]

omit [FloatOps F] in
theorem outfam_step (fo : Buf (Elt F) (oLoc d)) (k : Nat) (hk : k ≤ 5) :
    iprop((Pc d L (GG m d) (ck k hk 0 (by decide)) ∗ Pc d L (GG m d) (ck k hk 1 (by decide)) ∗ Pc d L (GG m d) (ck k hk 2 (by decide))
          ∗ Pc d L (GG m d) (ck k hk 3 (by decide))) ∗ bigSep (Rk (4 * k) (4 * k + 4)) (OutPhi m d L fo (4 * k)))
      ⊢ bigSep Finset.univ (OutPhi m d L fo (4 * (k + 1))) := by
  have e : bigSep Finset.univ (OutPhi m d L fo (4 * (k + 1))) = bigSep (Rk (4 * k) (4 * k)) (OutPhi m d L fo (4 * (k + 1))) := by rw [Rk_self]
  rw [e, bigSep_Rk_hi (OutPhi m d L fo (4 * (k + 1))) (4 * k) (4 * k) (4 * k + 4) (le_refl _) (by omega),
    bigSep_Ik4 (OutPhi m d L fo (4 * (k + 1))) (4 * k) (ck k hk 0 (by decide)) (ck k hk 1 (by decide)) (ck k hk 2 (by decide)) (ck k hk 3 (by decide))
      (Nat.add_zero _) rfl rfl rfl,
    OutPhi_done m d L fo (4 * (k + 1)) (ck k hk 0 (by decide)) (by show 4 * k + 0 < 4 * (k + 1); omega),
    OutPhi_done m d L fo (4 * (k + 1)) (ck k hk 1 (by decide)) (by show 4 * k + 1 < 4 * (k + 1); omega),
    OutPhi_done m d L fo (4 * (k + 1)) (ck k hk 2 (by decide)) (by show 4 * k + 2 < 4 * (k + 1); omega),
    OutPhi_done m d L fo (4 * (k + 1)) (ck k hk 3 (by decide)) (by show 4 * k + 3 < 4 * (k + 1); omega),
    OutPhi_congr m d L fo (4 * k) (4 * (k + 1)) (4 * k) (4 * k + 4) (by intro c hc; omega)]

/-! ### The last trip and after -/

theorem rowfam_take_last :
    bigSep (Rk 20 24) (rowPts m d L) ⊢ iprop((rowPts m d L c24 ∗ rowPts m d L c25) ∗ bigSep (Rk 20 26) (rowPts m d L)) := by
  rw [bigSep_Rk_hi (rowPts m d L) 20 24 26 (by decide) (by decide), bigSep_Ik2 (rowPts m d L) 24 c24 c25 rfl rfl]

theorem rowfam_last :
    iprop((rowPts m d L c20 ∗ rowPts m d L c21 ∗ rowPts m d L c22 ∗ rowPts m d L c23) ∗ bigSep (Rk 20 26) (rowPts m d L))
      ⊢ bigSep (Rk 24 26) (rowPts m d L) := by
  rw [bigSep_Rk_lo (rowPts m d L) 20 24 26 (by decide) (by decide), bigSep_Ik4 (rowPts m d L) 20 c20 c21 c22 c23 rfl rfl rfl rfl]

theorem rows_final :
    iprop((rowPts m d L c24 ∗ rowPts m d L c25) ∗ bigSep (Rk 24 26) (rowPts m d L)) ⊢ bigSep Finset.univ (rowPts m d L) := by
  have e : bigSep Finset.univ (rowPts m d L) = bigSep (Rk 24 24) (rowPts m d L) := by rw [Rk_self]
  rw [e, bigSep_Rk_hi (rowPts m d L) 24 24 26 (by decide) (by decide), bigSep_Ik2 (rowPts m d L) 24 c24 c25 rfl rfl]

theorem rows_first :
    bigSep Finset.univ (rowPts m d L)
      ⊢ iprop((rowPts m d L c00 ∗ rowPts m d L c01 ∗ rowPts m d L c02 ∗ rowPts m d L c03) ∗ bigSep (Rk 0 4) (rowPts m d L)) := by
  have e : bigSep Finset.univ (rowPts m d L) = bigSep (Rk 0 0) (rowPts m d L) := by rw [Rk_self]
  rw [e, bigSep_Rk_hi (rowPts m d L) 0 0 4 (by decide) (by decide), bigSep_Ik4 (rowPts m d L) 0 c00 c01 c02 c03 rfl rfl rfl rfl]

omit [FloatOps F] in
theorem outfam_last (fo : Buf (Elt F) (oLoc d)) :
    iprop((Pc d L (GG m d) c20 ∗ Pc d L (GG m d) c21) ∗ bigSep (Rk 20 24) (OutPhi m d L fo 20))
      ⊢ bigSep (Rk 22 24) (OutPhi m d L fo 22) := by
  rw [bigSep_Rk_lo (OutPhi m d L fo 22) 20 22 24 (by decide) (by decide), bigSep_Ik2 (OutPhi m d L fo 22) 20 c20 c21 rfl rfl,
    OutPhi_done m d L fo 22 c20 (by decide), OutPhi_done m d L fo 22 c21 (by decide),
    OutPhi_congr m d L fo 20 22 20 24 (by intro c hc; omega)]

omit [FloatOps F] in
theorem out_take_last (fo : Buf (Elt F) (oLoc d)) :
    bigSep (Rk 22 24) (OutPhi m d L fo 22)
      ⊢ iprop((Pc d L fo c24 ∗ Pc d L fo c25) ∗ bigSep (Rk 22 26) (OutPhi m d L fo 22)) := by
  rw [bigSep_Rk_hi (OutPhi m d L fo 22) 22 24 26 (by decide) (by decide), bigSep_Ik2 (OutPhi m d L fo 22) 24 c24 c25 rfl rfl,
    OutPhi_before m d L fo 22 c24 (by decide), OutPhi_before m d L fo 22 c25 (by decide)]

omit [FloatOps F] in
theorem out_final (fo : Buf (Elt F) (oLoc d)) :
    iprop((Pc d L (GG m d) c22 ∗ Pc d L (GG m d) c23 ∗ Pc d L (GG m d) c24 ∗ Pc d L (GG m d) c25)
        ∗ bigSep (Rk 22 26) (OutPhi m d L fo 22))
      ⊢ bigSep Finset.univ fun c : Fin 26 => Pc d L (GG m d) c := by
  have e : (bigSep Finset.univ fun c : Fin 26 => Pc d L (GG m d) c) = bigSep (Rk 22 22) (fun c : Fin 26 => Pc d L (GG m d) c) := by rw [Rk_self]
  have e2 : bigSep (Rk 22 26) (OutPhi m d L fo 22) = bigSep (Rk 22 26) (fun c : Fin 26 => Pc d L (GG m d) c) := by
    refine bigSep_congr fun c hc => ?_
    simp only [Rk, Finset.mem_filter, Finset.mem_univ, true_and] at hc
    have hc' := c.isLt
    exact OutPhi_done m d L fo 22 c (by omega)
  rw [e, bigSep_Rk_hi (fun c : Fin 26 => Pc d L (GG m d) c) 22 22 26 (by decide) (by decide),
    bigSep_Ik4 (fun c : Fin 26 => Pc d L (GG m d) c) 22 c22 c23 c24 c25 rfl rfl rfl rfl, e2]

/-! ## After the last trip -/

omit [FloatOps F] in
theorem trips_five : 5 < k0_t1_loop.trips := by decide
/-- The last trip's number. -/
def k5 : Fin k0_t1_loop.trips := ⟨5, trips_five⟩

/-- The copy-out of row buffer 2 (3) into chunk 22 (23) in flight, as the last trip starts it: it delivers the chunk at the
    look-up and the buffer back. -/
abbrev WFl2 : sProp 𝕄 :=
  Transfers.Flight countersEmb (VT d L) (SemLoc.dma cc0_scratch11.sem) (default : HIx 1) 524288
    iprop(((oBlk (k0_off2 L k5 2#32) (k0_off2_inb L k5 2)).view.loc (VT d L) ↦[(oBlk (k0_off2 L k5 2#32) (k0_off2_inb L k5 2)).view.set]{fullShare} GG m d)
      ∗ ((b2V).view.loc (VT d L) ↦[(b2V).view.set]{fullShare} GBuf m d L 22))
abbrev WFl3 : sProp 𝕄 :=
  Transfers.Flight countersEmb (VT d L) (SemLoc.dma cc0_scratch12.sem) (default : HIx 1) 524288
    iprop(((oBlk (k0_off2 L k5 3#32) (k0_off2_inb L k5 3)).view.loc (VT d L) ↦[(oBlk (k0_off2 L k5 3#32) (k0_off2_inb L k5 3)).view.set]{fullShare} GG m d)
      ∗ ((b3V).view.loc (VT d L) ↦[(b3V).view.set]{fullShare} GBuf m d L 23))

omit [FloatOps F] in
theorem wfl_canon2 (off : Fin 2 → Nat) (h) (c : Fin 26) (hoff : off = ![4096 * c.val + 128 * (wL L).val, 0]) (fo : Buf (Elt F) (oLoc d))
    (n : Nat) (hn : n = c.val) :
    (iprop(((oBlk off h).view.loc (VT d L) ↦[(oBlk off h).view.set]{fullShare}
          (oBlk off h).view.writes (Elt F) fo [⟨Rect.whole S128x128, ReadAs.same.apply ((b2V).view.read (Elt F) (GBuf m d L n))⟩])
        ∗ ((b2V).view.loc (VT d L) ↦[(b2V).view.set]{fullShare} GBuf m d L n)) : sProp 𝕄)
      ⊢ iprop(((oBlk off h).view.loc (VT d L) ↦[(oBlk off h).view.set]{fullShare} GG m d)
        ∗ ((b2V).view.loc (VT d L) ↦[(b2V).view.set]{fullShare} GBuf m d L n)) := by
  rw [(opc_canon2 m d L off h c hoff fo n hn).trans (pts_oBlk d L off h c hoff (GG m d)).symm]

omit [FloatOps F] in
theorem wfl_canon3 (off : Fin 2 → Nat) (h) (c : Fin 26) (hoff : off = ![4096 * c.val + 128 * (wL L).val, 0]) (fo : Buf (Elt F) (oLoc d))
    (n : Nat) (hn : n = c.val) :
    (iprop(((oBlk off h).view.loc (VT d L) ↦[(oBlk off h).view.set]{fullShare}
          (oBlk off h).view.writes (Elt F) fo [⟨Rect.whole S128x128, ReadAs.same.apply ((b3V).view.read (Elt F) (GBuf m d L n))⟩])
        ∗ ((b3V).view.loc (VT d L) ↦[(b3V).view.set]{fullShare} GBuf m d L n)) : sProp 𝕄)
      ⊢ iprop(((oBlk off h).view.loc (VT d L) ↦[(oBlk off h).view.set]{fullShare} GG m d)
        ∗ ((b3V).view.loc (VT d L) ↦[(b3V).view.set]{fullShare} GBuf m d L n)) := by
  rw [(opc_canon3 m d L off h c hoff fo n hn).trans (pts_oBlk d L off h c hoff (GG m d)).symm]

/-- After the last trip: the gathers of chunks 24 and 25 are in flight in row buffers 0 and 1; the copy-outs of chunks 22
    and 23 are in flight from row buffers 2 and 3; the chunks below 22 are written. -/
abbrev invB (q : PosShare TreeShare) (fo : Buf (Elt F) (oLoc d)) (O : CellTallies nD τ sig (HIx 1)) (W : Waits sig (HIx 1)) : sProp 𝕄 :=
  iprop(Transfers.MayWaits (VT d L) (default : HIx 1) O
    ∗ GFl0 m d L q 24 (by decide) ∗ GFl1 m d L q 25 (by decide) ∗ WFl2 m d L ∗ WFl3 m d L
    ∗ ((xV).view.loc (VT d L) ↦{Transfers.shareTokN q 2} m (tLoc d)) ∗ ((xV).view.loc (VT d L) ↦{Transfers.shareTokN q 3} m (tLoc d))
    ∗ bigSep (Rk 24 26) (rowPts m d L)
    ∗ semVal (VT d L, SemLoc.dma cc0_scratch7.sem) 0 ∗ semVal (VT d L, SemLoc.dma cc0_scratch8.sem) 0
    ∗ semVal (VT d L, SemLoc.dma cc0_scratch9.sem) 0 ∗ semVal (VT d L, SemLoc.dma cc0_scratch10.sem) 0
    ∗ bigSep (Rk 22 24) (OutPhi m d L fo 22)
    ∗ ∃ W', ⌜∀ p ∈ W', p ∈ W ∨ p.2 = none⌝ ∗ owes (VT d L) O W')

/-- The loop's invariant before trip `k`. -/
def loopInv (q : PosShare TreeShare) (fo : Buf (Elt F) (oLoc d)) (O : CellTallies nD τ sig (HIx 1)) (W : Waits sig (HIx 1)) (k : Nat) (_ : PUnit) : sProp 𝕄 :=
  if h : k ≤ 5 then invA m d L q fo O W k h else invB m d L q fo O W

theorem k_lt (k : Fin k0_t1_loop.trips) : k.val < 6 := lt_of_lt_of_le k.isLt k0_t1_abs.2.1

end Tile

end Cert.Proof.KernelIdealRun

end
-- ==== Proof.KernelIdealBody2.lean ====
/-
  The look-up kernel on one vector subcore: one trip of the loop.

  A trip waits for its four gathers, starts the four copy-outs, and as each copy-out ends starts the next gather into
  the freed row buffer. From the invariant before trip k to the invariant before trip k + 1: the four finished gathers
  hand back their rows of the index scratch and their read tokens, the four copy-outs leave the look-up in chunks
  4k … 4k+3, and the four new gathers take rows 4k+4 … 4k+7. The last trip starts only two gathers and leaves two
  copy-outs in flight.
-/
import proofs.«206476_g69466801045872_cont_9to1_m_773_29_alg».proof.Proof.KernelIdealBody1

noncomputable section

namespace Cert.Proof.KernelIdealRun

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

variable (m : (ℓ : Loc nD τ sig) → Buf (Elt F) ℓ) (ρ : Dev nD → PrngReg)

local notation "iV" => (Memref.whole Cert.KernelIdeal.main_v0_scv : Memref Cert.KernelIdeal.sig Kind.scVector Space.hbm Cert.KernelIdeal.S26x4096 EltTy.i32)
local notation "xV" => (Memref.whole Cert.KernelIdeal.main_arg0_scv : Memref Cert.KernelIdeal.sig Kind.scVector Space.hbm Cert.KernelIdeal.S100000x128 EltTy.f32)
local notation "oV" => (Memref.whole Cert.KernelIdeal.main_v1_scv : Memref Cert.KernelIdeal.sig Kind.scVector Space.hbm Cert.KernelIdeal.S106496x128 EltTy.f32)
local notation "sV" => (Memref.whole Cert.KernelIdeal.cc0_scratch0 : Memref Cert.KernelIdeal.sig Kind.scVector Space.vmem Cert.KernelIdeal.S26x128 EltTy.i32)
local notation "b0V" => (Memref.whole Cert.KernelIdeal.cc0_scratch1 : Memref Cert.KernelIdeal.sig Kind.scVector Space.vmem Cert.KernelIdeal.S128x128 EltTy.f32)
local notation "b1V" => (Memref.whole Cert.KernelIdeal.cc0_scratch2 : Memref Cert.KernelIdeal.sig Kind.scVector Space.vmem Cert.KernelIdeal.S128x128 EltTy.f32)
local notation "b2V" => (Memref.whole Cert.KernelIdeal.cc0_scratch3 : Memref Cert.KernelIdeal.sig Kind.scVector Space.vmem Cert.KernelIdeal.S128x128 EltTy.f32)
local notation "b3V" => (Memref.whole Cert.KernelIdeal.cc0_scratch4 : Memref Cert.KernelIdeal.sig Kind.scVector Space.vmem Cert.KernelIdeal.S128x128 EltTy.f32)

variable [FloatOps F]

section Tile
variable (d : Dev nD) (L : grid0.Coords)

set_option maxHeartbeats 4000000 in
theorem trip (hpre : PreOK m) (q : PosShare TreeShare) (fo : Buf (Elt F) (oLoc d)) (O : CellTallies nD τ sig (HIx 1)) (W : Waits sig (HIx 1))
    (k : Fin k0_t1_loop.trips) (hk5 : k.val < 5) (v2 : BitVec 32) :
    invA m d L q fo O W k.val (by omega)
      ⊢ wp frame (wpE (defs₀ (F := F)) 𝒱₀ (VT d L) none) Set.univ
          (k0_t1_body L iV (Memref.isWhole_whole _) xV (Memref.isWhole_whole _) oV (Memref.isWhole_whole _)
            sV (Memref.isWhole_whole _) b0V (Memref.isWhole_whole _) b1V (Memref.isWhole_whole _) b2V (Memref.isWhole_whole _) b3V (Memref.isWhole_whole _)
            cc0_scratch5 cc0_scratch6 cc0_scratch7 cc0_scratch8 cc0_scratch9 cc0_scratch10 cc0_scratch11 cc0_scratch12 cc0_scoped0 v2 k ())
          fun _ => invA m d L q fo O W (k.val + 1) (by omega) := by
  have hk := k_lt k
  have hk' : k.val ≤ 5 := by omega
  have hk1 : k.val + 1 ≤ 5 := by omega
  have i0 : (0 : Nat) < 4 := by decide
  have i1 : (1 : Nat) < 4 := by decide
  have i2 : (2 : Nat) < 4 := by decide
  have i3 : (3 : Nat) < 4 := by decide
  have h1 : k0_cond1 k = 1#1 := by revert k; decide
  have h2 : k0_cond2 k = 1#1 := by revert k; decide
  have h3 : k0_cond3 k = 1#1 := by revert k; decide
  have h4 : k0_cond4 k = 1#1 := by revert k; decide
  iintro ⟨Hmw, Hg0, Hg1, Hg2, Hg3, HR, Hc9, Hc10, Hc11, Hc12, HF, %W', %hW', HO⟩
  have hidx := fun g row hk hq => inb_of_pre m d L hpre g (PAY m d L) rfl row hk hq
  -- the rows the next four gathers read, in the body's spelling
  ihave HR' := (rowfam_take m d L k.val hk1) $$ HR
  icases HR' with ⟨⟨Hn0, Hn1, Hn2, Hn3⟩, HRr⟩
  ihave Hn0' := (Entails.of_eq (rowPts_body m d L (k0_off4 k) (k0_off4_inb k h1) _ (off4_eq k hk1))) $$ Hn0
  ihave Hn1' := (Entails.of_eq (rowPts_body m d L (k0_off6 k) (k0_off6_inb k h2) _ (off6_eq k hk1))) $$ Hn1
  ihave Hn2' := (Entails.of_eq (rowPts_body m d L (k0_off8 k) (k0_off8_inb k h3) _ (off8_eq k hk1))) $$ Hn2
  ihave Hn3' := (Entails.of_eq (rowPts_body m d L (k0_off10 k) (k0_off10_inb k h4) _ (off10_eq k hk1))) $$ Hn3
  -- the four chunks this trip writes, in the body's spelling
  ihave HF' := (outfam_take m d L fo k.val hk') $$ HF
  icases HF' with ⟨⟨Ho0, Ho1, Ho2, Ho3⟩, HFr⟩
  ihave Ho0' := (Entails.of_eq (pts_oBlk d L (k0_off2 L k 0#32) (k0_off2_inb L k 0) (ck k.val hk' 0 i0) (off2_eq' L k hk' _ 0 i0 rfl) fo).symm) $$ Ho0
  ihave Ho1' := (Entails.of_eq (pts_oBlk d L (k0_off2 L k 1#32) (k0_off2_inb L k 1) (ck k.val hk' 1 i1) (off2_eq' L k hk' _ 1 i1 rfl) fo).symm) $$ Ho1
  ihave Ho2' := (Entails.of_eq (pts_oBlk d L (k0_off2 L k 2#32) (k0_off2_inb L k 2) (ck k.val hk' 2 i2) (off2_eq' L k hk' _ 2 i2 rfl) fo).symm) $$ Ho2
  ihave Ho3' := (Entails.of_eq (pts_oBlk d L (k0_off2 L k 3#32) (k0_off2_inb L k 3) (ck k.val hk' 3 i3) (off2_eq' L k hk' _ 3 i3 rfl) fo).symm) $$ Ho3
  unfold GFl0 GFl1 GFl2 GFl3 rowSet xSl
  sl_unfold [k0_t1_body]
  sl_exec
  icases Hg0_dst with ⟨Hb0, Hr0⟩
  ihave Hx0 := (Entails.of_eq (xtok_univ d L _ (m (tLoc d)))) $$ Hg0_src
  sl_exec
  icases Hg1_dst with ⟨Hb1, Hr1⟩
  ihave Hx1 := (Entails.of_eq (xtok_univ d L _ (m (tLoc d)))) $$ Hg1_src
  sl_exec
  icases Hg2_dst with ⟨Hb2, Hr2⟩
  ihave Hx2 := (Entails.of_eq (xtok_univ d L _ (m (tLoc d)))) $$ Hg2_src
  sl_exec
  icases Hg3_dst with ⟨Hb3, Hr3⟩
  ihave Hx3 := (Entails.of_eq (xtok_univ d L _ (m (tLoc d)))) $$ Hg3_src
  sl_exec
  sl_step
  unfold invA
  -- the run's flights and chunks in the invariant's spelling
  have e0 := gfl_canon0 m d L q (GBuf m d L (4 * k.val + 0)) (k0_off4 k) (k0_off4_inb k h1) (4 * (k.val + 1) + 0) (by omega) (off4_eq k hk1) (by decide)
    (hidx _ (k0_off4 k) (k0_off4_inb k h1) squeezes_S1x128_S128)
  have e1 := gfl_canon1 m d L q (GBuf m d L (4 * k.val + 1)) (k0_off6 k) (k0_off6_inb k h2) (4 * (k.val + 1) + 1) (by omega) (off6_eq k hk1) (by decide)
    (hidx _ (k0_off6 k) (k0_off6_inb k h2) squeezes_S1x128_S128)
  have e2 := gfl_canon2 m d L q (GBuf m d L (4 * k.val + 2)) (k0_off8 k) (k0_off8_inb k h3) (4 * (k.val + 1) + 2) (by omega) (off8_eq k hk1) (by decide)
    (hidx _ (k0_off8 k) (k0_off8_inb k h3) squeezes_S1x128_S128)
  have e3 := gfl_canon3 m d L q (GBuf m d L (4 * k.val + 3)) (k0_off10 k) (k0_off10_inb k h4) (4 * (k.val + 1) + 3) (by omega) (off10_eq k hk1) (by decide)
    (hidx _ (k0_off10 k) (k0_off10_inb k h4) squeezes_S1x128_S128)
  isplitl [Hmw]; · iexact Hmw
  isplitl [Hg0]; · iapply (Transfers.Flight_mono countersEmb (VT d L) e0); iexact Hg0
  isplitl [Hg1]; · iapply (Transfers.Flight_mono countersEmb (VT d L) e1); iexact Hg1
  isplitl [Hg2]; · iapply (Transfers.Flight_mono countersEmb (VT d L) e2); iexact Hg2
  isplitl [Hg3]; · iapply (Transfers.Flight_mono countersEmb (VT d L) e3); iexact Hg3
  isplitl [Hr0 Hr1 Hr2 Hr3 HRr]
  · iapply (rowfam_step m d L k.val hk1)
    isplitl [Hr0 Hr1 Hr2 Hr3]
    · isplitl [Hr0]; · iexact Hr0
      isplitl [Hr1]; · iexact Hr1
      isplitl [Hr2]; · iexact Hr2
      iexact Hr3
    · iexact HRr
  isplitl [Hc9]; · iexact Hc9
  isplitl [Hc10]; · iexact Hc10
  isplitl [Hc11]; · iexact Hc11
  isplitl [Hc12]; · iexact Hc12
  isplitl [Ho0' Ho1' Ho2' Ho3' HFr]
  · iapply (outfam_step m d L fo k.val hk')
    isplitl [Ho0' Ho1' Ho2' Ho3']
    · isplitl [Ho0']
      · iapply (Entails.of_eq (opc_canon0 m d L (k0_off2 L k 0#32) (k0_off2_inb L k 0) (ck k.val hk' 0 i0) (off2_eq' L k hk' _ 0 i0 rfl) fo (4 * k.val + 0) rfl)); iexact Ho0'
      isplitl [Ho1']
      · iapply (Entails.of_eq (opc_canon1 m d L (k0_off2 L k 1#32) (k0_off2_inb L k 1) (ck k.val hk' 1 i1) (off2_eq' L k hk' _ 1 i1 rfl) fo (4 * k.val + 1) rfl)); iexact Ho1'
      isplitl [Ho2']
      · iapply (Entails.of_eq (opc_canon2 m d L (k0_off2 L k 2#32) (k0_off2_inb L k 2) (ck k.val hk' 2 i2) (off2_eq' L k hk' _ 2 i2 rfl) fo (4 * k.val + 2) rfl)); iexact Ho2'
      iapply (Entails.of_eq (opc_canon3 m d L (k0_off2 L k 3#32) (k0_off2_inb L k 3) (ck k.val hk' 3 i3) (off2_eq' L k hk' _ 3 i3 rfl) fo (4 * k.val + 3) rfl)); iexact Ho3'
    · iexact HFr
  iexists _; isplitr
  swap; · iexact HO
  ipureintro; intro p hp
  rcases Finset.mem_insert.mp hp with hp | hp; · exact .inr (by rw [hp]; rfl)
  rcases Finset.mem_insert.mp hp with hp | hp; · exact .inr (by rw [hp]; rfl)
  rcases Finset.mem_insert.mp hp with hp | hp; · exact .inr (by rw [hp]; rfl)
  rcases Finset.mem_insert.mp hp with hp | hp; · exact .inr (by rw [hp]; rfl)
  rcases Finset.mem_insert.mp hp with hp | hp; · exact .inr (by rw [hp]; rfl)
  rcases Finset.mem_insert.mp hp with hp | hp; · exact .inr (by rw [hp]; rfl)
  rcases Finset.mem_insert.mp hp with hp | hp; · exact .inr (by rw [hp]; rfl)
  rcases Finset.mem_insert.mp hp with hp | hp; · exact .inr (by rw [hp]; rfl)
  exact hW' p hp

set_option maxHeartbeats 4000000 in
theorem trip5 (hpre : PreOK m) (q : PosShare TreeShare) (fo : Buf (Elt F) (oLoc d)) (O : CellTallies nD τ sig (HIx 1)) (W : Waits sig (HIx 1))
     (v2 : BitVec 32) :
    invA m d L q fo O W 5 (by decide)
      ⊢ wp frame (wpE (defs₀ (F := F)) 𝒱₀ (VT d L) none) Set.univ
          (k0_t1_body L iV (Memref.isWhole_whole _) xV (Memref.isWhole_whole _) oV (Memref.isWhole_whole _)
            sV (Memref.isWhole_whole _) b0V (Memref.isWhole_whole _) b1V (Memref.isWhole_whole _) b2V (Memref.isWhole_whole _) b3V (Memref.isWhole_whole _)
            cc0_scratch5 cc0_scratch6 cc0_scratch7 cc0_scratch8 cc0_scratch9 cc0_scratch10 cc0_scratch11 cc0_scratch12 cc0_scoped0 v2 k5 ())
          fun _ => invB m d L q fo O W := by
  have i0 : (0 : Nat) < 4 := by decide
  have i1 : (1 : Nat) < 4 := by decide
  have i2 : (2 : Nat) < 4 := by decide
  have i3 : (3 : Nat) < 4 := by decide
  have hk' : (5 : Nat) ≤ 5 := le_refl _
  have h1 : k0_cond1 k5 = 1#1 := by decide
  have h2 : k0_cond2 k5 = 1#1 := by decide
  have h3 : ¬ k0_cond3 k5 = 1#1 := by decide
  have h4 : ¬ k0_cond4 k5 = 1#1 := by decide
  iintro ⟨Hmw, Hg0, Hg1, Hg2, Hg3, HR, Hc9, Hc10, Hc11, Hc12, HF, %W', %hW', HO⟩
  have hidx := fun g row hk hq => inb_of_pre m d L hpre g (PAY m d L) rfl row hk hq
  ihave HR' := (rowfam_take_last m d L) $$ HR
  icases HR' with ⟨⟨Hn0, Hn1⟩, HRr⟩
  ihave Hn0' := (Entails.of_eq (rowPts_body m d L (k0_off4 k5) (k0_off4_inb k5 h1) c24 (k0_off4_eq k5))) $$ Hn0
  ihave Hn1' := (Entails.of_eq (rowPts_body m d L (k0_off6 k5) (k0_off6_inb k5 h2) c25 (k0_off6_eq k5))) $$ Hn1
  ihave HF' := (outfam_take m d L fo 5 hk') $$ HF
  icases HF' with ⟨⟨Ho0, Ho1, Ho2, Ho3⟩, HFr⟩
  ihave Ho0' := (Entails.of_eq (pts_oBlk d L (k0_off2 L k5 0#32) (k0_off2_inb L k5 0) (ck 5 hk' 0 i0) (off2_eq' L k5 hk' _ 0 i0 rfl) fo).symm) $$ Ho0
  ihave Ho1' := (Entails.of_eq (pts_oBlk d L (k0_off2 L k5 1#32) (k0_off2_inb L k5 1) (ck 5 hk' 1 i1) (off2_eq' L k5 hk' _ 1 i1 rfl) fo).symm) $$ Ho1
  ihave Ho2' := (Entails.of_eq (pts_oBlk d L (k0_off2 L k5 2#32) (k0_off2_inb L k5 2) (ck 5 hk' 2 i2) (off2_eq' L k5 hk' _ 2 i2 rfl) fo).symm) $$ Ho2
  ihave Ho3' := (Entails.of_eq (pts_oBlk d L (k0_off2 L k5 3#32) (k0_off2_inb L k5 3) (ck 5 hk' 3 i3) (off2_eq' L k5 hk' _ 3 i3 rfl) fo).symm) $$ Ho3
  unfold GFl0 GFl1 GFl2 GFl3 rowSet xSl
  sl_unfold [k0_t1_body]
  sl_exec
  icases Hg0_dst with ⟨Hb0, Hr0⟩
  ihave Hx0 := (Entails.of_eq (xtok_univ d L _ (m (tLoc d)))) $$ Hg0_src
  sl_exec
  icases Hg1_dst with ⟨Hb1, Hr1⟩
  ihave Hx1 := (Entails.of_eq (xtok_univ d L _ (m (tLoc d)))) $$ Hg1_src
  sl_exec
  icases Hg2_dst with ⟨Hb2, Hr2⟩
  ihave Hx2 := (Entails.of_eq (xtok_univ d L _ (m (tLoc d)))) $$ Hg2_src
  sl_exec
  icases Hg3_dst with ⟨Hb3, Hr3⟩
  ihave Hx3 := (Entails.of_eq (xtok_univ d L _ (m (tLoc d)))) $$ Hg3_src
  sl_exec
  sl_step
  unfold invB
  have e0 := gfl_canon0 m d L q (GBuf m d L (4 * 5 + 0)) (k0_off4 k5) (k0_off4_inb k5 h1) 24 (by decide) (k0_off4_eq k5) (by decide)
    (hidx _ (k0_off4 k5) (k0_off4_inb k5 h1) squeezes_S1x128_S128)
  have e1 := gfl_canon1 m d L q (GBuf m d L (4 * 5 + 1)) (k0_off6 k5) (k0_off6_inb k5 h2) 25 (by decide) (k0_off6_eq k5) (by decide)
    (hidx _ (k0_off6 k5) (k0_off6_inb k5 h2) squeezes_S1x128_S128)
  isplitl [Hmw]; · iexact Hmw
  isplitl [Hg0]; · iapply (Transfers.Flight_mono countersEmb (VT d L) e0); iexact Hg0
  isplitl [Hg1]; · iapply (Transfers.Flight_mono countersEmb (VT d L) e1); iexact Hg1
  isplitl [Hc11]
  · iapply (Transfers.Flight_mono countersEmb (VT d L) (wfl_canon2 m d L (k0_off2 L k5 2#32) (k0_off2_inb L k5 2) c22 (off2_eq' L k5 hk' _ 2 i2 rfl) fo (4 * 5 + 2) rfl)); iexact Hc11
  isplitl [Hc12]
  · iapply (Transfers.Flight_mono countersEmb (VT d L) (wfl_canon3 m d L (k0_off2 L k5 3#32) (k0_off2_inb L k5 3) c23 (off2_eq' L k5 hk' _ 3 i3 rfl) fo (4 * 5 + 3) rfl)); iexact Hc12
  isplitl [Hx2]; · iexact Hx2
  isplitl [Hx3]; · iexact Hx3
  isplitl [Hr0 Hr1 Hr2 Hr3 HRr]
  · iapply (rowfam_last m d L)
    isplitl [Hr0 Hr1 Hr2 Hr3]
    · isplitl [Hr0]; · iexact Hr0
      isplitl [Hr1]; · iexact Hr1
      isplitl [Hr2]; · iexact Hr2
      iexact Hr3
    · iexact HRr
  isplitl [Hg2]; · iexact Hg2
  isplitl [Hg3]; · iexact Hg3
  isplitl [Hc9]; · iexact Hc9
  isplitl [Hc10]; · iexact Hc10
  isplitl [Ho0' Ho1' HFr]
  · iapply (outfam_last m d L fo)
    isplitl [Ho0' Ho1']
    · isplitl [Ho0']
      · iapply (Entails.of_eq (opc_canon0 m d L (k0_off2 L k5 0#32) (k0_off2_inb L k5 0) c20 (off2_eq' L k5 hk' _ 0 i0 rfl) fo (4 * 5 + 0) rfl)); iexact Ho0'
      iapply (Entails.of_eq (opc_canon1 m d L (k0_off2 L k5 1#32) (k0_off2_inb L k5 1) c21 (off2_eq' L k5 hk' _ 1 i1 rfl) fo (4 * 5 + 1) rfl)); iexact Ho1'
    · iexact HFr
  iexists _; isplitr
  swap; · iexact HO
  ipureintro; intro p hp
  rcases Finset.mem_insert.mp hp with hp | hp; · exact .inr (by rw [hp]; rfl)
  rcases Finset.mem_insert.mp hp with hp | hp; · exact .inr (by rw [hp]; rfl)
  rcases Finset.mem_insert.mp hp with hp | hp; · exact .inr (by rw [hp]; rfl)
  rcases Finset.mem_insert.mp hp with hp | hp; · exact .inr (by rw [hp]; rfl)
  rcases Finset.mem_insert.mp hp with hp | hp; · exact .inr (by rw [hp]; rfl)
  rcases Finset.mem_insert.mp hp with hp | hp; · exact .inr (by rw [hp]; rfl)
  exact hW' p hp

end Tile

end Cert.Proof.KernelIdealRun

end
-- ==== Proof.KernelIdealBody3.lean ====
/-
  The look-up kernel on one vector subcore: the whole task.

  The index fetch and its wait; the index scratch row by row; the first four gathers; the loop by its invariant; after
  it the last two chunks' waits and copy-outs and the four closing waits. Then the task as the launch states it: the
  subcore's column block of the transposed indices, its share of the table (cut into four read tokens, one per row
  buffer) and its 26 chunks of the flat result go in, and come back with the chunks at the look-up.
-/
import proofs.«206476_g69466801045872_cont_9to1_m_773_29_alg».proof.Proof.KernelIdealBody2

noncomputable section

namespace Cert.Proof.KernelIdealRun

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

variable (m : (ℓ : Loc nD τ sig) → Buf (Elt F) ℓ) (ρ : Dev nD → PrngReg)

local notation "iV" => (Memref.whole Cert.KernelIdeal.main_v0_scv : Memref Cert.KernelIdeal.sig Kind.scVector Space.hbm Cert.KernelIdeal.S26x4096 EltTy.i32)
local notation "xV" => (Memref.whole Cert.KernelIdeal.main_arg0_scv : Memref Cert.KernelIdeal.sig Kind.scVector Space.hbm Cert.KernelIdeal.S100000x128 EltTy.f32)
local notation "oV" => (Memref.whole Cert.KernelIdeal.main_v1_scv : Memref Cert.KernelIdeal.sig Kind.scVector Space.hbm Cert.KernelIdeal.S106496x128 EltTy.f32)
local notation "sV" => (Memref.whole Cert.KernelIdeal.cc0_scratch0 : Memref Cert.KernelIdeal.sig Kind.scVector Space.vmem Cert.KernelIdeal.S26x128 EltTy.i32)
local notation "b0V" => (Memref.whole Cert.KernelIdeal.cc0_scratch1 : Memref Cert.KernelIdeal.sig Kind.scVector Space.vmem Cert.KernelIdeal.S128x128 EltTy.f32)
local notation "b1V" => (Memref.whole Cert.KernelIdeal.cc0_scratch2 : Memref Cert.KernelIdeal.sig Kind.scVector Space.vmem Cert.KernelIdeal.S128x128 EltTy.f32)
local notation "b2V" => (Memref.whole Cert.KernelIdeal.cc0_scratch3 : Memref Cert.KernelIdeal.sig Kind.scVector Space.vmem Cert.KernelIdeal.S128x128 EltTy.f32)
local notation "b3V" => (Memref.whole Cert.KernelIdeal.cc0_scratch4 : Memref Cert.KernelIdeal.sig Kind.scVector Space.vmem Cert.KernelIdeal.S128x128 EltTy.f32)

variable [FloatOps F]

section Tile
variable (d : Dev nD) (L : grid0.Coords)

/-- The subcore's nine DMA cells at zero. -/
abbrev cells0 (d : Dev nD) (L : grid0.Coords) : sProp 𝕄 :=
  iprop(semVal (VT d L, SemLoc.dma cc0_scratch5.sem) 0 ∗ semVal (VT d L, SemLoc.dma cc0_scratch6.sem) 0
    ∗ semVal (VT d L, SemLoc.dma cc0_scratch7.sem) 0 ∗ semVal (VT d L, SemLoc.dma cc0_scratch8.sem) 0
    ∗ semVal (VT d L, SemLoc.dma cc0_scratch9.sem) 0 ∗ semVal (VT d L, SemLoc.dma cc0_scratch10.sem) 0
    ∗ semVal (VT d L, SemLoc.dma cc0_scratch11.sem) 0 ∗ semVal (VT d L, SemLoc.dma cc0_scratch12.sem) 0
    ∗ semVal (VT d L, SemLoc.dma cc0_scoped0.sem) 0)

omit [FloatOps F] in
theorem outfam_zero (fo : Buf (Elt F) (oLoc d)) :
    (bigSep Finset.univ fun c : Fin 26 => Pc d L fo c) = bigSep Finset.univ (OutPhi m d L fo (4 * 0)) :=
  bigSep_congr fun c _ => (OutPhi_before m d L fo (4 * 0) c (by omega)).symm

theorem loopInv_last (q : PosShare TreeShare) (fo : Buf (Elt F) (oLoc d)) (O : CellTallies nD τ sig (HIx 1)) (W : Waits sig (HIx 1)) (acc : PUnit) :
    loopInv m d L q fo O W (Scf.trips k0_t1_loop.lb k0_t1_loop.ub k0_t1_loop.st) acc = invB m d L q fo O W := by
  unfold loopInv
  exact dif_neg (show ¬ (Scf.trips k0_t1_loop.lb k0_t1_loop.ub k0_t1_loop.st ≤ 5) by decide)

set_option maxHeartbeats 8000000 in
/-- The subcore's whole run, from its pieces in the body's spelling: the index fetch, the first four gathers, the loop by
    its invariant, the last two chunks and the four closing waits. -/
theorem tile_run (hpre : PreOK m) (O : CellTallies nD τ sig (HIx 1)) (W : Waits sig (HIx 1)) (q : PosShare TreeShare)
    (fo : Buf (Elt F) (oLoc d)) (g0 : Buf (Elt F) ((sV).view.loc (VT d L)))
    (t0 : Buf (Elt F) ((b0V).view.loc (VT d L))) (t1 : Buf (Elt F) ((b1V).view.loc (VT d L)))
    (t2 : Buf (Elt F) ((b2V).view.loc (VT d L))) (t3 : Buf (Elt F) ((b3V).view.loc (VT d L))) :
    (iprop(Transfers.MayWaits (VT d L) (default : HIx 1) O
        ∗ ((iColK L).view.loc (VT d L) ↦[(iColK L).view.set]{fullShare} V0 m d)
        ∗ ((xV).view.loc (VT d L) ↦{Transfers.shareTokN q 0} m (tLoc d))
        ∗ ((xV).view.loc (VT d L) ↦{Transfers.shareTokN q 1} m (tLoc d))
        ∗ ((xV).view.loc (VT d L) ↦{Transfers.shareTokN q 2} m (tLoc d))
        ∗ ((xV).view.loc (VT d L) ↦{Transfers.shareTokN q 3} m (tLoc d))
        ∗ (bigSep Finset.univ fun c : Fin 26 => Pc d L fo c)
        ∗ ((sV).view.loc (VT d L) ↦[(sV).view.set]{fullShare} g0)
        ∗ ((b0V).view.loc (VT d L) ↦[(b0V).view.set]{fullShare} t0)
        ∗ ((b1V).view.loc (VT d L) ↦[(b1V).view.set]{fullShare} t1)
        ∗ ((b2V).view.loc (VT d L) ↦[(b2V).view.set]{fullShare} t2)
        ∗ ((b3V).view.loc (VT d L) ↦[(b3V).view.set]{fullShare} t3)
        ∗ cells0 d L
        ∗ owes (VT d L) O W) : sProp 𝕄)
      ⊢ wp frame (wpE (defs₀ (F := F)) 𝒱₀ (VT d L) none) Set.univ
          (cc0_k L iV (Memref.isWhole_whole _) xV (Memref.isWhole_whole _) oV (Memref.isWhole_whole _)
            sV (Memref.isWhole_whole _) b0V (Memref.isWhole_whole _) b1V (Memref.isWhole_whole _) b2V (Memref.isWhole_whole _) b3V (Memref.isWhole_whole _)
            cc0_scratch5 cc0_scratch6 cc0_scratch7 cc0_scratch8 cc0_scratch9 cc0_scratch10 cc0_scratch11 cc0_scratch12 cc0_scoped0)
          fun _ => iprop(((iColK L).view.loc (VT d L) ↦[(iColK L).view.set]{fullShare} V0 m d)
            ∗ ((xV).view.loc (VT d L) ↦{Transfers.shareTokN q 0} m (tLoc d))
            ∗ ((xV).view.loc (VT d L) ↦{Transfers.shareTokN q 1} m (tLoc d))
            ∗ ((xV).view.loc (VT d L) ↦{Transfers.shareTokN q 2} m (tLoc d))
            ∗ ((xV).view.loc (VT d L) ↦{Transfers.shareTokN q 3} m (tLoc d))
            ∗ (bigSep Finset.univ fun c : Fin 26 => Pc d L (GG m d) c)
            ∗ (∃ g, (sV).view.loc (VT d L) ↦[(sV).view.set]{fullShare} g)
            ∗ (∃ t, (b0V).view.loc (VT d L) ↦[(b0V).view.set]{fullShare} t)
            ∗ (∃ t, (b1V).view.loc (VT d L) ↦[(b1V).view.set]{fullShare} t)
            ∗ (∃ t, (b2V).view.loc (VT d L) ↦[(b2V).view.set]{fullShare} t)
            ∗ (∃ t, (b3V).view.loc (VT d L) ↦[(b3V).view.set]{fullShare} t)
            ∗ cells0 d L
            ∗ ∃ W', ⌜∀ p ∈ W', p ∈ W ∨ p.2 = none⌝ ∗ owes (VT d L) O W') := by
  have i2 : (2 : Nat) < 4 := by decide
  have i3 : (3 : Nat) < 4 := by decide
  iintro ⟨Hmw, HI, HX0, HX1, HX2, HX3, HF, HS, HB0, HB1, HB2, HB3, ⟨Hc5, Hc6, Hc7, Hc8, Hc9, Hc10, Hc11, Hc12, Hc13⟩, HO⟩
  sl_unfold [cc0_k]
  sl_exec
  sl_unfold_run_names
  -- the index scratch after the fetch, row by row; the first four rows in the body's spelling
  have hidx := fun g row hk hq => inb_of_pre m d L hpre g (PAY m d L) rfl row hk hq
  ihave HRows := (Entails.of_eq (sPts_rows d L (SCONT m d L))) $$ HS
  ihave HR' := (rows_first m d L) $$ HRows
  icases HR' with ⟨⟨Hn0, Hn1, Hn2, Hn3⟩, HRr⟩
  ihave Hn0' := (Entails.of_eq (rowPts_body m d L ![0, 0] inb_S26x128_S1x128_0_0 c00 rfl)) $$ Hn0
  ihave Hn1' := (Entails.of_eq (rowPts_body m d L ![1, 0] inb_S26x128_S1x128_1_0 c01 rfl)) $$ Hn1
  ihave Hn2' := (Entails.of_eq (rowPts_body m d L ![2, 0] inb_S26x128_S1x128_2_0 c02 rfl)) $$ Hn2
  ihave Hn3' := (Entails.of_eq (rowPts_body m d L ![3, 0] inb_S26x128_S1x128_3_0 c03 rfl)) $$ Hn3
  sl_exec
  sl_for (loopInv m d L q fo O W) $$ [Hmw Hc5 Hc6 Hc7 Hc8 HRr Hc9 Hc10 Hc11 Hc12 HF HO]
  case region =>
    intro k acc
    unfold loopInv
    by_cases hk5 : k.val < 5
    · rw [dif_pos (show k.val ≤ 5 by omega)]
      simp only [dif_pos (show k.val + 1 ≤ 5 by omega)]
      exact trip m d L hpre q fo O W k hk5 _
    · have hk : k = k5 := Fin.ext (by have := k_lt k; show k.val = 5; omega)
      subst hk
      rw [dif_pos (show k5.val ≤ 5 by decide)]
      simp only [dif_neg (show ¬ (k5.val + 1 ≤ 5) by decide)]
      exact trip5 m d L hpre q fo O W _
  · unfold loopInv
    rw [dif_pos (show (0 : Nat) ≤ 5 by decide)]
    unfold invA
    isplitl [Hmw]; · iexact Hmw
    isplitl [Hc5]
    · iapply (Transfers.Flight_mono countersEmb (VT d L) (gfl_canon0 m d L q t0 ![0, 0] inb_S26x128_S1x128_0_0 (4 * 0 + 0) (by decide) rfl (by decide)
        (hidx _ ![0, 0] inb_S26x128_S1x128_0_0 squeezes_S1x128_S128))); iexact Hc5
    isplitl [Hc6]
    · iapply (Transfers.Flight_mono countersEmb (VT d L) (gfl_canon1 m d L q t1 ![1, 0] inb_S26x128_S1x128_1_0 (4 * 0 + 1) (by decide) rfl (by decide)
        (hidx _ ![1, 0] inb_S26x128_S1x128_1_0 squeezes_S1x128_S128))); iexact Hc6
    isplitl [Hc7]
    · iapply (Transfers.Flight_mono countersEmb (VT d L) (gfl_canon2 m d L q t2 ![2, 0] inb_S26x128_S1x128_2_0 (4 * 0 + 2) (by decide) rfl (by decide)
        (hidx _ ![2, 0] inb_S26x128_S1x128_2_0 squeezes_S1x128_S128))); iexact Hc7
    isplitl [Hc8]
    · iapply (Transfers.Flight_mono countersEmb (VT d L) (gfl_canon3 m d L q t3 ![3, 0] inb_S26x128_S1x128_3_0 (4 * 0 + 3) (by decide) rfl (by decide)
        (hidx _ ![3, 0] inb_S26x128_S1x128_3_0 squeezes_S1x128_S128))); iexact Hc8
    isplitl [HRr]; · iexact HRr
    isplitl [Hc9]; · iexact Hc9
    isplitl [Hc10]; · iexact Hc10
    isplitl [Hc11]; · iexact Hc11
    isplitl [Hc12]; · iexact Hc12
    isplitl [HF]; · iapply (Entails.of_eq (outfam_zero m d L fo)); iexact HF
    iexists _; isplitr
    swap; · iexact HO
    ipureintro; intro p hp
    rcases Finset.mem_insert.mp hp with hp | hp; · exact .inr (by rw [hp]; rfl)
    exact .inl hp
  iintro %acc HI
  ihave HI' := (Entails.of_eq (loopInv_last m d L q fo O W acc)) $$ HI
  icases HI' with ⟨Hmw, Hg0, Hg1, Hw2, Hw3, Hx2, Hx3, HR, Hc7, Hc8, Hc9, Hc10, HF, %W', %hW', HO⟩
  -- the last two chunks, in the body's spelling
  ihave HF' := (out_take_last m d L fo) $$ HF
  icases HF' with ⟨⟨Ho24, Ho25⟩, HFr⟩
  ihave Ho24' := (Entails.of_eq (pts_oBlk d L (k0_off11 L 98304#32) (k0_off11_inb L 0) c24 (off11_eq L 0) fo).symm) $$ Ho24
  ihave Ho25' := (Entails.of_eq (pts_oBlk d L (k0_off11 L 102400#32) (k0_off11_inb L 1) c25 (off11_eq L 1) fo).symm) $$ Ho25
  unfold GFl0 GFl1 WFl2 WFl3 rowSet xSl
  sl_exec
  sl_step
  isplitl [HI]; · iexact HI
  isplitl [HX0]; · iexact HX0
  isplitl [HX1]; · iexact HX1
  isplitl [Hx2]; · iexact Hx2
  isplitl [Hx3]; · iexact Hx3
  isplitl [Hw2_dst Hw3_dst Ho24' Ho25' HFr]
  · iapply (out_final m d L fo)
    isplitl [Hw2_dst Hw3_dst Ho24' Ho25']
    · isplitl [Hw2_dst]
      · iapply (Entails.of_eq (pts_oBlk d L (k0_off2 L k5 2#32) (k0_off2_inb L k5 2) c22 (off2_eq' L k5 (le_refl 5) _ 2 i2 rfl) (GG m d))); iexact Hw2_dst
      isplitl [Hw3_dst]
      · iapply (Entails.of_eq (pts_oBlk d L (k0_off2 L k5 3#32) (k0_off2_inb L k5 3) c23 (off2_eq' L k5 (le_refl 5) _ 3 i3 rfl) (GG m d))); iexact Hw3_dst
      isplitl [Ho24']
      · iapply (Entails.of_eq (opc_canon0 m d L (k0_off11 L 98304#32) (k0_off11_inb L 0) c24 (off11_eq L 0) fo 24 rfl)); iexact Ho24'
      iapply (Entails.of_eq (opc_canon1 m d L (k0_off11 L 102400#32) (k0_off11_inb L 1) c25 (off11_eq L 1) fo 25 rfl)); iexact Ho25'
    · iexact HFr
  isplitl [Hg0_dst_and Hg1_dst_and HR]
  · iexists _
    iapply (Entails.of_eq (sPts_rows d L (SCONT m d L)).symm)
    iapply (rows_final m d L)
    isplitl [Hg0_dst_and Hg1_dst_and]
    · isplitl [Hg0_dst_and]; · iexact Hg0_dst_and
      iexact Hg1_dst_and
    · iexact HR
  isplitl [Hg0_dst]; · iexists _; iexact Hg0_dst
  isplitl [Hg1_dst]; · iexists _; iexact Hg1_dst
  isplitl [Hw2_src]; · iexists _; iexact Hw2_src
  isplitl [Hw3_src]; · iexists _; iexact Hw3_src
  isplitl [Hg0 Hg1 Hc7 Hc8 Hc9 Hc10 Hw2 Hw3 Hc13]
  · isplitl [Hg0]; · iexact Hg0
    isplitl [Hg1]; · iexact Hg1
    isplitl [Hc7]; · iexact Hc7
    isplitl [Hc8]; · iexact Hc8
    isplitl [Hc9]; · iexact Hc9
    isplitl [Hc10]; · iexact Hc10
    isplitl [Hw2]; · iexact Hw2
    isplitl [Hw3]; · iexact Hw3
    iexact Hc13
  iexists _; isplitr
  swap; · iexact HO
  ipureintro; intro p hp
  rcases Finset.mem_insert.mp hp with hp | hp; · exact .inr (by rw [hp]; rfl)
  rcases Finset.mem_insert.mp hp with hp | hp; · exact .inr (by rw [hp]; rfl)
  rcases Finset.mem_insert.mp hp with hp | hp; · exact .inr (by rw [hp]; rfl)
  rcases Finset.mem_insert.mp hp with hp | hp; · exact .inr (by rw [hp]; rfl)
  rcases Finset.mem_insert.mp hp with hp | hp; · exact .inr (by rw [hp]; rfl)
  rcases Finset.mem_insert.mp hp with hp | hp; · exact .inr (by rw [hp]; rfl)
  exact hW' p hp

/-! ## From what the launch deals the subcore to the body's spelling, and back -/

omit [FloatOps F] in
theorem set_iColK : (iColK L).view.set = iSet (wL L) := by
  show ((View.whole (main_v0_scv : Ref sig .scVector)).slice (Rect.unit (s := S26x4096) (k0_off1 L) S26x128.size (k0_off1_inb L))).set = (iRect (wL L)).set
  rw [View.set_slice]
  have key : ∀ (o o' : Fin 2 → Nat) (hh : o = o') (h1) (h2),
      Rect.unit (s := S26x4096) o S26x128.size h1 = Rect.unit (s := S26x4096) o' S26x128.size h2 := by
    intro o o' hh h1 h2; subst hh; rfl
  have h : k0_off1 L = ![0, 128 * (wL L).val] := by
    rw [k0_off1_eq]
    show ![0, 256 * (L 1).val + 128 * (L 0).val] = ![0, 128 * (2 * (L 1).val + (L 0).val)]
    rw [show 256 * (L 1).val + 128 * (L 0).val = 128 * (2 * (L 1).val + (L 0).val) by omega]
  rw [key _ _ h (k0_off1_inb L) (icol_inb (wL L))]
  exact Finset.map_refl

omit [FloatOps F] in
theorem pts_iColK (f : Buf (Elt F) (iLoc d)) :
    ((iColK L).view.loc (VT d L) ↦[(iColK L).view.set]{fullShare} f : sProp 𝕄) = iLoc d ↦[iSet (wL L)]{fullShare} f := by
  rw [set_iColK]

omit [FloatOps F] in
/-- A scratch buffer of the subcore, whole: the body's spelling and the launch's. -/
theorem pts_whole (b : Ref sig .scVector) (f : Buf (Elt F) ((VT d L).loc b)) :
    ((Memref.whole b).view.loc (VT d L) ↦[(Memref.whole b).view.set]{fullShare} f : sProp 𝕄) = ((VT d L).loc b ↦{fullShare} f) := by
  rw [show (Memref.whole b).view.set = Finset.univ from View.set_whole _]

/-- A DMA cell of the subcore. -/
abbrev cl (s : DmaSem sig) : GSem nD τ sig := (VT d L, SemLoc.dma s)

omit [FloatOps F] in
theorem cl_ne (a b : DmaSem sig) (h : a ≠ b) : cl d L a ≠ cl d L b := by
  intro e; apply h
  have e2 := congrArg Prod.snd e
  injection e2

omit [FloatOps F] in
theorem cl_mem (s : DmaSem sig) (hs : (SemLoc.dma s : SemLoc sig).isScoped .scVector = true) : cl d L s ∈ ownCells (VT d L) :=
  (mem_ownCells (g := cl d L s)).mpr ⟨rfl, hs⟩

omit [FloatOps F] in
/-- The subcore's own cells at zero: its nine DMA cells, and the rest. -/
theorem ownSems0_V :
    (ownSems0 (VT d L) : sProp 𝕄)
      = iprop(semVal (cl d L cc0_scratch5.sem) 0 ∗ semVal (cl d L cc0_scratch6.sem) 0 ∗ semVal (cl d L cc0_scratch7.sem) 0 ∗ semVal (cl d L cc0_scratch8.sem) 0 ∗ semVal (cl d L cc0_scratch9.sem) 0 ∗ semVal (cl d L cc0_scratch10.sem) 0 ∗ semVal (cl d L cc0_scratch11.sem) 0 ∗ semVal (cl d L cc0_scratch12.sem) 0 ∗ semVal (cl d L cc0_scoped0.sem) 0
          ∗ bigSep ((((((((((ownCells (VT d L)).erase (cl d L cc0_scratch5.sem)).erase (cl d L cc0_scratch6.sem)).erase (cl d L cc0_scratch7.sem)).erase (cl d L cc0_scratch8.sem)).erase (cl d L cc0_scratch9.sem)).erase (cl d L cc0_scratch10.sem)).erase (cl d L cc0_scratch11.sem)).erase (cl d L cc0_scratch12.sem)).erase (cl d L cc0_scoped0.sem)) fun g => semVal g 0) := by
  unfold SparseCore.Cfg.ownSems0
  rw [SparseCore.bigSep_erase' (cl_mem d L cc0_scratch5.sem (by show (SemLoc.dma cc0_scratch5.sem : SemLoc sig).isScoped .scVector = true; decide)),
    SparseCore.bigSep_erase' (Finset.mem_erase.mpr ⟨cl_ne d L _ _ (by decide), cl_mem d L cc0_scratch6.sem (by show (SemLoc.dma cc0_scratch6.sem : SemLoc sig).isScoped .scVector = true; decide)⟩),
    SparseCore.bigSep_erase' (Finset.mem_erase.mpr ⟨cl_ne d L _ _ (by decide), Finset.mem_erase.mpr ⟨cl_ne d L _ _ (by decide), cl_mem d L cc0_scratch7.sem (by show (SemLoc.dma cc0_scratch7.sem : SemLoc sig).isScoped .scVector = true; decide)⟩⟩),
    SparseCore.bigSep_erase' (Finset.mem_erase.mpr ⟨cl_ne d L _ _ (by decide), Finset.mem_erase.mpr ⟨cl_ne d L _ _ (by decide), Finset.mem_erase.mpr ⟨cl_ne d L _ _ (by decide), cl_mem d L cc0_scratch8.sem (by show (SemLoc.dma cc0_scratch8.sem : SemLoc sig).isScoped .scVector = true; decide)⟩⟩⟩),
    SparseCore.bigSep_erase' (Finset.mem_erase.mpr ⟨cl_ne d L _ _ (by decide), Finset.mem_erase.mpr ⟨cl_ne d L _ _ (by decide), Finset.mem_erase.mpr ⟨cl_ne d L _ _ (by decide), Finset.mem_erase.mpr ⟨cl_ne d L _ _ (by decide), cl_mem d L cc0_scratch9.sem (by show (SemLoc.dma cc0_scratch9.sem : SemLoc sig).isScoped .scVector = true; decide)⟩⟩⟩⟩),
    SparseCore.bigSep_erase' (Finset.mem_erase.mpr ⟨cl_ne d L _ _ (by decide), Finset.mem_erase.mpr ⟨cl_ne d L _ _ (by decide), Finset.mem_erase.mpr ⟨cl_ne d L _ _ (by decide), Finset.mem_erase.mpr ⟨cl_ne d L _ _ (by decide), Finset.mem_erase.mpr ⟨cl_ne d L _ _ (by decide), cl_mem d L cc0_scratch10.sem (by show (SemLoc.dma cc0_scratch10.sem : SemLoc sig).isScoped .scVector = true; decide)⟩⟩⟩⟩⟩),
    SparseCore.bigSep_erase' (Finset.mem_erase.mpr ⟨cl_ne d L _ _ (by decide), Finset.mem_erase.mpr ⟨cl_ne d L _ _ (by decide), Finset.mem_erase.mpr ⟨cl_ne d L _ _ (by decide), Finset.mem_erase.mpr ⟨cl_ne d L _ _ (by decide), Finset.mem_erase.mpr ⟨cl_ne d L _ _ (by decide), Finset.mem_erase.mpr ⟨cl_ne d L _ _ (by decide), cl_mem d L cc0_scratch11.sem (by show (SemLoc.dma cc0_scratch11.sem : SemLoc sig).isScoped .scVector = true; decide)⟩⟩⟩⟩⟩⟩),
    SparseCore.bigSep_erase' (Finset.mem_erase.mpr ⟨cl_ne d L _ _ (by decide), Finset.mem_erase.mpr ⟨cl_ne d L _ _ (by decide), Finset.mem_erase.mpr ⟨cl_ne d L _ _ (by decide), Finset.mem_erase.mpr ⟨cl_ne d L _ _ (by decide), Finset.mem_erase.mpr ⟨cl_ne d L _ _ (by decide), Finset.mem_erase.mpr ⟨cl_ne d L _ _ (by decide), Finset.mem_erase.mpr ⟨cl_ne d L _ _ (by decide), cl_mem d L cc0_scratch12.sem (by show (SemLoc.dma cc0_scratch12.sem : SemLoc sig).isScoped .scVector = true; decide)⟩⟩⟩⟩⟩⟩⟩),
    SparseCore.bigSep_erase' (Finset.mem_erase.mpr ⟨cl_ne d L _ _ (by decide), Finset.mem_erase.mpr ⟨cl_ne d L _ _ (by decide), Finset.mem_erase.mpr ⟨cl_ne d L _ _ (by decide), Finset.mem_erase.mpr ⟨cl_ne d L _ _ (by decide), Finset.mem_erase.mpr ⟨cl_ne d L _ _ (by decide), Finset.mem_erase.mpr ⟨cl_ne d L _ _ (by decide), Finset.mem_erase.mpr ⟨cl_ne d L _ _ (by decide), Finset.mem_erase.mpr ⟨cl_ne d L _ _ (by decide), cl_mem d L cc0_scoped0.sem (by show (SemLoc.dma cc0_scoped0.sem : SemLoc sig).isScoped .scVector = true; decide)⟩⟩⟩⟩⟩⟩⟩⟩)]

omit [FloatOps F] in
/-- The subcore's own buffers: the index scratch, the four row buffers, and the rest. -/
theorem ownBufs_V :
    (ownBufs (VT d L) : sProp 𝕄)
      = iprop((∃ f, (VT d L).loc cc0_scratch0 ↦{fullShare} f) ∗ (∃ f, (VT d L).loc cc0_scratch1 ↦{fullShare} f) ∗ (∃ f, (VT d L).loc cc0_scratch2 ↦{fullShare} f) ∗ (∃ f, (VT d L).loc cc0_scratch3 ↦{fullShare} f) ∗ (∃ f, (VT d L).loc cc0_scratch4 ↦{fullShare} f)
          ∗ bigSep ((((((ownRefs (τ := τ) (.scVector (cV L) (jV L))).erase ((Proc.scVector (cV L) (jV L)).devRef cc0_scratch0)).erase ((Proc.scVector (cV L) (jV L)).devRef cc0_scratch1)).erase ((Proc.scVector (cV L) (jV L)).devRef cc0_scratch2)).erase ((Proc.scVector (cV L) (jV L)).devRef cc0_scratch3)).erase ((Proc.scVector (cV L) (jV L)).devRef cc0_scratch4))
              fun b => iprop(∃ f, ((d, b) : Loc nD τ sig) ↦{fullShare} f)) := by
  unfold SparseCore.Cfg.ownBufs
  rw [SparseCore.bigSep_erase' (SparseCore.Cfg.mem_ownRefs_of_owner (p := Proc.scVector (cV L) (jV L)) (b := ((Proc.scVector (cV L) (jV L)).devRef cc0_scratch0)) rfl),
    SparseCore.bigSep_erase' (Finset.mem_erase.mpr ⟨fun e => absurd (Proc.devRef_injective _ e) (show (cc0_scratch1 : Ref sig .scVector) ≠ cc0_scratch0 by decide), SparseCore.Cfg.mem_ownRefs_of_owner (p := Proc.scVector (cV L) (jV L)) (b := ((Proc.scVector (cV L) (jV L)).devRef cc0_scratch1)) rfl⟩),
    SparseCore.bigSep_erase' (Finset.mem_erase.mpr ⟨fun e => absurd (Proc.devRef_injective _ e) (show (cc0_scratch2 : Ref sig .scVector) ≠ cc0_scratch1 by decide), Finset.mem_erase.mpr ⟨fun e => absurd (Proc.devRef_injective _ e) (show (cc0_scratch2 : Ref sig .scVector) ≠ cc0_scratch0 by decide), SparseCore.Cfg.mem_ownRefs_of_owner (p := Proc.scVector (cV L) (jV L)) (b := ((Proc.scVector (cV L) (jV L)).devRef cc0_scratch2)) rfl⟩⟩),
    SparseCore.bigSep_erase' (Finset.mem_erase.mpr ⟨fun e => absurd (Proc.devRef_injective _ e) (show (cc0_scratch3 : Ref sig .scVector) ≠ cc0_scratch2 by decide), Finset.mem_erase.mpr ⟨fun e => absurd (Proc.devRef_injective _ e) (show (cc0_scratch3 : Ref sig .scVector) ≠ cc0_scratch1 by decide), Finset.mem_erase.mpr ⟨fun e => absurd (Proc.devRef_injective _ e) (show (cc0_scratch3 : Ref sig .scVector) ≠ cc0_scratch0 by decide), SparseCore.Cfg.mem_ownRefs_of_owner (p := Proc.scVector (cV L) (jV L)) (b := ((Proc.scVector (cV L) (jV L)).devRef cc0_scratch3)) rfl⟩⟩⟩),
    SparseCore.bigSep_erase' (Finset.mem_erase.mpr ⟨fun e => absurd (Proc.devRef_injective _ e) (show (cc0_scratch4 : Ref sig .scVector) ≠ cc0_scratch3 by decide), Finset.mem_erase.mpr ⟨fun e => absurd (Proc.devRef_injective _ e) (show (cc0_scratch4 : Ref sig .scVector) ≠ cc0_scratch2 by decide), Finset.mem_erase.mpr ⟨fun e => absurd (Proc.devRef_injective _ e) (show (cc0_scratch4 : Ref sig .scVector) ≠ cc0_scratch1 by decide), Finset.mem_erase.mpr ⟨fun e => absurd (Proc.devRef_injective _ e) (show (cc0_scratch4 : Ref sig .scVector) ≠ cc0_scratch0 by decide), SparseCore.Cfg.mem_ownRefs_of_owner (p := Proc.scVector (cV L) (jV L)) (b := ((Proc.scVector (cV L) (jV L)).devRef cc0_scratch4)) rfl⟩⟩⟩⟩)]

omit [FloatOps F] in
/-- The subcore's share of the table as what stays with it and four read tokens. -/
theorem tToks (qq : PosShare TreeShare) (f : Buf (Elt F) (tLoc d)) :
    (tLoc d ↦{qq} f : sProp 𝕄) ⊣⊢ iprop((tLoc d ↦{Transfers.shareDrop qq 4} f) ∗ (tLoc d ↦{Transfers.shareTokN qq 0} f)
      ∗ (tLoc d ↦{Transfers.shareTokN qq 1} f) ∗ (tLoc d ↦{Transfers.shareTokN qq 2} f) ∗ (tLoc d ↦{Transfers.shareTokN qq 3} f)) := by
  have h : (tLoc d ↦{qq} f : sProp 𝕄) ⊣⊢ iprop((tLoc d ↦{Transfers.shareDrop qq 4} f) ∗ bigSep (Finset.range 4) fun i => tLoc d ↦{Transfers.shareTokN qq i} f) :=
    Transfers.pointsTo_toks_range (ℓ := tLoc d) (S := Finset.univ) (f := f) qq 4
  rw [show Finset.range 4 = {0, 1, 2, 3} by decide, SparseCore.bigSep_insert' (by decide), SparseCore.bigSep_insert' (by decide),
    SparseCore.bigSep_insert' (by decide), bigSep_singleton] at h
  exact h

/-- The subcore's task, from what the launch deals it to what it hands back. -/
theorem tile_body (hF : (K (F := F)).Facts) (hpre : PreOK m) (O : CellTallies nD τ sig (HIx 1)) (W : Waits sig (HIx 1)) (hO : ∀ g, O g none = 0) :
    iprop(levAts (K (F := F)).L (K (F := F)).lev ∗ emp ∗ tileRes m d (wL L) (m (oLoc d))
        ∗ scopedBufs (VT d L) ∗ scopedSems0 (VT d L) ∗ owes (VT d L) O W)
      ⊢ wp frame (wpE (defs₀ (F := F)) 𝒱₀ (VT d L) none) Set.univ
          (cc0_k L iV (Memref.isWhole_whole _) xV (Memref.isWhole_whole _) oV (Memref.isWhole_whole _)
            sV (Memref.isWhole_whole _) b0V (Memref.isWhole_whole _) b1V (Memref.isWhole_whole _) b2V (Memref.isWhole_whole _) b3V (Memref.isWhole_whole _)
            cc0_scratch5 cc0_scratch6 cc0_scratch7 cc0_scratch8 cc0_scratch9 cc0_scratch10 cc0_scratch11 cc0_scratch12 cc0_scoped0)
          fun _ => iprop(tileRes m d (wL L) (GG m d) ∗ scopedBufs (VT d L) ∗ scopedSems0 (VT d L)
            ∗ ∃ W', ⌜∀ p ∈ W', p ∈ W ∨ p.2 = none ∨ p.2 = some (0 : Fin 1)⌝ ∗ owes (VT d L) O W') := by
  rw [(K (F := F)).scopedBufs_V hF d (cV L) (jV L), SparseCore.Cfg.scopedSems0_V (Val := Elt F) d (cV L) (jV L), ownSems0_V, ownBufs_V]
  iintro ⟨#Hlv, -, ⟨HI, HT, HF⟩, ⟨⟨%g0, HS⟩, ⟨%t0, HB0⟩, ⟨%t1, HB1⟩, ⟨%t2, HB2⟩, ⟨%t3, HB3⟩, Hbufs⟩, ⟨Hc5, Hc6, Hc7, Hc8, Hc9, Hc10, Hc11, Hc12, Hc13, Hsems⟩, HO⟩
  ihave Hmw := (show levAts (K (F := F)).L (K (F := F)).lev ⊢ Transfers.MayWaits (VT d L) (default : HIx 1) O from
    (K (F := F)).mayWaits_none (thr := VT d L) hO) $$ Hlv
  ihave HI' := (Entails.of_eq (pts_iColK (F := F) d L _).symm) $$ HI
  ihave HS' := (Entails.of_eq (pts_whole (F := F) d L cc0_scratch0 _).symm) $$ HS
  ihave HB0' := (Entails.of_eq (pts_whole (F := F) d L cc0_scratch1 _).symm) $$ HB0
  ihave HB1' := (Entails.of_eq (pts_whole (F := F) d L cc0_scratch2 _).symm) $$ HB1
  ihave HB2' := (Entails.of_eq (pts_whole (F := F) d L cc0_scratch3 _).symm) $$ HB2
  ihave HB3' := (Entails.of_eq (pts_whole (F := F) d L cc0_scratch4 _).symm) $$ HB3
  ihave HT' := (tToks d (tq (wL L)) (m (tLoc d))).1 $$ HT
  icases HT' with ⟨HTr, HX0, HX1, HX2, HX3⟩
  iapply (wp_wand_r Idealize.ShloMosaic.frame (wpE (defs₀ (F := F)) 𝒱₀ (VT d L) none) Set.univ)
  isplitl [Hmw HI' HX0 HX1 HX2 HX3 HF HS' HB0' HB1' HB2' HB3' Hc5 Hc6 Hc7 Hc8 Hc9 Hc10 Hc11 Hc12 Hc13 HO]
  · iapply (tile_run m d L hpre O W (tq (wL L)) (m (oLoc d)) g0 t0 t1 t2 t3)
    isplitl [Hmw]; · iexact Hmw
    isplitl [HI']; · iexact HI'
    isplitl [HX0]; · iexact HX0
    isplitl [HX1]; · iexact HX1
    isplitl [HX2]; · iexact HX2
    isplitl [HX3]; · iexact HX3
    isplitl [HF]; · iexact HF
    isplitl [HS']; · iexact HS'
    isplitl [HB0']; · iexact HB0'
    isplitl [HB1']; · iexact HB1'
    isplitl [HB2']; · iexact HB2'
    isplitl [HB3']; · iexact HB3'
    isplitl [Hc5 Hc6 Hc7 Hc8 Hc9 Hc10 Hc11 Hc12 Hc13]
    · isplitl [Hc5]; · iexact Hc5
      isplitl [Hc6]; · iexact Hc6
      isplitl [Hc7]; · iexact Hc7
      isplitl [Hc8]; · iexact Hc8
      isplitl [Hc9]; · iexact Hc9
      isplitl [Hc10]; · iexact Hc10
      isplitl [Hc11]; · iexact Hc11
      isplitl [Hc12]; · iexact Hc12
      iexact Hc13
    iexact HO
  iintro %_ ⟨HI', HX0, HX1, HX2, HX3, HF, ⟨%g, HS'⟩, ⟨%u0, HB0'⟩, ⟨%u1, HB1'⟩, ⟨%u2, HB2'⟩, ⟨%u3, HB3'⟩, ⟨Hc5, Hc6, Hc7, Hc8, Hc9, Hc10, Hc11, Hc12, Hc13⟩, ⟨%W', %hW', HO⟩⟩
  ihave HT := (tToks d (tq (wL L)) (m (tLoc d))).2 $$ [HTr HX0 HX1 HX2 HX3]
  · isplitl [HTr]; · iexact HTr
    isplitl [HX0]; · iexact HX0
    isplitl [HX1]; · iexact HX1
    isplitl [HX2]; · iexact HX2
    iexact HX3
  isplitl [HI' HT HF]
  · isplitl [HI']; · iapply (Entails.of_eq (pts_iColK (F := F) d L _)); iexact HI'
    isplitl [HT]; · iexact HT
    iexact HF
  isplitl [HS' HB0' HB1' HB2' HB3' Hbufs]
  · isplitl [HS']; · iexists _; iapply (Entails.of_eq (pts_whole (F := F) d L cc0_scratch0 _)); iexact HS'
    isplitl [HB0']; · iexists _; iapply (Entails.of_eq (pts_whole (F := F) d L cc0_scratch1 _)); iexact HB0'
    isplitl [HB1']; · iexists _; iapply (Entails.of_eq (pts_whole (F := F) d L cc0_scratch2 _)); iexact HB1'
    isplitl [HB2']; · iexists _; iapply (Entails.of_eq (pts_whole (F := F) d L cc0_scratch3 _)); iexact HB2'
    isplitl [HB3']; · iexists _; iapply (Entails.of_eq (pts_whole (F := F) d L cc0_scratch4 _)); iexact HB3'
    iexact Hbufs
  isplitl [Hc5 Hc6 Hc7 Hc8 Hc9 Hc10 Hc11 Hc12 Hc13 Hsems]
  · isplitl [Hc5]; · iexact Hc5
    isplitl [Hc6]; · iexact Hc6
    isplitl [Hc7]; · iexact Hc7
    isplitl [Hc8]; · iexact Hc8
    isplitl [Hc9]; · iexact Hc9
    isplitl [Hc10]; · iexact Hc10
    isplitl [Hc11]; · iexact Hc11
    isplitl [Hc12]; · iexact Hc12
    isplitl [Hc13]; · iexact Hc13
    iexact Hsems
  iexists W'; isplitr
  · ipureintro; intro p hp
    rcases hW' p hp with h | h
    · exact .inl h
    · exact .inr (.inl h)
  · iexact HO

/-! ## The obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_k (coordsV c s)
          iV (Memref.isWhole_whole _) xV (Memref.isWhole_whole _) oV (Memref.isWhole_whole _)
          sV (Memref.isWhole_whole _) b0V (Memref.isWhole_whole _) b1V (Memref.isWhole_whole _) b2V (Memref.isWhole_whole _) b3V (Memref.isWhole_whole _)
          cc0_scratch5 cc0_scratch6 cc0_scratch7 cc0_scratch8 cc0_scratch9 cc0_scratch10 cc0_scratch11 cc0_scratch12 cc0_scoped0) ⟨⟩ c s := rfl

theorem tileObl (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body m d (coordsV ⟨_, hci.1⟩ ⟨_, hci.2⟩) hF hpre O W hO

end Tile

end Cert.Proof.KernelIdealRun

end
-- ==== Proof.LibFillTake.lean ====
/-
  Words of a table look-up in fill mode (`jnp.take` as jax lowers it), general lemmas about no particular program.

  The look-up counts a negative index from the end of the table, marks an index as in range by two signed
  comparisons joined by `and` and reduced by `and` along the index column, and selects on the mark.  Here: on an index
  word that is not negative the count-from-the-end select is the word itself (`wrap_of_nonneg`); on a word between 0
  and the bound the mark's bit is 1 (`mark_of_between`); and a reduction by `and`, from 1, of an array of 1s is 1
  everywhere (`Host.reduce_andi_one`, the converse of Lib/ReduceAll.lean's `Host.reduce_andi_eq_one`).
-/
import Idealize.ShloMosaic.Lib.ReduceAll
import Idealize.ShloMosaic.Lib.ValueIdx

namespace Cert.LibFillTake

open Idealize.ShloMosaic

/-- The signed value of the zero word. -/
theorem toInt_zero32 : (0#32 : BitVec 32).toInt = 0 := by decide

/-- On an index word that is not negative, "if negative then index + extent else index" is the index. -/
theorem wrap_of_nonneg {x n : BitVec 32} (h0 : 0 ≤ x.toInt) :
    Scalar.select (IntOp.cmpi .slt x 0#32) (IntOp.addi x n) x = x := by
  have hc : IntOp.cmpi .slt x 0#32 = 0#1 := ValueIdx.eq_zero_of_ne_one fun h => by
    have := IntOp.cmpi_slt.1 h
    rw [toInt_zero32] at this
    omega
  rw [hc]
  exact ValueIdx.select_zero _ _

/-- On an index word between 0 and `hi`, signed, the bit "0 ≤ x and x ≤ hi" is 1. -/
theorem mark_of_between {x hi : BitVec 32} (h0 : 0 ≤ x.toInt) (h1 : x.toInt ≤ hi.toInt) :
    IntOp.andi (IntOp.cmpi .sge x 0#32) (IntOp.cmpi .sle x hi) = 1#1 :=
  IntOp.andi_eq_one.2 ⟨IntOp.cmpi_sge.2 (by rw [toInt_zero32]; exact h0), IntOp.cmpi_sle.2 h1⟩

/-- A left fold by `and` from 1 over 1s is 1. -/
theorem foldl_andi_one {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a List.mem_cons_self, show IntOp.andi 1#1 1#1 = 1#1 from by decide]
    exact foldl_andi_one f l fun n hn => h n (List.mem_cons_of_mem _ hn)

/-- A `stablehlo.reduce` by `and`, from an initial value that is 1, of an array of 1s is 1 at every index. -/
theorem reduce_andi_one {s t u : Shape} {axes : List (Fin s.rank)} (x : s.Idx → BitVec 1) (init : u.Idx → BitVec 1)
    (h : s.ReducesTo axes t) (hu : 0 < u.numel) (j : t.Idx) (hx : ∀ i, x i = 1#1) (hinit : ∀ k, init k = 1#1) :
    Host.reduce IntOp.andi x init h hu j = 1#1 := by
  rw [Host.reduce_eq_foldl, hinit]
  exact foldl_andi_one x _ fun n _ => hx n

end Cert.LibFillTake
-- ==== Proof.RefRun.lean ====
/-
  The reference's run: its straight line of host operations, the line's composed value, and the run.

  The reference reshapes the index array to one column of 106496 words, looks the table up in fill mode (a negative
  index counts from the end of the table; an index outside 0 … 99999 after that reads the fill value; the rows are
  gathered at the clamped index), and reshapes the 106496 × 128 result to 4096 × 26 × 128. The look-up is an outlined
  function that itself calls an outlined select: read at the call, the program is ONE line of twenty-five operations
  over the call's buffers, `ops`. `refTerm` is what that line leaves in the result buffer as a function of the two
  argument arrays, `run` says every execution ends there with the arguments unchanged, and `refTerm_eq` that on index
  words between 0 and 99999 that value is the look-up of the specification, entry by entry: there counting from the end
  changes no word, the mark is 1 everywhere so the fill value is never read, the clamp inside the gather is the identity,
  and the two reshapes pair entry (b, f, l) with row 26 b + f of the flat column.
-/
import proofs.«206476_g69466801045872_cont_9to1_m_773_29_alg».proof.Defs
import proofs.«206476_g69466801045872_cont_9to1_m_773_29_alg».proof.Proof.Gen.ReferenceIdeal
import proofs.«206476_g69466801045872_cont_9to1_m_773_29_alg».proof.Proof.Spec
import proofs.«206476_g69466801045872_cont_9to1_m_773_29_alg».proof.Proof.LibFillTake
import Idealize.ShloMosaic.Lib.StableHlo.Run
import Idealize.ShloMosaic.Lib.ValueIdx
import Idealize.ShloMosaic.Lib.Pipeline.Value

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The reference's twenty-five operations, in order: the first reshape, the look-up's twenty-three (its select the
    eighth of them, into the inner call's buffer), the last reshape. -/
abbrev ops : List (HloOp τ sig (Elt F)) :=
  [ reshape main_arg1 main_v0 rfl shapeCasts_S4096x26_S106496,
    TRef.nullary main_call0.c (constantI S_ 32 0#32),
    TRef.unary main_call0.c main_call0.v0 (broadcastInDim S106496 ![] bcast_S_S106496),
    TRef.binary (.of main_v0) main_call0.v0 main_call0.v1 (cmpi .slt),
    TRef.nullary main_call0.c_0 (constantI S_ 32 100000#32),
    TRef.unary main_call0.c_0 main_call0.v2 (broadcastInDim S106496 ![] bcast_S_S106496),
    TRef.binary (.of main_v0) main_call0.v2 main_call0.v3 addi,
    TRef.ternary main_call0.v1 main_call0.v3 (.of main_v0) main_call0.call0.v0 select,
    TRef.unary main_call0.call0.v0 main_call0.v5 (broadcastInDim S106496x1 ![0] bcast_S106496_S106496x1_0),
    TRef.nullary main_call0.c_1 (constantI S1 32 99999#32),
    TRef.nullary main_call0.c_2 (constantI S_ 32 0#32),
    TRef.unary main_call0.c_2 main_call0.v6 (broadcastInDim S106496x1 ![] bcast_S_S106496x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S106496x1 ![0, 1] bcast_S1x1_S106496x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S106496x1_S106496_d1 h_S_),
    TRef.binary (.of main_arg0) main_call0.v5 main_call0.v13 (fun x i => Host.gather gather_S100000x128_S106496x1_S106496x128_1_0_n_n_0_1_1128 x i),
    TRef.unary main_call0.v12 main_call0.v14 (broadcastInDim S106496x128 ![0] bcast_S106496_S106496x128_0),
    TRef.nullary main_call0.cst (constant S_ .f32 0x7FC00000#32),
    TRef.unary main_call0.cst main_call0.v15 (broadcastInDim S106496x128 ![] bcast_S_S106496x128),
    TRef.ternary main_call0.v14 main_call0.v13 main_call0.v15 main_call0.v16 select,
    reshape main_v1 main_v2 rfl shapeCasts_S106496x128_S4096x26x128 ]

set_option maxRecDepth 1024 in
/-- @main is that line: the two functions unfolded at their calls and the records at their fields, both sides are one
    chain of steps once sequencing is reassociated. -/
theorem main_eq (c : Dev nD) : main (F := F) c = seq ops := by
  simp only [main, fn_take.body, fn_where.body, seq, bind_assoc, pure_bind]

/-- The index array as one column of 106496 words. -/
def flatIdx (idx : IVec S4096x26 32) : IVec S106496 32 := shapeCast S106496 idx shapeCasts_S4096x26_S106496

/-- The index column the rows are gathered at: each word, counted from the end of the table when negative. -/
def colOf (idx : IVec S4096x26 32) : IVec S106496x1 32 :=
  broadcastInDim S106496x1 ![0] bcast_S106496_S106496x1_0
    (select (cmpi .slt (flatIdx idx) (broadcastInDim S106496 ![] bcast_S_S106496 (constantI S_ 32 0#32)))
      (addi (flatIdx idx) (broadcastInDim S106496 ![] bcast_S_S106496 (constantI S_ 32 100000#32))) (flatIdx idx))

/-- The mark "0 ≤ index ≤ 99999" of each word of the column, reduced by "and" along the column's unit axis. -/
def markOf (idx : IVec S4096x26 32) : IVec S106496 1 :=
  Host.reduce IntOp.andi
    (andi (cmpi .sge (colOf idx) (broadcastInDim S106496x1 ![] bcast_S_S106496x1 (constantI S_ 32 0#32)))
      (cmpi .sle (colOf idx)
        (broadcastInDim S106496x1 ![0, 1] bcast_S1x1_S106496x1_0_1 (broadcastInDim S1x1 ![1] bcast_S1_S1x1_1 (constantI S1 32 99999#32)))))
    (constantI S_ 1 1#1) reducesTo_S106496x1_S106496_d1 h_S_

/-- The line's value at the result buffer, as a function of the table and the index array: the rows gathered at the
    index column, the fill value where the mark is off, reshaped to 4096 × 26 × 128. -/
def refTerm (tab : FVec F S100000x128 .f32) (idx : IVec S4096x26 32) : FVec F S4096x26x128 .f32 :=
  shapeCast S4096x26x128
    (select (broadcastInDim S106496x128 ![0] bcast_S106496_S106496x128_0 (markOf idx))
      (Host.gather gather_S100000x128_S106496x1_S106496x128_1_0_n_n_0_1_1128 tab (colOf idx))
      (broadcastInDim S106496x128 ![] bcast_S_S106496x128 (constant S_ .f32 0x7FC00000#32)))
    shapeCasts_S106496x128_S4096x26x128

attribute [local irreducible] Host.reduce Host.gather in
set_option maxRecDepth 8192 in
set_option maxHeartbeats 1000000 in
/-- The fold at the result buffer is `refTerm` of the two argument buffers' contents: each operation's result read at
    its own buffer is its function's value, at any other buffer what was there. -/
theorem out_eq (V : Valuation τ sig (Elt F)) :
    after ops V (main_v2 : DevRef τ sig) = refTerm (V (main_arg0 : DevRef τ sig)) (V (main_arg1 : DevRef τ sig)) := by
  after_results_simp
  rfl

/-- No operation writes the table's buffer. -/
theorem arg0_eq (V : Valuation τ sig (Elt F)) :
    after ops V (main_arg0 : DevRef τ sig) = V (main_arg0 : DevRef τ sig) := by
  after_results

/-- No operation writes the index array's buffer. -/
theorem arg1_eq (V : Valuation τ sig (Elt F)) :
    after ops V (main_arg1 : DevRef τ sig) = V (main_arg1 : DevRef τ sig) := by
  after_results

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨reshape_bufs_sub .., nullary_bufs_sub .., unary_bufs_sub .., binary_bufs_sub .., nullary_bufs_sub .., unary_bufs_sub ..,
    binary_bufs_sub .., ternary_bufs_sub .., unary_bufs_sub .., nullary_bufs_sub .., nullary_bufs_sub .., unary_bufs_sub ..,
    binary_bufs_sub .., unary_bufs_sub .., unary_bufs_sub .., binary_bufs_sub .., binary_bufs_sub .., nullary_bufs_sub ..,
    binary_bufs_sub .., binary_bufs_sub .., unary_bufs_sub .., nullary_bufs_sub .., unary_bufs_sub .., ternary_bufs_sub ..,
    reshape_bufs_sub ..⟩

/-- On every device, for any float values, from any memory with zero counters: every weakly fair execution of @main
    terminates with the result buffer at `refTerm` of the arguments' launch contents and the arguments unchanged. -/
theorem run (m : (ℓ : Loc nD τ sig) → Buf (Elt F) ℓ) (ρ : Dev nD → PrngReg) :
    θ_run (Cert.ReferenceIdeal.defs (F := F)) (onTc (τ := Cert.ReferenceIdeal.τ) (Cert.ReferenceIdeal.main (F := F))) ⟨m, fun _ => 0, ρ⟩
      (fun r => ∀ c : Dev Cert.ReferenceIdeal.nD,
        r.2.mem ((c.tc : Thread Cert.ReferenceIdeal.nD Cert.ReferenceIdeal.τ).loc Cert.ReferenceIdeal.main_v2)
            = refTerm (m ((c.tc : Thread Cert.ReferenceIdeal.nD Cert.ReferenceIdeal.τ).loc Cert.ReferenceIdeal.main_arg0))
                (m ((c.tc : Thread Cert.ReferenceIdeal.nD Cert.ReferenceIdeal.τ).loc Cert.ReferenceIdeal.main_arg1))
        ∧ r.2.mem ((c.tc : Thread Cert.ReferenceIdeal.nD Cert.ReferenceIdeal.τ).loc Cert.ReferenceIdeal.main_arg0)
            = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
            = m ((c.tc : Thread Cert.ReferenceIdeal.nD Cert.ReferenceIdeal.τ).loc Cert.ReferenceIdeal.main_arg1)) :=
  (θ_run defs _ _).mono (fun _ h c => ⟨(h c main_v2).trans (out_eq _), (h c main_arg0).trans (arg0_eq _), (h c main_arg1).trans (arg1_eq _)⟩)
    (run_seq scopedRefs_eq scopedSems_eq defs main (fun _ => ops) main_eq (fun _ => ops_sub) m ρ)

/-! ## The value, entry by entry -/

section Value

open Idealize.ShloMosaic.ValueIdx

/-- The gather of table rows at an index column, read at (r, l): the table at column l of the row the column's word at
    (r, 0) names, read signed and clamped into 0 … 99999. (The table's row axis is collapsed and is the one axis the
    start index names; its column axis is the one offset axis, read whole.) -/
theorem gather_rows_apply {α : Type} (x : S100000x128.Idx → α) (col : IVec S106496x1 32) (r : Fin 106496) (l : Fin 128)
    (row : Fin 100000) (hrow : row.val = min (col (ix2 r (0 : Fin 1))).toInt.toNat 99999) :
    Host.gather gather_S100000x128_S106496x1_S106496x128_1_0_n_n_0_1_1128 x col (ix2 r l) = x (ix2 row l) := by
  unfold Host.gather
  congr 1
  funext a
  refine Fin.ext ?_
  match a with
  | ⟨0, _⟩ =>
    show gather_S100000x128_S106496x1_S106496x128_1_0_n_n_0_1_1128.start (ix2 r l) col 0 + gather_S100000x128_S106496x1_S106496x128_1_0_n_n_0_1_1128.batchCoord (ix2 r l) 0 + gather_S100000x128_S106496x1_S106496x128_1_0_n_n_0_1_1128.offCoord (ix2 r l) 0 = row.val
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S100000x128_S106496x1_S106496x128_1_0_n_n_0_1_1128.startIndexMap from List.mem_singleton.mpr rfl)]
    have hsi : gather_S100000x128_S106496x1_S106496x128_1_0_n_n_0_1_1128.siIdx (ix2 r l) ⟨List.idxOf (0 : Fin 2) gather_S100000x128_S106496x1_S106496x128_1_0_n_n_0_1_1128.startIndexMap,
        List.idxOf_lt_length_iff.2 (List.mem_singleton.mpr rfl)⟩ = ix2 r (0 : Fin 1) := by
      funext b; refine Fin.ext ?_
      match b with
      | ⟨0, _⟩ => rfl
      | ⟨1, _⟩ => rfl
    rw [hsi, hrow]
    rfl
  | ⟨1, _⟩ =>
    show gather_S100000x128_S106496x1_S106496x128_1_0_n_n_0_1_1128.start (ix2 r l) col 1 + gather_S100000x128_S106496x1_S106496x128_1_0_n_n_0_1_1128.batchCoord (ix2 r l) 1 + gather_S100000x128_S106496x1_S106496x128_1_0_n_n_0_1_1128.offCoord (ix2 r l) 1 = l.val
    rw [GatherDims.batchCoord_eq_zero _ _ _ List.not_mem_nil]
    unfold GatherDims.start
    rw [dif_neg (show (1 : Fin 2) ∉ gather_S100000x128_S106496x1_S106496x128_1_0_n_n_0_1_1128.startIndexMap from by decide)]
    simp only [Nat.add_zero, Nat.zero_add]
    unfold GatherDims.offCoord
    rw [dif_pos (show (1 : Fin 2) ∈ gather_S100000x128_S106496x1_S106496x128_1_0_n_n_0_1_1128.sKept from by decide)]
    rfl

section InRange
variable (idx : IVec S4096x26 32) (hr : ∀ i, 0 ≤ (idx i).toInt ∧ (idx i).toInt ≤ 99999)
include hr

/-- Every word of the flat column is a word of the index array, so in range. -/
theorem flat_range (k : S106496.Idx) : 0 ≤ (flatIdx idx k).toInt ∧ (flatIdx idx k).toInt ≤ 99999 :=
  hr (Shape.reshapeEquiv shapeCasts_S4096x26_S106496 k)

/-- On in-range words counting from the end changes nothing: the gathered column is the flat column. -/
theorem colOf_apply (i : S106496x1.Idx) : colOf idx i = flatIdx idx (ix1 (i 0)) :=
  (broadcastInDim_apply _ _ _ i (ix1 (i 0)) (fun a => match a with | ⟨0, _⟩ => rfl)).trans
    (Cert.LibFillTake.wrap_of_nonneg (flat_range idx hr _).1)

/-- On in-range words the mark is 1 everywhere. -/
theorem markOf_apply (k : S106496.Idx) : markOf idx k = 1#1 :=
  Cert.LibFillTake.reduce_andi_one _ _ _ _ k
    (fun i => by
      have h := flat_range idx hr (ix1 (i 0))
      rw [← colOf_apply idx hr i] at h
      exact Cert.LibFillTake.mark_of_between (hi := 99999#32) h.1
        (by rw [show (99999#32 : BitVec 32).toInt = 99999 from by decide]; exact h.2))
    (fun _ => rfl)

end InRange

/-- On index words between 0 and 99999 the reference's value is the look-up: entry (b, f, l) is entry l of the table's
    row named by the index word at (b, f). -/
theorem refTerm_eq (tab : FVec F S100000x128 .f32) (idx : IVec S4096x26 32)
    (hr : ∀ i, 0 ≤ (idx i).toInt ∧ (idx i).toInt ≤ 99999) : refTerm tab idx = Cert.Spec.lookup tab idx := by
  funext j
  have hb : (j 0).val < 4096 := (j 0).isLt
  have hf : (j 1).val < 26 := (j 1).isLt
  -- the flat row of (b, f)
  let r : Fin 106496 := ⟨(j 0).val * 26 + (j 1).val, by omega⟩
  let l : Fin 128 := j 2
  -- the word there: the first reshape pairs flat row 26 b + f with (b, f)
  have hw : flatIdx idx (ix1 r) = idx (ix2 (n0 := 4096) (n1 := 26) (j 0) (j 1)) :=
    shapeCast_apply _ _ (ix1 r) (ix2 (n0 := 4096) (n1 := 26) (j 0) (j 1)) (by
      rw [Shape.rowMajor_val_two, Shape.rowMajor_val_one]; rfl)
  have hrange := hr (ix2 (n0 := 4096) (n1 := 26) (j 0) (j 1))
  have hlt := Cert.Spec.toNat_lt_of_range hrange.1 hrange.2
  -- the last reshape: entry (b, f, l) is entry (26 b + f, l)
  refine (shapeCast_apply _ _ j (ix2 r l) (by rw [Shape.rowMajor_val_two, Shape.rowMajor_val_three]; rfl)).trans ?_
  -- the select, on a mark that is 1
  show Scalar.select (broadcastInDim S106496x128 ![0] bcast_S106496_S106496x128_0 (markOf idx) (ix2 r l))
      (Host.gather gather_S100000x128_S106496x1_S106496x128_1_0_n_n_0_1_1128 tab (colOf idx) (ix2 r l)) _ = _
  rw [broadcastInDim_apply _ _ _ (ix2 r l) (ix1 r) (fun a => match a with | ⟨0, _⟩ => rfl), markOf_apply idx hr, select_one]
  -- the gather at the clamped word, which names the row of the specification
  refine gather_rows_apply tab (colOf idx) r l (Cert.Spec.rowOf (idx (ix2 (n0 := 4096) (n1 := 26) (j 0) (j 1)))) ?_
  have hc : colOf idx (ix2 r (0 : Fin 1)) = idx (ix2 (n0 := 4096) (n1 := 26) (j 0) (j 1)) :=
    (colOf_apply idx hr (ix2 r (0 : Fin 1))).trans hw
  rw [hc, Cert.Spec.rowOf_val_of_lt hlt]
  -- a word that is not negative is its own value as a natural number, and that is below 100000
  have h0 := hrange.1
  rw [BitVec.toInt_eq_toNat_cond] at h0 ⊢
  split at h0 <;> omega

end Value

end Cert.ReferenceIdeal.RefRun

end
-- ==== Proof.PreRange.lean ====
/-
  What the precondition says of the index words: its integer conjunct, read back at one index.

  The precondition is the conjunction of two "all" reductions; the second reduces, by "and", the array whose entry at an
  index is "0 ≤ word and word ≤ 99999" (two signed comparisons against broadcast constants). From the reduction being 1
  every entry is 1, and an entry being 1 is the two inequalities.
-/
import proofs.«206476_g69466801045872_cont_9to1_m_773_29_alg».proof.Pre_input_domain
import Idealize.ShloMosaic.Lib.ReduceAll
import Idealize.ShloMosaic.Lib.ValueIdx

namespace Cert.PreRange

open Idealize.ShloMosaic

/-- The rank-0 shape has one index. -/
instance : Subsingleton Cert.Pre_input_domain.S_.Idx := ⟨fun a b => funext fun d => d.elim0⟩

/-- Under the precondition every index word lies between 0 and 99999, signed. -/
theorem range_of_pre {F : FTy → Type} [FloatOps F] [Cert.Pre_input_domain.Facts]
    (tab : FVec F Cert.Pre_input_domain.S100000x128 .f32) (idx : IVec Cert.Pre_input_domain.S4096x26 32)
    (h : Cert.Pre_input_domain.fn (F := F) tab idx = fun _ => 1#1) :
    ∀ i, 0 ≤ (idx i).toInt ∧ (idx i).toInt ≤ 99999 := by
  intro i
  have h0 := congrFun h ValueIdx.ix0
  dsimp only [Cert.Pre_input_domain.fn] at h0
  -- the outer "and" of the two reductions
  have h9 := (IntOp.andi_eq_one.1 h0).2
  -- the second reduction is 1, so its operand is 1 at i
  have hi := Host.reduce_andi_all _ _ _ _ _ h9 i
  -- the operand at i is the "and" of the two comparisons
  obtain ⟨hge, hle⟩ := IntOp.andi_eq_one.1 hi
  -- a broadcast constant is the constant at every index
  have hge' : (0#32 : BitVec 32).toInt ≤ (idx i).toInt := IntOp.cmpi_sge.1 hge
  have hle' : (idx i).toInt ≤ (99999#32 : BitVec 32).toInt := IntOp.cmpi_sle.1 hle
  rw [show (0#32 : BitVec 32).toInt = 0 from by decide] at hge'
  rw [show (99999#32 : BitVec 32).toInt = 99999 from by decide] at hle'
  exact ⟨hge', hle'⟩

end Cert.PreRange
-- ==== Proof.lean ====
/-
  An embedding look-up on the SparseCores against jnp.take.

  The kernel transposes the index array to [26, 4096], lets each of the 32 vector subcores gather, chunk by chunk, the
  table rows its 128-column block of index words names, writes them to a flat [106496, 128] result (row 4096 f + b is
  the table's row named by the index word at (b, f)), and re-lays that to [4096, 26, 128]. The reference flattens the
  indices, takes the rows (counting a negative index from the end and filling out-of-range rows, neither of which
  happens for index words between 0 and 99999) and reshapes. Both results are one function of the two arguments,
  `Cert.Spec.lookup`: entry (b, f, ·) is the table's row named by the index word at (b, f). The look-up moves numbers
  and computes nothing, so the two programs agree at every float instance; the precondition is used only for the index
  range (a word outside the table names no row, and the copy that reads it would never complete).
-/
import proofs.«206476_g69466801045872_cont_9to1_m_773_29_alg».proof.Defs
import proofs.«206476_g69466801045872_cont_9to1_m_773_29_alg».proof.Proof.Gen.Kernel
import proofs.«206476_g69466801045872_cont_9to1_m_773_29_alg».proof.Proof.Gen.KernelIdeal
import proofs.«206476_g69466801045872_cont_9to1_m_773_29_alg».proof.Proof.Gen.ReferenceIdeal
import proofs.«206476_g69466801045872_cont_9to1_m_773_29_alg».proof.Proof.Gen.Pre_input_domain
import proofs.«206476_g69466801045872_cont_9to1_m_773_29_alg».proof.Proof.KernelLaunch
import proofs.«206476_g69466801045872_cont_9to1_m_773_29_alg».proof.Proof.KernelBody3
import proofs.«206476_g69466801045872_cont_9to1_m_773_29_alg».proof.Proof.KernelIdealLaunch
import proofs.«206476_g69466801045872_cont_9to1_m_773_29_alg».proof.Proof.KernelIdealBody3
import proofs.«206476_g69466801045872_cont_9to1_m_773_29_alg».proof.Proof.RefRun
import proofs.«206476_g69466801045872_cont_9to1_m_773_29_alg».proof.Proof.PreRange
import Idealize.ShloMosaic.Adequacy
import Idealize.ShloMosaic.Init

noncomputable section

namespace Cert.Proof

open Idealize.ShloMosaic Idealize.SL.Sem

/-- The word-level kernel runs to the end and leaves its arguments as they were. -/
theorem frame_k : Cert.frame_Kernel := fun m ρ hpre =>
  (θ_run Cert.Kernel.defs _ _).mono (fun _ h c => ⟨(h c).2.1, (h c).2.2⟩)
    (Cert.Proof.KernelRun.run_main (F := Bits) m ρ
      (Cert.Proof.KernelRun.tileObl m Cert.Proof.KernelRun.facts
        (Cert.Proof.KernelRun.preOK_of_range m fun d i => Cert.PreRange.range_of_pre _ _ (hpre d) i)))

/-- So does the kernel read over the extended reals. -/
theorem frame_ki : Cert.frame_KernelIdeal := fun m ρ hpre =>
  (θ_run Cert.KernelIdeal.defs _ _).mono (fun _ h c => ⟨(h c).2.1, (h c).2.2⟩)
    (Cert.Proof.KernelIdealRun.run_main (F := Ideal) m ρ
      (Cert.Proof.KernelIdealRun.tileObl m Cert.Proof.KernelIdealRun.facts
        (Cert.Proof.KernelIdealRun.preOK_of_range m fun d i => Cert.PreRange.range_of_pre _ _ (hpre d) i)))

/-- The reference runs to the end on every input. -/
theorem frame_ri : Cert.frame_ReferenceIdeal := fun m ρ _ =>
  (θ_run Cert.ReferenceIdeal.defs _ _).mono (fun _ h c => ⟨(h c).2.1, (h c).2.2⟩)
    (Cert.ReferenceIdeal.RefRun.run (F := Ideal) m ρ)

/-- Both results are the look-up of the table at the index array. -/
theorem algebraic : Cert.algebraic_KernelIdeal_ReferenceIdeal := by
  intro m ρ m' ρ' hpre hagree
  have hr : ∀ (d : Dev Cert.KernelIdeal.nD) i,
      0 ≤ (m (Cert.Proof.KernelIdealRun.aLoc d) i : BitVec 32).toInt ∧ (m (Cert.Proof.KernelIdealRun.aLoc d) i : BitVec 32).toInt ≤ 99999 :=
    fun d i => Cert.PreRange.range_of_pre _ _ (hpre d) i
  refine ⟨fun c => Cert.Proof.KernelIdealRun.OUT m c,
    (θ_run Cert.KernelIdeal.defs _ _).mono (fun _ h c => h c)
      (Cert.Proof.KernelIdealRun.run_main (F := Ideal) m ρ
        (Cert.Proof.KernelIdealRun.tileObl m Cert.Proof.KernelIdealRun.facts (Cert.Proof.KernelIdealRun.preOK_of_range m hr))), ?_⟩
  refine (θ_run Cert.ReferenceIdeal.defs _ _).mono (fun _ h c => ⟨?_, (h c).2.1, (h c).2.2⟩)
    (Cert.ReferenceIdeal.RefRun.run (F := Ideal) m' ρ')
  rw [(h c).1, (hagree c).1, (hagree c).2, Cert.ReferenceIdeal.RefRun.refTerm_eq _ _ (hr c)]
  exact (Cert.Proof.KernelIdealRun.OUT_eq m c).symm

theorem claim : Cert.Claim :=
  ⟨Cert.Kernel.Gen.facts, Cert.KernelIdeal.Gen.facts, Cert.ReferenceIdeal.Gen.facts, Cert.Pre_input_domain.Gen.facts,
    frame_k, frame_ki, frame_ri, trivial, algebraic⟩

end Cert.Proof

end
